-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x68x224x224 : Shape := ⟨4, ![16, 68, 224, 224]⟩
abbrev S16x68x2 : Shape := ⟨3, ![16, 68, 2]⟩
abbrev S128x128 : Shape := ⟨2, ![128, 128]⟩
abbrev S_ : Shape := ⟨0, ![]⟩

class Facts : Prop where
  bcast_S_S16x68x224x224 : S_.BroadcastsInDim S16x68x224x224 (![] : Fin 0 → Fin S16x68x224x224.rank)
  reducesTo_S16x68x224x224_S_d0_1_2_3 : S16x68x224x224.ReducesTo [0, 1, 2, 3] S_
  h_S_ : 0 < S_.numel
  bcast_S_S16x68x2 : S_.BroadcastsInDim S16x68x2 (![] : Fin 0 → Fin S16x68x2.rank)
  reducesTo_S16x68x2_S_d0_1_2 : S16x68x2.ReducesTo [0, 1, 2] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v1 : IVec S16x68x2 32) (main_v15 : IVec S_ 1) (main_v16 : IVec S16x68x2 32) : IVec S_ 1 :=
  let main_v17 : IVec S16x68x2 1 := cmpi .sge main_v1 main_v16
  let main_c_5 : IVec S_ 1 := constantI S_ 1 1#1
  let main_v18 : IVec S_ 1 := (fun x v => Host.reduce IntOp.andi x v reducesTo_S16x68x2_S_d0_1_2 h_S_) main_v17 main_c_5
  let main_v19 : IVec S_ 1 := andi main_v15 main_v18
  let main_c_6 : IVec S_ 32 := constantI S_ 32 223#32
  let main_v20 : IVec S16x68x2 32 := broadcastInDim S16x68x2 ![] bcast_S_S16x68x2 main_c_6
  let main_v21 : IVec S16x68x2 1 := cmpi .sle main_v1 main_v20
  let main_c_7 : IVec S_ 1 := constantI S_ 1 1#1
  let main_v22 : IVec S_ 1 := (fun x v => Host.reduce IntOp.andi x v reducesTo_S16x68x2_S_d0_1_2 h_S_) main_v21 main_c_7
  let main_v23 : IVec S_ 1 := andi main_v19 main_v22
  main_v23

def fn {F : FTy → Type} [FloatOps F] (main_arg0 : FVec F S16x68x224x224 .f32) (main_arg1 : FVec F S16x68x2 .f32) (main_arg2 : FVec F S128x128 .f32) : IVec S_ 1 :=
  let main_v0 : FVec F S16x68x2 .f32 := Host.roundeven main_arg1
  let main_v1 : IVec S16x68x2 32 := fptosi 32 main_v0
  let main_v2 : FVec F S16x68x224x224 .f32 := Host.absf main_arg0
  let main_cst : FVec F S_ .f32 := constant S_ .f32 0x7F800000#32
  let main_v3 : FVec F S16x68x224x224 .f32 := broadcastInDim S16x68x224x224 ![] bcast_S_S16x68x224x224 main_cst
  let main_v4 : IVec S16x68x224x224 1 := cmpf .olt main_v2 main_v3
  let main_c : IVec S_ 1 := constantI S_ 1 1#1
  let main_v5 : IVec S_ 1 := (fun x v => Host.reduce IntOp.andi x v reducesTo_S16x68x224x224_S_d0_1_2_3 h_S_) main_v4 main_c
  let main_v6 : FVec F S16x68x2 .f32 := Host.absf main_arg1
  let main_cst_0 : FVec F S_ .f32 := constant S_ .f32 0x7F800000#32
  let main_v7 : FVec F S16x68x2 .f32 := broadcastInDim S16x68x2 ![] bcast_S_S16x68x2 main_cst_0
  let main_v8 : IVec S16x68x2 1 := cmpf .olt main_v6 main_v7
  let main_c_1 : IVec S_ 1 := constantI S_ 1 1#1
  let main_v9 : IVec S_ 1 := (fun x v => Host.reduce IntOp.andi x v reducesTo_S16x68x2_S_d0_1_2 h_S_) main_v8 main_c_1
  let main_v10 : IVec S_ 1 := andi main_v5 main_v9
  let main_v11 : FVec F S128x128 .f32 := Host.absf main_arg2
  let main_cst_2 : FVec F S_ .f32 := constant S_ .f32 0x7F800000#32
  let main_v12 : FVec F S128x128 .f32 := broadcastInDim S128x128 ![] bcast_S_S128x128 main_cst_2
  let main_v13 : IVec S128x128 1 := cmpf .olt main_v11 main_v12
  let main_c_3 : IVec S_ 1 := constantI S_ 1 1#1
  let main_v14 : IVec S_ 1 := (fun x v => Host.reduce IntOp.andi x v reducesTo_S128x128_S_d0_1 h_S_) main_v13 main_c_3
  let main_v15 : IVec S_ 1 := andi main_v10 main_v14
  let main_c_4 : IVec S_ 32 := constantI S_ 32 0#32
  let main_v16 : IVec S16x68x2 32 := broadcastInDim S16x68x2 ![] bcast_S_S16x68x2 main_c_4
  fn_part1 (F := F) main_v1 main_v15 main_v16
-- ==== Kernel.lean ====
abbrev S16x68x224x224 : Shape := ⟨4, ![16, 68, 224, 224]⟩
abbrev S16x68x2 : Shape := ⟨3, ![16, 68, 2]⟩
abbrev S128x128 : Shape := ⟨2, ![128, 128]⟩
abbrev S1088x2 : Shape := ⟨2, ![1088, 2]⟩
abbrev S1088x1 : Shape := ⟨2, ![1088, 1]⟩
abbrev S1088 : Shape := ⟨1, ![1088]⟩
abbrev S2x544x224x224 : Shape := ⟨4, ![2, 544, 224, 224]⟩
abbrev S_ : Shape := ⟨0, ![]⟩
abbrev S480x512 : Shape := ⟨2, ![480, 512]⟩
abbrev S2x224x224 : Shape := ⟨3, ![2, 224, 224]⟩
abbrev S1x32x224x224 : Shape := ⟨4, ![1, 32, 224, 224]⟩
abbrev S1x224x224 : Shape := ⟨3, ![1, 224, 224]⟩
abbrev S224x224 : Shape := ⟨2, ![224, 224]⟩
abbrev S1 : Shape := ⟨1, ![1]⟩
abbrev S1x1x224x224 : Shape := ⟨4, ![1, 1, 224, 224]⟩

abbrev nBuf : Space → Nat
  | .hbm => 17
  | .vmem => 6
  | .smem => 2
  | _ => 0

abbrev bufTy : (tb : Table) → Fin (tcTables nBuf tb) → BufTy
  | .hbm, ⟨0, _⟩ => ⟨S16x68x224x224, .f32⟩
  | .hbm, ⟨1, _⟩ => ⟨S16x68x2, .f32⟩
  | .hbm, ⟨2, _⟩ => ⟨S128x128, .f32⟩
  | .hbm, ⟨3, _⟩ => ⟨S16x68x2, .f32⟩
  | .hbm, ⟨4, _⟩ => ⟨S16x68x2, .i32⟩
  | .hbm, ⟨5, _⟩ => ⟨S1088x2, .i32⟩
  | .hbm, ⟨6, _⟩ => ⟨S1088x1, .i32⟩
  | .hbm, ⟨7, _⟩ => ⟨S1088x1, .i32⟩
  | .hbm, ⟨8, _⟩ => ⟨S2x544x224x224, .f32⟩
  | .hbm, ⟨9, _⟩ => ⟨S_, .i32⟩
  | .hbm, ⟨10, _⟩ => ⟨S_, .f32⟩
  | .hbm, ⟨11, _⟩ => ⟨S480x512, .f32⟩
  | .hbm, ⟨12, _⟩ => ⟨S2x224x224, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S480x512, .f32⟩
  | .local _ .vmem, ⟨1, _⟩ => ⟨S1x32x224x224, .f32⟩
  | .local _ .vmem, ⟨2, _⟩ => ⟨S1x32x224x224, .f32⟩
  | .local _ .vmem, ⟨3, _⟩ => ⟨S1x224x224, .f32⟩
  | .local _ .vmem, ⟨4, _⟩ => ⟨S1x224x224, .f32⟩
  | .local _ .vmem, ⟨5, _⟩ => ⟨S224x224, .f32⟩
  | .local _ .smem, ⟨0, _⟩ => ⟨S1088, .i32⟩
  | .local _ .smem, ⟨1, _⟩ => ⟨S1088, .i32⟩
  | _, _ => ⟨S16x68x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v5 : Ref sig .tc := ⟨.hbm, 7, rfl⟩
abbrev main_v7 : Ref sig .tc := ⟨.hbm, 8, rfl⟩
abbrev main_c : Ref sig .tc := ⟨.hbm, 9, rfl⟩
abbrev main_call1_v0 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v6 : Ref sig .tc := ⟨.smem, 0, rfl⟩
abbrev main_v4 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 17], ![false, false]⟩

abbrev pre0 : Pipeline.Prefetch sig := ⟨2, ![main_v6.idx, main_v4.idx], fun | 0 => main_v6.names | 1 => main_v4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c544_i32 : BitVec 32 := 544#32
  let v3 : BitVec 32 := Scalar.muli arg0 c544_i32
  let arg1 : BitVec 32 := BitVec.ofNat 32 (i 1).val
  let c32_i32 : BitVec 32 := 32#32
  let v4 : BitVec 32 := Scalar.muli arg1 c32_i32
  let v5 : BitVec 32 := Scalar.addi v3 v4
  let c0_i32_1 : BitVec 32 := 0#32
  let v6 : BitVec 32 := Scalar.addi v5 c0_i32_1
  let v7 : Index := Scalar.indexCast v6
  ![v7.toNat]
def k0_off2 (v8 : BitVec 32) (v10 : BitVec 32) : Fin 2 → Nat :=
  let c256_i32 : BitVec 32 := 256#32
  let v11 : BitVec 32 := Scalar.subi c256_i32 v8
  let v13 : Index := Scalar.indexCast v11
  let c256_i32_2 : BitVec 32 := 256#32
  let v12 : BitVec 32 := Scalar.subi c256_i32_2 v10
  let v14 : Index := Scalar.indexCast v12
  ![v13.toNat, v14.toNat]

def k0_chk1 (v8 : BitVec 32) (v10 : BitVec 32) : Prop :=
  (∀ a, (k0_off2 v8 v10) a + S224x224.size a ≤ S480x512.size a)
instance k0_chk1.dec : ∀ (v8 : BitVec 32) (v10 : BitVec 32), Decidable (k0_chk1 v8 v10) := fun v8 v10 => decidable_of_iff' _ (Iff.of_eq (k0_chk1.eq_1 v8 v10))
theorem k0_off2_inb : ∀ (v8 : BitVec 32) (v10 : BitVec 32) (k0_hw1 : k0_chk1 v8 v10), ∀ a, (k0_off2 v8 v10) a + S224x224.size a ≤ S480x512.size a := fun v8 v10 k0_hw1 => k0_hw1

def k0_off3 (i : grid0.Coords) : Fin 1 → Nat :=
  let arg0 : BitVec 32 := BitVec.ofNat 32 (i 0).val
  let c544_i32_9 : BitVec 32 := 544#32
  let v27 : BitVec 32 := Scalar.muli arg0 c544_i32_9
  let arg1 : BitVec 32 := BitVec.ofNat 32 (i 1).val
  let c32_i32_10 : BitVec 32 := 32#32
  let v28 : BitVec 32 := Scalar.muli arg1 c32_i32_10
  let v29 : BitVec 32 := Scalar.addi v27 v28
  let c1_i32 : BitVec 32 := 1#32
  let v30 : BitVec 32 := Scalar.addi v29 c1_i32
  let v31 : Index := Scalar.indexCast v30
  ![v31.toNat]
def k0_off4 (v32 : BitVec 32) (v34 : BitVec 32) : Fin 2 → Nat :=
  let c256_i32_11 : BitVec 32 := 256#32
  let v35 : BitVec 32 := Scalar.subi c256_i32_11 v32
  let v37 : Index := Scalar.indexCast v35
  let c256_i32_12 : BitVec 32 := 256#32
  let v36 : BitVec 32 := Scalar.subi c256_i32_12 v34
  let v38 : Index := Scalar.indexCast v36
  ![v37.toNat, v38.toNat]

def k0_chk2 (v32 : BitVec 32) (v34 : BitVec 32) : Prop :=
  (∀ a, (k0_off4 v32 v34) a + S224x224.size a ≤ S480x512.size a)
instance k0_chk2.dec : ∀ (v32 : BitVec 32) (v34 : BitVec 32), Decidable (k0_chk2 v32 v34) := fun v32 v34 => decidable_of_iff' _ (Iff.of_eq (k0_chk2.eq_1 v32 v34))
theorem k0_off4_inb : ∀ (v32 : BitVec 32) (v34 : BitVec 32) (k0_hw2 : k0_chk2 v32 v34), ∀ a, (k0_off4 v32 v34) a + S224x224.size a ≤ S480x512.size a := fun v32 v34 k0_hw2 => k0_hw2

def k0_off5 (i : grid0.Coords) : Fin 1 → Nat :=
  let arg0 : BitVec 32 := BitVec.ofNat 32 (i 0).val
  let c544_i32_20 : BitVec 32 := 544#32
  let v51 : BitVec 32 := Scalar.muli arg0 c544_i32_20
  let arg1 : BitVec 32 := BitVec.ofNat 32 (i 1).val
  let c32_i32_21 : BitVec 32 := 32#32
  let v52 : BitVec 32 := Scalar.muli arg1 c32_i32_21
  let v53 : BitVec 32 := Scalar.addi v51 v52
  let c2_i32 : BitVec 32 := 2#32
  let v54 : BitVec 32 := Scalar.addi v53 c2_i32
  let v55 : Index := Scalar.indexCast v54
  ![v55.toNat]
def k0_off6 (v56 : BitVec 32) (v58 : BitVec 32) : Fin 2 → Nat :=
  let c256_i32_22 : BitVec 32 := 256#32
  let v59 : BitVec 32 := Scalar.subi c256_i32_22 v56
  let v61 : Index := Scalar.indexCast v59
  let c256_i32_23 : BitVec 32 := 256#32
  let v60 : BitVec 32 := Scalar.subi c256_i32_23 v58
  let v62 : Index := Scalar.indexCast v60
  ![v61.toNat, v62.toNat]

def k0_chk3 (v56 : BitVec 32) (v58 : BitVec 32) : Prop :=
  (∀ a, (k0_off6 v56 v58) a + S224x224.size a ≤ S480x512.size a)
instance k0_chk3.dec : ∀ (v56 : BitVec 32) (v58 : BitVec 32), Decidable (k0_chk3 v56 v58) := fun v56 v58 => decidable_of_iff' _ (Iff.of_eq (k0_chk3.eq_1 v56 v58))
theorem k0_off6_inb : ∀ (v56 : BitVec 32) (v58 : BitVec 32) (k0_hw3 : k0_chk3 v56 v58), ∀ a, (k0_off6 v56 v58) a + S224x224.size a ≤ S480x512.size a := fun v56 v58 k0_hw3 => k0_hw3

def k0_off7 (i : grid0.Coords) : Fin 1 → Nat :=
  let arg0 : BitVec 32 := BitVec.ofNat 32 (i 0).val
  let c544_i32_31 : BitVec 32 := 544#32
  let v75 : BitVec 32 := Scalar.muli arg0 c544_i32_31
  let arg1 : BitVec 32 := BitVec.ofNat 32 (i 1).val
  let c32_i32_32 : BitVec 32 := 32#32
  let v76 : BitVec 32 := Scalar.muli arg1 c32_i32_32
  let v77 : BitVec 32 := Scalar.addi v75 v76
  let c3_i32 : BitVec 32 := 3#32
  let v78 : BitVec 32 := Scalar.addi v77 c3_i32
  let v79 : Index := Scalar.indexCast v78
  ![v79.toNat]
def k0_off8 (v80 : BitVec 32) (v82 : BitVec 32) : Fin 2 → Nat :=
  let c256_i32_33 : BitVec 32 := 256#32
  let v83 : BitVec 32 := Scalar.subi c256_i32_33 v80
  let v85 : Index := Scalar.indexCast v83
  let c256_i32_34 : BitVec 32 := 256#32
  let v84 : BitVec 32 := Scalar.subi c256_i32_34 v82
  let v86 : Index := Scalar.indexCast v84
  ![v85.toNat, v86.toNat]

def k0_chk4 (v80 : BitVec 32) (v82 : BitVec 32) : Prop :=
  (∀ a, (k0_off8 v80 v82) a + S224x224.size a ≤ S480x512.size a)
instance k0_chk4.dec : ∀ (v80 : BitVec 32) (v82 : BitVec 32), Decidable (k0_chk4 v80 v82) := fun v80 v82 => decidable_of_iff' _ (Iff.of_eq (k0_chk4.eq_1 v80 v82))
theorem k0_off8_inb : ∀ (v80 : BitVec 32) (v82 : BitVec 32) (k0_hw4 : k0_chk4 v80 v82), ∀ a, (k0_off8 v80 v82) a + S224x224.size a ≤ S480x512.size a := fun v80 v82 k0_hw4 => k0_hw4

def k0_off9 (i : grid0.Coords) : Fin 1 → Nat :=
  let arg0 : BitVec 32 := BitVec.ofNat 32 (i 0).val
  let c544_i32_42 : BitVec 32 := 544#32
  let v99 : BitVec 32 := Scalar.muli arg0 c544_i32_42
  let arg1 : BitVec 32 := BitVec.ofNat 32 (i 1).val
  let c32_i32_43 : BitVec 32 := 32#32
  let v100 : BitVec 32 := Scalar.muli arg1 c32_i32_43
  let v101 : BitVec 32 := Scalar.addi v99 v100
  let c4_i32 : BitVec 32 := 4#32
  let v102 : BitVec 32 := Scalar.addi v101 c4_i32
  let v103 : Index := Scalar.indexCast v102
  ![v103.toNat]
def k0_off10 (v104 : BitVec 32) (v106 : BitVec 32) : Fin 2 → Nat :=
  let c256_i32_44 : BitVec 32 := 256#32
  let v107 : BitVec 32 := Scalar.subi c256_i32_44 v104
  let v109 : Index := Scalar.indexCast v107
  let c256_i32_45 : BitVec 32 := 256#32
  let v108 : BitVec 32 := Scalar.subi c256_i32_45 v106
  let v110 : Index := Scalar.indexCast v108
  ![v109.toNat, v110.toNat]

def k0_chk5 (v104 : BitVec 32) (v106 : BitVec 32) : Prop :=
  (∀ a, (k0_off10 v104 v106) a + S224x224.size a ≤ S480x512.size a)
instance k0_chk5.dec : ∀ (v104 : BitVec 32) (v106 : BitVec 32), Decidable (k0_chk5 v104 v106) := fun v104 v106 => decidable_of_iff' _ (Iff.of_eq (k0_chk5.eq_1 v104 v106))
theorem k0_off10_inb : ∀ (v104 : BitVec 32) (v106 : BitVec 32) (k0_hw5 : k0_chk5 v104 v106), ∀ a, (k0_off10 v104 v106) a + S224x224.size a ≤ S480x512.size a := fun v104 v106 k0_hw5 => k0_hw5

def k0_off11 (i : grid0.Coords) : Fin 1 → Nat :=
  let arg0 : BitVec 32 := BitVec.ofNat 32 (i 0).val
  let c544_i32_53 : BitVec 32 := 544#32
  let v123 : BitVec 32 := Scalar.muli arg0 c544_i32_53
  let arg1 : BitVec 32 := BitVec.ofNat 32 (i 1).val
  let c32_i32_54 : BitVec 32 := 32#32
  let v124 : BitVec 32 := Scalar.muli arg1 c32_i32_54
  let v125 : BitVec 32 := Scalar.addi v123 v124
  let c5_i32 : BitVec 32 := 5#32
  let v126 : BitVec 32 := Scalar.addi v125 c5_i32
  let v127 : Index := Scalar.indexCast v126
  ![v127.toNat]
def k0_off12 (v128 : BitVec 32) (v130 : BitVec 32) : Fin 2 → Nat :=
  let c256_i32_55 : BitVec 32 := 256#32
  let v131 : BitVec 32 := Scalar.subi c256_i32_55 v128
  let v133 : Index := Scalar.indexCast v131
  let c256_i32_56 : BitVec 32 := 256#32
  let v132 : BitVec 32 := Scalar.subi c256_i32_56 v130
  let v134 : Index := Scalar.indexCast v132
  ![v133.toNat, v134.toNat]

def k0_chk6 (v128 : BitVec 32) (v130 : BitVec 32) : Prop :=
  (∀ a, (k0_off12 v128 v130) a + S224x224.size a ≤ S480x512.size a)
instance k0_chk6.dec : ∀ (v128 : BitVec 32) (v130 : BitVec 32), Decidable (k0_chk6 v128 v130) := fun v128 v130 => decidable_of_iff' _ (Iff.of_eq (k0_chk6.eq_1 v128 v130))
theorem k0_off12_inb : ∀ (v128 : BitVec 32) (v130 : BitVec 32) (k0_hw6 : k0_chk6 v128 v130), ∀ a, (k0_off12 v128 v130) a + S224x224.size a ≤ S480x512.size a := fun v128 v130 k0_hw6 => k0_hw6

def k0_off13 (i : grid0.Coords) : Fin 1 → Nat :=
  let arg0 : BitVec 32 := BitVec.ofNat 32 (i 0).val
  let c544_i32_64 : BitVec 32 := 544#32
  let v147 : BitVec 32 := Scalar.muli arg0 c544_i32_64
  let arg1 : BitVec 32 := BitVec.ofNat 32 (i 1).val
  let c32_i32_65 : BitVec 32 := 32#32
  let v148 : BitVec 32 := Scalar.muli arg1 c32_i32_65
  let v149 : BitVec 32 := Scalar.addi v147 v148
  let c6_i32 : BitVec 32 := 6#32
  let v150 : BitVec 32 := Scalar.addi v149 c6_i32
  let v151 : Index := Scalar.indexCast v150
  ![v151.toNat]
def k0_off14 (v152 : BitVec 32) (v154 : BitVec 32) : Fin 2 → Nat :=
  let c256_i32_66 : BitVec 32 := 256#32
  let v155 : BitVec 32 := Scalar.subi c256_i32_66 v152
  let v157 : Index := Scalar.indexCast v155
  let c256_i32_67 : BitVec 32 := 256#32
  let v156 : BitVec 32 := Scalar.subi c256_i32_67 v154
  let v158 : Index := Scalar.indexCast v156
  ![v157.toNat, v158.toNat]

def k0_chk7 (v152 : BitVec 32) (v154 : BitVec 32) : Prop :=
  (∀ a, (k0_off14 v152 v154) a + S224x224.size a ≤ S480x512.size a)
instance k0_chk7.dec : ∀ (v152 : BitVec 32) (v154 : BitVec 32), Decidable (k0_chk7 v152 v154) := fun v152 v154 => decidable_of_iff' _ (Iff.of_eq (k0_chk7.eq_1 v152 v154))
theorem k0_off14_inb : ∀ (v152 : BitVec 32) (v154 : BitVec 32) (k0_hw7 : k0_chk7 v152 v154), ∀ a, (k0_off14 v152 v154) a + S224x224.size a ≤ S480x512.size a := fun v152 v154 k0_hw7 => k0_hw7

def k0_off15 (i : grid0.Coords) : Fin 1 → Nat :=
  let arg0 : BitVec 32 := BitVec.ofNat 32 (i 0).val
  let c544_i32_75 : BitVec 32 := 544#32
  let v171 : BitVec 32 := Scalar.muli arg0 c544_i32_75
  let arg1 : BitVec 32 := BitVec.ofNat 32 (i 1).val
  let c32_i32_76 : BitVec 32 := 32#32
  let v172 : BitVec 32 := Scalar.muli arg1 c32_i32_76
  let v173 : BitVec 32 := Scalar.addi v171 v172
  let c7_i32 : BitVec 32 := 7#32
  let v174 : BitVec 32 := Scalar.addi v173 c7_i32
  let v175 : Index := Scalar.indexCast v174
  ![v175.toNat]
def k0_off16 (v176 : BitVec 32) (v178 : BitVec 32) : Fin 2 → Nat :=
  let c256_i32_77 : BitVec 32 := 256#32
  let v179 : BitVec 32 := Scalar.subi c256_i32_77 v176
  let v181 : Index := Scalar.indexCast v179
  let c256_i32_78 : BitVec 32 := 256#32
  let v180 : BitVec 32 := Scalar.subi c256_i32_78 v178
  let v182 : Index := Scalar.indexCast v180
  ![v181.toNat, v182.toNat]

def k0_chk8 (v176 : BitVec 32) (v178 : BitVec 32) : Prop :=
  (∀ a, (k0_off16 v176 v178) a + S224x224.size a ≤ S480x512.size a)
instance k0_chk8.dec : ∀ (v176 : BitVec 32) (v178 : BitVec 32), Decidable (k0_chk8 v176 v178) := fun v176 v178 => decidable_of_iff' _ (Iff.of_eq (k0_chk8.eq_1 v176 v178))
theorem k0_off16_inb : ∀ (v176 : BitVec 32) (v178 : BitVec 32) (k0_hw8 : k0_chk8 v176 v178), ∀ a, (k0_off16 v176 v178) a + S224x224.size a ≤ S480x512.size a := fun v176 v178 k0_hw8 => k0_hw8

def k0_off17 (i : grid0.Coords) : Fin 1 → Nat :=
  let arg0 : BitVec 32 := BitVec.ofNat 32 (i 0).val
  let c544_i32_86 : BitVec 32 := 544#32
  let v195 : BitVec 32 := Scalar.muli arg0 c544_i32_86
  let arg1 : BitVec 32 := BitVec.ofNat 32 (i 1).val
  let c32_i32_87 : BitVec 32 := 32#32
  let v196 : BitVec 32 := Scalar.muli arg1 c32_i32_87
  let v197 : BitVec 32 := Scalar.addi v195 v196
  let c8_i32 : BitVec 32 := 8#32
  let v198 : BitVec 32 := Scalar.addi v197 c8_i32
  let v199 : Index := Scalar.indexCast v198
  ![v199.toNat]
def k0_off18 (v200 : BitVec 32) (v202 : BitVec 32) : Fin 2 → Nat :=
  let c256_i32_88 : BitVec 32 := 256#32
  let v203 : BitVec 32 := Scalar.subi c256_i32_88 v200
  let v205 : Index := Scalar.indexCast v203
  let c256_i32_89 : BitVec 32 := 256#32
  let v204 : BitVec 32 := Scalar.subi c256_i32_89 v202
  let v206 : Index := Scalar.indexCast v204
  ![v205.toNat, v206.toNat]

def k0_chk9 (v200 : BitVec 32) (v202 : BitVec 32) : Prop :=
  (∀ a, (k0_off18 v200 v202) a + S224x224.size a ≤ S480x512.size a)
instance k0_chk9.dec : ∀ (v200 : BitVec 32) (v202 : BitVec 32), Decidable (k0_chk9 v200 v202) := fun v200 v202 => decidable_of_iff' _ (Iff.of_eq (k0_chk9.eq_1 v200 v202))
theorem k0_off18_inb : ∀ (v200 : BitVec 32) (v202 : BitVec 32) (k0_hw9 : k0_chk9 v200 v202), ∀ a, (k0_off18 v200 v202) a + S224x224.size a ≤ S480x512.size a := fun v200 v202 k0_hw9 => k0_hw9

def k0_off19 (i : grid0.Coords) : Fin 1 → Nat :=
  let arg0 : BitVec 32 := BitVec.ofNat 32 (i 0).val
  let c544_i32_97 : BitVec 32 := 544#32
  let v219 : BitVec 32 := Scalar.muli arg0 c544_i32_97
  let arg1 : BitVec 32 := BitVec.ofNat 32 (i 1).val
  let c32_i32_98 : BitVec 32 := 32#32
  let v220 : BitVec 32 := Scalar.muli arg1 c32_i32_98
  let v221 : BitVec 32 := Scalar.addi v219 v220
  let c9_i32 : BitVec 32 := 9#32
  let v222 : BitVec 32 := Scalar.addi v221 c9_i32
  let v223 : Index := Scalar.indexCast v222
  ![v223.toNat]
def k0_off20 (v224 : BitVec 32) (v226 : BitVec 32) : Fin 2 → Nat :=
  let c256_i32_99 : BitVec 32 := 256#32
  let v227 : BitVec 32 := Scalar.subi c256_i32_99 v224
  let v229 : Index := Scalar.indexCast v227
  let c256_i32_100 : BitVec 32 := 256#32
  let v228 : BitVec 32 := Scalar.subi c256_i32_100 v226
  let v230 : Index := Scalar.indexCast v228
  ![v229.toNat, v230.toNat]

def k0_chk10 (v224 : BitVec 32) (v226 : BitVec 32) : Prop :=
  (∀ a, (k0_off20 v224 v226) a + S224x224.size a ≤ S480x512.size a)
instance k0_chk10.dec : ∀ (v224 : BitVec 32) (v226 : BitVec 32), Decidable (k0_chk10 v224 v226) := fun v224 v226 => decidable_of_iff' _ (Iff.of_eq (k0_chk10.eq_1 v224 v226))
theorem k0_off20_inb : ∀ (v224 : BitVec 32) (v226 : BitVec 32) (k0_hw10 : k0_chk10 v224 v226), ∀ a, (k0_off20 v224 v226) a + S224x224.size a ≤ S480x512.size a := fun v224 v226 k0_hw10 => k0_hw10

def k0_off21 (i : grid0.Coords) : Fin 1 → Nat :=
  let arg0 : BitVec 32 := BitVec.ofNat 32 (i 0).val
  let c544_i32_108 : BitVec 32 := 544#32
  let v243 : BitVec 32 := Scalar.muli arg0 c544_i32_108
  let arg1 : BitVec 32 := BitVec.ofNat 32 (i 1).val
  let c32_i32_109 : BitVec 32 := 32#32
  let v244 : BitVec 32 := Scalar.muli arg1 c32_i32_109
  let v245 : BitVec 32 := Scalar.addi v243 v244
  let c10_i32 : BitVec 32 := 10#32
  let v246 : BitVec 32 := Scalar.addi v245 c10_i32
  let v247 : Index := Scalar.indexCast v246
  ![v247.toNat]
def k0_off22 (v248 : BitVec 32) (v250 : BitVec 32) : Fin 2 → Nat :=
  let c256_i32_110 : BitVec 32 := 256#32
  let v251 : BitVec 32 := Scalar.subi c256_i32_110 v248
  let v253 : Index := Scalar.indexCast v251
  let c256_i32_111 : BitVec 32 := 256#32
  let v252 : BitVec 32 := Scalar.subi c256_i32_111 v250
  let v254 : Index := Scalar.indexCast v252
  ![v253.toNat, v254.toNat]

def k0_chk11 (v248 : BitVec 32) (v250 : BitVec 32) : Prop :=
  (∀ a, (k0_off22 v248 v250) a + S224x224.size a ≤ S480x512.size a)
instance k0_chk11.dec : ∀ (v248 : BitVec 32) (v250 : BitVec 32), Decidable (k0_chk11 v248 v250) := fun v248 v250 => decidable_of_iff' _ (Iff.of_eq (k0_chk11.eq_1 v248 v250))
theorem k0_off22_inb : ∀ (v248 : BitVec 32) (v250 : BitVec 32) (k0_hw11 : k0_chk11 v248 v250), ∀ a, (k0_off22 v248 v250) a + S224x224.size a ≤ S480x512.size a := fun v248 v250 k0_hw11 => k0_hw11

def k0_off23 (i : grid0.Coords) : Fin 1 → Nat :=
  let arg0 : BitVec 32 := BitVec.ofNat 32 (i 0).val
  let c544_i32_119 : BitVec 32 := 544#32
  let v267 : BitVec 32 := Scalar.muli arg0 c544_i32_119
  let arg1 : BitVec 32 := BitVec.ofNat 32 (i 1).val
  let c32_i32_120 : BitVec 32 := 32#32
  let v268 : BitVec 32 := Scalar.muli arg1 c32_i32_120
  let v269 : BitVec 32 := Scalar.addi v267 v268
  let c11_i32 : BitVec 32 := 11#32
  let v270 : BitVec 32 := Scalar.addi v269 c11_i32
  let v271 : Index := Scalar.indexCast v270
  ![v271.toNat]
def k0_off24 (v272 : BitVec 32) (v274 : BitVec 32) : Fin 2 → Nat :=
  let c256_i32_121 : BitVec 32 := 256#32
  let v275 : BitVec 32 := Scalar.subi c256_i32_121 v272
  let v277 : Index := Scalar.indexCast v275
  let c256_i32_122 : BitVec 32 := 256#32
  let v276 : BitVec 32 := Scalar.subi c256_i32_122 v274
  let v278 : Index := Scalar.indexCast v276
  ![v277.toNat, v278.toNat]

def k0_chk12 (v272 : BitVec 32) (v274 : BitVec 32) : Prop :=
  (∀ a, (k0_off24 v272 v274) a + S224x224.size a ≤ S480x512.size a)
instance k0_chk12.dec : ∀ (v272 : BitVec 32) (v274 : BitVec 32), Decidable (k0_chk12 v272 v274) := fun v272 v274 => decidable_of_iff' _ (Iff.of_eq (k0_chk12.eq_1 v272 v274))
theorem k0_off24_inb : ∀ (v272 : BitVec 32) (v274 : BitVec 32) (k0_hw12 : k0_chk12 v272 v274), ∀ a, (k0_off24 v272 v274) a + S224x224.size a ≤ S480x512.size a := fun v272 v274 k0_hw12 => k0_hw12

def k0_off25 (i : grid0.Coords) : Fin 1 → Nat :=
  let arg0 : BitVec 32 := BitVec.ofNat 32 (i 0).val
  let c544_i32_130 : BitVec 32 := 544#32
  let v291 : BitVec 32 := Scalar.muli arg0 c544_i32_130
  let arg1 : BitVec 32 := BitVec.ofNat 32 (i 1).val
  let c32_i32_131 : BitVec 32 := 32#32
  let v292 : BitVec 32 := Scalar.muli arg1 c32_i32_131
  let v293 : BitVec 32 := Scalar.addi v291 v292
  let c12_i32 : BitVec 32 := 12#32
  let v294 : BitVec 32 := Scalar.addi v293 c12_i32
  let v295 : Index := Scalar.indexCast v294
  ![v295.toNat]
def k0_off26 (v296 : BitVec 32) (v298 : BitVec 32) : Fin 2 → Nat :=
  let c256_i32_132 : BitVec 32 := 256#32
  let v299 : BitVec 32 := Scalar.subi c256_i32_132 v296
  let v301 : Index := Scalar.indexCast v299
  let c256_i32_133 : BitVec 32 := 256#32
  let v300 : BitVec 32 := Scalar.subi c256_i32_133 v298
  let v302 : Index := Scalar.indexCast v300
  ![v301.toNat, v302.toNat]

def k0_chk13 (v296 : BitVec 32) (v298 : BitVec 32) : Prop :=
  (∀ a, (k0_off26 v296 v298) a + S224x224.size a ≤ S480x512.size a)
instance k0_chk13.dec : ∀ (v296 : BitVec 32) (v298 : BitVec 32), Decidable (k0_chk13 v296 v298) := fun v296 v298 => decidable_of_iff' _ (Iff.of_eq (k0_chk13.eq_1 v296 v298))
theorem k0_off26_inb : ∀ (v296 : BitVec 32) (v298 : BitVec 32) (k0_hw13 : k0_chk13 v296 v298), ∀ a, (k0_off26 v296 v298) a + S224x224.size a ≤ S480x512.size a := fun v296 v298 k0_hw13 => k0_hw13

def k0_off27 (i : grid0.Coords) : Fin 1 → Nat :=
  let arg0 : BitVec 32 := BitVec.ofNat 32 (i 0).val
  let c544_i32_141 : BitVec 32 := 544#32
  let v315 : BitVec 32 := Scalar.muli arg0 c544_i32_141
  let arg1 : BitVec 32 := BitVec.ofNat 32 (i 1).val
  let c32_i32_142 : BitVec 32 := 32#32
  let v316 : BitVec 32 := Scalar.muli arg1 c32_i32_142
  let v317 : BitVec 32 := Scalar.addi v315 v316
  let c13_i32 : BitVec 32 := 13#32
  let v318 : BitVec 32 := Scalar.addi v317 c13_i32
  let v319 : Index := Scalar.indexCast v318
  ![v319.toNat]
def k0_off28 (v320 : BitVec 32) (v322 : BitVec 32) : Fin 2 → Nat :=
  let c256_i32_143 : BitVec 32 := 256#32
  let v323 : BitVec 32 := Scalar.subi c256_i32_143 v320
  let v325 : Index := Scalar.indexCast v323
  let c256_i32_144 : BitVec 32 := 256#32
  let v324 : BitVec 32 := Scalar.subi c256_i32_144 v322
  let v326 : Index := Scalar.indexCast v324
  ![v325.toNat, v326.toNat]

def k0_chk14 (v320 : BitVec 32) (v322 : BitVec 32) : Prop :=
  (∀ a, (k0_off28 v320 v322) a + S224x224.size a ≤ S480x512.size a)
instance k0_chk14.dec : ∀ (v320 : BitVec 32) (v322 : BitVec 32), Decidable (k0_chk14 v320 v322) := fun v320 v322 => decidable_of_iff' _ (Iff.of_eq (k0_chk14.eq_1 v320 v322))
theorem k0_off28_inb : ∀ (v320 : BitVec 32) (v322 : BitVec 32) (k0_hw14 : k0_chk14 v320 v322), ∀ a, (k0_off28 v320 v322) a + S224x224.size a ≤ S480x512.size a := fun v320 v322 k0_hw14 => k0_hw14

def k0_off29 (i : grid0.Coords) : Fin 1 → Nat :=
  let arg0 : BitVec 32 := BitVec.ofNat 32 (i 0).val
  let c544_i32_152 : BitVec 32 := 544#32
  let v339 : BitVec 32 := Scalar.muli arg0 c544_i32_152
  let arg1 : BitVec 32 := BitVec.ofNat 32 (i 1).val
  let c32_i32_153 : BitVec 32 := 32#32
  let v340 : BitVec 32 := Scalar.muli arg1 c32_i32_153
  let v341 : BitVec 32 := Scalar.addi v339 v340
  let c14_i32 : BitVec 32 := 14#32
  let v342 : BitVec 32 := Scalar.addi v341 c14_i32
  let v343 : Index := Scalar.indexCast v342
  ![v343.toNat]
def k0_off30 (v344 : BitVec 32) (v346 : BitVec 32) : Fin 2 → Nat :=
  let c256_i32_154 : BitVec 32 := 256#32
  let v347 : BitVec 32 := Scalar.subi c256_i32_154 v344
  let v349 : Index := Scalar.indexCast v347
  let c256_i32_155 : BitVec 32 := 256#32
  let v348 : BitVec 32 := Scalar.subi c256_i32_155 v346
  let v350 : Index := Scalar.indexCast v348
  ![v349.toNat, v350.toNat]

def k0_chk15 (v344 : BitVec 32) (v346 : BitVec 32) : Prop :=
  (∀ a, (k0_off30 v344 v346) a + S224x224.size a ≤ S480x512.size a)
instance k0_chk15.dec : ∀ (v344 : BitVec 32) (v346 : BitVec 32), Decidable (k0_chk15 v344 v346) := fun v344 v346 => decidable_of_iff' _ (Iff.of_eq (k0_chk15.eq_1 v344 v346))
theorem k0_off30_inb : ∀ (v344 : BitVec 32) (v346 : BitVec 32) (k0_hw15 : k0_chk15 v344 v346), ∀ a, (k0_off30 v344 v346) a + S224x224.size a ≤ S480x512.size a := fun v344 v346 k0_hw15 => k0_hw15

def k0_off31 (i : grid0.Coords) : Fin 1 → Nat :=
  let arg0 : BitVec 32 := BitVec.ofNat 32 (i 0).val
  let c544_i32_163 : BitVec 32 := 544#32
  let v363 : BitVec 32 := Scalar.muli arg0 c544_i32_163
  let arg1 : BitVec 32 := BitVec.ofNat 32 (i 1).val
  let c32_i32_164 : BitVec 32 := 32#32
  let v364 : BitVec 32 := Scalar.muli arg1 c32_i32_164
  let v365 : BitVec 32 := Scalar.addi v363 v364
  let c15_i32 : BitVec 32 := 15#32
  let v366 : BitVec 32 := Scalar.addi v365 c15_i32
  let v367 : Index := Scalar.indexCast v366
  ![v367.toNat]
def k0_off32 (v368 : BitVec 32) (v370 : BitVec 32) : Fin 2 → Nat :=
  let c256_i32_165 : BitVec 32 := 256#32
  let v371 : BitVec 32 := Scalar.subi c256_i32_165 v368
  let v373 : Index := Scalar.indexCast v371
  let c256_i32_166 : BitVec 32 := 256#32
  let v372 : BitVec 32 := Scalar.subi c256_i32_166 v370
  let v374 : Index := Scalar.indexCast v372
  ![v373.toNat, v374.toNat]

def k0_chk16 (v368 : BitVec 32) (v370 : BitVec 32) : Prop :=
  (∀ a, (k0_off32 v368 v370) a + S224x224.size a ≤ S480x512.size a)
instance k0_chk16.dec : ∀ (v368 : BitVec 32) (v370 : BitVec 32), Decidable (k0_chk16 v368 v370) := fun v368 v370 => decidable_of_iff' _ (Iff.of_eq (k0_chk16.eq_1 v368 v370))
theorem k0_off32_inb : ∀ (v368 : BitVec 32) (v370 : BitVec 32) (k0_hw16 : k0_chk16 v368 v370), ∀ a, (k0_off32 v368 v370) a + S224x224.size a ≤ S480x512.size a := fun v368 v370 k0_hw16 => k0_hw16

def k0_off33 (i : grid0.Coords) : Fin 1 → Nat :=
  let arg0 : BitVec 32 := BitVec.ofNat 32 (i 0).val
  let c544_i32_174 : BitVec 32 := 544#32
  let v387 : BitVec 32 := Scalar.muli arg0 c544_i32_174
  let arg1 : BitVec 32 := BitVec.ofNat 32 (i 1).val
  let c32_i32_175 : BitVec 32 := 32#32
  let v388 : BitVec 32 := Scalar.muli arg1 c32_i32_175
  let v389 : BitVec 32 := Scalar.addi v387 v388
  let c16_i32 : BitVec 32 := 16#32
  let v390 : BitVec 32 := Scalar.addi v389 c16_i32
  let v391 : Index := Scalar.indexCast v390
  ![v391.toNat]
def k0_off34 (v392 : BitVec 32) (v394 : BitVec 32) : Fin 2 → Nat :=
  let c256_i32_176 : BitVec 32 := 256#32
  let v395 : BitVec 32 := Scalar.subi c256_i32_176 v392
  let v397 : Index := Scalar.indexCast v395
  let c256_i32_177 : BitVec 32 := 256#32
  let v396 : BitVec 32 := Scalar.subi c256_i32_177 v394
  let v398 : Index := Scalar.indexCast v396
  ![v397.toNat, v398.toNat]

def k0_chk17 (v392 : BitVec 32) (v394 : BitVec 32) : Prop :=
  (∀ a, (k0_off34 v392 v394) a + S224x224.size a ≤ S480x512.size a)
instance k0_chk17.dec : ∀ (v392 : BitVec 32) (v394 : BitVec 32), Decidable (k0_chk17 v392 v394) := fun v392 v394 => decidable_of_iff' _ (Iff.of_eq (k0_chk17.eq_1 v392 v394))
theorem k0_off34_inb : ∀ (v392 : BitVec 32) (v394 : BitVec 32) (k0_hw17 : k0_chk17 v392 v394), ∀ a, (k0_off34 v392 v394) a + S224x224.size a ≤ S480x512.size a := fun v392 v394 k0_hw17 => k0_hw17

def k0_off35 (i : grid0.Coords) : Fin 1 → Nat :=
  let arg0 : BitVec 32 := BitVec.ofNat 32 (i 0).val
  let c544_i32_185 : BitVec 32 := 544#32
  let v411 : BitVec 32 := Scalar.muli arg0 c544_i32_185
  let arg1 : BitVec 32 := BitVec.ofNat 32 (i 1).val
  let c32_i32_186 : BitVec 32 := 32#32
  let v412 : BitVec 32 := Scalar.muli arg1 c32_i32_186
  let v413 : BitVec 32 := Scalar.addi v411 v412
  let c17_i32 : BitVec 32 := 17#32
  let v414 : BitVec 32 := Scalar.addi v413 c17_i32
  let v415 : Index := Scalar.indexCast v414
  ![v415.toNat]
def k0_off36 (v416 : BitVec 32) (v418 : BitVec 32) : Fin 2 → Nat :=
  let c256_i32_187 : BitVec 32 := 256#32
  let v419 : BitVec 32 := Scalar.subi c256_i32_187 v416
  let v421 : Index := Scalar.indexCast v419
  let c256_i32_188 : BitVec 32 := 256#32
  let v420 : BitVec 32 := Scalar.subi c256_i32_188 v418
  let v422 : Index := Scalar.indexCast v420
  ![v421.toNat, v422.toNat]

def k0_chk18 (v416 : BitVec 32) (v418 : BitVec 32) : Prop :=
  (∀ a, (k0_off36 v416 v418) a + S224x224.size a ≤ S480x512.size a)
instance k0_chk18.dec : ∀ (v416 : BitVec 32) (v418 : BitVec 32), Decidable (k0_chk18 v416 v418) := fun v416 v418 => decidable_of_iff' _ (Iff.of_eq (k0_chk18.eq_1 v416 v418))
theorem k0_off36_inb : ∀ (v416 : BitVec 32) (v418 : BitVec 32) (k0_hw18 : k0_chk18 v416 v418), ∀ a, (k0_off36 v416 v418) a + S224x224.size a ≤ S480x512.size a := fun v416 v418 k0_hw18 => k0_hw18

def k0_off37 (i : grid0.Coords) : Fin 1 → Nat :=
  let arg0 : BitVec 32 := BitVec.ofNat 32 (i 0).val
  let c544_i32_196 : BitVec 32 := 544#32
  let v435 : BitVec 32 := Scalar.muli arg0 c544_i32_196
  let arg1 : BitVec 32 := BitVec.ofNat 32 (i 1).val
  let c32_i32_197 : BitVec 32 := 32#32
  let v436 : BitVec 32 := Scalar.muli arg1 c32_i32_197
  let v437 : BitVec 32 := Scalar.addi v435 v436
  let c18_i32 : BitVec 32 := 18#32
  let v438 : BitVec 32 := Scalar.addi v437 c18_i32
  let v439 : Index := Scalar.indexCast v438
  ![v439.toNat]
def k0_off38 (v440 : BitVec 32) (v442 : BitVec 32) : Fin 2 → Nat :=
  let c256_i32_198 : BitVec 32 := 256#32
  let v443 : BitVec 32 := Scalar.subi c256_i32_198 v440
  let v445 : Index := Scalar.indexCast v443
  let c256_i32_199 : BitVec 32 := 256#32
  let v444 : BitVec 32 := Scalar.subi c256_i32_199 v442
  let v446 : Index := Scalar.indexCast v444
  ![v445.toNat, v446.toNat]

def k0_chk19 (v440 : BitVec 32) (v442 : BitVec 32) : Prop :=
  (∀ a, (k0_off38 v440 v442) a + S224x224.size a ≤ S480x512.size a)
instance k0_chk19.dec : ∀ (v440 : BitVec 32) (v442 : BitVec 32), Decidable (k0_chk19 v440 v442) := fun v440 v442 => decidable_of_iff' _ (Iff.of_eq (k0_chk19.eq_1 v440 v442))
theorem k0_off38_inb : ∀ (v440 : BitVec 32) (v442 : BitVec 32) (k0_hw19 : k0_chk19 v440 v442), ∀ a, (k0_off38 v440 v442) a + S224x224.size a ≤ S480x512.size a := fun v440 v442 k0_hw19 => k0_hw19

def k0_off39 (i : grid0.Coords) : Fin 1 → Nat :=
  let arg0 : BitVec 32 := BitVec.ofNat 32 (i 0).val
  let c544_i32_207 : BitVec 32 := 544#32
  let v459 : BitVec 32 := Scalar.muli arg0 c544_i32_207
  let arg1 : BitVec 32 := BitVec.ofNat 32 (i 1).val
  let c32_i32_208 : BitVec 32 := 32#32
  let v460 : BitVec 32 := Scalar.muli arg1 c32_i32_208
  let v461 : BitVec 32 := Scalar.addi v459 v460
  let c19_i32 : BitVec 32 := 19#32
  let v462 : BitVec 32 := Scalar.addi v461 c19_i32
  let v463 : Index := Scalar.indexCast v462
  ![v463.toNat]
def k0_off40 (v464 : BitVec 32) (v466 : BitVec 32) : Fin 2 → Nat :=
  let c256_i32_209 : BitVec 32 := 256#32
  let v467 : BitVec 32 := Scalar.subi c256_i32_209 v464
  let v469 : Index := Scalar.indexCast v467
  let c256_i32_210 : BitVec 32 := 256#32
  let v468 : BitVec 32 := Scalar.subi c256_i32_210 v466
  let v470 : Index := Scalar.indexCast v468
  ![v469.toNat, v470.toNat]

def k0_chk20 (v464 : BitVec 32) (v466 : BitVec 32) : Prop :=
  (∀ a, (k0_off40 v464 v466) a + S224x224.size a ≤ S480x512.size a)
instance k0_chk20.dec : ∀ (v464 : BitVec 32) (v466 : BitVec 32), Decidable (k0_chk20 v464 v466) := fun v464 v466 => decidable_of_iff' _ (Iff.of_eq (k0_chk20.eq_1 v464 v466))
theorem k0_off40_inb : ∀ (v464 : BitVec 32) (v466 : BitVec 32) (k0_hw20 : k0_chk20 v464 v466), ∀ a, (k0_off40 v464 v466) a + S224x224.size a ≤ S480x512.size a := fun v464 v466 k0_hw20 => k0_hw20

def k0_off41 (i : grid0.Coords) : Fin 1 → Nat :=
  let arg0 : BitVec 32 := BitVec.ofNat 32 (i 0).val
  let c544_i32_218 : BitVec 32 := 544#32
  let v483 : BitVec 32 := Scalar.muli arg0 c544_i32_218
  let arg1 : BitVec 32 := BitVec.ofNat 32 (i 1).val
  let c32_i32_219 : BitVec 32 := 32#32
  let v484 : BitVec 32 := Scalar.muli arg1 c32_i32_219
  let v485 : BitVec 32 := Scalar.addi v483 v484
  let c20_i32 : BitVec 32 := 20#32
  let v486 : BitVec 32 := Scalar.addi v485 c20_i32
  let v487 : Index := Scalar.indexCast v486
  ![v487.toNat]
def k0_off42 (v488 : BitVec 32) (v490 : BitVec 32) : Fin 2 → Nat :=
  let c256_i32_220 : BitVec 32 := 256#32
  let v491 : BitVec 32 := Scalar.subi c256_i32_220 v488
  let v493 : Index := Scalar.indexCast v491
  let c256_i32_221 : BitVec 32 := 256#32
  let v492 : BitVec 32 := Scalar.subi c256_i32_221 v490
  let v494 : Index := Scalar.indexCast v492
  ![v493.toNat, v494.toNat]

def k0_chk21 (v488 : BitVec 32) (v490 : BitVec 32) : Prop :=
  (∀ a, (k0_off42 v488 v490) a + S224x224.size a ≤ S480x512.size a)
instance k0_chk21.dec : ∀ (v488 : BitVec 32) (v490 : BitVec 32), Decidable (k0_chk21 v488 v490) := fun v488 v490 => decidable_of_iff' _ (Iff.of_eq (k0_chk21.eq_1 v488 v490))
theorem k0_off42_inb : ∀ (v488 : BitVec 32) (v490 : BitVec 32) (k0_hw21 : k0_chk21 v488 v490), ∀ a, (k0_off42 v488 v490) a + S224x224.size a ≤ S480x512.size a := fun v488 v490 k0_hw21 => k0_hw21

def k0_off43 (i : grid0.Coords) : Fin 1 → Nat :=
  let arg0 : BitVec 32 := BitVec.ofNat 32 (i 0).val
  let c544_i32_229 : BitVec 32 := 544#32
  let v507 : BitVec 32 := Scalar.muli arg0 c544_i32_229
  let arg1 : BitVec 32 := BitVec.ofNat 32 (i 1).val
  let c32_i32_230 : BitVec 32 := 32#32
  let v508 : BitVec 32 := Scalar.muli arg1 c32_i32_230
  let v509 : BitVec 32 := Scalar.addi v507 v508
  let c21_i32 : BitVec 32 := 21#32
  let v510 : BitVec 32 := Scalar.addi v509 c21_i32
  let v511 : Index := Scalar.indexCast v510
  ![v511.toNat]
def k0_off44 (v512 : BitVec 32) (v514 : BitVec 32) : Fin 2 → Nat :=
  let c256_i32_231 : BitVec 32 := 256#32
  let v515 : BitVec 32 := Scalar.subi c256_i32_231 v512
  let v517 : Index := Scalar.indexCast v515
  let c256_i32_232 : BitVec 32 := 256#32
  let v516 : BitVec 32 := Scalar.subi c256_i32_232 v514
  let v518 : Index := Scalar.indexCast v516
  ![v517.toNat, v518.toNat]

def k0_chk22 (v512 : BitVec 32) (v514 : BitVec 32) : Prop :=
  (∀ a, (k0_off44 v512 v514) a + S224x224.size a ≤ S480x512.size a)
instance k0_chk22.dec : ∀ (v512 : BitVec 32) (v514 : BitVec 32), Decidable (k0_chk22 v512 v514) := fun v512 v514 => decidable_of_iff' _ (Iff.of_eq (k0_chk22.eq_1 v512 v514))
theorem k0_off44_inb : ∀ (v512 : BitVec 32) (v514 : BitVec 32) (k0_hw22 : k0_chk22 v512 v514), ∀ a, (k0_off44 v512 v514) a + S224x224.size a ≤ S480x512.size a := fun v512 v514 k0_hw22 => k0_hw22

def k0_off45 (i : grid0.Coords) : Fin 1 → Nat :=
  let arg0 : BitVec 32 := BitVec.ofNat 32 (i 0).val
  let c544_i32_240 : BitVec 32 := 544#32
  let v531 : BitVec 32 := Scalar.muli arg0 c544_i32_240
  let arg1 : BitVec 32 := BitVec.ofNat 32 (i 1).val
  let c32_i32_241 : BitVec 32 := 32#32
  let v532 : BitVec 32 := Scalar.muli arg1 c32_i32_241
  let v533 : BitVec 32 := Scalar.addi v531 v532
  let c22_i32 : BitVec 32 := 22#32
  let v534 : BitVec 32 := Scalar.addi v533 c22_i32
  let v535 : Index := Scalar.indexCast v534
  ![v535.toNat]
def k0_off46 (v536 : BitVec 32) (v538 : BitVec 32) : Fin 2 → Nat :=
  let c256_i32_242 : BitVec 32 := 256#32
  let v539 : BitVec 32 := Scalar.subi c256_i32_242 v536
  let v541 : Index := Scalar.indexCast v539
  let c256_i32_243 : BitVec 32 := 256#32
  let v540 : BitVec 32 := Scalar.subi c256_i32_243 v538
  let v542 : Index := Scalar.indexCast v540
  ![v541.toNat, v542.toNat]

def k0_chk23 (v536 : BitVec 32) (v538 : BitVec 32) : Prop :=
  (∀ a, (k0_off46 v536 v538) a + S224x224.size a ≤ S480x512.size a)
instance k0_chk23.dec : ∀ (v536 : BitVec 32) (v538 : BitVec 32), Decidable (k0_chk23 v536 v538) := fun v536 v538 => decidable_of_iff' _ (Iff.of_eq (k0_chk23.eq_1 v536 v538))
theorem k0_off46_inb : ∀ (v536 : BitVec 32) (v538 : BitVec 32) (k0_hw23 : k0_chk23 v536 v538), ∀ a, (k0_off46 v536 v538) a + S224x224.size a ≤ S480x512.size a := fun v536 v538 k0_hw23 => k0_hw23

def k0_off47 (i : grid0.Coords) : Fin 1 → Nat :=
  let arg0 : BitVec 32 := BitVec.ofNat 32 (i 0).val
  let c544_i32_251 : BitVec 32 := 544#32
  let v555 : BitVec 32 := Scalar.muli arg0 c544_i32_251
  let arg1 : BitVec 32 := BitVec.ofNat 32 (i 1).val
  let c32_i32_252 : BitVec 32 := 32#32
  let v556 : BitVec 32 := Scalar.muli arg1 c32_i32_252
  let v557 : BitVec 32 := Scalar.addi v555 v556
  let c23_i32 : BitVec 32 := 23#32
  let v558 : BitVec 32 := Scalar.addi v557 c23_i32
  let v559 : Index := Scalar.indexCast v558
  ![v559.toNat]
def k0_off48 (v560 : BitVec 32) (v562 : BitVec 32) : Fin 2 → Nat :=
  let c256_i32_253 : BitVec 32 := 256#32
  let v563 : BitVec 32 := Scalar.subi c256_i32_253 v560
  let v565 : Index := Scalar.indexCast v563
  let c256_i32_254 : BitVec 32 := 256#32
  let v564 : BitVec 32 := Scalar.subi c256_i32_254 v562
  let v566 : Index := Scalar.indexCast v564
  ![v565.toNat, v566.toNat]

def k0_chk24 (v560 : BitVec 32) (v562 : BitVec 32) : Prop :=
  (∀ a, (k0_off48 v560 v562) a + S224x224.size a ≤ S480x512.size a)
instance k0_chk24.dec : ∀ (v560 : BitVec 32) (v562 : BitVec 32), Decidable (k0_chk24 v560 v562) := fun v560 v562 => decidable_of_iff' _ (Iff.of_eq (k0_chk24.eq_1 v560 v562))
theorem k0_off48_inb : ∀ (v560 : BitVec 32) (v562 : BitVec 32) (k0_hw24 : k0_chk24 v560 v562), ∀ a, (k0_off48 v560 v562) a + S224x224.size a ≤ S480x512.size a := fun v560 v562 k0_hw24 => k0_hw24

def k0_off49 (i : grid0.Coords) : Fin 1 → Nat :=
  let arg0 : BitVec 32 := BitVec.ofNat 32 (i 0).val
  let c544_i32_262 : BitVec 32 := 544#32
  let v579 : BitVec 32 := Scalar.muli arg0 c544_i32_262
  let arg1 : BitVec 32 := BitVec.ofNat 32 (i 1).val
  let c32_i32_263 : BitVec 32 := 32#32
  let v580 : BitVec 32 := Scalar.muli arg1 c32_i32_263
  let v581 : BitVec 32 := Scalar.addi v579 v580
  let c24_i32 : BitVec 32 := 24#32
  let v582 : BitVec 32 := Scalar.addi v581 c24_i32
  let v583 : Index := Scalar.indexCast v582
  ![v583.toNat]
def k0_off50 (v584 : BitVec 32) (v586 : BitVec 32) : Fin 2 → Nat :=
  let c256_i32_264 : BitVec 32 := 256#32
  let v587 : BitVec 32 := Scalar.subi c256_i32_264 v584
  let v589 : Index := Scalar.indexCast v587
  let c256_i32_265 : BitVec 32 := 256#32
  let v588 : BitVec 32 := Scalar.subi c256_i32_265 v586
  let v590 : Index := Scalar.indexCast v588
  ![v589.toNat, v590.toNat]

def k0_chk25 (v584 : BitVec 32) (v586 : BitVec 32) : Prop :=
  (∀ a, (k0_off50 v584 v586) a + S224x224.size a ≤ S480x512.size a)
instance k0_chk25.dec : ∀ (v584 : BitVec 32) (v586 : BitVec 32), Decidable (k0_chk25 v584 v586) := fun v584 v586 => decidable_of_iff' _ (Iff.of_eq (k0_chk25.eq_1 v584 v586))
theorem k0_off50_inb : ∀ (v584 : BitVec 32) (v586 : BitVec 32) (k0_hw25 : k0_chk25 v584 v586), ∀ a, (k0_off50 v584 v586) a + S224x224.size a ≤ S480x512.size a := fun v584 v586 k0_hw25 => k0_hw25

def k0_off51 (i : grid0.Coords) : Fin 1 → Nat :=
  let arg0 : BitVec 32 := BitVec.ofNat 32 (i 0).val
  let c544_i32_273 : BitVec 32 := 544#32
  let v603 : BitVec 32 := Scalar.muli arg0 c544_i32_273
  let arg1 : BitVec 32 := BitVec.ofNat 32 (i 1).val
  let c32_i32_274 : BitVec 32 := 32#32
  let v604 : BitVec 32 := Scalar.muli arg1 c32_i32_274
  let v605 : BitVec 32 := Scalar.addi v603 v604
  let c25_i32 : BitVec 32 := 25#32
  let v606 : BitVec 32 := Scalar.addi v605 c25_i32
  let v607 : Index := Scalar.indexCast v606
  ![v607.toNat]
def k0_off52 (v608 : BitVec 32) (v610 : BitVec 32) : Fin 2 → Nat :=
  let c256_i32_275 : BitVec 32 := 256#32
  let v611 : BitVec 32 := Scalar.subi c256_i32_275 v608
  let v613 : Index := Scalar.indexCast v611
  let c256_i32_276 : BitVec 32 := 256#32
  let v612 : BitVec 32 := Scalar.subi c256_i32_276 v610
  let v614 : Index := Scalar.indexCast v612
  ![v613.toNat, v614.toNat]

def k0_chk26 (v608 : BitVec 32) (v610 : BitVec 32) : Prop :=
  (∀ a, (k0_off52 v608 v610) a + S224x224.size a ≤ S480x512.size a)
instance k0_chk26.dec : ∀ (v608 : BitVec 32) (v610 : BitVec 32), Decidable (k0_chk26 v608 v610) := fun v608 v610 => decidable_of_iff' _ (Iff.of_eq (k0_chk26.eq_1 v608 v610))
theorem k0_off52_inb : ∀ (v608 : BitVec 32) (v610 : BitVec 32) (k0_hw26 : k0_chk26 v608 v610), ∀ a, (k0_off52 v608 v610) a + S224x224.size a ≤ S480x512.size a := fun v608 v610 k0_hw26 => k0_hw26

def k0_off53 (i : grid0.Coords) : Fin 1 → Nat :=
  let arg0 : BitVec 32 := BitVec.ofNat 32 (i 0).val
  let c544_i32_284 : BitVec 32 := 544#32
  let v627 : BitVec 32 := Scalar.muli arg0 c544_i32_284
  let arg1 : BitVec 32 := BitVec.ofNat 32 (i 1).val
  let c32_i32_285 : BitVec 32 := 32#32
  let v628 : BitVec 32 := Scalar.muli arg1 c32_i32_285
  let v629 : BitVec 32 := Scalar.addi v627 v628
  let c26_i32 : BitVec 32 := 26#32
  let v630 : BitVec 32 := Scalar.addi v629 c26_i32
  let v631 : Index := Scalar.indexCast v630
  ![v631.toNat]
def k0_off54 (v632 : BitVec 32) (v634 : BitVec 32) : Fin 2 → Nat :=
  let c256_i32_286 : BitVec 32 := 256#32
  let v635 : BitVec 32 := Scalar.subi c256_i32_286 v632
  let v637 : Index := Scalar.indexCast v635
  let c256_i32_287 : BitVec 32 := 256#32
  let v636 : BitVec 32 := Scalar.subi c256_i32_287 v634
  let v638 : Index := Scalar.indexCast v636
  ![v637.toNat, v638.toNat]

def k0_chk27 (v632 : BitVec 32) (v634 : BitVec 32) : Prop :=
  (∀ a, (k0_off54 v632 v634) a + S224x224.size a ≤ S480x512.size a)
instance k0_chk27.dec : ∀ (v632 : BitVec 32) (v634 : BitVec 32), Decidable (k0_chk27 v632 v634) := fun v632 v634 => decidable_of_iff' _ (Iff.of_eq (k0_chk27.eq_1 v632 v634))
theorem k0_off54_inb : ∀ (v632 : BitVec 32) (v634 : BitVec 32) (k0_hw27 : k0_chk27 v632 v634), ∀ a, (k0_off54 v632 v634) a + S224x224.size a ≤ S480x512.size a := fun v632 v634 k0_hw27 => k0_hw27

def k0_off55 (i : grid0.Coords) : Fin 1 → Nat :=
  let arg0 : BitVec 32 := BitVec.ofNat 32 (i 0).val
  let c544_i32_295 : BitVec 32 := 544#32
  let v651 : BitVec 32 := Scalar.muli arg0 c544_i32_295
  let arg1 : BitVec 32 := BitVec.ofNat 32 (i 1).val
  let c32_i32_296 : BitVec 32 := 32#32
  let v652 : BitVec 32 := Scalar.muli arg1 c32_i32_296
  let v653 : BitVec 32 := Scalar.addi v651 v652
  let c27_i32 : BitVec 32 := 27#32
  let v654 : BitVec 32 := Scalar.addi v653 c27_i32
  let v655 : Index := Scalar.indexCast v654
  ![v655.toNat]
def k0_off56 (v656 : BitVec 32) (v658 : BitVec 32) : Fin 2 → Nat :=
  let c256_i32_297 : BitVec 32 := 256#32
  let v659 : BitVec 32 := Scalar.subi c256_i32_297 v656
  let v661 : Index := Scalar.indexCast v659
  let c256_i32_298 : BitVec 32 := 256#32
  let v660 : BitVec 32 := Scalar.subi c256_i32_298 v658
  let v662 : Index := Scalar.indexCast v660
  ![v661.toNat, v662.toNat]

def k0_chk28 (v656 : BitVec 32) (v658 : BitVec 32) : Prop :=
  (∀ a, (k0_off56 v656 v658) a + S224x224.size a ≤ S480x512.size a)
instance k0_chk28.dec : ∀ (v656 : BitVec 32) (v658 : BitVec 32), Decidable (k0_chk28 v656 v658) := fun v656 v658 => decidable_of_iff' _ (Iff.of_eq (k0_chk28.eq_1 v656 v658))
theorem k0_off56_inb : ∀ (v656 : BitVec 32) (v658 : BitVec 32) (k0_hw28 : k0_chk28 v656 v658), ∀ a, (k0_off56 v656 v658) a + S224x224.size a ≤ S480x512.size a := fun v656 v658 k0_hw28 => k0_hw28

def k0_off57 (i : grid0.Coords) : Fin 1 → Nat :=
  let arg0 : BitVec 32 := BitVec.ofNat 32 (i 0).val
  let c544_i32_306 : BitVec 32 := 544#32
  let v675 : BitVec 32 := Scalar.muli arg0 c544_i32_306
  let arg1 : BitVec 32 := BitVec.ofNat 32 (i 1).val
  let c32_i32_307 : BitVec 32 := 32#32
  let v676 : BitVec 32 := Scalar.muli arg1 c32_i32_307
  let v677 : BitVec 32 := Scalar.addi v675 v676
  let c28_i32 : BitVec 32 := 28#32
  let v678 : BitVec 32 := Scalar.addi v677 c28_i32
  let v679 : Index := Scalar.indexCast v678
  ![v679.toNat]
def k0_off58 (v680 : BitVec 32) (v682 : BitVec 32) : Fin 2 → Nat :=
  let c256_i32_308 : BitVec 32 := 256#32
  let v683 : BitVec 32 := Scalar.subi c256_i32_308 v680
  let v685 : Index := Scalar.indexCast v683
  let c256_i32_309 : BitVec 32 := 256#32
  let v684 : BitVec 32 := Scalar.subi c256_i32_309 v682
  let v686 : Index := Scalar.indexCast v684
  ![v685.toNat, v686.toNat]

def k0_chk29 (v680 : BitVec 32) (v682 : BitVec 32) : Prop :=
  (∀ a, (k0_off58 v680 v682) a + S224x224.size a ≤ S480x512.size a)
instance k0_chk29.dec : ∀ (v680 : BitVec 32) (v682 : BitVec 32), Decidable (k0_chk29 v680 v682) := fun v680 v682 => decidable_of_iff' _ (Iff.of_eq (k0_chk29.eq_1 v680 v682))
theorem k0_off58_inb : ∀ (v680 : BitVec 32) (v682 : BitVec 32) (k0_hw29 : k0_chk29 v680 v682), ∀ a, (k0_off58 v680 v682) a + S224x224.size a ≤ S480x512.size a := fun v680 v682 k0_hw29 => k0_hw29

def k0_off59 (i : grid0.Coords) : Fin 1 → Nat :=
  let arg0 : BitVec 32 := BitVec.ofNat 32 (i 0).val
  let c544_i32_317 : BitVec 32 := 544#32
  let v699 : BitVec 32 := Scalar.muli arg0 c544_i32_317
  let arg1 : BitVec 32 := BitVec.ofNat 32 (i 1).val
  let c32_i32_318 : BitVec 32 := 32#32
  let v700 : BitVec 32 := Scalar.muli arg1 c32_i32_318
  let v701 : BitVec 32 := Scalar.addi v699 v700
  let c29_i32 : BitVec 32 := 29#32
  let v702 : BitVec 32 := Scalar.addi v701 c29_i32
  let v703 : Index := Scalar.indexCast v702
  ![v703.toNat]
def k0_off60 (v704 : BitVec 32) (v706 : BitVec 32) : Fin 2 → Nat :=
  let c256_i32_319 : BitVec 32 := 256#32
  let v707 : BitVec 32 := Scalar.subi c256_i32_319 v704
  let v709 : Index := Scalar.indexCast v707
  let c256_i32_320 : BitVec 32 := 256#32
  let v708 : BitVec 32 := Scalar.subi c256_i32_320 v706
  let v710 : Index := Scalar.indexCast v708
  ![v709.toNat, v710.toNat]

def k0_chk30 (v704 : BitVec 32) (v706 : BitVec 32) : Prop :=
  (∀ a, (k0_off60 v704 v706) a + S224x224.size a ≤ S480x512.size a)
instance k0_chk30.dec : ∀ (v704 : BitVec 32) (v706 : BitVec 32), Decidable (k0_chk30 v704 v706) := fun v704 v706 => decidable_of_iff' _ (Iff.of_eq (k0_chk30.eq_1 v704 v706))
theorem k0_off60_inb : ∀ (v704 : BitVec 32) (v706 : BitVec 32) (k0_hw30 : k0_chk30 v704 v706), ∀ a, (k0_off60 v704 v706) a + S224x224.size a ≤ S480x512.size a := fun v704 v706 k0_hw30 => k0_hw30

def k0_off61 (i : grid0.Coords) : Fin 1 → Nat :=
  let arg0 : BitVec 32 := BitVec.ofNat 32 (i 0).val
  let c544_i32_328 : BitVec 32 := 544#32
  let v723 : BitVec 32 := Scalar.muli arg0 c544_i32_328
  let arg1 : BitVec 32 := BitVec.ofNat 32 (i 1).val
  let c32_i32_329 : BitVec 32 := 32#32
  let v724 : BitVec 32 := Scalar.muli arg1 c32_i32_329
  let v725 : BitVec 32 := Scalar.addi v723 v724
  let c30_i32 : BitVec 32 := 30#32
  let v726 : BitVec 32 := Scalar.addi v725 c30_i32
  let v727 : Index := Scalar.indexCast v726
  ![v727.toNat]
def k0_off62 (v728 : BitVec 32) (v730 : BitVec 32) : Fin 2 → Nat :=
  let c256_i32_330 : BitVec 32 := 256#32
  let v731 : BitVec 32 := Scalar.subi c256_i32_330 v728
  let v733 : Index := Scalar.indexCast v731
  let c256_i32_331 : BitVec 32 := 256#32
  let v732 : BitVec 32 := Scalar.subi c256_i32_331 v730
  let v734 : Index := Scalar.indexCast v732
  ![v733.toNat, v734.toNat]

def k0_chk31 (v728 : BitVec 32) (v730 : BitVec 32) : Prop :=
  (∀ a, (k0_off62 v728 v730) a + S224x224.size a ≤ S480x512.size a)
instance k0_chk31.dec : ∀ (v728 : BitVec 32) (v730 : BitVec 32), Decidable (k0_chk31 v728 v730) := fun v728 v730 => decidable_of_iff' _ (Iff.of_eq (k0_chk31.eq_1 v728 v730))
theorem k0_off62_inb : ∀ (v728 : BitVec 32) (v730 : BitVec 32) (k0_hw31 : k0_chk31 v728 v730), ∀ a, (k0_off62 v728 v730) a + S224x224.size a ≤ S480x512.size a := fun v728 v730 k0_hw31 => k0_hw31

def k0_off63 (i : grid0.Coords) : Fin 1 → Nat :=
  let arg0 : BitVec 32 := BitVec.ofNat 32 (i 0).val
  let c544_i32_339 : BitVec 32 := 544#32
  let v747 : BitVec 32 := Scalar.muli arg0 c544_i32_339
  let arg1 : BitVec 32 := BitVec.ofNat 32 (i 1).val
  let c32_i32_340 : BitVec 32 := 32#32
  let v748 : BitVec 32 := Scalar.muli arg1 c32_i32_340
  let v749 : BitVec 32 := Scalar.addi v747 v748
  let c31_i32 : BitVec 32 := 31#32
  let v750 : BitVec 32 := Scalar.addi v749 c31_i32
  let v751 : Index := Scalar.indexCast v750
  ![v751.toNat]
def k0_off64 (v752 : BitVec 32) (v754 : BitVec 32) : Fin 2 → Nat :=
  let c256_i32_341 : BitVec 32 := 256#32
  let v755 : BitVec 32 := Scalar.subi c256_i32_341 v752
  let v757 : Index := Scalar.indexCast v755
  let c256_i32_342 : BitVec 32 := 256#32
  let v756 : BitVec 32 := Scalar.subi c256_i32_342 v754
  let v758 : Index := Scalar.indexCast v756
  ![v757.toNat, v758.toNat]

def k0_chk32 (v752 : BitVec 32) (v754 : BitVec 32) : Prop :=
  (∀ a, (k0_off64 v752 v754) a + S224x224.size a ≤ S480x512.size a)
instance k0_chk32.dec : ∀ (v752 : BitVec 32) (v754 : BitVec 32), Decidable (k0_chk32 v752 v754) := fun v752 v754 => decidable_of_iff' _ (Iff.of_eq (k0_chk32.eq_1 v752 v754))
theorem k0_off64_inb : ∀ (v752 : BitVec 32) (v754 : BitVec 32) (k0_hw32 : k0_chk32 v752 v754), ∀ a, (k0_off64 v752 v754) a + S224x224.size a ≤ S480x512.size a := fun v752 v754 k0_hw32 => k0_hw32

def k0_cond2 (i : grid0.Coords) : BitVec 1 :=
  let arg1 : BitVec 32 := BitVec.ofNat 32 (i 1).val
  let c16_i32_351 : BitVec 32 := 16#32
  let v771 : BitVec 1 := Scalar.cmpi .eq arg1 c16_i32_351
  let v772 : BitVec 32 := Scalar.extui v771
  let c0_i32_352 : BitVec 32 := 0#32
  let v773 : BitVec 1 := Scalar.cmpi .ne v772 c0_i32_352
  v773

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S480x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x32x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x224x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16x68x2_S1088x2 : S16x68x2.ShapeCasts S1088x2
  slices_S1088x2_S1088x1_0_0 : S1088x2.Slices ![0, 0] S1088x1
  shapeCasts_S1088x1_S1088 : S1088x1.ShapeCasts S1088
  slices_S1088x2_S1088x1_0_1 : S1088x2.Slices ![0, 1] S1088x1
  shapeCasts_S16x68x224x224_S2x544x224x224 : S16x68x224x224.ShapeCasts S2x544x224x224
  pads_S128x128_S480x512_1921600_1921920 : S128x128.Pads (![192, 192] : Fin 2 → Nat) ![160, 192] ![0, 0] S480x512
  h_S_ : 0 < S_.numel
  inb_S224x224_S224x224_0_0 : ∀ a, (![0, 0] : Fin 2 → Nat) a + S224x224.size a ≤ S224x224.size a
  h_S224x224 : 0 < S224x224.numel
  shapeCasts_S224x224_S224x224 : S224x224.ShapeCasts S224x224
  numel1_S1 : S1.numel = 1
  inb_S1x32x224x224_S1x1x224x224_0_0_0_0 : ∀ a, (![0, 0, 0, 0] : Fin 4 → Nat) a + S1x1x224x224.size a ≤ S1x32x224x224.size a
  h_S1x1x224x224 : 0 < S1x1x224x224.numel
  shapeCasts_S1x1x224x224_S224x224 : S1x1x224x224.ShapeCasts S224x224
  inb_S1x32x224x224_S1x1x224x224_0_1_0_0 : ∀ a, (![0, 1, 0, 0] : Fin 4 → Nat) a + S1x1x224x224.size a ≤ S1x32x224x224.size a
  inb_S1x32x224x224_S1x1x224x224_0_2_0_0 : ∀ a, (![0, 2, 0, 0] : Fin 4 → Nat) a + S1x1x224x224.size a ≤ S1x32x224x224.size a
  inb_S1x32x224x224_S1x1x224x224_0_3_0_0 : ∀ a, (![0, 3, 0, 0] : Fin 4 → Nat) a + S1x1x224x224.size a ≤ S1x32x224x224.size a
  inb_S1x32x224x224_S1x1x224x224_0_4_0_0 : ∀ a, (![0, 4, 0, 0] : Fin 4 → Nat) a + S1x1x224x224.size a ≤ S1x32x224x224.size a
  inb_S1x32x224x224_S1x1x224x224_0_5_0_0 : ∀ a, (![0, 5, 0, 0] : Fin 4 → Nat) a + S1x1x224x224.size a ≤ S1x32x224x224.size a
  inb_S1x32x224x224_S1x1x224x224_0_6_0_0 : ∀ a, (![0, 6, 0, 0] : Fin 4 → Nat) a + S1x1x224x224.size a ≤ S1x32x224x224.size a
  inb_S1x32x224x224_S1x1x224x224_0_7_0_0 : ∀ a, (![0, 7, 0, 0] : Fin 4 → Nat) a + S1x1x224x224.size a ≤ S1x32x224x224.size a
  inb_S1x32x224x224_S1x1x224x224_0_8_0_0 : ∀ a, (![0, 8, 0, 0] : Fin 4 → Nat) a + S1x1x224x224.size a ≤ S1x32x224x224.size a
  inb_S1x32x224x224_S1x1x224x224_0_9_0_0 : ∀ a, (![0, 9, 0, 0] : Fin 4 → Nat) a + S1x1x224x224.size a ≤ S1x32x224x224.size a
  inb_S1x32x224x224_S1x1x224x224_0_10_0_0 : ∀ a, (![0, 10, 0, 0] : Fin 4 → Nat) a + S1x1x224x224.size a ≤ S1x32x224x224.size a
  inb_S1x32x224x224_S1x1x224x224_0_11_0_0 : ∀ a, (![0, 11, 0, 0] : Fin 4 → Nat) a + S1x1x224x224.size a ≤ S1x32x224x224.size a
  inb_S1x32x224x224_S1x1x224x224_0_12_0_0 : ∀ a, (![0, 12, 0, 0] : Fin 4 → Nat) a + S1x1x224x224.size a ≤ S1x32x224x224.size a
  inb_S1x32x224x224_S1x1x224x224_0_13_0_0 : ∀ a, (![0, 13, 0, 0] : Fin 4 → Nat) a + S1x1x224x224.size a ≤ S1x32x224x224.size a
  inb_S1x32x224x224_S1x1x224x224_0_14_0_0 : ∀ a, (![0, 14, 0, 0] : Fin 4 → Nat) a + S1x1x224x224.size a ≤ S1x32x224x224.size a
  inb_S1x32x224x224_S1x1x224x224_0_15_0_0 : ∀ a, (![0, 15, 0, 0] : Fin 4 → Nat) a + S1x1x224x224.size a ≤ S1x32x224x224.size a
  inb_S1x32x224x224_S1x1x224x224_0_16_0_0 : ∀ a, (![0, 16, 0, 0] : Fin 4 → Nat) a + S1x1x224x224.size a ≤ S1x32x224x224.size a
  inb_S1x32x224x224_S1x1x224x224_0_17_0_0 : ∀ a, (![0, 17, 0, 0] : Fin 4 → Nat) a + S1x1x224x224.size a ≤ S1x32x224x224.size a
  inb_S1x32x224x224_S1x1x224x224_0_18_0_0 : ∀ a, (![0, 18, 0, 0] : Fin 4 → Nat) a + S1x1x224x224.size a ≤ S1x32x224x224.size a
  inb_S1x32x224x224_S1x1x224x224_0_19_0_0 : ∀ a, (![0, 19, 0, 0] : Fin 4 → Nat) a + S1x1x224x224.size a ≤ S1x32x224x224.size a
  inb_S1x32x224x224_S1x1x224x224_0_20_0_0 : ∀ a, (![0, 20, 0, 0] : Fin 4 → Nat) a + S1x1x224x224.size a ≤ S1x32x224x224.size a
  inb_S1x32x224x224_S1x1x224x224_0_21_0_0 : ∀ a, (![0, 21, 0, 0] : Fin 4 → Nat) a + S1x1x224x224.size a ≤ S1x32x224x224.size a
  inb_S1x32x224x224_S1x1x224x224_0_22_0_0 : ∀ a, (![0, 22, 0, 0] : Fin 4 → Nat) a + S1x1x224x224.size a ≤ S1x32x224x224.size a
  inb_S1x32x224x224_S1x1x224x224_0_23_0_0 : ∀ a, (![0, 23, 0, 0] : Fin 4 → Nat) a + S1x1x224x224.size a ≤ S1x32x224x224.size a
  inb_S1x32x224x224_S1x1x224x224_0_24_0_0 : ∀ a, (![0, 24, 0, 0] : Fin 4 → Nat) a + S1x1x224x224.size a ≤ S1x32x224x224.size a
  inb_S1x32x224x224_S1x1x224x224_0_25_0_0 : ∀ a, (![0, 25, 0, 0] : Fin 4 → Nat) a + S1x1x224x224.size a ≤ S1x32x224x224.size a
  inb_S1x32x224x224_S1x1x224x224_0_26_0_0 : ∀ a, (![0, 26, 0, 0] : Fin 4 → Nat) a + S1x1x224x224.size a ≤ S1x32x224x224.size a
  inb_S1x32x224x224_S1x1x224x224_0_27_0_0 : ∀ a, (![0, 27, 0, 0] : Fin 4 → Nat) a + S1x1x224x224.size a ≤ S1x32x224x224.size a
  inb_S1x32x224x224_S1x1x224x224_0_28_0_0 : ∀ a, (![0, 28, 0, 0] : Fin 4 → Nat) a + S1x1x224x224.size a ≤ S1x32x224x224.size a
  inb_S1x32x224x224_S1x1x224x224_0_29_0_0 : ∀ a, (![0, 29, 0, 0] : Fin 4 → Nat) a + S1x1x224x224.size a ≤ S1x32x224x224.size a
  inb_S1x32x224x224_S1x1x224x224_0_30_0_0 : ∀ a, (![0, 30, 0, 0] : Fin 4 → Nat) a + S1x1x224x224.size a ≤ S1x32x224x224.size a
  inb_S1x32x224x224_S1x1x224x224_0_31_0_0 : ∀ a, (![0, 31, 0, 0] : Fin 4 → Nat) a + S1x1x224x224.size a ≤ S1x32x224x224.size a
  inb_S1x224x224_S1x224x224_0_0_0 : ∀ a, (![0, 0, 0] : Fin 3 → Nat) a + S1x224x224.size a ≤ S1x224x224.size a
  h_S1x224x224 : 0 < S1x224x224.numel
  shapeCasts_S1x224x224_S224x224 : S1x224x224.ShapeCasts S224x224
  shapeCasts_S224x224_S1x224x224 : S224x224.ShapeCasts S1x224x224
  reducesTo_S2x224x224_S_d0_1_2 : S2x224x224.ReducesTo [0, 1, 2] S_
  hrank0 : 0 < grid0.rank
  k0_off1_inb : ∀ i : grid0.Coords, ∀ a, (k0_off1 i) a + S1.size a ≤ S1088.size a
  k0_off3_inb : ∀ i : grid0.Coords, ∀ a, (k0_off3 i) a + S1.size a ≤ S1088.size a
  k0_off5_inb : ∀ i : grid0.Coords, ∀ a, (k0_off5 i) a + S1.size a ≤ S1088.size a
  k0_off7_inb : ∀ i : grid0.Coords, ∀ a, (k0_off7 i) a + S1.size a ≤ S1088.size a
  k0_off9_inb : ∀ i : grid0.Coords, ∀ a, (k0_off9 i) a + S1.size a ≤ S1088.size a
  k0_off11_inb : ∀ i : grid0.Coords, ∀ a, (k0_off11 i) a + S1.size a ≤ S1088.size a
  k0_off13_inb : ∀ i : grid0.Coords, ∀ a, (k0_off13 i) a + S1.size a ≤ S1088.size a
  k0_off15_inb : ∀ i : grid0.Coords, ∀ a, (k0_off15 i) a + S1.size a ≤ S1088.size a
  k0_off17_inb : ∀ i : grid0.Coords, ∀ a, (k0_off17 i) a + S1.size a ≤ S1088.size a
  k0_off19_inb : ∀ i : grid0.Coords, ∀ a, (k0_off19 i) a + S1.size a ≤ S1088.size a
  k0_off21_inb : ∀ i : grid0.Coords, ∀ a, (k0_off21 i) a + S1.size a ≤ S1088.size a
  k0_off23_inb : ∀ i : grid0.Coords, ∀ a, (k0_off23 i) a + S1.size a ≤ S1088.size a
  k0_off25_inb : ∀ i : grid0.Coords, ∀ a, (k0_off25 i) a + S1.size a ≤ S1088.size a
  k0_off27_inb : ∀ i : grid0.Coords, ∀ a, (k0_off27 i) a + S1.size a ≤ S1088.size a
  k0_off29_inb : ∀ i : grid0.Coords, ∀ a, (k0_off29 i) a + S1.size a ≤ S1088.size a
  k0_off31_inb : ∀ i : grid0.Coords, ∀ a, (k0_off31 i) a + S1.size a ≤ S1088.size a
  k0_off33_inb : ∀ i : grid0.Coords, ∀ a, (k0_off33 i) a + S1.size a ≤ S1088.size a
  k0_off35_inb : ∀ i : grid0.Coords, ∀ a, (k0_off35 i) a + S1.size a ≤ S1088.size a
  k0_off37_inb : ∀ i : grid0.Coords, ∀ a, (k0_off37 i) a + S1.size a ≤ S1088.size a
  k0_off39_inb : ∀ i : grid0.Coords, ∀ a, (k0_off39 i) a + S1.size a ≤ S1088.size a
  k0_off41_inb : ∀ i : grid0.Coords, ∀ a, (k0_off41 i) a + S1.size a ≤ S1088.size a
  k0_off43_inb : ∀ i : grid0.Coords, ∀ a, (k0_off43 i) a + S1.size a ≤ S1088.size a
  k0_off45_inb : ∀ i : grid0.Coords, ∀ a, (k0_off45 i) a + S1.size a ≤ S1088.size a
  k0_off47_inb : ∀ i : grid0.Coords, ∀ a, (k0_off47 i) a + S1.size a ≤ S1088.size a
  k0_off49_inb : ∀ i : grid0.Coords, ∀ a, (k0_off49 i) a + S1.size a ≤ S1088.size a
  k0_off51_inb : ∀ i : grid0.Coords, ∀ a, (k0_off51 i) a + S1.size a ≤ S1088.size a
  k0_off53_inb : ∀ i : grid0.Coords, ∀ a, (k0_off53 i) a + S1.size a ≤ S1088.size a
  k0_off55_inb : ∀ i : grid0.Coords, ∀ a, (k0_off55 i) a + S1.size a ≤ S1088.size a
  k0_off57_inb : ∀ i : grid0.Coords, ∀ a, (k0_off57 i) a + S1.size a ≤ S1088.size a
  k0_off59_inb : ∀ i : grid0.Coords, ∀ a, (k0_off59 i) a + S1.size a ≤ S1088.size a
  k0_off61_inb : ∀ i : grid0.Coords, ∀ a, (k0_off61 i) a + S1.size a ≤ S1088.size a
  k0_off63_inb : ∀ i : grid0.Coords, ∀ a, (k0_off63 i) a + S1.size a ≤ S1088.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S480x512.size a ≤ S480x512.size a
  hwx0_0 : ∀ i : grid0.Coords, EltTy.bits .f32 = 32 ∨ (Rect.block (s := S480x512) S480x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x224x224.size a ≤ S2x544x224x224.size a
  hwx0_1 : ∀ i : grid0.Coords, EltTy.bits .f32 = 32 ∨ (Rect.block (s := S2x544x224x224) S1x32x224x224.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x224x224.size a ≤ S2x224x224.size a
  hwx0_2 : ∀ i : grid0.Coords, EltTy.bits .f32 = 32 ∨ (Rect.block (s := S2x224x224) S1x224x224.size (cc0_transform_2 i) (hinb0_2 i)).WholeWords (EltTy.packing .f32)

variable [Facts₀]

abbrev spec0_0 : Pipeline.WinSpec sig grid0.rank :=
  Pipeline.WinSpec.ofSpec (Memref.whole main_v8) S480x512.size reads0_0 false true 1 stage0_0 sem0_0 nbuf0_0 hstage0_0

abbrev spec0_1 : Pipeline.WinSpec sig grid0.rank :=
  Pipeline.WinSpec.ofSpec (Memref.whole main_v7) S1x32x224x224.size reads0_1 false false 2 stage0_1 sem0_1 nbuf0_1 hstage0_1

abbrev spec0_2 : Pipeline.WinSpec sig grid0.rank :=
  Pipeline.WinSpec.ofSpec (Memref.whole main_v9) S1x224x224.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))
abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S16x68x224x224 : Shape := ⟨4, ![16, 68, 224, 224]⟩
abbrev S16x68x2 : Shape := ⟨3, ![16, 68, 2]⟩
abbrev S128x128 : Shape := ⟨2, ![128, 128]⟩
abbrev S16x68x1 : Shape := ⟨3, ![16, 68, 1]⟩
abbrev S16x68 : Shape := ⟨2, ![16, 68]⟩
abbrev S224 : Shape := ⟨1, ![224]⟩
abbrev S1x1x224 : Shape := ⟨3, ![1, 1, 224]⟩
abbrev S16x68x224 : Shape := ⟨3, ![16, 68, 224]⟩
abbrev S_ : Shape := ⟨0, ![]⟩
abbrev S16x68x224x1 : Shape := ⟨4, ![16, 68, 224, 1]⟩
abbrev S16x68x1x224 : Shape := ⟨4, ![16, 68, 1, 224]⟩
abbrev S16x68x224x224x1 : Shape := ⟨5, ![16, 68, 224, 224, 1]⟩
abbrev S16x68x224x224x2 : Shape := ⟨5, ![16, 68, 224, 224, 2]⟩

abbrev nBuf : Space → Nat
  | .hbm => 92
  | .vmem => 0
  | .smem => 0
  | _ => 0

abbrev bufTy : (tb : Table) → Fin (tcTables nBuf tb) → BufTy
  | .hbm, ⟨0, _⟩ => ⟨S16x68x224x224, .f32⟩
  | .hbm, ⟨1, _⟩ => ⟨S16x68x2, .f32⟩
  | .hbm, ⟨2, _⟩ => ⟨S128x128, .f32⟩
  | .hbm, ⟨3, _⟩ => ⟨S16x68x2, .f32⟩
  | .hbm, ⟨4, _⟩ => ⟨S16x68x2, .i32⟩
  | .hbm, ⟨5, _⟩ => ⟨S16x68x1, .i32⟩
  | .hbm, ⟨6, _⟩ => ⟨S16x68, .i32⟩
  | .hbm, ⟨7, _⟩ => ⟨S16x68x1, .i32⟩
  | .hbm, ⟨8, _⟩ => ⟨S16x68, .i32⟩
  | .hbm, ⟨9, _⟩ => ⟨S224, .i32⟩
  | .hbm, ⟨10, _⟩ => ⟨S1x1x224, .i32⟩
  | .hbm, ⟨11, _⟩ => ⟨S16x68x1, .i32⟩
  | .hbm, ⟨12, _⟩ => ⟨S16x68x224, .i32⟩
  | .hbm, ⟨13, _⟩ => ⟨S16x68x224, .i32⟩
  | .hbm, ⟨14, _⟩ => ⟨S16x68x224, .i32⟩
  | .hbm, ⟨15, _⟩ => ⟨S_, .i32⟩
  | .hbm, ⟨16, _⟩ => ⟨S16x68x224, .i32⟩
  | .hbm, ⟨17, _⟩ => ⟨S16x68x224, .i32⟩
  | .hbm, ⟨18, _⟩ => ⟨S224, .i32⟩
  | .hbm, ⟨19, _⟩ => ⟨S1x1x224, .i32⟩
  | .hbm, ⟨20, _⟩ => ⟨S16x68x1, .i32⟩
  | .hbm, ⟨21, _⟩ => ⟨S16x68x224, .i32⟩
  | .hbm, ⟨22, _⟩ => ⟨S16x68x224, .i32⟩
  | .hbm, ⟨23, _⟩ => ⟨S16x68x224, .i32⟩
  | .hbm, ⟨24, _⟩ => ⟨S_, .i32⟩
  | .hbm, ⟨25, _⟩ => ⟨S16x68x224, .i32⟩
  | .hbm, ⟨26, _⟩ => ⟨S16x68x224, .i32⟩
  | .hbm, ⟨27, _⟩ => ⟨S_, .i32⟩
  | .hbm, ⟨28, _⟩ => ⟨S16x68x224, .i32⟩
  | .hbm, ⟨29, _⟩ => ⟨S16x68x224, .i1⟩
  | .hbm, ⟨30, _⟩ => ⟨S_, .i32⟩
  | .hbm, ⟨31, _⟩ => ⟨S16x68x224, .i32⟩
  | .hbm, ⟨32, _⟩ => ⟨S16x68x224, .i1⟩
  | .hbm, ⟨33, _⟩ => ⟨S16x68x224, .i1⟩
  | .hbm, ⟨34, _⟩ => ⟨S_, .i32⟩
  | .hbm, ⟨35, _⟩ => ⟨S16x68x224, .i32⟩
  | .hbm, ⟨36, _⟩ => ⟨S16x68x224, .i1⟩
  | .hbm, ⟨37, _⟩ => ⟨S_, .i32⟩
  | .hbm, ⟨38, _⟩ => ⟨S16x68x224, .i32⟩
  | .hbm, ⟨39, _⟩ => ⟨S16x68x224, .i1⟩
  | .hbm, ⟨40, _⟩ => ⟨S16x68x224, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S16x68x224, .i32⟩
  | .hbm, ⟨45, _⟩ => ⟨S16x68x224, .i32⟩
  | .hbm, ⟨46, _⟩ => ⟨S_, .i32⟩
  | .hbm, ⟨47, _⟩ => ⟨S16x68x224, .i32⟩
  | .hbm, ⟨48, _⟩ => ⟨S16x68x224, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S16x68x224, .i32⟩
  | .hbm, ⟨53, _⟩ => ⟨S16x68x224, .i32⟩
  | .hbm, ⟨54, _⟩ => ⟨S_, .i32⟩
  | .hbm, ⟨55, _⟩ => ⟨S16x68x224, .i32⟩
  | .hbm, ⟨56, _⟩ => ⟨S16x68x224, .i32⟩
  | .hbm, ⟨57, _⟩ => ⟨S16x68x224x1, .i32⟩
  | .hbm, ⟨58, _⟩ => ⟨S16x68x1x224, .i32⟩
  | .hbm, ⟨59, _⟩ => ⟨S_, .i32⟩
  | .hbm, ⟨60, _⟩ => ⟨S16x68x224x1, .i32⟩
  | .hbm, ⟨61, _⟩ => ⟨S16x68x224x1, .i1⟩
  | .hbm, ⟨62, _⟩ => ⟨S_, .i32⟩
  | .hbm, ⟨63, _⟩ => ⟨S16x68x224x1, .i32⟩
  | .hbm, ⟨64, _⟩ => ⟨S16x68x224x1, .i32⟩
  | .hbm, ⟨65, _⟩ => ⟨S16x68x224x1, .i32⟩
  | .hbm, ⟨66, _⟩ => ⟨S_, .i32⟩
  | .hbm, ⟨67, _⟩ => ⟨S16x68x1x224, .i32⟩
  | .hbm, ⟨68, _⟩ => ⟨S16x68x1x224, .i1⟩
  | .hbm, ⟨69, _⟩ => ⟨S_, .i32⟩
  | .hbm, ⟨70, _⟩ => ⟨S16x68x1x224, .i32⟩
  | .hbm, ⟨71, _⟩ => ⟨S16x68x1x224, .i32⟩
  | .hbm, ⟨72, _⟩ => ⟨S16x68x1x224, .i32⟩
  | .hbm, ⟨73, _⟩ => ⟨S16x68x224x224, .i32⟩
  | .hbm, ⟨74, _⟩ => ⟨S16x68x224x224, .i32⟩
  | .hbm, ⟨75, _⟩ => ⟨S16x68x224x224x1, .i32⟩
  | .hbm, ⟨76, _⟩ => ⟨S16x68x224x224x1, .i32⟩
  | .hbm, ⟨77, _⟩ => ⟨S16x68x224x224x2, .i32⟩
  | .hbm, ⟨78, _⟩ => ⟨S16x68x224x224, .f32⟩
  | .hbm, ⟨79, _⟩ => ⟨S16x68x224x1, .i1⟩
  | .hbm, ⟨80, _⟩ => ⟨S16x68x1x224, .i1⟩
  | .hbm, ⟨81, _⟩ => ⟨S16x68x224x224, .i1⟩
  | .hbm, ⟨82, _⟩ => ⟨S16x68x224x224, .i1⟩
  | .hbm, ⟨83, _⟩ => ⟨S16x68x224x224, .i1⟩
  | .hbm, ⟨84, _⟩ => ⟨S16x68x224x224, .f32⟩
  | .hbm, ⟨85, _⟩ => ⟨S16x68x224x224, .f32⟩
  | .hbm, ⟨86, _⟩ => ⟨S16x68x224x224, .f32⟩
  | .hbm, ⟨87, _⟩ => ⟨S16x68x224x224, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | _, _ => ⟨S16x68x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c_0 : Ref sig .tc := ⟨.hbm, 24, rfl⟩
abbrev main_v20 : Ref sig .tc := ⟨.hbm, 25, rfl⟩
abbrev main_v21 : Ref sig .tc := ⟨.hbm, 26, rfl⟩
abbrev main_c_1 : Ref sig .tc := ⟨.hbm, 27, rfl⟩
abbrev main_v22 : Ref sig .tc := ⟨.hbm, 28, rfl⟩
abbrev main_v23 : Ref sig .tc := ⟨.hbm, 29, rfl⟩
abbrev main_c_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_3 : Ref sig .tc := ⟨.hbm, 34, rfl⟩
abbrev main_v27 : Ref sig .tc := ⟨.hbm, 35, rfl⟩
abbrev main_v28 : Ref sig .tc := ⟨.hbm, 36, rfl⟩
abbrev main_c_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_5 : Ref sig .tc := ⟨.hbm, 41, rfl⟩
abbrev main_c_6 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v32 : Ref sig .tc := ⟨.hbm, 48, rfl⟩
abbrev main_c_7 : Ref sig .tc := ⟨.hbm, 49, rfl⟩
abbrev main_c_8 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_11 : Ref sig .tc := ⟨.hbm, 66, rfl⟩
abbrev main_v41 : Ref sig .tc := ⟨.hbm, 67, rfl⟩
abbrev main_v42 : Ref sig .tc := ⟨.hbm, 68, rfl⟩
abbrev main_c_12 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩

abbrev nD : Nat := 1
abbrev τ : Topo := Topo.v7x

variable {F : FTy → Type} [FloatOps F]

class Facts₀ : Prop where
  slices_S16x68x2_S16x68x1_0_0_0 : S16x68x2.Slices ![0, 0, 0] S16x68x1
  shapeCasts_S16x68x1_S16x68 : S16x68x1.ShapeCasts S16x68
  slices_S16x68x2_S16x68x1_0_0_1 : S16x68x2.Slices ![0, 0, 1] S16x68x1
  bcast_S224_S1x1x224_2 : S224.BroadcastsInDim S1x1x224 (![2] : Fin 1 → Fin S1x1x224.rank)
  bcast_S16x68_S16x68x1_0_1 : S16x68.BroadcastsInDim S16x68x1 (![0, 1] : Fin 2 → Fin S16x68x1.rank)
  bcast_S1x1x224_S16x68x224_0_1_2 : S1x1x224.BroadcastsInDim S16x68x224 (![0, 1, 2] : Fin 3 → Fin S16x68x224.rank)
  bcast_S16x68x1_S16x68x224_0_1_2 : S16x68x1.BroadcastsInDim S16x68x224 (![0, 1, 2] : Fin 3 → Fin S16x68x224.rank)
  bcast_S_S16x68x224 : S_.BroadcastsInDim S16x68x224 (![] : Fin 0 → Fin S16x68x224.rank)
  bcast_S16x68x224_S16x68x224x1_0_1_2 : S16x68x224.BroadcastsInDim S16x68x224x1 (![0, 1, 2] : Fin 3 → Fin S16x68x224x1.rank)
  bcast_S16x68x224_S16x68x1x224_0_1_3 : S16x68x224.BroadcastsInDim S16x68x1x224 (![0, 1, 3] : Fin 3 → Fin S16x68x1x224.rank)
  bcast_S_S16x68x224x1 : S_.BroadcastsInDim S16x68x224x1 (![] : Fin 0 → Fin S16x68x224x1.rank)
  bcast_S_S16x68x1x224 : S_.BroadcastsInDim S16x68x1x224 (![] : Fin 0 → Fin S16x68x1x224.rank)
  bcast_S16x68x224x1_S16x68x224x224_0_1_2_3 : S16x68x224x1.BroadcastsInDim S16x68x224x224 (![0, 1, 2, 3] : Fin 4 → Fin S16x68x224x224.rank)
  bcast_S16x68x1x224_S16x68x224x224_0_1_2_3 : S16x68x1x224.BroadcastsInDim S16x68x224x224 (![0, 1, 2, 3] : Fin 4 → Fin S16x68x224x224.rank)
  bcast_S16x68x224x224_S16x68x224x224x1_0_1_2_3 : S16x68x224x224.BroadcastsInDim S16x68x224x224x1 (![0, 1, 2, 3] : Fin 4 → Fin S16x68x224x224x1.rank)
  concatenates_S16x68x224x224x1_S16x68x224x224x1_S16x68x224x224x2_d4 : Shape.Concatenates [S16x68x224x224x1, S16x68x224x224x1] S16x68x224x224x2 4
  reducesTo_S16x68x224x224_S_d0_1_2_3 : S16x68x224x224.ReducesTo [0, 1, 2, 3] S_
  h_S_ : 0 < S_.numel
  gather_S128x128_S16x68x224x224x2_S16x68x224x224_n_01_n_n_01_4_11_wf : GatherDims.WF S128x128 S16x68x224x224x2 S16x68x224x224 [] [0, 1] [] [0, 1] [] 4 ![1, 1]

variable [Facts₀]

def gather_S128x128_S16x68x224x224x2_S16x68x224x224_n_01_n_n_01_4_11 : GatherDims S128x128 S16x68x224x224x2 S16x68x224x224 where
  offsetDims := []
  collapsedSliceDims := [0, 1]
  operandBatchingDims := []
  startIndicesBatchingDims := []
  startIndexMap := [0, 1]
  indexVectorDim := 4
  sliceSizes := ![1, 1]
  wf := gather_S128x128_S16x68x224x224x2_S16x68x224x224_n_01_n_n_01_4_11_wf

class Facts : Prop extends Facts₀ where

variable [Facts]
-- ==== Proof.Spec.lean ====
/-
  The mathematics of the landmark-heatmap loss, stated with no reference to either program.

  A landmark has integer pixel coordinates (y, x). Its target heat map over the 224 x 224 image is a window of
  the 128 x 128 bell centred on the landmark: at image position (r, c) the target is
  bell[r - x + 64, c - y + 64] when both indices lie in [0, 128), and 0 otherwise. The loss is the mean, over
  all 16 * 68 landmarks and all 224 * 224 positions, of (pred - target)^2: the total of the squared errors
  divided by the number of terms.
-/
import Idealize.ShloMosaic.PureOps.Ideal
import Idealize.ShloMosaic.Lib.ValueIdx

noncomputable section

namespace Cert.Landmark

open Idealize.ShloMosaic Idealize.ShloMosaic.ValueIdx

/-- The shapes of the three arguments and of the scalar result. -/
abbrev SPred : Shape := ⟨4, ![16, 68, 224, 224]⟩
abbrev SLm : Shape := ⟨3, ![16, 68, 2]⟩
abbrev SBell : Shape := ⟨2, ![128, 128]⟩
abbrev SUnit : Shape := ⟨0, ![]⟩

/-- The bell read at an integer position that may fall outside it: zero outside the 128 x 128 patch. -/
def bellAt (bell : SBell.Idx → EReal) (u v : ℤ) : EReal :=
  if h : 0 ≤ u ∧ u < 128 ∧ 0 ≤ v ∧ v < 128 then
    bell (ix2 (⟨u.toNat, by omega⟩ : Fin 128) (⟨v.toNat, by omega⟩ : Fin 128))
  else 0

/-- The target heat map of a landmark at integer coordinates (y, x), at image position (r, c): the bell
    shifted so that its centre (64, 64) sits on the landmark — image row r meets bell row r - x + 64, image
    column c meets bell column c - y + 64. -/
def target (bell : SBell.Idx → EReal) (y x : ℤ) (r c : Fin 224) : EReal :=
  bellAt bell ((r.val : ℤ) - x + 64) ((c.val : ℤ) - y + 64)

/-- The squared error of landmark (b, l) at image position (r, c); the landmark's coordinates are the signed
    values of the two words yx (b, l, 0) = y and yx (b, l, 1) = x. -/
def sqErr (pred : SPred.Idx → EReal) (bell : SBell.Idx → EReal) (yx : SLm.Idx → BitVec 32)
    (b : Fin 16) (l : Fin 68) (r c : Fin 224) : EReal :=
  (pred (ix4 b l r c) - target bell (yx (ix3 b l (0 : Fin 2))).toInt (yx (ix3 b l (1 : Fin 2))).toInt r c)
    * (pred (ix4 b l r c) - target bell (yx (ix3 b l (0 : Fin 2))).toInt (yx (ix3 b l (1 : Fin 2))).toInt r c)

/-- The total squared error over every landmark and every image position. -/
def total (pred : SPred.Idx → EReal) (bell : SBell.Idx → EReal) (yx : SLm.Idx → BitVec 32) : EReal :=
  ∑ b : Fin 16, ∑ l : Fin 68, ∑ r : Fin 224, ∑ c : Fin 224, sqErr pred bell yx b l r c

/-- The loss as both programs form it from the total: the quotient by the number of terms, 16 * 68 * 224 * 224 =
    54591488 = 2^16 * 833, which the float word 0x4C504000 denotes exactly. -/
def loss (T : EReal) : FVec Ideal SUnit .f32 :=
  Host.divf (F := Ideal) (fun _ => T) (constant (F := Ideal) SUnit .f32 0x4C504000#32)

end Cert.Landmark

end
-- ==== Proof.Tail.lean ====
/-
  The operations after the kernel's region, and what the run leaves in the result.

  After the region the program adds up every entry of the region's 2 x 224 x 224 output, starting from the
  float zero, and divides the sum by the float constant 54591488 = 16 * 68 * 224 * 224. With exact arithmetic
  the sum starting from zero is the total of the entries, so the result is the loss of that total. Nothing
  after the region writes the three arguments.
-/
import proofs.«129057_j82145544503653_2_alg».proof.Proof.Gen.KernelIdeal.Frame
import proofs.«129057_j82145544503653_2_alg».proof.Proof.Spec
import Idealize.ShloMosaic.PureOps.Ideal.Laws

noncomputable section

namespace Cert.Landmark.Glue

open Idealize.ShloMosaic Idealize.ShloMosaic.TcCoe Idealize.ShloMosaic.Tactic Idealize.ShloMosaic.ValueIdx
open Idealize.SL Idealize.SL.Sem
open Cert.Landmark Cert.KernelIdeal Cert.KernelIdeal.Facts₀ Cert.KernelIdeal.Facts

variable (m : (ℓ : Loc nD τ sig) → Buf (Elt Ideal) ℓ)

/-- The result buffer after the operations that follow the region: the loss of the total of the region's output. -/
theorem tail_eq (hO : Gen.Ok m) (hH : Gen.Hyps m hO) (c : Dev nD) (Gf : S2x224x224.Idx → EReal)
    (hfin : ((Gen.dats m hO hH 0 c).arrAt 2 (Gen.cfgM m hO).N : S2x224x224.Idx → EReal) = Gf) :
    (Pipeline.afterTail pcfgs (fun _ => Gen.adm m hO) (Gen.dats m hO hH) 0 (Gen.V0 m) [Gen.hostOps1] c main_v11 : S_.Idx → EReal)
      = Cert.Landmark.loss (∑ i, Gf i) := by
  unfold Pipeline.afterTail
  show StableHlo.after Gen.hostOps1 _ (Proc.devRef .tc main_v11) = _
  after_results
  have hA : Pipeline.withArrays (Pipeline.pin pcfgs (fun _ => Gen.adm m hO) 0).spec c (Gen.V0 m c)
      (fun w => (Gen.dats m hO hH 0 c).arrAt w (Pipeline.pin pcfgs (fun _ => Gen.adm m hO) 0).N)
      (Proc.devRef .tc main_v9) = Gf :=
    (Pipeline.withArrays_arr spec0 (Gen.launch0 (F := Ideal)).win.arr_inj c _ _ 2).trans hfin
  rw [hA]
  unfold loss
  refine congrArg (fun x : FVec Ideal SUnit .f32 => Host.divf (F := Ideal) x (constant (F := Ideal) SUnit .f32 0x4C504000#32)) ?_
  funext j
  show Ideal.hostReduceAdd _ Gf (Ideal.ofBits .f32 0x00000000#32) j = ∑ i, Gf i
  rw [Ideal.hostReduceAdd_total _ (fun b => b.elim0), Ideal.ofBits_zero_f32, zero_add]

/-- What a final state of the run holds: the result buffer is what the operations after the region leave there,
    and the three arguments are as launched. -/
theorem result_mem (hO : Gen.Ok m) (hH : Gen.Hyps m hO) (r : PUnit × MemSt nD τ sig (Elt Ideal))
    (h : Pipeline.FramePost (Pipeline.pin pcfgs fun _ => Gen.adm m hO) (Gen.dats m hO hH) 0
      (Pipeline.afterTail pcfgs (fun _ => Gen.adm m hO) (Gen.dats m hO hH) 0 (Gen.V0 m) [Gen.hostOps1]) r) (c : Dev nD) :
    r.2.mem ((c.tc : Thread nD τ).loc main_v11)
        = Pipeline.afterTail pcfgs (fun _ => Gen.adm m hO) (Gen.dats m hO hH) 0 (Gen.V0 m) [Gen.hostOps1] c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(h c).2 main_v11 (by decide : main_v11 ∈ Pipeline.restRefs sig spec0),
    ((h c).2 main_arg0 (by decide : main_arg0 ∈ Pipeline.restRefs sig spec0)).trans (Gen.W_main_arg0 m hO (Gen.dats m hO hH) c),
    ((h c).2 main_arg1 (by decide : main_arg1 ∈ Pipeline.restRefs sig spec0)).trans (Gen.W_main_arg1 m hO (Gen.dats m hO hH) c),
    ((h c).2 main_arg2 (by decide : main_arg2 ∈ Pipeline.restRefs sig spec0)).trans (Gen.W_main_arg2 m hO (Gen.dats m hO hH) c)⟩

/-- The run, read: whenever the region's output array ends as Gf on each core, every final state holds the loss of
    the total of Gf in the result buffer, and the arguments as launched. -/
theorem run_loss (ρ : Dev nD → PrngReg) (hO : Gen.Ok m) (hH : Gen.Hyps m hO) (Gf : Dev nD → S2x224x224.Idx → EReal)
    (hfin : ∀ c, ((Gen.dats m hO hH 0 c).arrAt 2 (Gen.cfgM m hO).N : S2x224x224.Idx → EReal) = Gf c) :
    θ_run defs (onTc (τ := τ) (main (F := Ideal))) ⟨m, fun _ => 0, ρ⟩ (fun r => ∀ c : Dev nD,
      (r.2.mem ((c.tc : Thread nD τ).loc main_v11) : S_.Idx → EReal) = Cert.Landmark.loss (∑ i, Gf c i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(result_mem m hO hH r h c).1.trans (tail_eq m hO hH c (Gf c) (hfin c)), (result_mem m hO hH r h c).2⟩)
    (Gen.run_main m ρ hO hH)

end Cert.Landmark.Glue
end
-- ==== Proof.KernelSpec.lean ====
/-
  What the kernel's output array holds, as a function of the arguments.

  The kernel numbers the 1088 landmarks n = 68 b + l and splits them into two halves of 544; half h is
  worked through in 17 grid steps of 32 landmarks each, landmark n = 544 h + 32 g + k at step g, position k.
  For each half it leaves, at image position (r, c), the sum over the half's 544 landmarks of the squared
  error there; the loss is the sum of everything, divided by the number of terms.
-/
import proofs.«129057_j82145544503653_2_alg».proof.Proof.Spec

noncomputable section

namespace Cert.Landmark

open Idealize.ShloMosaic Idealize.ShloMosaic.ValueIdx

/-- The squared error of landmark number n = 68 b + l at image position (r, c); zero for a number that is not
    a landmark's. -/
def sqAt (pred : SPred.Idx → EReal) (bell : SBell.Idx → EReal) (yx : SLm.Idx → BitVec 32)
    (n : ℕ) (r c : Fin 224) : EReal :=
  if h : n < 1088 then
    sqErr pred bell yx (⟨n / 68, by omega⟩ : Fin 16) (⟨n % 68, Nat.mod_lt _ (by norm_num)⟩ : Fin 68) r c
  else 0

/-- What one grid step adds to the accumulator: the 32 landmarks of step g of half h. -/
def stepTerm (pred : SPred.Idx → EReal) (bell : SBell.Idx → EReal) (yx : SLm.Idx → BitVec 32)
    (h g : ℕ) (r c : Fin 224) : EReal :=
  ∑ k ∈ Finset.range 32, sqAt pred bell yx (544 * h + 32 * g + k) r c

/-- What half h of the output holds at image position (r, c): the half's 544 landmarks. -/
def partialAt (pred : SPred.Idx → EReal) (bell : SBell.Idx → EReal) (yx : SLm.Idx → BitVec 32)
    (h : ℕ) (r c : Fin 224) : EReal :=
  ∑ j ∈ Finset.range 544, sqAt pred bell yx (544 * h + j) r c

/-- The output array: two halves of 224 x 224 partial sums. -/
abbrev SOut : Shape := ⟨3, ![2, 224, 224]⟩

def outArr (pred : SPred.Idx → EReal) (bell : SBell.Idx → EReal) (yx : SLm.Idx → BitVec 32) :
    SOut.Idx → EReal :=
  fun i => partialAt pred bell yx (i 0).val (i 1) (i 2)

end Cert.Landmark

end
-- ==== Proof.LibTileSum.lean ====
/-
  General lemmas about a sum accumulated tile by tile.
  * `sum_fin_mul`: a sum over i < a of sums over j < b of h (i·b + j) is the sum of h over all n < a·b.
  * `acc_closed`: an accumulator that restarts from zero every K-th step and otherwise adds the step's term holds,
    at step K·p + k (k < K), the sum of the terms of steps K·p … K·p + k.
-/
import Mathlib

namespace Cert.Lib.TileSum

open Finset

/-- A double sum over a grid of a·b cells, row by row, is the sum over the flattened cell number. -/
theorem sum_fin_mul {M : Type*} [AddCommMonoid M] (a b : ℕ) (h : ℕ → M) :
    ∑ i : Fin a, ∑ j : Fin b, h (i.val * b + j.val) = ∑ n : Fin (a * b), h n.val := by
  rw [← Fintype.sum_prod_type (f := fun q : Fin a × Fin b => h (q.1.val * b + q.2.val))]
  rw [← Equiv.sum_comp finProdFinEquiv (fun n : Fin (a * b) => h n.val)]
  refine Finset.sum_congr rfl fun q _ => ?_
  obtain ⟨x, y⟩ := q
  show h (x.val * b + y.val) = h (finProdFinEquiv (x, y)).val
  congr 1
  simp [finProdFinEquiv]
  ring

/-- An accumulator restarted every K steps: its value inside period p. -/
theorem acc_closed {M : Type*} [AddCommMonoid M] (K : ℕ) (hK : 0 < K) (f : ℕ → M) (acc : ℕ → M)
    (h0 : acc 0 = 0 + f 0)
    (hs : ∀ n, acc (n + 1) = if (n + 1) % K = 0 then 0 + f (n + 1) else acc n + f (n + 1))
    (p k : ℕ) (hk : k < K) : acc (K * p + k) = ∑ j ∈ Finset.range (k + 1), f (K * p + j) := by
  induction k with
  | zero =>
    rw [Finset.sum_range_one, Nat.add_zero]
    cases hp : K * p with
    | zero => rw [h0, zero_add]
    | succ m =>
      have hm : (m + 1) % K = 0 := by rw [← hp]; exact Nat.mul_mod_right K p
      rw [hs m, if_pos hm, zero_add]
  | succ k ih =>
    have e : K * p + (k + 1) = (K * p + k) + 1 := by ring
    have hne : ¬ ((K * p + k) + 1) % K = 0 := by
      have : ((K * p + k) + 1) % K = k + 1 := by
        rw [Nat.add_assoc, Nat.mul_add_mod, Nat.mod_eq_of_lt hk]
      omega
    rw [e, hs, if_neg hne, ih (by omega), Finset.sum_range_succ (fun j => f (K * p + j)) (k + 1)]
    rfl

end Cert.Lib.TileSum
-- ==== Proof.KernelSums.lean ====
/-
  Three facts about sums of squared errors.

  * A half of the landmarks (544 of them) is worked through in 17 steps of 32: the steps' sums add up to the
    half's sum, because j = 32 g + k runs once over 0 … 543.
  * The output array — for each half and each image position, the half's sum there — adds up to the total
    squared error: 544 h + j and 68 b + l both run once over the landmark numbers 0 … 1087, and finite sums
    over a commutative monoid may be taken in any order.
  * An accumulator that restarts at the first step of each half and adds one step's sum per step holds the
    half's sum at the half's last step.
-/
import proofs.«129057_j82145544503653_2_alg».proof.Proof.KernelSpec
import proofs.«129057_j82145544503653_2_alg».proof.Proof.LibTileSum

noncomputable section

namespace Cert.Landmark

open Idealize.ShloMosaic Idealize.ShloMosaic.ValueIdx

variable (pred : SPred.Idx → EReal) (bell : SBell.Idx → EReal) (yx : SLm.Idx → BitVec 32)

/-! ## A half is its 17 steps -/

/-- The 17 steps of 32 landmarks of a half are its 544 landmarks: j = 32 g + k. -/
theorem half_eq_steps (h : ℕ) (r c : Fin 224) :
    ∑ g ∈ Finset.range 17, stepTerm pred bell yx h g r c = partialAt pred bell yx h r c := by
  unfold stepTerm partialAt
  have e := Cert.Lib.TileSum.sum_fin_mul 17 32 (fun n => sqAt pred bell yx (544 * h + n) r c)
  rw [Finset.sum_range (fun j => sqAt pred bell yx (544 * h + j) r c)]
  refine Eq.trans ?_ e
  rw [Finset.sum_range]
  refine Finset.sum_congr rfl fun g _ => ?_
  rw [Finset.sum_range]
  refine Finset.sum_congr rfl fun k _ => ?_
  have a : 544 * h + 32 * g.val + k.val = 544 * h + (g.val * 32 + k.val) := by omega
  rw [a]

/-! ## The output array sums to the total -/

/-- The output's index set is the product of its three coordinate ranges … -/
def idxEquivOut : SOut.Idx ≃ Fin 2 × Fin 224 × Fin 224 where
  toFun i := (i 0, i 1, i 2)
  invFun p := ix3 p.1 p.2.1 p.2.2
  left_inv i := (eq_ix3 i).symm
  right_inv _ := rfl

/-- … so a sum over it is the triple sum over the coordinates. -/
theorem sum_idxOut {M : Type*} [AddCommMonoid M] (f : SOut.Idx → M) :
    ∑ i, f i = ∑ h : Fin 2, ∑ r : Fin 224, ∑ c : Fin 224, f (ix3 h r c) := by
  rw [← Equiv.sum_comp idxEquivOut.symm f]
  simp only [Fintype.sum_prod_type]
  rfl

/-- Landmark number 68 b + l is landmark (b, l). -/
theorem sqAt_landmark (b : Fin 16) (l : Fin 68) (r c : Fin 224) :
    sqAt pred bell yx (b.val * 68 + l.val) r c = sqErr pred bell yx b l r c := by
  have hb := b.isLt
  have hl := l.isLt
  unfold sqAt
  rw [dif_pos (by omega)]
  have e1 : (⟨(b.val * 68 + l.val) / 68, by omega⟩ : Fin 16) = b := Fin.ext (by show (b.val * 68 + l.val) / 68 = b.val; omega)
  have e2 : (⟨(b.val * 68 + l.val) % 68, Nat.mod_lt _ (by norm_num)⟩ : Fin 68) = l := Fin.ext (by show (b.val * 68 + l.val) % 68 = l.val; omega)
  rw [e1, e2]

/-- Both halves of the output, summed over every image position, give the total squared error: the halves'
    landmark numbers 544 h + j and the landmarks' own numbers 68 b + l both run once over 0 … 1087. -/
theorem sum_outArr : ∑ i : SOut.Idx, outArr pred bell yx i = total pred bell yx := by
  rw [sum_idxOut]
  -- per landmark number, the sum over the image
  have hL : ∑ h : Fin 2, ∑ r : Fin 224, ∑ c : Fin 224, outArr pred bell yx (ix3 h r c)
      = ∑ h : Fin 2, ∑ j : Fin 544, ∑ r : Fin 224, ∑ c : Fin 224, sqAt pred bell yx (h.val * 544 + j.val) r c := by
    refine Finset.sum_congr rfl fun h _ => ?_
    have : ∀ r : Fin 224, ∑ c : Fin 224, outArr pred bell yx (ix3 h r c)
        = ∑ j : Fin 544, ∑ c : Fin 224, sqAt pred bell yx (h.val * 544 + j.val) r c := by
      intro r
      rw [Finset.sum_comm]
      refine Finset.sum_congr rfl fun c _ => ?_
      show partialAt pred bell yx h.val r c = _
      unfold partialAt
      rw [Finset.sum_range]
      refine Finset.sum_congr rfl fun j _ => ?_
      rw [Nat.mul_comm 544 h.val]
    rw [Finset.sum_congr rfl fun r _ => this r]
    exact Finset.sum_comm
  rw [hL, Cert.Lib.TileSum.sum_fin_mul 2 544 (fun n => ∑ r : Fin 224, ∑ c : Fin 224, sqAt pred bell yx n r c)]
  unfold total
  rw [← Cert.Lib.TileSum.sum_fin_mul 16 68 (fun n => ∑ r : Fin 224, ∑ c : Fin 224, sqAt pred bell yx n r c)]
  refine Finset.sum_congr rfl fun b _ => Finset.sum_congr rfl fun l _ => Finset.sum_congr rfl fun r _ => Finset.sum_congr rfl fun c _ => ?_
  exact sqAt_landmark pred bell yx b l r c

/-! ## The accumulator at the last step of a half -/

/-- An accumulator restarted every 17 steps holds, at the last step of period p, the period's 17 terms. -/
theorem acc_at (acc : ℕ → EReal) (f : ℕ → EReal) (h0 : acc 0 = 0 + f 0)
    (hs : ∀ n, acc (n + 1) = if (n + 1) % 17 = 0 then 0 + f (n + 1) else acc n + f (n + 1)) (p : ℕ) :
    acc (17 * p + 16) = ∑ g ∈ Finset.range 17, f (17 * p + g) :=
  Cert.Lib.TileSum.acc_closed 17 (by norm_num) f acc h0 hs p 16 (by norm_num)

/-- With the step terms of grid point t = 17 h + g, the accumulator at the last step of half p is that half's
    partial sum. -/
theorem acc_partial (r c : Fin 224) (acc : ℕ → EReal)
    (h0 : acc 0 = 0 + stepTerm pred bell yx (0 / 17) (0 % 17) r c)
    (hs : ∀ n, acc (n + 1) = if (n + 1) % 17 = 0 then 0 + stepTerm pred bell yx ((n + 1) / 17) ((n + 1) % 17) r c
      else acc n + stepTerm pred bell yx ((n + 1) / 17) ((n + 1) % 17) r c) (p : ℕ) :
    acc (17 * p + 16) = partialAt pred bell yx p r c := by
  rw [acc_at acc (fun t => stepTerm pred bell yx (t / 17) (t % 17) r c) h0 hs p, ← half_eq_steps]
  refine Finset.sum_congr rfl fun g hg => ?_
  have hg' : g < 17 := Finset.mem_range.1 hg
  have e1 : (17 * p + g) / 17 = p := by omega
  have e2 : (17 * p + g) % 17 = g := by omega
  show stepTerm pred bell yx ((17 * p + g) / 17) ((17 * p + g) % 17) r c = _
  rw [e1, e2]

end Cert.Landmark

end
-- ==== Proof.RefGather.lean ====
/-
  Two shape operations of the reference read at an index, and the 32-bit word facts its index arithmetic needs.

  The reference forms the bell's row and column for image position (r, c) as 32-bit words, stacks the two index
  planes along a new last axis of size 2, and reads the bell at the stacked pair. Here: the stacked array at last
  coordinate 0 is the first plane and at last coordinate 1 the second; the read of a 128 x 128 array at a stacked
  pair is the array at the two words, each read as a signed integer and clamped into [0, 127]. The word facts: the
  word n - x + 64 has the integer value n - x + 64 when 0 ≤ x ≤ 223 and n < 224 (no wrap-around); the window test
  (0 ≤ w and w < 128, both signed) as a bit; the clamp of a word into [0, 127] by a signed maximum then minimum,
  and the fact that a clamped word is never negative, so that the wrap of negative indices leaves it alone.
-/
import proofs.«129057_j82145544503653_2_alg».proof.Proof.Gen.ReferenceIdeal
import Idealize.ShloMosaic.Lib.Pipeline.Value
import Idealize.ShloMosaic.Lib.ValueIdx

noncomputable section

namespace Cert.Landmark.Ref

open Cert.ReferenceIdeal Cert.ReferenceIdeal.Gen Idealize.ShloMosaic Idealize.ShloMosaic.ValueIdx

/-! ## Words -/

/-- With 0 ≤ x ≤ 223 and n < 224 the word n - x + 64 does not wrap: its signed value is the integer n - x + 64. -/
theorem word_toInt (x : BitVec 32) (n : Nat) (hn : n < 224) (h0 : 0 ≤ x.toInt) (h1 : x.toInt ≤ 223) :
    (BitVec.ofNat 32 n - x + 64#32).toInt = (n : ℤ) - x.toInt + 64 := by
  have hx := BitVec.toInt_eq_toNat_cond x
  have hw := BitVec.toInt_eq_toNat_cond (BitVec.ofNat 32 n - x + 64#32)
  have hlt := x.isLt
  simp only [BitVec.toNat_add, BitVec.toNat_sub, BitVec.toNat_ofNat] at hw
  split at hx <;> split at hw <;> omega

/-- The window test on a word, as a bit: 1 exactly when its signed value lies in [0, 128). -/
theorem mask_eq (w : BitVec 32) :
    IntOp.andi (IntOp.cmpi .sge w 0#32) (IntOp.cmpi .slt w 128#32)
      = if 0 ≤ w.toInt ∧ w.toInt < 128 then 1#1 else 0#1 := by
  simp only [IntOp.andi, IntOp.cmpi, BitVec.sle, BitVec.slt]
  by_cases h0 : 0 ≤ w.toInt <;> by_cases h1 : w.toInt < 128 <;> simp [h0, h1]

/-- The signed maximum with 0 followed by the signed minimum with 127 clamps the signed value into [0, 127]. -/
theorem clip_toInt (w : BitVec 32) :
    (IntOp.minsi 127#32 (IntOp.maxsi 0#32 w)).toInt = min 127 (max 0 w.toInt) := by
  simp only [IntOp.minsi, IntOp.maxsi, BitVec.slt]
  by_cases h0 : w.toInt < 0 <;> by_cases h1 : 127 < w.toInt <;> simp [h0, h1] <;> omega

/-- A word inside the window is its own clamp. -/
theorem clip_eq_self (w : BitVec 32) (h0 : 0 ≤ w.toInt) (h1 : w.toInt < 128) :
    IntOp.minsi 127#32 (IntOp.maxsi 0#32 w) = w := by
  apply BitVec.eq_of_toInt_eq
  rw [clip_toInt]; omega

/-- The wrap of a negative index (add 128 when negative) leaves a word that is not negative alone. -/
theorem norm_eq (k : BitVec 32) (h : 0 ≤ k.toInt) :
    Scalar.select (IntOp.cmpi .slt k 0#32) (IntOp.addi k 128#32) k = k := by
  simp only [Scalar.select, IntOp.cmpi, BitVec.slt]
  have : ¬ k.toInt < 0 := by omega
  simp [this]

/-- So the clamp survives the wrap of negative indices. -/
theorem norm_clip (w : BitVec 32) :
    Scalar.select (IntOp.cmpi .slt (IntOp.minsi 127#32 (IntOp.maxsi 0#32 w)) 0#32)
      (IntOp.addi (IntOp.minsi 127#32 (IntOp.maxsi 0#32 w)) 128#32) (IntOp.minsi 127#32 (IntOp.maxsi 0#32 w))
      = IntOp.minsi 127#32 (IntOp.maxsi 0#32 w) :=
  norm_eq _ (by rw [clip_toInt]; omega)

/-! ## The stacked index planes at an index -/

section Stack
variable {α : Type}

/-- The stack of two planes along a new last axis, at last coordinate 0: the first plane. -/
theorem stack_at0 (x₁ x₂ : S16x68x224x224x1.Idx → α) (b : Fin 16) (l : Fin 68) (r c : Fin 224) :
    concatenate S16x68x224x224x2 4 [⟨S16x68x224x224x1, x₁⟩, ⟨S16x68x224x224x1, x₂⟩]
        concatenates_S16x68x224x224x1_S16x68x224x224x1_S16x68x224x224x2_d4 (ix5 b l r c (0 : Fin 2))
      = x₁ (ix5 b l r c (0 : Fin 1)) :=
  concatenate_pair_apply_left 4 x₁ x₂ _ (ix5 b l r c (0 : Fin 2)) rfl (ix5 b l r c (0 : Fin 1))
    (fun a => match a with
      | ⟨0, _⟩ => rfl | ⟨1, _⟩ => rfl | ⟨2, _⟩ => rfl | ⟨3, _⟩ => rfl | ⟨4, _⟩ => rfl)

/-- The stack at last coordinate 1: the second plane. -/
theorem stack_at1 (x₁ x₂ : S16x68x224x224x1.Idx → α) (b : Fin 16) (l : Fin 68) (r c : Fin 224) :
    concatenate S16x68x224x224x2 4 [⟨S16x68x224x224x1, x₁⟩, ⟨S16x68x224x224x1, x₂⟩]
        concatenates_S16x68x224x224x1_S16x68x224x224x1_S16x68x224x224x2_d4 (ix5 b l r c (1 : Fin 2))
      = x₂ (ix5 b l r c (0 : Fin 1)) :=
  concatenate_pair_apply_right 4 x₁ x₂ _ (ix5 b l r c (1 : Fin 2)) rfl rfl (ix5 b l r c (0 : Fin 1))
    (fun a => match a with
      | ⟨0, _⟩ => fun _ => rfl | ⟨1, _⟩ => fun _ => rfl | ⟨2, _⟩ => fun _ => rfl | ⟨3, _⟩ => fun _ => rfl
      | ⟨4, _⟩ => fun h => absurd rfl h)
    rfl

/-! ## The read of the 128 x 128 array at a stacked pair of words -/

local notation "GD" => gather_S128x128_S16x68x224x224x2_S16x68x224x224_n_01_n_n_01_4_11

theorem mem0 : (0 : Fin S128x128.rank) ∈ (GD).startIndexMap := List.mem_cons_self
theorem mem1 : (1 : Fin S128x128.rank) ∈ (GD).startIndexMap := List.mem_cons_of_mem _ List.mem_cons_self

/-- The array at the two words of the pair, each read signed and clamped into [0, 127]. -/
theorem gather_at (x : S128x128.Idx → α) (idx : IVec S16x68x224x224x2 32)
    (b : Fin 16) (l : Fin 68) (r c : Fin 224) :
    Host.gather GD x idx (ix4 b l r c)
      = x (ix2 (⟨min (idx (ix5 b l r c (0 : Fin 2))).toInt.toNat 127, by omega⟩ : Fin 128)
               (⟨min (idx (ix5 b l r c (1 : Fin 2))).toInt.toNat 127, by omega⟩ : Fin 128)) := by
  unfold Host.gather
  congr 1
  funext a
  refine Fin.ext ?_
  match a with
  | ⟨0, _⟩ =>
    show GatherDims.start _ (ix4 b l r c) idx 0 + GatherDims.batchCoord _ (ix4 b l r c) 0
      + GatherDims.offCoord _ (ix4 b l r c) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos mem0]
    have hsi : GatherDims.siIdx GD (ix4 b l r c)
        ⟨List.idxOf (0 : Fin S128x128.rank) (GD).startIndexMap, List.idxOf_lt_length_iff.2 mem0⟩
          = ix5 b l r c (0 : Fin 2) := by
      funext e; refine Fin.ext ?_
      match e with
      | ⟨0, _⟩ => rfl | ⟨1, _⟩ => rfl | ⟨2, _⟩ => rfl | ⟨3, _⟩ => rfl | ⟨4, _⟩ => rfl
    rw [hsi]
    rfl
  | ⟨1, _⟩ =>
    show GatherDims.start _ (ix4 b l r c) idx 1 + GatherDims.batchCoord _ (ix4 b l r c) 1
      + GatherDims.offCoord _ (ix4 b l r c) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos mem1]
    have hsi : GatherDims.siIdx GD (ix4 b l r c)
        ⟨List.idxOf (1 : Fin S128x128.rank) (GD).startIndexMap, List.idxOf_lt_length_iff.2 mem1⟩
          = ix5 b l r c (1 : Fin 2) := by
      funext e; refine Fin.ext ?_
      match e with
      | ⟨0, _⟩ => rfl | ⟨1, _⟩ => rfl | ⟨2, _⟩ => rfl | ⟨3, _⟩ => rfl | ⟨4, _⟩ => rfl
    rw [hsi]
    rfl

/-- The same with the two words named. -/
theorem gather_at_words (x : S128x128.Idx → α) (idx : IVec S16x68x224x224x2 32)
    (b : Fin 16) (l : Fin 68) (r c : Fin 224) (kx ky : BitVec 32)
    (hx : idx (ix5 b l r c (0 : Fin 2)) = kx) (hy : idx (ix5 b l r c (1 : Fin 2)) = ky) :
    Host.gather GD x idx (ix4 b l r c)
      = x (ix2 (⟨min kx.toInt.toNat 127, by omega⟩ : Fin 128) (⟨min ky.toInt.toNat 127, by omega⟩ : Fin 128)) := by
  subst hx hy
  exact gather_at x idx b l r c

end Stack

/-! ## A sum over every index of the 16 x 68 x 224 x 224 array -/

/-- The index set is the product of its four coordinate ranges … -/
def idxEquiv4 : S16x68x224x224.Idx ≃ Fin 16 × Fin 68 × Fin 224 × Fin 224 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] (f : S16x68x224x224.Idx → M) :
    ∑ i, f i = ∑ b : Fin 16, ∑ l : Fin 68, ∑ r : Fin 224, ∑ c : Fin 224, f (ix4 b l r c) := by
  rw [← Equiv.sum_comp idxEquiv4.symm f]
  simp only [Fintype.sum_prod_type]
  rfl

end Cert.Landmark.Ref

end
-- ==== Proof.RefValue.lean ====
/-
  The reference program computes the specification's loss.

  One image position (r, c) of one landmark (b, l) at a time. The reference's row word is r - x + 64 and its
  column word c - y + 64, x and y the landmark's coordinate words; with every coordinate in [0, 223] neither
  wraps, so their signed values are those integers. The mask bit of a word is 1 exactly when the integer lies in
  [0, 128). The bell is read at the two words clamped into [0, 127]: inside the window the clamp is the word
  itself, so the read is the bell's entry at (r - x + 64, c - y + 64); outside, the product with the mask 0 is 0.
  That is the target heat map. The squared differences are then summed over all indices, which is the fourfold
  sum over landmarks and positions, and divided by the number of terms.
-/
import proofs.«129057_j82145544503653_2_alg».proof.Proof.RefRead
import proofs.«129057_j82145544503653_2_alg».proof.Proof.Spec
import proofs.«129057_j82145544503653_2_alg».proof.Proof.RefGather

noncomputable section

namespace Cert.Landmark.Ref

open Cert.ReferenceIdeal Cert.ReferenceIdeal.Gen Cert.ReferenceIdeal.ReadP Idealize.ShloMosaic
  Idealize.ShloMosaic.ValueIdx

variable (pred : FVec Ideal S16x68x224x224 .f32) (lm : FVec Ideal S16x68x2 .f32) (bell : FVec Ideal S128x128 .f32)

/-! ## The two index words -/

/-- The row word at (b, l, r): r - x + 64, x the landmark's second coordinate word. -/
theorem v13_at (b : Fin 16) (l : Fin 68) (r : Fin 224) :
    val_main_v13 (F := Ideal) lm (ix3 b l r)
      = BitVec.ofNat 32 r.val - val_main_v1 (F := Ideal) lm (ix3 b l (1 : Fin 2)) + 64#32 := by
  have e : idx_main_v4 (idx_main_v5 (idx_main_v8 (idx_main_v10 (ix3 b l r)))) = ix3 b l (1 : Fin 2) := by
    funext a; refine Fin.ext ?_
    have hb := b.isLt; have hl := l.isLt
    match a with
    | ⟨0, _⟩ => show (b.val * 68 + l.val) / 68 = b.val; omega
    | ⟨1, _⟩ => show (b.val * 68 + l.val) / 1 % 68 = l.val; omega
    | ⟨2, _⟩ => rfl
  rw [val_main_v13_apply, val_main_v11_apply, val_main_v12_apply, val_main_c_apply, val_main_v9_apply,
    val_main_v7_apply, val_main_v6_apply, val_main_v10_apply, val_main_v8_apply, val_main_v5_apply,
    val_main_v4_apply, e]
  rfl

/-- The column word at (b, l, c): c - y + 64, y the landmark's first coordinate word. -/
theorem v21_at (b : Fin 16) (l : Fin 68) (c : Fin 224) :
    val_main_v21 (F := Ideal) lm (ix3 b l c)
      = BitVec.ofNat 32 c.val - val_main_v1 (F := Ideal) lm (ix3 b l (0 : Fin 2)) + 64#32 := by
  have e : idx_main_v2 (idx_main_v3 (idx_main_v16 (idx_main_v18 (ix3 b l c)))) = ix3 b l (0 : Fin 2) := by
    funext a; refine Fin.ext ?_
    have hb := b.isLt; have hl := l.isLt
    match a with
    | ⟨0, _⟩ => show (b.val * 68 + l.val) / 68 = b.val; omega
    | ⟨1, _⟩ => show (b.val * 68 + l.val) / 1 % 68 = l.val; omega
    | ⟨2, _⟩ => rfl
  rw [val_main_v21_apply, val_main_v19_apply, val_main_v20_apply, val_main_c_0_apply, val_main_v17_apply,
    val_main_v15_apply, val_main_v14_apply, val_main_v18_apply, val_main_v16_apply, val_main_v3_apply,
    val_main_v2_apply, e]
  rfl

/-! ## The mask bits -/

/-- The row mask: 1 exactly when the row word's signed value lies in [0, 128). -/
theorem v26_at (b : Fin 16) (l : Fin 68) (r : Fin 224) :
    val_main_v26 (F := Ideal) lm (ix3 b l r)
      = if 0 ≤ (val_main_v13 (F := Ideal) lm (ix3 b l r)).toInt ∧ (val_main_v13 (F := Ideal) lm (ix3 b l r)).toInt < 128
        then 1#1 else 0#1 := by
  rw [val_main_v26_apply, val_main_v23_apply, val_main_v25_apply, val_main_v22_apply, val_main_c_1_apply,
    val_main_v24_apply, val_main_c_2_apply]
  exact mask_eq _

/-- The column mask. -/
theorem v31_at (b : Fin 16) (l : Fin 68) (c : Fin 224) :
    val_main_v31 (F := Ideal) lm (ix3 b l c)
      = if 0 ≤ (val_main_v21 (F := Ideal) lm (ix3 b l c)).toInt ∧ (val_main_v21 (F := Ideal) lm (ix3 b l c)).toInt < 128
        then 1#1 else 0#1 := by
  rw [val_main_v31_apply, val_main_v28_apply, val_main_v30_apply, val_main_v27_apply, val_main_c_3_apply,
    val_main_v29_apply, val_main_c_4_apply]
  exact mask_eq _

/-! ## The clamped words, through the wrap of negative indices and the broadcasts, to the stacked planes -/

/-- The clamped row word. -/
theorem v32_at (b : Fin 16) (l : Fin 68) (r : Fin 224) :
    val_main_v32 (F := Ideal) lm (ix3 b l r)
      = IntOp.minsi 127#32 (IntOp.maxsi 0#32 (val_main_v13 (F := Ideal) lm (ix3 b l r))) := by
  rw [val_main_v32_apply, val_main_call1_v4_apply, val_main_call1_v3_apply, val_main_c_6_apply,
    val_main_call1_v2_apply, val_main_call1_v1_apply, val_main_call1_v0_apply, val_main_c_5_apply]

/-- The clamped column word. -/
theorem v33_at (b : Fin 16) (l : Fin 68) (c : Fin 224) :
    val_main_v33 (F := Ideal) lm (ix3 b l c)
      = IntOp.minsi 127#32 (IntOp.maxsi 0#32 (val_main_v21 (F := Ideal) lm (ix3 b l c))) := by
  rw [val_main_v33_apply, val_main_call2_v4_apply, val_main_call2_v3_apply, val_main_c_8_apply,
    val_main_call2_v2_apply, val_main_call2_v1_apply, val_main_call2_v0_apply, val_main_c_7_apply]

/-- The first stacked plane at (b, l, r, c): the clamped row word. -/
theorem v48_at (b : Fin 16) (l : Fin 68) (r c : Fin 224) :
    val_main_v48 (F := Ideal) lm (ix5 b l r c (0 : Fin 1))
      = IntOp.minsi 127#32 (IntOp.maxsi 0#32 (val_main_v13 (F := Ideal) lm (ix3 b l r))) := by
  have e48 : idx_main_v48 (ix5 b l r c (0 : Fin 1)) = ix4 b l r c := by
    funext a; match a with | ⟨0, _⟩ => rfl | ⟨1, _⟩ => rfl | ⟨2, _⟩ => rfl | ⟨3, _⟩ => rfl
  have e46 : idx_main_v46 (ix4 b l r c) = ix4 b l r (0 : Fin 1) := by
    funext a; match a with | ⟨0, _⟩ => rfl | ⟨1, _⟩ => rfl | ⟨2, _⟩ => rfl | ⟨3, _⟩ => rfl
  have e34 : idx_main_v34 (ix4 b l r (0 : Fin 1)) = ix3 b l r := by
    funext a; match a with | ⟨0, _⟩ => rfl | ⟨1, _⟩ => rfl | ⟨2, _⟩ => rfl
  rw [val_main_v48_apply, e48, val_main_v46_apply, e46, val_main_v40_apply, val_main_v37_apply,
    val_main_v39_apply, val_main_v34_apply, e34, val_main_v36_apply, val_main_c_9_apply, val_main_v38_apply,
    val_main_c_10_apply, v32_at]
  exact norm_clip _

/-- The second stacked plane at (b, l, r, c): the clamped column word. -/
theorem v49_at (b : Fin 16) (l : Fin 68) (r c : Fin 224) :
    val_main_v49 (F := Ideal) lm (ix5 b l r c (0 : Fin 1))
      = IntOp.minsi 127#32 (IntOp.maxsi 0#32 (val_main_v21 (F := Ideal) lm (ix3 b l c))) := by
  have e49 : idx_main_v49 (ix5 b l r c (0 : Fin 1)) = ix4 b l r c := by
    funext a; match a with | ⟨0, _⟩ => rfl | ⟨1, _⟩ => rfl | ⟨2, _⟩ => rfl | ⟨3, _⟩ => rfl
  have e47 : idx_main_v47 (ix4 b l r c) = ix4 b l (0 : Fin 1) c := by
    funext a; match a with | ⟨0, _⟩ => rfl | ⟨1, _⟩ => rfl | ⟨2, _⟩ => rfl | ⟨3, _⟩ => rfl
  have e35 : idx_main_v35 (ix4 b l (0 : Fin 1) c) = ix3 b l c := by
    funext a; match a with | ⟨0, _⟩ => rfl | ⟨1, _⟩ => rfl | ⟨2, _⟩ => rfl
  rw [val_main_v49_apply, e49, val_main_v47_apply, e47, val_main_v45_apply, val_main_v42_apply,
    val_main_v44_apply, val_main_v35_apply, e35, val_main_v41_apply, val_main_c_11_apply, val_main_v43_apply,
    val_main_c_12_apply, v33_at]
  exact norm_clip _

/-! ## The bell read at the clamped pair -/

/-- The gathered element at (b, l, r, c): the bell at the two clamped words. -/
theorem v51_at (b : Fin 16) (l : Fin 68) (r c : Fin 224) :
    val_main_v51 (F := Ideal) lm bell (ix4 b l r c)
      = bell (ix2
          (⟨min (IntOp.minsi 127#32 (IntOp.maxsi 0#32 (val_main_v13 (F := Ideal) lm (ix3 b l r)))).toInt.toNat 127,
            by omega⟩ : Fin 128)
          (⟨min (IntOp.minsi 127#32 (IntOp.maxsi 0#32 (val_main_v21 (F := Ideal) lm (ix3 b l c)))).toInt.toNat 127,
            by omega⟩ : Fin 128)) := by
  unfold val_main_v51
  refine gather_at_words bell (val_main_v50 (F := Ideal) lm) b l r c _ _ ?_ ?_
  · unfold val_main_v50
    rw [stack_at0]
    exact v48_at lm b l r c
  · unfold val_main_v50
    rw [stack_at1]
    exact v49_at lm b l r c

/-! ## The mask as a float, and the target -/

/-- A bit converted to a float is 1 or 0. -/
theorem uitofp_bit (m : BitVec 1) : FloatOps.uitofp (F := Ideal) .f32 m = if m = 1#1 then (1 : EReal) else 0 := by
  rcases BitVec.eq_zero_or_eq_one m with h | h <;> subst h
  · show (((0#1 : BitVec 1).toNat : ℝ) : EReal) = _
    simp
  · show (((1#1 : BitVec 1).toNat : ℝ) : EReal) = _
    simp

/-- The conjunction of two bits given by conditions. -/
theorem and_bits (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

/-- A bit given by a condition, converted to a float: 1 when the condition holds, else 0. -/
theorem mask_float (p : Prop) [Decidable p] :
    FloatOps.uitofp (F := Ideal) .f32 (if p then 1#1 else 0#1) = if p then (1 : EReal) else 0 := by
  by_cases hp : p
  · rw [if_pos hp, if_pos hp, uitofp_bit, if_pos rfl]
  · rw [if_neg hp, if_neg hp, uitofp_bit, if_neg (by decide)]

/-- Two entries of the bell at positions with equal coordinates are equal. -/
theorem bell_congr {α : Type} (bell : S128x128.Idx → α) (a a' b b' : Fin 128) (ha : a.val = a'.val)
    (hb : b.val = b'.val) : bell (ix2 a b) = bell (ix2 a' b') := by
  rw [Fin.ext ha, Fin.ext hb]

/-- The mask at (b, l, r, c) as a float: 1 when both words lie in the window, else 0. -/
theorem v57_at (b : Fin 16) (l : Fin 68) (r c : Fin 224) :
    val_main_v57 (F := Ideal) lm (ix4 b l r c)
      = if (0 ≤ (val_main_v13 (F := Ideal) lm (ix3 b l r)).toInt ∧ (val_main_v13 (F := Ideal) lm (ix3 b l r)).toInt < 128)
          ∧ (0 ≤ (val_main_v21 (F := Ideal) lm (ix3 b l c)).toInt ∧ (val_main_v21 (F := Ideal) lm (ix3 b l c)).toInt < 128)
        then (1 : EReal) else 0 := by
  have e54 : idx_main_v54 (ix4 b l r c) = ix4 b l r (0 : Fin 1) := by
    funext a; match a with | ⟨0, _⟩ => rfl | ⟨1, _⟩ => rfl | ⟨2, _⟩ => rfl | ⟨3, _⟩ => rfl
  have e52 : idx_main_v52 (ix4 b l r (0 : Fin 1)) = ix3 b l r := by
    funext a; match a with | ⟨0, _⟩ => rfl | ⟨1, _⟩ => rfl | ⟨2, _⟩ => rfl
  have e55 : idx_main_v55 (ix4 b l r c) = ix4 b l (0 : Fin 1) c := by
    funext a; match a with | ⟨0, _⟩ => rfl | ⟨1, _⟩ => rfl | ⟨2, _⟩ => rfl | ⟨3, _⟩ => rfl
  have e53 : idx_main_v53 (ix4 b l (0 : Fin 1) c) = ix3 b l c := by
    funext a; match a with | ⟨0, _⟩ => rfl | ⟨1, _⟩ => rfl | ⟨2, _⟩ => rfl
  rw [val_main_v57_apply, val_main_v56_apply, val_main_v54_apply, e54, val_main_v52_apply, e52,
    val_main_v55_apply, e55, val_main_v53_apply, e53, v26_at, v31_at, and_bits, mask_float]

/-- THE TARGET: the gathered bell times the mask at (b, l, r, c) is the specification's target heat map of the
    landmark (b, l) at (r, c). -/
theorem v58_at
    (hr : ∀ i, 0 ≤ (val_main_v1 (F := Ideal) lm i).toInt ∧ (val_main_v1 (F := Ideal) lm i).toInt ≤ 223)
    (b : Fin 16) (l : Fin 68) (r c : Fin 224) :
    val_main_v58 (F := Ideal) lm bell (ix4 b l r c)
      = target bell (val_main_v1 (F := Ideal) lm (ix3 b l (0 : Fin 2))).toInt
          (val_main_v1 (F := Ideal) lm (ix3 b l (1 : Fin 2))).toInt r c := by
  have hX : (val_main_v13 (F := Ideal) lm (ix3 b l r)).toInt
      = (r.val : ℤ) - (val_main_v1 (F := Ideal) lm (ix3 b l (1 : Fin 2))).toInt + 64 := by
    rw [v13_at]; exact word_toInt _ _ r.isLt (hr _).1 (hr _).2
  have hY : (val_main_v21 (F := Ideal) lm (ix3 b l c)).toInt
      = (c.val : ℤ) - (val_main_v1 (F := Ideal) lm (ix3 b l (0 : Fin 2))).toInt + 64 := by
    rw [v21_at]; exact word_toInt _ _ c.isLt (hr _).1 (hr _).2
  rw [val_main_v58_apply, v51_at, v57_at, Ideal.mulf_def]
  unfold target bellAt
  rw [← hX, ← hY]
  by_cases h : (0 ≤ (val_main_v13 (F := Ideal) lm (ix3 b l r)).toInt ∧ (val_main_v13 (F := Ideal) lm (ix3 b l r)).toInt < 128)
      ∧ (0 ≤ (val_main_v21 (F := Ideal) lm (ix3 b l c)).toInt ∧ (val_main_v21 (F := Ideal) lm (ix3 b l c)).toInt < 128)
  · rw [if_pos h, mul_one, dif_pos ⟨h.1.1, h.1.2, h.2.1, h.2.2⟩]
    refine bell_congr bell _ _ _ _ ?_ ?_
    · show min (IntOp.minsi 127#32 (IntOp.maxsi 0#32 (val_main_v13 (F := Ideal) lm (ix3 b l r)))).toInt.toNat 127
        = (val_main_v13 (F := Ideal) lm (ix3 b l r)).toInt.toNat
      rw [clip_eq_self _ h.1.1 h.1.2]
      have := h.1.2; omega
    · show min (IntOp.minsi 127#32 (IntOp.maxsi 0#32 (val_main_v21 (F := Ideal) lm (ix3 b l c)))).toInt.toNat 127
        = (val_main_v21 (F := Ideal) lm (ix3 b l c)).toInt.toNat
      rw [clip_eq_self _ h.2.1 h.2.2]
      have := h.2.2; omega
  · rw [if_neg h, mul_zero, dif_neg (fun hh => h ⟨⟨hh.1, hh.2.1⟩, hh.2.2⟩)]

/-! ## The squared error, the total and the loss -/

/-- The squared difference at (b, l, r, c) is the specification's squared error. -/
theorem v60_at
    (hr : ∀ i, 0 ≤ (val_main_v1 (F := Ideal) lm i).toInt ∧ (val_main_v1 (F := Ideal) lm i).toInt ≤ 223)
    (b : Fin 16) (l : Fin 68) (r c : Fin 224) :
    val_main_v60 (F := Ideal) pred lm bell (ix4 b l r c)
      = sqErr pred bell (val_main_v1 (F := Ideal) lm) b l r c := by
  rw [val_main_v60_apply, val_main_v59_apply, v58_at lm bell hr]
  rfl

/-- The sum of the squared differences over every index is the specification's total. -/
theorem v61_eq
    (hr : ∀ i, 0 ≤ (val_main_v1 (F := Ideal) lm i).toInt ∧ (val_main_v1 (F := Ideal) lm i).toInt ≤ 223) :
    val_main_v61 (F := Ideal) pred lm bell = fun _ => total pred bell (val_main_v1 (F := Ideal) lm) := by
  funext i
  rw [val_main_v61_apply, val_main_cst_apply, Ideal.ofBits_def, Ideal.ofBits_zero_f32, zero_add, sum_idx4]
  unfold total
  refine Finset.sum_congr rfl fun b _ => Finset.sum_congr rfl fun l _ => Finset.sum_congr rfl fun r _ =>
    Finset.sum_congr rfl fun c _ => v60_at pred lm bell hr b l r c

/-- THE REFERENCE IS THE LOSS: with every landmark coordinate word in [0, 223], the reference's result is the
    total squared error divided by the number of terms. (Nothing is asked of the bell: outside the window its
    clamped entry is multiplied by 0, and in the extended reals every product with 0 is 0.) -/
theorem ref_eq_of_range
    (hr : ∀ i, 0 ≤ (val_main_v1 (F := Ideal) lm i).toInt ∧ (val_main_v1 (F := Ideal) lm i).toInt ≤ 223) :
    val_main_v62 (F := Ideal) pred lm bell = loss (total pred bell (val_main_v1 (F := Ideal) lm)) := by
  unfold val_main_v62 loss
  rw [v61_eq pred lm bell hr]
  rfl

/-- The same under the further hypothesis that the bell is finite, which the argument does not use. -/
theorem ref_eq
    (hr : ∀ i, 0 ≤ (val_main_v1 (F := Ideal) lm i).toInt ∧ (val_main_v1 (F := Ideal) lm i).toInt ≤ 223)
    (_hb : ∀ i, ∃ x : ℝ, bell i = (x : EReal)) :
    val_main_v62 (F := Ideal) pred lm bell = loss (total pred bell (val_main_v1 (F := Ideal) lm)) :=
  ref_eq_of_range pred lm bell hr

end Cert.Landmark.Ref

end
-- ==== Proof.PreRange.lean ====
/-
  What the precondition says about the landmark coordinates.

  The precondition rounds the landmark array to the nearest even integer, converts it to 32-bit words, and
  asks that every one of these words, read as a signed integer, lies between 0 and 223.  The kernel's host
  code computes the same words and uses them as window offsets; here the range is read back out of the
  conjunction of "all" reductions.
-/
import proofs.«129057_j82145544503653_2_alg».proof.Pre_finite_inputs
import proofs.«129057_j82145544503653_2_alg».proof.Proof.Gen.Pre_finite_inputs
import Idealize.ShloMosaic.Lib.ReduceAll

noncomputable section

namespace Cert.Landmark

open Idealize.ShloMosaic Cert.Pre_finite_inputs

/-- A rank-0 array has exactly one index. -/
instance subsingleton_scalar_idx : Subsingleton S_.Idx := ⟨fun a b => funext fun d => d.elim0⟩

variable {F : FTy → Type} [FloatOps F]

/-- The integer pixel coordinates of the landmarks: round to nearest even, then convert to signed words. -/
def coords (lm : FVec F S16x68x2 .f32) : IVec S16x68x2 32 := fptosi 32 (Host.roundeven lm)

/-- Under the precondition every coordinate word is a signed integer in [0, 223]. -/
theorem coords_range [Facts] (a0 : FVec F S16x68x224x224 .f32) (a1 : FVec F S16x68x2 .f32) (a2 : FVec F S128x128 .f32)
    (h : fn (F := F) a0 a1 a2 = fun _ => 1#1) :
    ∀ i, 0 ≤ (coords a1 i).toInt ∧ (coords a1 i).toInt ≤ 223 := by
  intro i
  have h0 := congrFun h (fun d => d.elim0)
  dsimp only [fn, fn_part1] at h0
  obtain ⟨h1, hle⟩ := IntOp.andi_eq_one.1 h0
  obtain ⟨-, hge⟩ := IntOp.andi_eq_one.1 h1
  have hge' := IntOp.cmpi_sge.1 (Host.reduce_andi_all _ _ _ _ _ hge i)
  have hle' := IntOp.cmpi_sle.1 (Host.reduce_andi_all _ _ _ _ _ hle i)
  change (0#32 : BitVec 32).toInt ≤ (coords a1 i).toInt at hge'
  change (coords a1 i).toInt ≤ (223#32 : BitVec 32).toInt at hle'
  exact ⟨hge', hle'⟩

end Cert.Landmark

end
-- ==== Proof.WindowFits.lean ====
/-
  The window arithmetic on 32-bit words.

  A landmark coordinate v in [0, 223] (read signed) gives the window offset 256 - v, computed on words.
  No wrap-around occurs: 256 - v lies in [33, 256], so a window of 224 rows (columns) starting there ends
  at most at 480, inside the 480 x 512 padded bell.
-/
import Idealize.ShloMosaic.PureOps
import Mathlib.Tactic

namespace Cert.Landmark

open Idealize.ShloMosaic

/-- A word that reads as a signed integer in [0, 223] reads the same unsigned. -/
theorem toNat_le_of_toInt_range (x : BitVec 32) (h0 : 0 ≤ x.toInt) (h1 : x.toInt ≤ 223) : x.toNat ≤ 223 := by
  have hc := BitVec.toInt_eq_toNat_cond x
  have hlt := x.isLt
  split at hc <;> omega

/-- The offset 256 - v does not wrap, and a window of extent 224 from it ends by 480. -/
theorem offset_fits (x : BitVec 32) (h0 : 0 ≤ x.toInt) (h1 : x.toInt ≤ 223) :
    (256#32 - x).toNat + 224 ≤ 480 := by
  have hx := toNat_le_of_toInt_range x h0 h1
  rw [BitVec.toNat_sub]
  have : (256#32 : BitVec 32).toNat = 256 := rfl
  rw [this]
  omega

/-- Both offsets of a 224 x 224 window, as the kernel computes them from the two coordinate words, keep the
    window inside the 480 x 512 array. -/
theorem window_fits (x y : BitVec 32) (hx : 0 ≤ x.toInt ∧ x.toInt ≤ 223) (hy : 0 ≤ y.toInt ∧ y.toInt ≤ 223) :
    ∀ a : Fin 2, (![(Scalar.indexCast (Scalar.subi 256#32 x)).toNat, (Scalar.indexCast (Scalar.subi 256#32 y)).toNat] : Fin 2 → Nat) a
      + (⟨2, ![224, 224]⟩ : Shape).size a ≤ (⟨2, ![480, 512]⟩ : Shape).size a := by
  intro a
  match a with
  | ⟨0, _⟩ => exact offset_fits x hx.1 hx.2
  | ⟨1, _⟩ => exact le_trans (offset_fits y hy.1 hy.2) (show 480 ≤ 512 by decide)

end Cert.Landmark
-- ==== Proof.TableWords.lean ====
/-
  The two coordinate tables as functions of the coordinate array.

  The [16, 68, 2] array of coordinate words is flattened to [1088, 2]; column c is cut out as [1088, 1] and
  flattened to [1088].  All three steps keep row-major order, so word n of column c is the coordinate c of
  landmark (n / 68, n % 68):  ((n / 68) * 68 + n % 68) * 2 + c = n * 2 + c.
-/
import Idealize.ShloMosaic.Lib.Pipeline.Value
import Idealize.ShloMosaic.Lib.ValueIdx

namespace Cert.Landmark

open Idealize.ShloMosaic Idealize.ShloMosaic.ValueIdx

variable {α : Type}

/-- Landmark number n of the flattened list is landmark (n / 68, n % 68) of the 16 x 68 array; c picks the coordinate. -/
def lmIdx (n : Fin 1088) (c : Fin 2) : (⟨3, ![16, 68, 2]⟩ : Shape).Idx :=
  ix3 (⟨n.val / 68, by have := n.isLt; omega⟩ : Fin 16) (⟨n.val % 68, Nat.mod_lt _ (by decide)⟩ : Fin 68) c

/-- Word n of column c of the flattened array is the array at landmark n, coordinate c. -/
theorem column_apply (w : (⟨3, ![16, 68, 2]⟩ : Shape).Idx → α) (c : Fin 2)
    (h1 : (⟨3, ![16, 68, 2]⟩ : Shape).ShapeCasts ⟨2, ![1088, 2]⟩)
    (h2 : (⟨2, ![1088, 2]⟩ : Shape).Slices ![0, c.val] ⟨2, ![1088, 1]⟩)
    (h3 : (⟨2, ![1088, 1]⟩ : Shape).ShapeCasts ⟨1, ![1088]⟩) (n : Fin 1088) :
    shapeCast ⟨1, ![1088]⟩ (extractStridedSlice ⟨2, ![1088, 1]⟩ ![0, c.val] (shapeCast ⟨2, ![1088, 2]⟩ w h1) h2) h3 (ix1 n)
      = w (lmIdx n c) := by
  -- [1088] from [1088, 1]: position n is (n, 0)
  refine (shapeCast_apply _ h3 (ix1 n) (ix2 n (0 : Fin 1)) ?_).trans ?_
  · rw [Shape.rowMajor_val_two, Shape.rowMajor_val_one]
    show n.val * 1 + 0 = n.val
    omega
  -- the slice at column offset c: (n, 0) is (n, c)
  refine (extractStridedSlice_apply _ _ h2 (ix2 n (0 : Fin 1)) (ix2 n c) ?_).trans ?_
  · intro a
    match a with
    | ⟨0, _⟩ => show n.val = 0 + n.val; omega
    | ⟨1, _⟩ => show c.val = c.val + 0; omega
  -- [1088, 2] from [16, 68, 2]: the same row-major position
  refine shapeCast_apply _ h1 (ix2 n c) (lmIdx n c) ?_
  rw [Shape.rowMajor_val_three, Shape.rowMajor_val_two]
  show (n.val / 68 * 68 + n.val % 68) * 2 + c.val = n.val * 2 + c.val
  omega

end Cert.Landmark
-- ==== Proof.HypsIdeal.lean ====
/-
  The two hypotheses of the idealized program's frame, from the precondition.

  The host code rounds the landmark array, converts it to signed 32-bit words, and splits the flattened
  [1088, 2] array into table 0 (column 1, x) and table 1 (column 0, y).  At each grid point the body loads, for
  each of its 32 landmarks, one word x of table 0 and one word y of table 1, and reads the 224 x 224 window of
  the 480 x 512 padded bell at offsets (256 - x, 256 - y); it assumes that this window lies inside the array.
  The precondition bounds every coordinate word by 0 and 223, so each offset lies in [33, 256] and the window
  ends by row 480 and column 480.  The side condition on the tables that the pipeline itself needs is empty.
-/
import proofs.«129057_j82145544503653_2_alg».proof.Defs
import proofs.«129057_j82145544503653_2_alg».proof.Proof.Gen.KernelIdeal.Frame.Runs
import proofs.«129057_j82145544503653_2_alg».proof.Proof.Gen.Pre_finite_inputs
import proofs.«129057_j82145544503653_2_alg».proof.Proof.PreRange
import proofs.«129057_j82145544503653_2_alg».proof.Proof.WindowFits
import proofs.«129057_j82145544503653_2_alg».proof.Proof.TableWords
import Idealize.ShloMosaic.Lib.ValueIdx

set_option maxRecDepth 16384

noncomputable section

namespace Cert.Landmark.HypsIdeal

open Cert.KernelIdeal Cert.KernelIdeal.Gen
open Idealize.ShloMosaic Idealize.ShloMosaic.TcCoe Idealize.SL.Sem Idealize.ShloMosaic.Tactic Idealize.ShloMosaic.ValueIdx

variable (m : (ℓ : Loc nD τ sig) → Buf (Elt Ideal) ℓ)

/-- The landmark array the one device holds when the program starts. -/
abbrev lms : FVec Ideal S16x68x2 .f32 := m (((0 : Dev nD) : Thread nD τ).loc main_arg1)

/-! ## The tables' contents -/

/-- Table 0 is the flattened column 1 (x) of the coordinate words. -/
theorem tbl0_eq : (tbl m 0 : S1088.Idx → BitVec 32)
    = shapeCast S1088 (extractStridedSlice S1088x1 ![0, 1] (shapeCast S1088x2 (coords (lms m)) shapeCasts_S16x68x2_S1088x2) slices_S1088x2_S1088x1_0_1) shapeCasts_S1088x1_S1088 := by
  show V m (0 : Dev nD) main_v6 = _
  dsimp only [Gen.V, Gen.V0]
  simp only [Gen.hostOps0, Gen.hostOps0_1, Gen.hostOps0_2, List.flatten_cons, List.flatten_nil, List.append_nil, List.cons_append, List.nil_append]
  after_results
  rfl

/-- Table 1 is the flattened column 0 (y) of the coordinate words. -/
theorem tbl1_eq : (tbl m 1 : S1088.Idx → BitVec 32)
    = shapeCast S1088 (extractStridedSlice S1088x1 ![0, 0] (shapeCast S1088x2 (coords (lms m)) shapeCasts_S16x68x2_S1088x2) slices_S1088x2_S1088x1_0_0) shapeCasts_S1088x1_S1088 := by
  show V m (0 : Dev nD) main_v4 = _
  dsimp only [Gen.V, Gen.V0]
  simp only [Gen.hostOps0, Gen.hostOps0_1, Gen.hostOps0_2, List.flatten_cons, List.flatten_nil, List.append_nil, List.cons_append, List.nil_append]
  after_results
  rfl

/-- Word n of table 0 is the x coordinate of landmark (n / 68, n % 68). -/
theorem tbl0_apply (n : Fin 1088) : (tbl m 0 : S1088.Idx → BitVec 32) (ix1 n) = coords (lms m) (lmIdx n 1) := by
  rw [tbl0_eq]
  exact column_apply (coords (lms m)) 1 shapeCasts_S16x68x2_S1088x2 slices_S1088x2_S1088x1_0_1 shapeCasts_S1088x1_S1088 n

/-- Word n of table 1 is the y coordinate of landmark (n / 68, n % 68). -/
theorem tbl1_apply (n : Fin 1088) : (tbl m 1 : S1088.Idx → BitVec 32) (ix1 n) = coords (lms m) (lmIdx n 0) := by
  rw [tbl1_eq]
  exact column_apply (coords (lms m)) 0 shapeCasts_S16x68x2_S1088x2 slices_S1088x2_S1088x1_0_0 shapeCasts_S1088x1_S1088 n

/-! ## The word a scalar load reads -/

/-- A one-word rectangle of a [1088] table at an offset inside it names the word at that offset. -/
def wordAt (off : Fin 1 → Nat) (inb : ∀ a, off a + S1.size a ≤ S1088.size a) : Fin 1088 :=
  ⟨off 0, by have := inb 0; have e : S1.size 0 = 1 := rfl; have e' : S1088.size 0 = 1088 := rfl; omega⟩

theorem idx_eq (off : Fin 1 → Nat) (inb : ∀ a, off a + S1.size a ≤ S1088.size a) (h1 : 0 < S1.numel) :
    (Rect.unit (s := S1088) off S1.size inb).idx (Shape.Idx.first h1) = ix1 (wordAt off inb) := by
  funext a
  apply Fin.ext
  match a with
  | ⟨0, _⟩ =>
    show off 0 + 1 * (Shape.Idx.first h1 (0 : Fin 1)).val = off 0
    have : (Shape.Idx.first h1 (0 : Fin 1)).val = 0 := rfl
    rw [this]; omega

/-- Reading that rectangle through table 0's whole memref gives the table's word there. -/
theorem word0 (T : S1088.Idx → BitVec 32) (off : Fin 1 → Nat) (inb : ∀ a, off a + S1.size a ≤ S1088.size a) (h1 : 0 < S1.numel) :
    tbM0_0.view.readAt (Elt Ideal) (Rect.unit (s := S1088) off S1.size inb).toLoadRect T (Shape.Idx.first h1)
      = T (ix1 (wordAt off inb)) :=
  congrArg T (idx_eq off inb h1)

/-- The same through table 1's. -/
theorem word1 (T : S1088.Idx → BitVec 32) (off : Fin 1 → Nat) (inb : ∀ a, off a + S1.size a ≤ S1088.size a) (h1 : 0 < S1.numel) :
    tbM0_1.view.readAt (Elt Ideal) (Rect.unit (s := S1088) off S1.size inb).toLoadRect T (Shape.Idx.first h1)
      = T (ix1 (wordAt off inb)) :=
  congrArg T (idx_eq off inb h1)

/-! ## From the precondition -/

/-- The pipeline's side condition on the tables is empty: no window's index map reads a table. -/
theorem ok_of_pre (h : Cert.Pre_KernelIdeal m) : Ok m := trivial

/-- Every word of either table is a coordinate word, hence in [0, 223]. -/
theorem tbl_range (h : Cert.Pre_KernelIdeal m) (n : Fin 1088) :
    (0 ≤ ((tbl m 0 : S1088.Idx → BitVec 32) (ix1 n)).toInt ∧ ((tbl m 0 : S1088.Idx → BitVec 32) (ix1 n)).toInt ≤ 223)
    ∧ (0 ≤ ((tbl m 1 : S1088.Idx → BitVec 32) (ix1 n)).toInt ∧ ((tbl m 1 : S1088.Idx → BitVec 32) (ix1 n)).toInt ≤ 223) := by
  have hr := coords_range (F := Ideal) _ (lms m) _ (h 0)
  rw [tbl0_apply, tbl1_apply]
  exact ⟨hr _, hr _⟩

/-- The window of the two words a point loads at one offset of the tables lies inside the padded bell. -/
theorem fits_at (h : Cert.Pre_KernelIdeal m) (off : Fin 1 → Nat) (inb : ∀ a, off a + S1.size a ≤ S1088.size a) (h1 : 0 < S1.numel) :
    ∀ a : Fin 2,
      (![(Scalar.indexCast (Scalar.subi 256#32
            (tbM0_0.view.readAt (Elt Ideal) (Rect.unit (s := S1088) off S1.size inb).toLoadRect (tbl m 0) (Shape.Idx.first h1)))).toNat,
         (Scalar.indexCast (Scalar.subi 256#32
            (tbM0_1.view.readAt (Elt Ideal) (Rect.unit (s := S1088) off S1.size inb).toLoadRect (tbl m 1) (Shape.Idx.first h1)))).toNat] : Fin 2 → Nat) a
        + S224x224.size a ≤ S480x512.size a := by
  rw [word0 (tbl m 0) off inb h1, word1 (tbl m 1) off inb h1]
  exact window_fits _ _ (tbl_range m h _).1 (tbl_range m h _).2

/-- Every side condition the body assumes of the words it loads holds: at each of the 32 landmarks of a grid
    point the two words are coordinate words, so the 224 x 224 window at (256 - x, 256 - y) fits. -/
theorem hyps_of_pre (h : Cert.Pre_KernelIdeal m) : Hyps m (ok_of_pre m h) :=
  Hyps.of
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)

end Cert.Landmark.HypsIdeal

end
-- ==== Proof.HypsBits.lean ====
/-
  The two hypotheses of the word-level program's frame, from the precondition.

  The host code rounds the landmark array, converts it to signed 32-bit words, and splits the flattened
  [1088, 2] array into table 0 (column 1, x) and table 1 (column 0, y).  At each grid point the body loads, for
  each of its 32 landmarks, one word x of table 0 and one word y of table 1, and reads the 224 x 224 window of
  the 480 x 512 padded bell at offsets (256 - x, 256 - y); it assumes that this window lies inside the array.
  The precondition bounds every coordinate word by 0 and 223, so each offset lies in [33, 256] and the window
  ends by row 480 and column 480.  The side condition on the tables that the pipeline itself needs is empty.
-/
import proofs.«129057_j82145544503653_2_alg».proof.Defs
import proofs.«129057_j82145544503653_2_alg».proof.Proof.Gen.Kernel.Frame.Runs
import proofs.«129057_j82145544503653_2_alg».proof.Proof.Gen.Pre_finite_inputs
import proofs.«129057_j82145544503653_2_alg».proof.Proof.PreRange
import proofs.«129057_j82145544503653_2_alg».proof.Proof.WindowFits
import proofs.«129057_j82145544503653_2_alg».proof.Proof.TableWords
import Idealize.ShloMosaic.Lib.ValueIdx

set_option maxRecDepth 16384

noncomputable section

namespace Cert.Landmark.HypsBits

open Cert.Kernel Cert.Kernel.Gen
open Idealize.ShloMosaic Idealize.ShloMosaic.TcCoe Idealize.SL.Sem Idealize.ShloMosaic.Tactic Idealize.ShloMosaic.ValueIdx

variable (m : (ℓ : Loc nD τ sig) → Buf (Elt Bits) ℓ)

/-- The landmark array the one device holds when the program starts. -/
abbrev lms : FVec Bits S16x68x2 .f32 := m (((0 : Dev nD) : Thread nD τ).loc main_arg1)

/-! ## The tables' contents -/

/-- Table 0 is the flattened column 1 (x) of the coordinate words. -/
theorem tbl0_eq : (tbl m 0 : S1088.Idx → BitVec 32)
    = shapeCast S1088 (extractStridedSlice S1088x1 ![0, 1] (shapeCast S1088x2 (coords (lms m)) shapeCasts_S16x68x2_S1088x2) slices_S1088x2_S1088x1_0_1) shapeCasts_S1088x1_S1088 := by
  show V m (0 : Dev nD) main_v6 = _
  dsimp only [Gen.V, Gen.V0]
  simp only [Gen.hostOps0, Gen.hostOps0_1, Gen.hostOps0_2, List.flatten_cons, List.flatten_nil, List.append_nil, List.cons_append, List.nil_append]
  after_results
  rfl

/-- Table 1 is the flattened column 0 (y) of the coordinate words. -/
theorem tbl1_eq : (tbl m 1 : S1088.Idx → BitVec 32)
    = shapeCast S1088 (extractStridedSlice S1088x1 ![0, 0] (shapeCast S1088x2 (coords (lms m)) shapeCasts_S16x68x2_S1088x2) slices_S1088x2_S1088x1_0_0) shapeCasts_S1088x1_S1088 := by
  show V m (0 : Dev nD) main_v4 = _
  dsimp only [Gen.V, Gen.V0]
  simp only [Gen.hostOps0, Gen.hostOps0_1, Gen.hostOps0_2, List.flatten_cons, List.flatten_nil, List.append_nil, List.cons_append, List.nil_append]
  after_results
  rfl

/-- Word n of table 0 is the x coordinate of landmark (n / 68, n % 68). -/
theorem tbl0_apply (n : Fin 1088) : (tbl m 0 : S1088.Idx → BitVec 32) (ix1 n) = coords (lms m) (lmIdx n 1) := by
  rw [tbl0_eq]
  exact column_apply (coords (lms m)) 1 shapeCasts_S16x68x2_S1088x2 slices_S1088x2_S1088x1_0_1 shapeCasts_S1088x1_S1088 n

/-- Word n of table 1 is the y coordinate of landmark (n / 68, n % 68). -/
theorem tbl1_apply (n : Fin 1088) : (tbl m 1 : S1088.Idx → BitVec 32) (ix1 n) = coords (lms m) (lmIdx n 0) := by
  rw [tbl1_eq]
  exact column_apply (coords (lms m)) 0 shapeCasts_S16x68x2_S1088x2 slices_S1088x2_S1088x1_0_0 shapeCasts_S1088x1_S1088 n

/-! ## The word a scalar load reads -/

/-- A one-word rectangle of a [1088] table at an offset inside it names the word at that offset. -/
def wordAt (off : Fin 1 → Nat) (inb : ∀ a, off a + S1.size a ≤ S1088.size a) : Fin 1088 :=
  ⟨off 0, by have := inb 0; have e : S1.size 0 = 1 := rfl; have e' : S1088.size 0 = 1088 := rfl; omega⟩

theorem idx_eq (off : Fin 1 → Nat) (inb : ∀ a, off a + S1.size a ≤ S1088.size a) (h1 : 0 < S1.numel) :
    (Rect.unit (s := S1088) off S1.size inb).idx (Shape.Idx.first h1) = ix1 (wordAt off inb) := by
  funext a
  apply Fin.ext
  match a with
  | ⟨0, _⟩ =>
    show off 0 + 1 * (Shape.Idx.first h1 (0 : Fin 1)).val = off 0
    have : (Shape.Idx.first h1 (0 : Fin 1)).val = 0 := rfl
    rw [this]; omega

/-- Reading that rectangle through table 0's whole memref gives the table's word there. -/
theorem word0 (T : S1088.Idx → BitVec 32) (off : Fin 1 → Nat) (inb : ∀ a, off a + S1.size a ≤ S1088.size a) (h1 : 0 < S1.numel) :
    tbM0_0.view.readAt (Elt Bits) (Rect.unit (s := S1088) off S1.size inb).toLoadRect T (Shape.Idx.first h1)
      = T (ix1 (wordAt off inb)) :=
  congrArg T (idx_eq off inb h1)

/-- The same through table 1's. -/
theorem word1 (T : S1088.Idx → BitVec 32) (off : Fin 1 → Nat) (inb : ∀ a, off a + S1.size a ≤ S1088.size a) (h1 : 0 < S1.numel) :
    tbM0_1.view.readAt (Elt Bits) (Rect.unit (s := S1088) off S1.size inb).toLoadRect T (Shape.Idx.first h1)
      = T (ix1 (wordAt off inb)) :=
  congrArg T (idx_eq off inb h1)

/-! ## From the precondition -/

/-- The pipeline's side condition on the tables is empty: no window's index map reads a table. -/
theorem ok_of_pre (h : Cert.Pre_Kernel m) : Ok m := trivial

/-- Every word of either table is a coordinate word, hence in [0, 223]. -/
theorem tbl_range (h : Cert.Pre_Kernel m) (n : Fin 1088) :
    (0 ≤ ((tbl m 0 : S1088.Idx → BitVec 32) (ix1 n)).toInt ∧ ((tbl m 0 : S1088.Idx → BitVec 32) (ix1 n)).toInt ≤ 223)
    ∧ (0 ≤ ((tbl m 1 : S1088.Idx → BitVec 32) (ix1 n)).toInt ∧ ((tbl m 1 : S1088.Idx → BitVec 32) (ix1 n)).toInt ≤ 223) := by
  have hr := coords_range (F := Bits) _ (lms m) _ (h 0)
  rw [tbl0_apply, tbl1_apply]
  exact ⟨hr _, hr _⟩

/-- The window of the two words a point loads at one offset of the tables lies inside the padded bell. -/
theorem fits_at (h : Cert.Pre_Kernel m) (off : Fin 1 → Nat) (inb : ∀ a, off a + S1.size a ≤ S1088.size a) (h1 : 0 < S1.numel) :
    ∀ a : Fin 2,
      (![(Scalar.indexCast (Scalar.subi 256#32
            (tbM0_0.view.readAt (Elt Bits) (Rect.unit (s := S1088) off S1.size inb).toLoadRect (tbl m 0) (Shape.Idx.first h1)))).toNat,
         (Scalar.indexCast (Scalar.subi 256#32
            (tbM0_1.view.readAt (Elt Bits) (Rect.unit (s := S1088) off S1.size inb).toLoadRect (tbl m 1) (Shape.Idx.first h1)))).toNat] : Fin 2 → Nat) a
        + S224x224.size a ≤ S480x512.size a := by
  rw [word0 (tbl m 0) off inb h1, word1 (tbl m 1) off inb h1]
  exact window_fits _ _ (tbl_range m h _).1 (tbl_range m h _).2

/-- Every side condition the body assumes of the words it loads holds: at each of the 32 landmarks of a grid
    point the two words are coordinate words, so the 224 x 224 window at (256 - x, 256 - y) fits. -/
theorem hyps_of_pre (h : Cert.Pre_Kernel m) : Hyps m (ok_of_pre m h) :=
  Hyps.of
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)
    (fun c t => fits_at m h _ _ _)

end Cert.Landmark.HypsBits

end
-- ==== Proof.LibAfter.lean ====
/-
  Host operations run one list after another are the concatenated list run once; so the contents after a list of host
  operations can be read in two steps, cut at any position.
-/
import Idealize.ShloMosaic.Lib.StableHlo.Run

noncomputable section

namespace Cert.LibAfter

open Idealize.ShloMosaic Idealize.ShloMosaic.StableHlo

theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => simp only [List.cons_append, after_cons, ih]

/-- The contents after a list: those after its first k operations, then the rest run from there. -/
theorem after_cut {τ : Topo} {sig : RefSig} {Val : EltTy → Type} (k : ℕ) (l : List (HloOp τ sig Val))
    (V : Valuation τ sig Val) : after l V = after (l.drop k) (after (l.take k) V) := by
  rw [← after_append, List.take_append_drop]

end Cert.LibAfter

end
-- ==== Proof.Assemble.lean ====
/-
  The five claims, each from its parts.

  The two frame claims of the program follow from the generated frame once the precondition gives the side
  conditions the program assumes of the coordinate words. The reference's frame claim is its generated run.
  For the value claim, with exact arithmetic: the program's result is the loss of the sum of the region's
  output array; that array ends as the two halves of per-position partial sums of squared errors, whose sum is
  the total squared error; and the reference's result is the loss of the same total, because the
  precondition puts every coordinate word in [0, 223].
-/
import proofs.«129057_j82145544503653_2_alg».proof.Defs
import proofs.«129057_j82145544503653_2_alg».proof.Proof.Tail
import proofs.«129057_j82145544503653_2_alg».proof.Proof.KernelSums
import proofs.«129057_j82145544503653_2_alg».proof.Proof.RefValue
import proofs.«129057_j82145544503653_2_alg».proof.Proof.HypsIdeal
import proofs.«129057_j82145544503653_2_alg».proof.Proof.HypsBits
import proofs.«129057_j82145544503653_2_alg».proof.Proof.PreRange
import proofs.«129057_j82145544503653_2_alg».proof.Proof.Gen.Kernel.Frame
import proofs.«129057_j82145544503653_2_alg».proof.Proof.Gen.KernelIdeal.Frame
import proofs.«129057_j82145544503653_2_alg».proof.Proof.RefRun
import proofs.«129057_j82145544503653_2_alg».proof.Proof.RefRead

noncomputable section

namespace Cert.Proof.Parts

open Idealize.ShloMosaic Idealize.ShloMosaic.TcCoe Idealize.SL.Sem
open Cert.Landmark

/-- The program as printed runs and leaves its arguments unchanged. -/
theorem frame_k : Cert.frame_Kernel := fun m ρ h =>
  Cert.Kernel.Gen.frame m ρ (Cert.Landmark.HypsBits.ok_of_pre m h) (Cert.Landmark.HypsBits.hyps_of_pre m h)

/-- The program with exact arithmetic runs and leaves its arguments unchanged. -/
theorem frame_ki : Cert.frame_KernelIdeal := fun m ρ h =>
  Cert.KernelIdeal.Gen.frame m ρ (Cert.Landmark.HypsIdeal.ok_of_pre m h) (Cert.Landmark.HypsIdeal.hyps_of_pre m h)

/-- The reference with exact arithmetic runs and leaves its arguments unchanged. -/
theorem frame_ri : Cert.frame_ReferenceIdeal := fun m ρ _ =>
  (θ_run Cert.ReferenceIdeal.defs _ _).mono (fun _ h c => (h c).2) (Cert.ReferenceIdeal.ValueP.run (F := Ideal) m ρ)

/-- No operation was rewritten on the way to exact arithmetic. -/
theorem preserves : Cert.preserves_Kernel_KernelIdeal := trivial

/-- With exact arithmetic both programs end with the loss of the total squared error, once the region's output
    array is known to end as the two halves of partial sums: the sum of the two halves is the total; the
    reference's result is the loss of the total because every coordinate word lies in [0, 223]. -/
theorem algebraic_of_final
    (hfinal : ∀ (m : (ℓ : Loc Cert.KernelIdeal.nD Cert.KernelIdeal.τ Cert.KernelIdeal.sig) → Buf (Elt Ideal) ℓ)
      (h : Cert.Pre_KernelIdeal m) (c : Dev Cert.KernelIdeal.nD),
      ((Cert.KernelIdeal.Gen.dats m (Cert.Landmark.HypsIdeal.ok_of_pre m h) (Cert.Landmark.HypsIdeal.hyps_of_pre m h) 0 c).arrAt 2
          (Cert.KernelIdeal.Gen.cfgM m (Cert.Landmark.HypsIdeal.ok_of_pre m h)).N : Cert.KernelIdeal.S2x224x224.Idx → EReal)
        = outArr (m ((c.tc : Thread Cert.KernelIdeal.nD Cert.KernelIdeal.τ).loc Cert.KernelIdeal.main_arg0))
            (m ((c.tc : Thread Cert.KernelIdeal.nD Cert.KernelIdeal.τ).loc Cert.KernelIdeal.main_arg2))
            (coords (F := Ideal) (m ((c.tc : Thread Cert.KernelIdeal.nD Cert.KernelIdeal.τ).loc Cert.KernelIdeal.main_arg1)))) :
    Cert.algebraic_KernelIdeal_ReferenceIdeal := by
  intro m ρ m' ρ' hpre hagree
  refine ⟨fun c => loss (total (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (coords (F := Ideal) (m ((c.tc : Thread Cert.KernelIdeal.nD Cert.KernelIdeal.τ).loc Cert.KernelIdeal.main_arg1)))), ?_, ?_⟩
  · refine (θ_run Cert.KernelIdeal.defs _ _).mono (fun r h c => ⟨(h c).1.trans ?_, (h c).2⟩)
      (Cert.Landmark.Glue.run_loss m ρ (Cert.Landmark.HypsIdeal.ok_of_pre m hpre) (Cert.Landmark.HypsIdeal.hyps_of_pre m hpre)
        (fun c => outArr (m ((c.tc : Thread Cert.KernelIdeal.nD Cert.KernelIdeal.τ).loc Cert.KernelIdeal.main_arg0))
          (m ((c.tc : Thread Cert.KernelIdeal.nD Cert.KernelIdeal.τ).loc Cert.KernelIdeal.main_arg2))
          (coords (F := Ideal) (m ((c.tc : Thread Cert.KernelIdeal.nD Cert.KernelIdeal.τ).loc Cert.KernelIdeal.main_arg1))))
        (fun c => hfinal m hpre c))
    exact congrArg loss (sum_outArr _ _ _)
  · refine (θ_run Cert.ReferenceIdeal.defs _ _).mono (fun _ h c => ⟨(h c).1.trans ?_, (h c).2⟩)
      (Cert.ReferenceIdeal.ValueP.run (F := Ideal) m' ρ')
    rw [(hagree c).1, (hagree c).2.1, (hagree c).2.2]
    exact Cert.Landmark.Ref.ref_eq_of_range _ _ _ (coords_range (F := Ideal) _ _ _ (hpre c))

/-- The whole claim, once the region's output array is known to end as the two halves of partial sums. -/
theorem claim_of_final
    (hfinal : ∀ (m : (ℓ : Loc Cert.KernelIdeal.nD Cert.KernelIdeal.τ Cert.KernelIdeal.sig) → Buf (Elt Ideal) ℓ)
      (h : Cert.Pre_KernelIdeal m) (c : Dev Cert.KernelIdeal.nD),
      ((Cert.KernelIdeal.Gen.dats m (Cert.Landmark.HypsIdeal.ok_of_pre m h) (Cert.Landmark.HypsIdeal.hyps_of_pre m h) 0 c).arrAt 2
          (Cert.KernelIdeal.Gen.cfgM m (Cert.Landmark.HypsIdeal.ok_of_pre m h)).N : Cert.KernelIdeal.S2x224x224.Idx → EReal)
        = outArr (m ((c.tc : Thread Cert.KernelIdeal.nD Cert.KernelIdeal.τ).loc Cert.KernelIdeal.main_arg0))
            (m ((c.tc : Thread Cert.KernelIdeal.nD Cert.KernelIdeal.τ).loc Cert.KernelIdeal.main_arg2))
            (coords (F := Ideal) (m ((c.tc : Thread Cert.KernelIdeal.nD Cert.KernelIdeal.τ).loc Cert.KernelIdeal.main_arg1)))) :
    Cert.Claim :=
  ⟨Cert.Kernel.Gen.facts, Cert.KernelIdeal.Gen.facts, Cert.ReferenceIdeal.Gen.facts, Cert.Pre_finite_inputs.Gen.facts,
    frame_k, frame_ki, frame_ri, preserves, algebraic_of_final hfinal⟩

end Cert.Proof.Parts
end
-- ==== Proof.PieceDefs.lean ====
/-
  Vocabulary for one landmark's contribution to the kernel's accumulator.

  At a grid step the kernel reads, for each of its 32 landmarks, two coordinate words from the tables, a
  224 x 224 window of the padded bell whose corner the words determine, and the landmark's 224 x 224 slice
  of the prediction block; it adds the square of their difference to the accumulator. This module names
  those three reads and the squared difference, and records two facts about reading staged buffers: reading
  the whole of a buffer after a list of stores gives what the stores left, and a load through a memref that
  holds an array reads the array.
-/
import proofs.«129057_j82145544503653_2_alg».proof.Proof.Gen.KernelIdeal.Frame
import Idealize.ShloMosaic.Lib.Pipeline.Value
import Idealize.ShloMosaic.Lib.ValueIdx
import Idealize.ShloMosaic.PureOps.Ideal
import Idealize.ShloMosaic.PureOps.Ideal.Laws

noncomputable section

namespace Cert.Landmark.Piece

open Idealize.ShloMosaic Idealize.ShloMosaic.TcCoe Idealize.ShloMosaic.ValueIdx
open Idealize.SL.Sem
open Cert.KernelIdeal Cert.KernelIdeal.Gen

/-- The two zero offsets of a rank-2 whole-buffer access, however they are spelt. -/
theorem hz2 : (![0, 0] : Fin 2 → ℕ) = fun _ => 0 := by
  funext a; match a with | ⟨0, _⟩ => rfl | ⟨1, _⟩ => rfl

/-- Reading the whole buffer back after a list of stores gives what the stores left in it. -/
theorem readCov_whole {sig : RefSig} {κ : Kind} {sp : Space} {S : Shape} {e : EltTy} {Val : EltTy → Type}
    [∀ e, Nonempty (Val e)] (v : View sig κ sp S e) (L : List (View.Piece Val S e)) {off : Fin S.rank → Nat}
    (h : off = fun _ => 0) (inb : ∀ a, off a + S.size a ≤ S.size a) :
    v.readCov L (Rect.unit off S.size inb).toLoadRect = View.canon L := by
  rw [View.readCov_eq_canon']
  subst h
  funext j
  show View.canon L ((Rect.whole S).emb j) = View.canon L j
  rw [Rect.emb_whole_apply]

/-- The squared difference of a prediction and a target value. -/
def sqd (p w : EReal) : EReal := (p - w) * (p - w)

/-- Landmark j's slice of the staged prediction block, at image position idx. -/
def predAt (x1 : S1x32x224x224.Idx → EReal) (j : Fin 32) (idx : S224x224.Idx) : EReal :=
  x1 (ix4 (0 : Fin 1) j (idx 0) (idx 1))

/-- The staged padded bell read at corner off plus image position idx (zero if that falls outside, which the
    kernel's side conditions exclude). -/
def winRead (x0 : S480x512.Idx → EReal) (off : Fin 2 → ℕ) (idx : S224x224.Idx) : EReal :=
  if h : off 0 + (idx 0).val < 480 ∧ off 1 + (idx 1).val < 512 then
    x0 (ix2 (⟨off 0 + (idx 0).val, h.1⟩ : Fin 480) (⟨off 1 + (idx 1).val, h.2⟩ : Fin 512))
  else 0

/-- The word a table holds at a one-word offset, as the kernel's scalar load reads it. -/
abbrev wordOf (c : Dev nD) (M : Memref sig .tc .smem S1088 .i32) (xt : TbBuf0 (F := Ideal) c M)
    (off : Fin 1 → ℕ) (inb : ∀ a, off a + S1.size a ≤ S1088.size a) : BitVec 32 :=
  M.view.readAt (Elt Ideal) (Rect.unit (s := S1088) off S1.size inb).toLoadRect xt
    (Shape.Idx.first (numel1_S1.symm ▸ Nat.one_pos))

end Cert.Landmark.Piece

end
-- ==== Proof.PieceRead.lean ====
/-
  Reading the kernel's staged buffers at an index.

  A load through a memref that holds an array reads the array; a [1,1,224,224] slice recast as a 224 x 224 image
  keeps its positions; one landmark's update adds the squared difference of the prediction slice and the bell
  window to the accumulator; the prediction block through landmark j's unit slice is the block at (0, j, r, c);
  the padded bell through a 224 x 224 window at a corner is the bell at corner plus position; and a 224 x 224
  buffer read through its whole rectangle is read position by position.
-/
import proofs.«129057_j82145544503653_2_alg».proof.Proof.PieceDefs

set_option maxRecDepth 16384

noncomputable section

namespace Cert.Landmark.Piece

open Idealize.ShloMosaic Idealize.ShloMosaic.TcCoe Idealize.ShloMosaic.ValueIdx
open Idealize.SL.Sem
open Cert.KernelIdeal Cert.KernelIdeal.Gen

/-- A load through a memref that holds the array x reads x through the rectangle. -/
theorem readAt_whole {S : Shape} {sp : Space} (M : Memref sig .tc sp S .f32) (hM : M.IsWhole) (x : S.Idx → EReal) (R : LoadRect S) :
    View.readAt (Elt Ideal) M.view R (hM.unread x) = fun j => x (R.idx j) := by
  funext j
  rw [View.readAt_apply, hM.read_unread]

/-- A [1,1,224,224] slice recast as a [224,224] image: position (r, c) is the slice's (0, 0, r, c). -/
theorem slice_cast (P : S1x1x224x224.Idx → EReal) (idx : S224x224.Idx) :
    shapeCast S224x224 P shapeCasts_S1x1x224x224_S224x224 idx = P (ix4 (0 : Fin 1) (0 : Fin 1) (idx 0) (idx 1)) := by
  refine shapeCast_apply P _ idx _ ?_
  rw [Shape.rowMajor_val_four, Shape.rowMajor_val_two]
  show ((0 * 1 + 0) * 224 + (idx 0).val) * 224 + (idx 1).val = (idx 0).val * 224 + (idx 1).val
  omega

/-- One landmark's update of the accumulator, at an image position: the old value plus the squared difference of
    the prediction slice and the bell window there. -/
theorem pay_regular (W : S224x224.Idx → EReal) (P : S1x1x224x224.Idx → EReal) (acc : S224x224.Idx → EReal) (idx : S224x224.Idx) :
    k0_pay4 (F := Ideal) W P acc idx = acc idx + sqd (P (ix4 (0 : Fin 1) (0 : Fin 1) (idx 0) (idx 1))) (W idx) := by
  unfold k0_pay4
  rw [shapeCast_self]
  show acc idx + (shapeCast S224x224 P shapeCasts_S1x1x224x224_S224x224 idx - shapeCast S224x224 W shapeCasts_S224x224_S224x224 idx)
      * (shapeCast S224x224 P shapeCasts_S1x1x224x224_S224x224 idx - shapeCast S224x224 W shapeCasts_S224x224_S224x224 idx) = _
  rw [slice_cast, shapeCast_self]
  rfl

/-- The prediction block read through landmark j's unit slice, at (0, 0, r, c), is the block at (0, j, r, c). -/
theorem pred_idx (x1 : S1x32x224x224.Idx → EReal) (j : Fin 32) (off : Fin 4 → ℕ) (hoff : off = ![0, j.val, 0, 0])
    (inb : ∀ a, off a + S1x1x224x224.size a ≤ S1x32x224x224.size a) (idx : S224x224.Idx) :
    x1 ((Rect.unit (s := S1x32x224x224) off S1x1x224x224.size inb).toLoadRect.idx (ix4 (0 : Fin 1) (0 : Fin 1) (idx 0) (idx 1))) = predAt x1 j idx := by
  subst hoff
  unfold predAt
  refine congrArg x1 (funext fun a => Fin.ext ?_)
  match a with
  | ⟨0, _⟩ => rfl
  | ⟨1, _⟩ => show j.val + 1 * 0 = j.val; omega
  | ⟨2, _⟩ => show 0 + 1 * (idx 0).val = (idx 0).val; omega
  | ⟨3, _⟩ => show 0 + 1 * (idx 1).val = (idx 1).val; omega

/-- The padded bell read through a 224 x 224 window at corner off. -/
theorem win_idx (x0 : S480x512.Idx → EReal) (off : Fin 2 → ℕ)
    (inb : ∀ a, off a + S224x224.size a ≤ S480x512.size a) (idx : S224x224.Idx) :
    x0 ((Rect.unit (s := S480x512) off S224x224.size inb).toLoadRect.idx idx) = winRead x0 off idx := by
  have h0 : off 0 + (idx 0).val < 480 := by
    have := inb 0; have := (idx 0).isLt
    show off 0 + (idx 0).val < 480
    have e : S224x224.size 0 = 224 := rfl
    have e' : S480x512.size 0 = 480 := rfl
    omega
  have h1 : off 1 + (idx 1).val < 512 := by
    have := inb 1; have := (idx 1).isLt
    have e : S224x224.size 1 = 224 := rfl
    have e' : S480x512.size 1 = 512 := rfl
    omega
  unfold winRead
  rw [dif_pos ⟨h0, h1⟩]
  refine congrArg x0 (funext fun a => Fin.ext ?_)
  match a with
  | ⟨0, _⟩ => show off 0 + 1 * (idx 0).val = off 0 + (idx 0).val; omega
  | ⟨1, _⟩ => show off 1 + 1 * (idx 1).val = off 1 + (idx 1).val; omega

/-- Reading a 224 x 224 buffer through its whole rectangle at position idx reads position idx. -/
theorem whole_read (x : S224x224.Idx → EReal) (inb : ∀ a, (![0, 0] : Fin 2 → ℕ) a + S224x224.size a ≤ S224x224.size a) (idx : S224x224.Idx) :
    x ((Rect.unit (s := S224x224) ![0, 0] S224x224.size inb).toLoadRect.idx idx) = x idx := by
  refine congrArg x (funext fun a => Fin.ext ?_)
  match a with
  | ⟨0, _⟩ => show 0 + 1 * (idx 0).val = (idx 0).val; omega
  | ⟨1, _⟩ => show 0 + 1 * (idx 1).val = (idx 1).val; omega

/-- The three zero offsets of a rank-3 whole-buffer access. -/
theorem hz3 : (![0, 0, 0] : Fin 3 → ℕ) = fun _ => 0 := by
  funext a; match a with | ⟨0, _⟩ => rfl | ⟨1, _⟩ => rfl | ⟨2, _⟩ => rfl

/-- A 224 x 224 image recast as a [1,224,224] block: position (0, r, c) is the image's (r, c). -/
theorem image_cast (v : S224x224.Idx → EReal) (y : S1x224x224.Idx) :
    shapeCast S1x224x224 v shapeCasts_S224x224_S1x224x224 y = v (ix2 (y 1) (y 2)) := by
  refine shapeCast_apply v _ y _ ?_
  rw [Shape.rowMajor_val_two, Shape.rowMajor_val_three]
  have h0 : (y 0).val = 0 := by have := (y 0).isLt; show (y 0).val = 0; have e : S1x224x224.size 0 = 1 := rfl; omega
  show (y 1).val * 224 + (y 2).val = ((y 0).val * 224 + (y 1).val) * 224 + (y 2).val
  rw [h0]; omega

end Cert.Landmark.Piece

end
-- ==== Proof.ChainA.lean ====
/-
  The accumulator after a grid step that opens a half.

  The step first clears the accumulator and then visits its 32 landmarks in order, each time adding the
  squared difference of the landmark's prediction slice and its window of the padded bell. Store by store the
  accumulator is the previous contents plus that landmark's term, so after the step it holds, at every image
  position, zero plus the 32 terms in order.
-/
import proofs.«129057_j82145544503653_2_alg».proof.Proof.PieceRead

set_option maxRecDepth 16384

noncomputable section

namespace Cert.Landmark.Piece

open Idealize.ShloMosaic Idealize.ShloMosaic.TcCoe Idealize.ShloMosaic.ValueIdx
open Idealize.SL.Sem
open Cert.KernelIdeal Cert.KernelIdeal.Gen

set_option maxHeartbeats 16000000 in
theorem chainA (c : Dev nD) (i : grid0.Coords) (arg4 : Memref sig .tc .vmem S480x512 .f32) (harg4 : arg4.IsWhole) (arg5 : Memref sig .tc .vmem S1x32x224x224 .f32) (harg5 : arg5.IsWhole) (arg6 : Memref sig .tc .vmem S1x224x224 .f32) (harg6 : arg6.IsWhole) (arg7 : Memref sig .tc .vmem S224x224 .f32) (harg7 : arg7.IsWhole) (hc0 : cond0_0 i) (hc1 : ¬cond0_1 i) (x0 : Vec Ideal S480x512 .f32) (x1 : Vec Ideal S1x32x224x224 .f32) (xt0 : TbBuf0 (F := Ideal) c tbM0_0) (xt1 : TbBuf0 (F := Ideal) c tbM0_1) (k0_hw1 : k0_chk1 (tbM0_0.view.readAt (Elt Ideal) (Rect.unit (s := S1088) (k0_off1 i) S1.size (k0_off1_inb i)).toLoadRect xt0 (Shape.Idx.first (numel1_S1.symm ▸ Nat.one_pos))) (tbM0_1.view.readAt (Elt Ideal) (Rect.unit (s := S1088) (k0_off1 i) S1.size (k0_off1_inb i)).toLoadRect xt1 (Shape.Idx.first (numel1_S1.symm ▸ Nat.one_pos)))) (k0_hw2 : k0_chk2 (tbM0_0.view.readAt (Elt Ideal) (Rect.unit (s := S1088) (k0_off3 i) S1.size (k0_off3_inb i)).toLoadRect xt0 (Shape.Idx.first (numel1_S1.symm ▸ Nat.one_pos))) (tbM0_1.view.readAt (Elt Ideal) (Rect.unit (s := S1088) (k0_off3 i) S1.size (k0_off3_inb i)).toLoadRect xt1 (Shape.Idx.first (numel1_S1.symm ▸ Nat.one_pos)))) (k0_hw3 : k0_chk3 (tbM0_0.view.readAt (Elt Ideal) (Rect.unit (s := S1088) (k0_off5 i) S1.size (k0_off5_inb i)).toLoadRect xt0 (Shape.Idx.first (numel1_S1.symm ▸ Nat.one_pos))) (tbM0_1.view.readAt (Elt Ideal) (Rect.unit (s := S1088) (k0_off5 i) S1.size (k0_off5_inb i)).toLoadRect xt1 (Shape.Idx.first (numel1_S1.symm ▸ Nat.one_pos)))) (k0_hw4 : k0_chk4 (tbM0_0.view.readAt (Elt Ideal) (Rect.unit (s := S1088) (k0_off7 i) S1.size (k0_off7_inb i)).toLoadRect xt0 (Shape.Idx.first (numel1_S1.symm ▸ Nat.one_pos))) (tbM0_1.view.readAt (Elt Ideal) (Rect.unit (s := S1088) (k0_off7 i) S1.size (k0_off7_inb i)).toLoadRect xt1 (Shape.Idx.first (numel1_S1.symm ▸ Nat.one_pos)))) (k0_hw5 : k0_chk5 (tbM0_0.view.readAt (Elt Ideal) (Rect.unit (s := S1088) (k0_off9 i) S1.size (k0_off9_inb i)).toLoadRect xt0 (Shape.Idx.first (numel1_S1.symm ▸ Nat.one_pos))) (tbM0_1.view.readAt (Elt Ideal) (Rect.unit (s := S1088) (k0_off9 i) S1.size (k0_off9_inb i)).toLoadRect xt1 (Shape.Idx.first (numel1_S1.symm ▸ Nat.one_pos)))) (k0_hw6 : k0_chk6 (tbM0_0.view.readAt (Elt Ideal) (Rect.unit (s := S1088) (k0_off11 i) S1.size (k0_off11_inb i)).toLoadRect xt0 (Shape.Idx.first (numel1_S1.symm ▸ Nat.one_pos))) (tbM0_1.view.readAt (Elt Ideal) (Rect.unit (s := S1088) (k0_off11 i) S1.size (k0_off11_inb i)).toLoadRect xt1 (Shape.Idx.first (numel1_S1.symm ▸ Nat.one_pos)))) (k0_hw7 : k0_chk7 (tbM0_0.view.readAt (Elt Ideal) (Rect.unit (s := S1088) (k0_off13 i) S1.size (k0_off13_inb i)).toLoadRect xt0 (Shape.Idx.first (numel1_S1.symm ▸ Nat.one_pos))) (tbM0_1.view.readAt (Elt Ideal) (Rect.unit (s := S1088) (k0_off13 i) S1.size (k0_off13_inb i)).toLoadRect xt1 (Shape.Idx.first (numel1_S1.symm ▸ Nat.one_pos)))) (k0_hw8 : k0_chk8 (tbM0_0.view.readAt (Elt Ideal) (Rect.unit (s := S1088) (k0_off15 i) S1.size (k0_off15_inb i)).toLoadRect xt0 (Shape.Idx.first (numel1_S1.symm ▸ Nat.one_pos))) (tbM0_1.view.readAt (Elt Ideal) (Rect.unit (s := S1088) (k0_off15 i) S1.size (k0_off15_inb i)).toLoadRect xt1 (Shape.Idx.first (numel1_S1.symm ▸ Nat.one_pos)))) (k0_hw9 : k0_chk9 (tbM0_0.view.readAt (Elt Ideal) (Rect.unit (s := S1088) (k0_off17 i) S1.size (k0_off17_inb i)).toLoadRect xt0 (Shape.Idx.first (numel1_S1.symm ▸ Nat.one_pos))) (tbM0_1.view.readAt (Elt Ideal) (Rect.unit (s := S1088) (k0_off17 i) S1.size (k0_off17_inb i)).toLoadRect xt1 (Shape.Idx.first (numel1_S1.symm ▸ Nat.one_pos)))) (k0_hw10 : k0_chk10 (tbM0_0.view.readAt (Elt Ideal) (Rect.unit (s := S1088) (k0_off19 i) S1.size (k0_off19_inb i)).toLoadRect xt0 (Shape.Idx.first (numel1_S1.symm ▸ Nat.one_pos))) (tbM0_1.view.readAt (Elt Ideal) (Rect.unit (s := S1088) (k0_off19 i) S1.size (k0_off19_inb i)).toLoadRect xt1 (Shape.Idx.first (numel1_S1.symm ▸ Nat.one_pos)))) (k0_hw11 : k0_chk11 (tbM0_0.view.readAt (Elt Ideal) (Rect.unit (s := S1088) (k0_off21 i) S1.size (k0_off21_inb i)).toLoadRect xt0 (Shape.Idx.first (numel1_S1.symm ▸ Nat.one_pos))) (tbM0_1.view.readAt (Elt Ideal) (Rect.unit (s := S1088) (k0_off21 i) S1.size (k0_off21_inb i)).toLoadRect xt1 (Shape.Idx.first (numel1_S1.symm ▸ Nat.one_pos)))) (k0_hw12 : k0_chk12 (tbM0_0.view.readAt (Elt Ideal) (Rect.unit (s := S1088) (k0_off23 i) S1.size (k0_off23_inb i)).toLoadRect xt0 (Shape.Idx.first (numel1_S1.symm ▸ Nat.one_pos))) (tbM0_1.view.readAt (Elt Ideal) (Rect.unit (s := S1088) (k0_off23 i) S1.size (k0_off23_inb i)).toLoadRect xt1 (Shape.Idx.first (numel1_S1.symm ▸ Nat.one_pos)))) (k0_hw13 : k0_chk13 (tbM0_0.view.readAt (Elt Ideal) (Rect.unit (s := S1088) (k0_off25 i) S1.size (k0_off25_inb i)).toLoadRect xt0 (Shape.Idx.first (numel1_S1.symm ▸ Nat.one_pos))) (tbM0_1.view.readAt (Elt Ideal) (Rect.unit (s := S1088) (k0_off25 i) S1.size (k0_off25_inb i)).toLoadRect xt1 (Shape.Idx.first (numel1_S1.symm ▸ Nat.one_pos)))) (k0_hw14 : k0_chk14 (tbM0_0.view.readAt (Elt Ideal) (Rect.unit (s := S1088) (k0_off27 i) S1.size (k0_off27_inb i)).toLoadRect xt0 (Shape.Idx.first (numel1_S1.symm ▸ Nat.one_pos))) (tbM0_1.view.readAt (Elt Ideal) (Rect.unit (s := S1088) (k0_off27 i) S1.size (k0_off27_inb i)).toLoadRect xt1 (Shape.Idx.first (numel1_S1.symm ▸ Nat.one_pos)))) (k0_hw15 : k0_chk15 (tbM0_0.view.readAt (Elt Ideal) (Rect.unit (s := S1088) (k0_off29 i) S1.size (k0_off29_inb i)).toLoadRect xt0 (Shape.Idx.first (numel1_S1.symm ▸ Nat.one_pos))) (tbM0_1.view.readAt (Elt Ideal) (Rect.unit (s := S1088) (k0_off29 i) S1.size (k0_off29_inb i)).toLoadRect xt1 (Shape.Idx.first (numel1_S1.symm ▸ Nat.one_pos)))) (k0_hw16 : k0_chk16 (tbM0_0.view.readAt (Elt Ideal) (Rect.unit (s := S1088) (k0_off31 i) S1.size (k0_off31_inb i)).toLoadRect xt0 (Shape.Idx.first (numel1_S1.symm ▸ Nat.one_pos))) (tbM0_1.view.readAt (Elt Ideal) (Rect.unit (s := S1088) (k0_off31 i) S1.size (k0_off31_inb i)).toLoadRect xt1 (Shape.Idx.first (numel1_S1.symm ▸ Nat.one_pos)))) (k0_hw17 : k0_chk17 (tbM0_0.view.readAt (Elt Ideal) (Rect.unit (s := S1088) (k0_off33 i) S1.size (k0_off33_inb i)).toLoadRect xt0 (Shape.Idx.first (numel1_S1.symm ▸ Nat.one_pos))) (tbM0_1.view.readAt (Elt Ideal) (Rect.unit (s := S1088) (k0_off33 i) S1.size (k0_off33_inb i)).toLoadRect xt1 (Shape.Idx.first (numel1_S1.symm ▸ Nat.one_pos)))) (k0_hw18 : k0_chk18 (tbM0_0.view.readAt (Elt Ideal) (Rect.unit (s := S1088) (k0_off35 i) S1.size (k0_off35_inb i)).toLoadRect xt0 (Shape.Idx.first (numel1_S1.symm ▸ Nat.one_pos))) (tbM0_1.view.readAt (Elt Ideal) (Rect.unit (s := S1088) (k0_off35 i) S1.size (k0_off35_inb i)).toLoadRect xt1 (Shape.Idx.first (numel1_S1.symm ▸ Nat.one_pos)))) (k0_hw19 : k0_chk19 (tbM0_0.view.readAt (Elt Ideal) (Rect.unit (s := S1088) (k0_off37 i) S1.size (k0_off37_inb i)).toLoadRect xt0 (Shape.Idx.first (numel1_S1.symm ▸ Nat.one_pos))) (tbM0_1.view.readAt (Elt Ideal) (Rect.unit (s := S1088) (k0_off37 i) S1.size (k0_off37_inb i)).toLoadRect xt1 (Shape.Idx.first (numel1_S1.symm ▸ Nat.one_pos)))) (k0_hw20 : k0_chk20 (tbM0_0.view.readAt (Elt Ideal) (Rect.unit (s := S1088) (k0_off39 i) S1.size (k0_off39_inb i)).toLoadRect xt0 (Shape.Idx.first (numel1_S1.symm ▸ Nat.one_pos))) (tbM0_1.view.readAt (Elt Ideal) (Rect.unit (s := S1088) (k0_off39 i) S1.size (k0_off39_inb i)).toLoadRect xt1 (Shape.Idx.first (numel1_S1.symm ▸ Nat.one_pos)))) (k0_hw21 : k0_chk21 (tbM0_0.view.readAt (Elt Ideal) (Rect.unit (s := S1088) (k0_off41 i) S1.size (k0_off41_inb i)).toLoadRect xt0 (Shape.Idx.first (numel1_S1.symm ▸ Nat.one_pos))) (tbM0_1.view.readAt (Elt Ideal) (Rect.unit (s := S1088) (k0_off41 i) S1.size (k0_off41_inb i)).toLoadRect xt1 (Shape.Idx.first (numel1_S1.symm ▸ Nat.one_pos)))) (k0_hw22 : k0_chk22 (tbM0_0.view.readAt (Elt Ideal) (Rect.unit (s := S1088) (k0_off43 i) S1.size (k0_off43_inb i)).toLoadRect xt0 (Shape.Idx.first (numel1_S1.symm ▸ Nat.one_pos))) (tbM0_1.view.readAt (Elt Ideal) (Rect.unit (s := S1088) (k0_off43 i) S1.size (k0_off43_inb i)).toLoadRect xt1 (Shape.Idx.first (numel1_S1.symm ▸ Nat.one_pos)))) (k0_hw23 : k0_chk23 (tbM0_0.view.readAt (Elt Ideal) (Rect.unit (s := S1088) (k0_off45 i) S1.size (k0_off45_inb i)).toLoadRect xt0 (Shape.Idx.first (numel1_S1.symm ▸ Nat.one_pos))) (tbM0_1.view.readAt (Elt Ideal) (Rect.unit (s := S1088) (k0_off45 i) S1.size (k0_off45_inb i)).toLoadRect xt1 (Shape.Idx.first (numel1_S1.symm ▸ Nat.one_pos)))) (k0_hw24 : k0_chk24 (tbM0_0.view.readAt (Elt Ideal) (Rect.unit (s := S1088) (k0_off47 i) S1.size (k0_off47_inb i)).toLoadRect xt0 (Shape.Idx.first (numel1_S1.symm ▸ Nat.one_pos))) (tbM0_1.view.readAt (Elt Ideal) (Rect.unit (s := S1088) (k0_off47 i) S1.size (k0_off47_inb i)).toLoadRect xt1 (Shape.Idx.first (numel1_S1.symm ▸ Nat.one_pos)))) (k0_hw25 : k0_chk25 (tbM0_0.view.readAt (Elt Ideal) (Rect.unit (s := S1088) (k0_off49 i) S1.size (k0_off49_inb i)).toLoadRect xt0 (Shape.Idx.first (numel1_S1.symm ▸ Nat.one_pos))) (tbM0_1.view.readAt (Elt Ideal) (Rect.unit (s := S1088) (k0_off49 i) S1.size (k0_off49_inb i)).toLoadRect xt1 (Shape.Idx.first (numel1_S1.symm ▸ Nat.one_pos)))) (k0_hw26 : k0_chk26 (tbM0_0.view.readAt (Elt Ideal) (Rect.unit (s := S1088) (k0_off51 i) S1.size (k0_off51_inb i)).toLoadRect xt0 (Shape.Idx.first (numel1_S1.symm ▸ Nat.one_pos))) (tbM0_1.view.readAt (Elt Ideal) (Rect.unit (s := S1088) (k0_off51 i) S1.size (k0_off51_inb i)).toLoadRect xt1 (Shape.Idx.first (numel1_S1.symm ▸ Nat.one_pos)))) (k0_hw27 : k0_chk27 (tbM0_0.view.readAt (Elt Ideal) (Rect.unit (s := S1088) (k0_off53 i) S1.size (k0_off53_inb i)).toLoadRect xt0 (Shape.Idx.first (numel1_S1.symm ▸ Nat.one_pos))) (tbM0_1.view.readAt (Elt Ideal) (Rect.unit (s := S1088) (k0_off53 i) S1.size (k0_off53_inb i)).toLoadRect xt1 (Shape.Idx.first (numel1_S1.symm ▸ Nat.one_pos)))) (k0_hw28 : k0_chk28 (tbM0_0.view.readAt (Elt Ideal) (Rect.unit (s := S1088) (k0_off55 i) S1.size (k0_off55_inb i)).toLoadRect xt0 (Shape.Idx.first (numel1_S1.symm ▸ Nat.one_pos))) (tbM0_1.view.readAt (Elt Ideal) (Rect.unit (s := S1088) (k0_off55 i) S1.size (k0_off55_inb i)).toLoadRect xt1 (Shape.Idx.first (numel1_S1.symm ▸ Nat.one_pos)))) (k0_hw29 : k0_chk29 (tbM0_0.view.readAt (Elt Ideal) (Rect.unit (s := S1088) (k0_off57 i) S1.size (k0_off57_inb i)).toLoadRect xt0 (Shape.Idx.first (numel1_S1.symm ▸ Nat.one_pos))) (tbM0_1.view.readAt (Elt Ideal) (Rect.unit (s := S1088) (k0_off57 i) S1.size (k0_off57_inb i)).toLoadRect xt1 (Shape.Idx.first (numel1_S1.symm ▸ Nat.one_pos)))) (k0_hw30 : k0_chk30 (tbM0_0.view.readAt (Elt Ideal) (Rect.unit (s := S1088) (k0_off59 i) S1.size (k0_off59_inb i)).toLoadRect xt0 (Shape.Idx.first (numel1_S1.symm ▸ Nat.one_pos))) (tbM0_1.view.readAt (Elt Ideal) (Rect.unit (s := S1088) (k0_off59 i) S1.size (k0_off59_inb i)).toLoadRect xt1 (Shape.Idx.first (numel1_S1.symm ▸ Nat.one_pos)))) (k0_hw31 : k0_chk31 (tbM0_0.view.readAt (Elt Ideal) (Rect.unit (s := S1088) (k0_off61 i) S1.size (k0_off61_inb i)).toLoadRect xt0 (Shape.Idx.first (numel1_S1.symm ▸ Nat.one_pos))) (tbM0_1.view.readAt (Elt Ideal) (Rect.unit (s := S1088) (k0_off61 i) S1.size (k0_off61_inb i)).toLoadRect xt1 (Shape.Idx.first (numel1_S1.symm ▸ Nat.one_pos)))) (k0_hw32 : k0_chk32 (tbM0_0.view.readAt (Elt Ideal) (Rect.unit (s := S1088) (k0_off63 i) S1.size (k0_off63_inb i)).toLoadRect xt0 (Shape.Idx.first (numel1_S1.symm ▸ Nat.one_pos))) (tbM0_1.view.readAt (Elt Ideal) (Rect.unit (s := S1088) (k0_off63 i) S1.size (k0_off63_inb i)).toLoadRect xt1 (Shape.Idx.first (numel1_S1.symm ▸ Nat.one_pos)))) (idx : S224x224.Idx) :
    sout0_A_0 (F := Ideal) c i arg4 harg4 arg5 harg5 arg6 harg6 arg7 harg7 hc0 hc1 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 idx
      = (((((((((((((((((((((((((((((((((0 : EReal) + sqd (predAt x1 (⟨0, by norm_num⟩ : Fin 32) idx) (winRead x0 (k0_off2 (wordOf c tbM0_0 xt0 (k0_off1 i) (k0_off1_inb i)) (wordOf c tbM0_1 xt1 (k0_off1 i) (k0_off1_inb i))) idx)) + sqd (predAt x1 (⟨1, by norm_num⟩ : Fin 32) idx) (winRead x0 (k0_off4 (wordOf c tbM0_0 xt0 (k0_off3 i) (k0_off3_inb i)) (wordOf c tbM0_1 xt1 (k0_off3 i) (k0_off3_inb i))) idx)) + sqd (predAt x1 (⟨2, by norm_num⟩ : Fin 32) idx) (winRead x0 (k0_off6 (wordOf c tbM0_0 xt0 (k0_off5 i) (k0_off5_inb i)) (wordOf c tbM0_1 xt1 (k0_off5 i) (k0_off5_inb i))) idx)) + sqd (predAt x1 (⟨3, by norm_num⟩ : Fin 32) idx) (winRead x0 (k0_off8 (wordOf c tbM0_0 xt0 (k0_off7 i) (k0_off7_inb i)) (wordOf c tbM0_1 xt1 (k0_off7 i) (k0_off7_inb i))) idx)) + sqd (predAt x1 (⟨4, by norm_num⟩ : Fin 32) idx) (winRead x0 (k0_off10 (wordOf c tbM0_0 xt0 (k0_off9 i) (k0_off9_inb i)) (wordOf c tbM0_1 xt1 (k0_off9 i) (k0_off9_inb i))) idx)) + sqd (predAt x1 (⟨5, by norm_num⟩ : Fin 32) idx) (winRead x0 (k0_off12 (wordOf c tbM0_0 xt0 (k0_off11 i) (k0_off11_inb i)) (wordOf c tbM0_1 xt1 (k0_off11 i) (k0_off11_inb i))) idx)) + sqd (predAt x1 (⟨6, by norm_num⟩ : Fin 32) idx) (winRead x0 (k0_off14 (wordOf c tbM0_0 xt0 (k0_off13 i) (k0_off13_inb i)) (wordOf c tbM0_1 xt1 (k0_off13 i) (k0_off13_inb i))) idx)) + sqd (predAt x1 (⟨7, by norm_num⟩ : Fin 32) idx) (winRead x0 (k0_off16 (wordOf c tbM0_0 xt0 (k0_off15 i) (k0_off15_inb i)) (wordOf c tbM0_1 xt1 (k0_off15 i) (k0_off15_inb i))) idx)) + sqd (predAt x1 (⟨8, by norm_num⟩ : Fin 32) idx) (winRead x0 (k0_off18 (wordOf c tbM0_0 xt0 (k0_off17 i) (k0_off17_inb i)) (wordOf c tbM0_1 xt1 (k0_off17 i) (k0_off17_inb i))) idx)) + sqd (predAt x1 (⟨9, by norm_num⟩ : Fin 32) idx) (winRead x0 (k0_off20 (wordOf c tbM0_0 xt0 (k0_off19 i) (k0_off19_inb i)) (wordOf c tbM0_1 xt1 (k0_off19 i) (k0_off19_inb i))) idx)) + sqd (predAt x1 (⟨10, by norm_num⟩ : Fin 32) idx) (winRead x0 (k0_off22 (wordOf c tbM0_0 xt0 (k0_off21 i) (k0_off21_inb i)) (wordOf c tbM0_1 xt1 (k0_off21 i) (k0_off21_inb i))) idx)) + sqd (predAt x1 (⟨11, by norm_num⟩ : Fin 32) idx) (winRead x0 (k0_off24 (wordOf c tbM0_0 xt0 (k0_off23 i) (k0_off23_inb i)) (wordOf c tbM0_1 xt1 (k0_off23 i) (k0_off23_inb i))) idx)) + sqd (predAt x1 (⟨12, by norm_num⟩ : Fin 32) idx) (winRead x0 (k0_off26 (wordOf c tbM0_0 xt0 (k0_off25 i) (k0_off25_inb i)) (wordOf c tbM0_1 xt1 (k0_off25 i) (k0_off25_inb i))) idx)) + sqd (predAt x1 (⟨13, by norm_num⟩ : Fin 32) idx) (winRead x0 (k0_off28 (wordOf c tbM0_0 xt0 (k0_off27 i) (k0_off27_inb i)) (wordOf c tbM0_1 xt1 (k0_off27 i) (k0_off27_inb i))) idx)) + sqd (predAt x1 (⟨14, by norm_num⟩ : Fin 32) idx) (winRead x0 (k0_off30 (wordOf c tbM0_0 xt0 (k0_off29 i) (k0_off29_inb i)) (wordOf c tbM0_1 xt1 (k0_off29 i) (k0_off29_inb i))) idx)) + sqd (predAt x1 (⟨15, by norm_num⟩ : Fin 32) idx) (winRead x0 (k0_off32 (wordOf c tbM0_0 xt0 (k0_off31 i) (k0_off31_inb i)) (wordOf c tbM0_1 xt1 (k0_off31 i) (k0_off31_inb i))) idx)) + sqd (predAt x1 (⟨16, by norm_num⟩ : Fin 32) idx) (winRead x0 (k0_off34 (wordOf c tbM0_0 xt0 (k0_off33 i) (k0_off33_inb i)) (wordOf c tbM0_1 xt1 (k0_off33 i) (k0_off33_inb i))) idx)) + sqd (predAt x1 (⟨17, by norm_num⟩ : Fin 32) idx) (winRead x0 (k0_off36 (wordOf c tbM0_0 xt0 (k0_off35 i) (k0_off35_inb i)) (wordOf c tbM0_1 xt1 (k0_off35 i) (k0_off35_inb i))) idx)) + sqd (predAt x1 (⟨18, by norm_num⟩ : Fin 32) idx) (winRead x0 (k0_off38 (wordOf c tbM0_0 xt0 (k0_off37 i) (k0_off37_inb i)) (wordOf c tbM0_1 xt1 (k0_off37 i) (k0_off37_inb i))) idx)) + sqd (predAt x1 (⟨19, by norm_num⟩ : Fin 32) idx) (winRead x0 (k0_off40 (wordOf c tbM0_0 xt0 (k0_off39 i) (k0_off39_inb i)) (wordOf c tbM0_1 xt1 (k0_off39 i) (k0_off39_inb i))) idx)) + sqd (predAt x1 (⟨20, by norm_num⟩ : Fin 32) idx) (winRead x0 (k0_off42 (wordOf c tbM0_0 xt0 (k0_off41 i) (k0_off41_inb i)) (wordOf c tbM0_1 xt1 (k0_off41 i) (k0_off41_inb i))) idx)) + sqd (predAt x1 (⟨21, by norm_num⟩ : Fin 32) idx) (winRead x0 (k0_off44 (wordOf c tbM0_0 xt0 (k0_off43 i) (k0_off43_inb i)) (wordOf c tbM0_1 xt1 (k0_off43 i) (k0_off43_inb i))) idx)) + sqd (predAt x1 (⟨22, by norm_num⟩ : Fin 32) idx) (winRead x0 (k0_off46 (wordOf c tbM0_0 xt0 (k0_off45 i) (k0_off45_inb i)) (wordOf c tbM0_1 xt1 (k0_off45 i) (k0_off45_inb i))) idx)) + sqd (predAt x1 (⟨23, by norm_num⟩ : Fin 32) idx) (winRead x0 (k0_off48 (wordOf c tbM0_0 xt0 (k0_off47 i) (k0_off47_inb i)) (wordOf c tbM0_1 xt1 (k0_off47 i) (k0_off47_inb i))) idx)) + sqd (predAt x1 (⟨24, by norm_num⟩ : Fin 32) idx) (winRead x0 (k0_off50 (wordOf c tbM0_0 xt0 (k0_off49 i) (k0_off49_inb i)) (wordOf c tbM0_1 xt1 (k0_off49 i) (k0_off49_inb i))) idx)) + sqd (predAt x1 (⟨25, by norm_num⟩ : Fin 32) idx) (winRead x0 (k0_off52 (wordOf c tbM0_0 xt0 (k0_off51 i) (k0_off51_inb i)) (wordOf c tbM0_1 xt1 (k0_off51 i) (k0_off51_inb i))) idx)) + sqd (predAt x1 (⟨26, by norm_num⟩ : Fin 32) idx) (winRead x0 (k0_off54 (wordOf c tbM0_0 xt0 (k0_off53 i) (k0_off53_inb i)) (wordOf c tbM0_1 xt1 (k0_off53 i) (k0_off53_inb i))) idx)) + sqd (predAt x1 (⟨27, by norm_num⟩ : Fin 32) idx) (winRead x0 (k0_off56 (wordOf c tbM0_0 xt0 (k0_off55 i) (k0_off55_inb i)) (wordOf c tbM0_1 xt1 (k0_off55 i) (k0_off55_inb i))) idx)) + sqd (predAt x1 (⟨28, by norm_num⟩ : Fin 32) idx) (winRead x0 (k0_off58 (wordOf c tbM0_0 xt0 (k0_off57 i) (k0_off57_inb i)) (wordOf c tbM0_1 xt1 (k0_off57 i) (k0_off57_inb i))) idx)) + sqd (predAt x1 (⟨29, by norm_num⟩ : Fin 32) idx) (winRead x0 (k0_off60 (wordOf c tbM0_0 xt0 (k0_off59 i) (k0_off59_inb i)) (wordOf c tbM0_1 xt1 (k0_off59 i) (k0_off59_inb i))) idx)) + sqd (predAt x1 (⟨30, by norm_num⟩ : Fin 32) idx) (winRead x0 (k0_off62 (wordOf c tbM0_0 xt0 (k0_off61 i) (k0_off61_inb i)) (wordOf c tbM0_1 xt1 (k0_off61 i) (k0_off61_inb i))) idx)) + sqd (predAt x1 (⟨31, by norm_num⟩ : Fin 32) idx) (winRead x0 (k0_off64 (wordOf c tbM0_0 xt0 (k0_off63 i) (k0_off63_inb i)) (wordOf c tbM0_1 xt1 (k0_off63 i) (k0_off63_inb i))) idx)) := by
  have A1 : ∀ idx : S224x224.Idx, View.canon (kernelRun0_A.sl.HS0_1 (F := Ideal)) idx = 0 := by
    intro idx
    unfold kernelRun0_A.sl.HS0_1
    rw [View.canon_unit_zero hz2]
    unfold k0_pay3
    rw [shapeCast_self]
    exact Ideal.ofBits_zero_f32
  have S0 : ∀ idx : S224x224.Idx, View.canon (kernelRun0_A.sl.HS0_2 (F := Ideal) c i arg4 harg4 arg5 harg5 arg7 x0 x1 xt0 xt1 k0_hw1) idx
      = View.canon (kernelRun0_A.sl.HS0_1 (F := Ideal)) idx + sqd (predAt x1 (⟨0, by norm_num⟩ : Fin 32) idx) (winRead x0 (k0_off2 (wordOf c tbM0_0 xt0 (k0_off1 i) (k0_off1_inb i)) (wordOf c tbM0_1 xt1 (k0_off1 i) (k0_off1_inb i))) idx) := by
    intro idx
    unfold kernelRun0_A.sl.HS0_2
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨0, by norm_num⟩ : Fin 32) _ rfl]
    rw [win_idx x0 (k0_off2 (wordOf c tbM0_0 xt0 (k0_off1 i) (k0_off1_inb i)) (wordOf c tbM0_1 xt1 (k0_off1 i) (k0_off1_inb i))) (k0_off2_inb _ _ k0_hw1) idx]
  have S1 : ∀ idx : S224x224.Idx, View.canon (kernelRun0_A.sl.HS0_3 (F := Ideal) c i arg4 harg4 arg5 harg5 arg7 x0 x1 xt0 xt1 k0_hw1 k0_hw2) idx
      = View.canon (kernelRun0_A.sl.HS0_2 (F := Ideal) c i arg4 harg4 arg5 harg5 arg7 x0 x1 xt0 xt1 k0_hw1) idx + sqd (predAt x1 (⟨1, by norm_num⟩ : Fin 32) idx) (winRead x0 (k0_off4 (wordOf c tbM0_0 xt0 (k0_off3 i) (k0_off3_inb i)) (wordOf c tbM0_1 xt1 (k0_off3 i) (k0_off3_inb i))) idx) := by
    intro idx
    unfold kernelRun0_A.sl.HS0_3
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨1, by norm_num⟩ : Fin 32) _ rfl]
    rw [win_idx x0 (k0_off4 (wordOf c tbM0_0 xt0 (k0_off3 i) (k0_off3_inb i)) (wordOf c tbM0_1 xt1 (k0_off3 i) (k0_off3_inb i))) (k0_off4_inb _ _ k0_hw2) idx]
  have S2 : ∀ idx : S224x224.Idx, View.canon (kernelRun0_A.sl.HS0_4 (F := Ideal) c i arg4 harg4 arg5 harg5 arg7 x0 x1 xt0 xt1 k0_hw1 k0_hw2 k0_hw3) idx
      = View.canon (kernelRun0_A.sl.HS0_3 (F := Ideal) c i arg4 harg4 arg5 harg5 arg7 x0 x1 xt0 xt1 k0_hw1 k0_hw2) idx + sqd (predAt x1 (⟨2, by norm_num⟩ : Fin 32) idx) (winRead x0 (k0_off6 (wordOf c tbM0_0 xt0 (k0_off5 i) (k0_off5_inb i)) (wordOf c tbM0_1 xt1 (k0_off5 i) (k0_off5_inb i))) idx) := by
    intro idx
    unfold kernelRun0_A.sl.HS0_4
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨2, by norm_num⟩ : Fin 32) _ rfl]
    rw [win_idx x0 (k0_off6 (wordOf c tbM0_0 xt0 (k0_off5 i) (k0_off5_inb i)) (wordOf c tbM0_1 xt1 (k0_off5 i) (k0_off5_inb i))) (k0_off6_inb _ _ k0_hw3) idx]
  have S3 : ∀ idx : S224x224.Idx, View.canon (kernelRun0_A.sl.HS0_5 (F := Ideal) c i arg4 harg4 arg5 harg5 arg7 x0 x1 xt0 xt1 k0_hw1 k0_hw2 k0_hw3 k0_hw4) idx
      = View.canon (kernelRun0_A.sl.HS0_4 (F := Ideal) c i arg4 harg4 arg5 harg5 arg7 x0 x1 xt0 xt1 k0_hw1 k0_hw2 k0_hw3) idx + sqd (predAt x1 (⟨3, by norm_num⟩ : Fin 32) idx) (winRead x0 (k0_off8 (wordOf c tbM0_0 xt0 (k0_off7 i) (k0_off7_inb i)) (wordOf c tbM0_1 xt1 (k0_off7 i) (k0_off7_inb i))) idx) := by
    intro idx
    unfold kernelRun0_A.sl.HS0_5
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨3, by norm_num⟩ : Fin 32) _ rfl]
    rw [win_idx x0 (k0_off8 (wordOf c tbM0_0 xt0 (k0_off7 i) (k0_off7_inb i)) (wordOf c tbM0_1 xt1 (k0_off7 i) (k0_off7_inb i))) (k0_off8_inb _ _ k0_hw4) idx]
  have S4 : ∀ idx : S224x224.Idx, View.canon (kernelRun0_A.sl.HS0_6 (F := Ideal) c i arg4 harg4 arg5 harg5 arg7 x0 x1 xt0 xt1 k0_hw1 k0_hw2 k0_hw3 k0_hw4 k0_hw5) idx
      = View.canon (kernelRun0_A.sl.HS0_5 (F := Ideal) c i arg4 harg4 arg5 harg5 arg7 x0 x1 xt0 xt1 k0_hw1 k0_hw2 k0_hw3 k0_hw4) idx + sqd (predAt x1 (⟨4, by norm_num⟩ : Fin 32) idx) (winRead x0 (k0_off10 (wordOf c tbM0_0 xt0 (k0_off9 i) (k0_off9_inb i)) (wordOf c tbM0_1 xt1 (k0_off9 i) (k0_off9_inb i))) idx) := by
    intro idx
    unfold kernelRun0_A.sl.HS0_6
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨4, by norm_num⟩ : Fin 32) _ rfl]
    rw [win_idx x0 (k0_off10 (wordOf c tbM0_0 xt0 (k0_off9 i) (k0_off9_inb i)) (wordOf c tbM0_1 xt1 (k0_off9 i) (k0_off9_inb i))) (k0_off10_inb _ _ k0_hw5) idx]
  have S5 : ∀ idx : S224x224.Idx, View.canon (kernelRun0_A.sl.HS0_7 (F := Ideal) c i arg4 harg4 arg5 harg5 arg7 x0 x1 xt0 xt1 k0_hw1 k0_hw2 k0_hw3 k0_hw4 k0_hw5 k0_hw6) idx
      = View.canon (kernelRun0_A.sl.HS0_6 (F := Ideal) c i arg4 harg4 arg5 harg5 arg7 x0 x1 xt0 xt1 k0_hw1 k0_hw2 k0_hw3 k0_hw4 k0_hw5) idx + sqd (predAt x1 (⟨5, by norm_num⟩ : Fin 32) idx) (winRead x0 (k0_off12 (wordOf c tbM0_0 xt0 (k0_off11 i) (k0_off11_inb i)) (wordOf c tbM0_1 xt1 (k0_off11 i) (k0_off11_inb i))) idx) := by
    intro idx
    unfold kernelRun0_A.sl.HS0_7
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨5, by norm_num⟩ : Fin 32) _ rfl]
    rw [win_idx x0 (k0_off12 (wordOf c tbM0_0 xt0 (k0_off11 i) (k0_off11_inb i)) (wordOf c tbM0_1 xt1 (k0_off11 i) (k0_off11_inb i))) (k0_off12_inb _ _ k0_hw6) idx]
  have S6 : ∀ idx : S224x224.Idx, View.canon (kernelRun0_A.sl.HS0_8 (F := Ideal) c i arg4 harg4 arg5 harg5 arg7 x0 x1 xt0 xt1 k0_hw1 k0_hw2 k0_hw3 k0_hw4 k0_hw5 k0_hw6 k0_hw7) idx
      = View.canon (kernelRun0_A.sl.HS0_7 (F := Ideal) c i arg4 harg4 arg5 harg5 arg7 x0 x1 xt0 xt1 k0_hw1 k0_hw2 k0_hw3 k0_hw4 k0_hw5 k0_hw6) idx + sqd (predAt x1 (⟨6, by norm_num⟩ : Fin 32) idx) (winRead x0 (k0_off14 (wordOf c tbM0_0 xt0 (k0_off13 i) (k0_off13_inb i)) (wordOf c tbM0_1 xt1 (k0_off13 i) (k0_off13_inb i))) idx) := by
    intro idx
    unfold kernelRun0_A.sl.HS0_8
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨6, by norm_num⟩ : Fin 32) _ rfl]
    rw [win_idx x0 (k0_off14 (wordOf c tbM0_0 xt0 (k0_off13 i) (k0_off13_inb i)) (wordOf c tbM0_1 xt1 (k0_off13 i) (k0_off13_inb i))) (k0_off14_inb _ _ k0_hw7) idx]
  have S7 : ∀ idx : S224x224.Idx, View.canon (kernelRun0_A.sl.HS0_9 (F := Ideal) c i arg4 harg4 arg5 harg5 arg7 x0 x1 xt0 xt1 k0_hw1 k0_hw2 k0_hw3 k0_hw4 k0_hw5 k0_hw6 k0_hw7 k0_hw8) idx
      = View.canon (kernelRun0_A.sl.HS0_8 (F := Ideal) c i arg4 harg4 arg5 harg5 arg7 x0 x1 xt0 xt1 k0_hw1 k0_hw2 k0_hw3 k0_hw4 k0_hw5 k0_hw6 k0_hw7) idx + sqd (predAt x1 (⟨7, by norm_num⟩ : Fin 32) idx) (winRead x0 (k0_off16 (wordOf c tbM0_0 xt0 (k0_off15 i) (k0_off15_inb i)) (wordOf c tbM0_1 xt1 (k0_off15 i) (k0_off15_inb i))) idx) := by
    intro idx
    unfold kernelRun0_A.sl.HS0_9
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨7, by norm_num⟩ : Fin 32) _ rfl]
    rw [win_idx x0 (k0_off16 (wordOf c tbM0_0 xt0 (k0_off15 i) (k0_off15_inb i)) (wordOf c tbM0_1 xt1 (k0_off15 i) (k0_off15_inb i))) (k0_off16_inb _ _ k0_hw8) idx]
  have S8 : ∀ idx : S224x224.Idx, View.canon (kernelRun0_A.sl.HS0_10 (F := Ideal) c i arg4 harg4 arg5 harg5 arg7 x0 x1 xt0 xt1 k0_hw1 k0_hw2 k0_hw3 k0_hw4 k0_hw5 k0_hw6 k0_hw7 k0_hw8 k0_hw9) idx
      = View.canon (kernelRun0_A.sl.HS0_9 (F := Ideal) c i arg4 harg4 arg5 harg5 arg7 x0 x1 xt0 xt1 k0_hw1 k0_hw2 k0_hw3 k0_hw4 k0_hw5 k0_hw6 k0_hw7 k0_hw8) idx + sqd (predAt x1 (⟨8, by norm_num⟩ : Fin 32) idx) (winRead x0 (k0_off18 (wordOf c tbM0_0 xt0 (k0_off17 i) (k0_off17_inb i)) (wordOf c tbM0_1 xt1 (k0_off17 i) (k0_off17_inb i))) idx) := by
    intro idx
    unfold kernelRun0_A.sl.HS0_10
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨8, by norm_num⟩ : Fin 32) _ rfl]
    rw [win_idx x0 (k0_off18 (wordOf c tbM0_0 xt0 (k0_off17 i) (k0_off17_inb i)) (wordOf c tbM0_1 xt1 (k0_off17 i) (k0_off17_inb i))) (k0_off18_inb _ _ k0_hw9) idx]
  have S9 : ∀ idx : S224x224.Idx, View.canon (kernelRun0_A.sl.HS0_11 (F := Ideal) c i arg4 harg4 arg5 harg5 arg7 x0 x1 xt0 xt1 k0_hw1 k0_hw2 k0_hw3 k0_hw4 k0_hw5 k0_hw6 k0_hw7 k0_hw8 k0_hw9 k0_hw10) idx
      = View.canon (kernelRun0_A.sl.HS0_10 (F := Ideal) c i arg4 harg4 arg5 harg5 arg7 x0 x1 xt0 xt1 k0_hw1 k0_hw2 k0_hw3 k0_hw4 k0_hw5 k0_hw6 k0_hw7 k0_hw8 k0_hw9) idx + sqd (predAt x1 (⟨9, by norm_num⟩ : Fin 32) idx) (winRead x0 (k0_off20 (wordOf c tbM0_0 xt0 (k0_off19 i) (k0_off19_inb i)) (wordOf c tbM0_1 xt1 (k0_off19 i) (k0_off19_inb i))) idx) := by
    intro idx
    unfold kernelRun0_A.sl.HS0_11
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨9, by norm_num⟩ : Fin 32) _ rfl]
    rw [win_idx x0 (k0_off20 (wordOf c tbM0_0 xt0 (k0_off19 i) (k0_off19_inb i)) (wordOf c tbM0_1 xt1 (k0_off19 i) (k0_off19_inb i))) (k0_off20_inb _ _ k0_hw10) idx]
  have S10 : ∀ idx : S224x224.Idx, View.canon (kernelRun0_A.sl.HS0_12 (F := Ideal) c i arg4 harg4 arg5 harg5 arg7 x0 x1 xt0 xt1 k0_hw1 k0_hw2 k0_hw3 k0_hw4 k0_hw5 k0_hw6 k0_hw7 k0_hw8 k0_hw9 k0_hw10 k0_hw11) idx
      = View.canon (kernelRun0_A.sl.HS0_11 (F := Ideal) c i arg4 harg4 arg5 harg5 arg7 x0 x1 xt0 xt1 k0_hw1 k0_hw2 k0_hw3 k0_hw4 k0_hw5 k0_hw6 k0_hw7 k0_hw8 k0_hw9 k0_hw10) idx + sqd (predAt x1 (⟨10, by norm_num⟩ : Fin 32) idx) (winRead x0 (k0_off22 (wordOf c tbM0_0 xt0 (k0_off21 i) (k0_off21_inb i)) (wordOf c tbM0_1 xt1 (k0_off21 i) (k0_off21_inb i))) idx) := by
    intro idx
    unfold kernelRun0_A.sl.HS0_12
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨10, by norm_num⟩ : Fin 32) _ rfl]
    rw [win_idx x0 (k0_off22 (wordOf c tbM0_0 xt0 (k0_off21 i) (k0_off21_inb i)) (wordOf c tbM0_1 xt1 (k0_off21 i) (k0_off21_inb i))) (k0_off22_inb _ _ k0_hw11) idx]
  have S11 : ∀ idx : S224x224.Idx, View.canon (kernelRun0_A.sl.HS0_13 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12) idx
      = View.canon (kernelRun0_A.sl.HS0_12 (F := Ideal) c i arg4 harg4 arg5 harg5 arg7 x0 x1 xt0 xt1 k0_hw1 k0_hw2 k0_hw3 k0_hw4 k0_hw5 k0_hw6 k0_hw7 k0_hw8 k0_hw9 k0_hw10 k0_hw11) idx + sqd (predAt x1 (⟨11, by norm_num⟩ : Fin 32) idx) (winRead x0 (k0_off24 (wordOf c tbM0_0 xt0 (k0_off23 i) (k0_off23_inb i)) (wordOf c tbM0_1 xt1 (k0_off23 i) (k0_off23_inb i))) idx) := by
    intro idx
    unfold kernelRun0_A.sl.HS0_13
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨11, by norm_num⟩ : Fin 32) _ rfl]
    rw [win_idx x0 (k0_off24 (wordOf c tbM0_0 xt0 (k0_off23 i) (k0_off23_inb i)) (wordOf c tbM0_1 xt1 (k0_off23 i) (k0_off23_inb i))) (k0_off24_inb _ _ k0_hw12) idx]
  have S12 : ∀ idx : S224x224.Idx, View.canon (kernelRun0_A.sl.HS0_14 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13) idx
      = View.canon (kernelRun0_A.sl.HS0_13 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12) idx + sqd (predAt x1 (⟨12, by norm_num⟩ : Fin 32) idx) (winRead x0 (k0_off26 (wordOf c tbM0_0 xt0 (k0_off25 i) (k0_off25_inb i)) (wordOf c tbM0_1 xt1 (k0_off25 i) (k0_off25_inb i))) idx) := by
    intro idx
    unfold kernelRun0_A.sl.HS0_14
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨12, by norm_num⟩ : Fin 32) _ rfl]
    rw [win_idx x0 (k0_off26 (wordOf c tbM0_0 xt0 (k0_off25 i) (k0_off25_inb i)) (wordOf c tbM0_1 xt1 (k0_off25 i) (k0_off25_inb i))) (k0_off26_inb _ _ k0_hw13) idx]
  have S13 : ∀ idx : S224x224.Idx, View.canon (kernelRun0_A.sl.HS0_15 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14) idx
      = View.canon (kernelRun0_A.sl.HS0_14 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13) idx + sqd (predAt x1 (⟨13, by norm_num⟩ : Fin 32) idx) (winRead x0 (k0_off28 (wordOf c tbM0_0 xt0 (k0_off27 i) (k0_off27_inb i)) (wordOf c tbM0_1 xt1 (k0_off27 i) (k0_off27_inb i))) idx) := by
    intro idx
    unfold kernelRun0_A.sl.HS0_15
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨13, by norm_num⟩ : Fin 32) _ rfl]
    rw [win_idx x0 (k0_off28 (wordOf c tbM0_0 xt0 (k0_off27 i) (k0_off27_inb i)) (wordOf c tbM0_1 xt1 (k0_off27 i) (k0_off27_inb i))) (k0_off28_inb _ _ k0_hw14) idx]
  have S14 : ∀ idx : S224x224.Idx, View.canon (kernelRun0_A.sl.HS0_16 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15) idx
      = View.canon (kernelRun0_A.sl.HS0_15 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14) idx + sqd (predAt x1 (⟨14, by norm_num⟩ : Fin 32) idx) (winRead x0 (k0_off30 (wordOf c tbM0_0 xt0 (k0_off29 i) (k0_off29_inb i)) (wordOf c tbM0_1 xt1 (k0_off29 i) (k0_off29_inb i))) idx) := by
    intro idx
    unfold kernelRun0_A.sl.HS0_16
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨14, by norm_num⟩ : Fin 32) _ rfl]
    rw [win_idx x0 (k0_off30 (wordOf c tbM0_0 xt0 (k0_off29 i) (k0_off29_inb i)) (wordOf c tbM0_1 xt1 (k0_off29 i) (k0_off29_inb i))) (k0_off30_inb _ _ k0_hw15) idx]
  have S15 : ∀ idx : S224x224.Idx, View.canon (kernelRun0_A.sl.HS0_17 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16) idx
      = View.canon (kernelRun0_A.sl.HS0_16 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15) idx + sqd (predAt x1 (⟨15, by norm_num⟩ : Fin 32) idx) (winRead x0 (k0_off32 (wordOf c tbM0_0 xt0 (k0_off31 i) (k0_off31_inb i)) (wordOf c tbM0_1 xt1 (k0_off31 i) (k0_off31_inb i))) idx) := by
    intro idx
    unfold kernelRun0_A.sl.HS0_17
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨15, by norm_num⟩ : Fin 32) _ rfl]
    rw [win_idx x0 (k0_off32 (wordOf c tbM0_0 xt0 (k0_off31 i) (k0_off31_inb i)) (wordOf c tbM0_1 xt1 (k0_off31 i) (k0_off31_inb i))) (k0_off32_inb _ _ k0_hw16) idx]
  have S16 : ∀ idx : S224x224.Idx, View.canon (kernelRun0_A.sl.HS0_18 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17) idx
      = View.canon (kernelRun0_A.sl.HS0_17 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16) idx + sqd (predAt x1 (⟨16, by norm_num⟩ : Fin 32) idx) (winRead x0 (k0_off34 (wordOf c tbM0_0 xt0 (k0_off33 i) (k0_off33_inb i)) (wordOf c tbM0_1 xt1 (k0_off33 i) (k0_off33_inb i))) idx) := by
    intro idx
    unfold kernelRun0_A.sl.HS0_18
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨16, by norm_num⟩ : Fin 32) _ rfl]
    rw [win_idx x0 (k0_off34 (wordOf c tbM0_0 xt0 (k0_off33 i) (k0_off33_inb i)) (wordOf c tbM0_1 xt1 (k0_off33 i) (k0_off33_inb i))) (k0_off34_inb _ _ k0_hw17) idx]
  have S17 : ∀ idx : S224x224.Idx, View.canon (kernelRun0_A.sl.HS0_19 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18) idx
      = View.canon (kernelRun0_A.sl.HS0_18 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17) idx + sqd (predAt x1 (⟨17, by norm_num⟩ : Fin 32) idx) (winRead x0 (k0_off36 (wordOf c tbM0_0 xt0 (k0_off35 i) (k0_off35_inb i)) (wordOf c tbM0_1 xt1 (k0_off35 i) (k0_off35_inb i))) idx) := by
    intro idx
    unfold kernelRun0_A.sl.HS0_19
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨17, by norm_num⟩ : Fin 32) _ rfl]
    rw [win_idx x0 (k0_off36 (wordOf c tbM0_0 xt0 (k0_off35 i) (k0_off35_inb i)) (wordOf c tbM0_1 xt1 (k0_off35 i) (k0_off35_inb i))) (k0_off36_inb _ _ k0_hw18) idx]
  have S18 : ∀ idx : S224x224.Idx, View.canon (kernelRun0_A.sl.HS0_20 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19) idx
      = View.canon (kernelRun0_A.sl.HS0_19 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18) idx + sqd (predAt x1 (⟨18, by norm_num⟩ : Fin 32) idx) (winRead x0 (k0_off38 (wordOf c tbM0_0 xt0 (k0_off37 i) (k0_off37_inb i)) (wordOf c tbM0_1 xt1 (k0_off37 i) (k0_off37_inb i))) idx) := by
    intro idx
    unfold kernelRun0_A.sl.HS0_20
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨18, by norm_num⟩ : Fin 32) _ rfl]
    rw [win_idx x0 (k0_off38 (wordOf c tbM0_0 xt0 (k0_off37 i) (k0_off37_inb i)) (wordOf c tbM0_1 xt1 (k0_off37 i) (k0_off37_inb i))) (k0_off38_inb _ _ k0_hw19) idx]
  have S19 : ∀ idx : S224x224.Idx, View.canon (kernelRun0_A.sl.HS0_21 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20) idx
      = View.canon (kernelRun0_A.sl.HS0_20 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19) idx + sqd (predAt x1 (⟨19, by norm_num⟩ : Fin 32) idx) (winRead x0 (k0_off40 (wordOf c tbM0_0 xt0 (k0_off39 i) (k0_off39_inb i)) (wordOf c tbM0_1 xt1 (k0_off39 i) (k0_off39_inb i))) idx) := by
    intro idx
    unfold kernelRun0_A.sl.HS0_21
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨19, by norm_num⟩ : Fin 32) _ rfl]
    rw [win_idx x0 (k0_off40 (wordOf c tbM0_0 xt0 (k0_off39 i) (k0_off39_inb i)) (wordOf c tbM0_1 xt1 (k0_off39 i) (k0_off39_inb i))) (k0_off40_inb _ _ k0_hw20) idx]
  have S20 : ∀ idx : S224x224.Idx, View.canon (kernelRun0_A.sl.HS0_22 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21) idx
      = View.canon (kernelRun0_A.sl.HS0_21 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20) idx + sqd (predAt x1 (⟨20, by norm_num⟩ : Fin 32) idx) (winRead x0 (k0_off42 (wordOf c tbM0_0 xt0 (k0_off41 i) (k0_off41_inb i)) (wordOf c tbM0_1 xt1 (k0_off41 i) (k0_off41_inb i))) idx) := by
    intro idx
    unfold kernelRun0_A.sl.HS0_22
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨20, by norm_num⟩ : Fin 32) _ rfl]
    rw [win_idx x0 (k0_off42 (wordOf c tbM0_0 xt0 (k0_off41 i) (k0_off41_inb i)) (wordOf c tbM0_1 xt1 (k0_off41 i) (k0_off41_inb i))) (k0_off42_inb _ _ k0_hw21) idx]
  have S21 : ∀ idx : S224x224.Idx, View.canon (kernelRun0_A.sl.HS0_23 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22) idx
      = View.canon (kernelRun0_A.sl.HS0_22 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21) idx + sqd (predAt x1 (⟨21, by norm_num⟩ : Fin 32) idx) (winRead x0 (k0_off44 (wordOf c tbM0_0 xt0 (k0_off43 i) (k0_off43_inb i)) (wordOf c tbM0_1 xt1 (k0_off43 i) (k0_off43_inb i))) idx) := by
    intro idx
    unfold kernelRun0_A.sl.HS0_23
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨21, by norm_num⟩ : Fin 32) _ rfl]
    rw [win_idx x0 (k0_off44 (wordOf c tbM0_0 xt0 (k0_off43 i) (k0_off43_inb i)) (wordOf c tbM0_1 xt1 (k0_off43 i) (k0_off43_inb i))) (k0_off44_inb _ _ k0_hw22) idx]
  have S22 : ∀ idx : S224x224.Idx, View.canon (kernelRun0_A.sl.HS0_24 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23) idx
      = View.canon (kernelRun0_A.sl.HS0_23 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22) idx + sqd (predAt x1 (⟨22, by norm_num⟩ : Fin 32) idx) (winRead x0 (k0_off46 (wordOf c tbM0_0 xt0 (k0_off45 i) (k0_off45_inb i)) (wordOf c tbM0_1 xt1 (k0_off45 i) (k0_off45_inb i))) idx) := by
    intro idx
    unfold kernelRun0_A.sl.HS0_24
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨22, by norm_num⟩ : Fin 32) _ rfl]
    rw [win_idx x0 (k0_off46 (wordOf c tbM0_0 xt0 (k0_off45 i) (k0_off45_inb i)) (wordOf c tbM0_1 xt1 (k0_off45 i) (k0_off45_inb i))) (k0_off46_inb _ _ k0_hw23) idx]
  have S23 : ∀ idx : S224x224.Idx, View.canon (kernelRun0_A.sl.HS0_25 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24) idx
      = View.canon (kernelRun0_A.sl.HS0_24 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23) idx + sqd (predAt x1 (⟨23, by norm_num⟩ : Fin 32) idx) (winRead x0 (k0_off48 (wordOf c tbM0_0 xt0 (k0_off47 i) (k0_off47_inb i)) (wordOf c tbM0_1 xt1 (k0_off47 i) (k0_off47_inb i))) idx) := by
    intro idx
    unfold kernelRun0_A.sl.HS0_25
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨23, by norm_num⟩ : Fin 32) _ rfl]
    rw [win_idx x0 (k0_off48 (wordOf c tbM0_0 xt0 (k0_off47 i) (k0_off47_inb i)) (wordOf c tbM0_1 xt1 (k0_off47 i) (k0_off47_inb i))) (k0_off48_inb _ _ k0_hw24) idx]
  have S24 : ∀ idx : S224x224.Idx, View.canon (kernelRun0_A.sl.HS0_26 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25) idx
      = View.canon (kernelRun0_A.sl.HS0_25 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24) idx + sqd (predAt x1 (⟨24, by norm_num⟩ : Fin 32) idx) (winRead x0 (k0_off50 (wordOf c tbM0_0 xt0 (k0_off49 i) (k0_off49_inb i)) (wordOf c tbM0_1 xt1 (k0_off49 i) (k0_off49_inb i))) idx) := by
    intro idx
    unfold kernelRun0_A.sl.HS0_26
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨24, by norm_num⟩ : Fin 32) _ rfl]
    rw [win_idx x0 (k0_off50 (wordOf c tbM0_0 xt0 (k0_off49 i) (k0_off49_inb i)) (wordOf c tbM0_1 xt1 (k0_off49 i) (k0_off49_inb i))) (k0_off50_inb _ _ k0_hw25) idx]
  have S25 : ∀ idx : S224x224.Idx, View.canon (kernelRun0_A.sl.HS0_27 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26) idx
      = View.canon (kernelRun0_A.sl.HS0_26 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25) idx + sqd (predAt x1 (⟨25, by norm_num⟩ : Fin 32) idx) (winRead x0 (k0_off52 (wordOf c tbM0_0 xt0 (k0_off51 i) (k0_off51_inb i)) (wordOf c tbM0_1 xt1 (k0_off51 i) (k0_off51_inb i))) idx) := by
    intro idx
    unfold kernelRun0_A.sl.HS0_27
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨25, by norm_num⟩ : Fin 32) _ rfl]
    rw [win_idx x0 (k0_off52 (wordOf c tbM0_0 xt0 (k0_off51 i) (k0_off51_inb i)) (wordOf c tbM0_1 xt1 (k0_off51 i) (k0_off51_inb i))) (k0_off52_inb _ _ k0_hw26) idx]
  have S26 : ∀ idx : S224x224.Idx, View.canon (kernelRun0_A.sl.HS0_28 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27) idx
      = View.canon (kernelRun0_A.sl.HS0_27 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26) idx + sqd (predAt x1 (⟨26, by norm_num⟩ : Fin 32) idx) (winRead x0 (k0_off54 (wordOf c tbM0_0 xt0 (k0_off53 i) (k0_off53_inb i)) (wordOf c tbM0_1 xt1 (k0_off53 i) (k0_off53_inb i))) idx) := by
    intro idx
    unfold kernelRun0_A.sl.HS0_28
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨26, by norm_num⟩ : Fin 32) _ rfl]
    rw [win_idx x0 (k0_off54 (wordOf c tbM0_0 xt0 (k0_off53 i) (k0_off53_inb i)) (wordOf c tbM0_1 xt1 (k0_off53 i) (k0_off53_inb i))) (k0_off54_inb _ _ k0_hw27) idx]
  have S27 : ∀ idx : S224x224.Idx, View.canon (kernelRun0_A.sl.HS0_29 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28) idx
      = View.canon (kernelRun0_A.sl.HS0_28 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27) idx + sqd (predAt x1 (⟨27, by norm_num⟩ : Fin 32) idx) (winRead x0 (k0_off56 (wordOf c tbM0_0 xt0 (k0_off55 i) (k0_off55_inb i)) (wordOf c tbM0_1 xt1 (k0_off55 i) (k0_off55_inb i))) idx) := by
    intro idx
    unfold kernelRun0_A.sl.HS0_29
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨27, by norm_num⟩ : Fin 32) _ rfl]
    rw [win_idx x0 (k0_off56 (wordOf c tbM0_0 xt0 (k0_off55 i) (k0_off55_inb i)) (wordOf c tbM0_1 xt1 (k0_off55 i) (k0_off55_inb i))) (k0_off56_inb _ _ k0_hw28) idx]
  have S28 : ∀ idx : S224x224.Idx, View.canon (kernelRun0_A.sl.HS0_30 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29) idx
      = View.canon (kernelRun0_A.sl.HS0_29 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28) idx + sqd (predAt x1 (⟨28, by norm_num⟩ : Fin 32) idx) (winRead x0 (k0_off58 (wordOf c tbM0_0 xt0 (k0_off57 i) (k0_off57_inb i)) (wordOf c tbM0_1 xt1 (k0_off57 i) (k0_off57_inb i))) idx) := by
    intro idx
    unfold kernelRun0_A.sl.HS0_30
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨28, by norm_num⟩ : Fin 32) _ rfl]
    rw [win_idx x0 (k0_off58 (wordOf c tbM0_0 xt0 (k0_off57 i) (k0_off57_inb i)) (wordOf c tbM0_1 xt1 (k0_off57 i) (k0_off57_inb i))) (k0_off58_inb _ _ k0_hw29) idx]
  have S29 : ∀ idx : S224x224.Idx, View.canon (kernelRun0_A.sl.HS0_31 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30) idx
      = View.canon (kernelRun0_A.sl.HS0_30 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29) idx + sqd (predAt x1 (⟨29, by norm_num⟩ : Fin 32) idx) (winRead x0 (k0_off60 (wordOf c tbM0_0 xt0 (k0_off59 i) (k0_off59_inb i)) (wordOf c tbM0_1 xt1 (k0_off59 i) (k0_off59_inb i))) idx) := by
    intro idx
    unfold kernelRun0_A.sl.HS0_31
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨29, by norm_num⟩ : Fin 32) _ rfl]
    rw [win_idx x0 (k0_off60 (wordOf c tbM0_0 xt0 (k0_off59 i) (k0_off59_inb i)) (wordOf c tbM0_1 xt1 (k0_off59 i) (k0_off59_inb i))) (k0_off60_inb _ _ k0_hw30) idx]
  have S30 : ∀ idx : S224x224.Idx, View.canon (kernelRun0_A.sl.HS0_32 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31) idx
      = View.canon (kernelRun0_A.sl.HS0_31 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30) idx + sqd (predAt x1 (⟨30, by norm_num⟩ : Fin 32) idx) (winRead x0 (k0_off62 (wordOf c tbM0_0 xt0 (k0_off61 i) (k0_off61_inb i)) (wordOf c tbM0_1 xt1 (k0_off61 i) (k0_off61_inb i))) idx) := by
    intro idx
    unfold kernelRun0_A.sl.HS0_32
    rw [View.canon_cons_unit_zero hz2]
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨30, by norm_num⟩ : Fin 32) _ rfl]
    rw [win_idx x0 (k0_off62 (wordOf c tbM0_0 xt0 (k0_off61 i) (k0_off61_inb i)) (wordOf c tbM0_1 xt1 (k0_off61 i) (k0_off61_inb i))) (k0_off62_inb _ _ k0_hw31) idx]
  unfold sout0_A_0
  rw [View.read_writes_junk_eq_canon]
  unfold kernelRun0_A
  dsimp only
  rw [View.canon_cons_unit_zero hz2]
  refine Eq.trans (b := View.canon (kernelRun0_A.sl.HS0_32 (F := Ideal) c i arg4 harg4 arg5 harg5 arg7 x0 x1 xt0 xt1 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31) idx + sqd (predAt x1 (⟨31, by norm_num⟩ : Fin 32) idx) (winRead x0 (k0_off64 (wordOf c tbM0_0 xt0 (k0_off63 i) (k0_off63_inb i)) (wordOf c tbM0_1 xt1 (k0_off63 i) (k0_off63_inb i))) idx)) ?_ ?_
  ·
    simp only [kernelRun0_A.sl.r, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_1, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_2, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_3, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_4, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_5, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_6, kernelRun0_A.sl.r_70, kernelRun0_A.sl.r_71, kernelRun0_A.sl.r_72, kernelRun0_A.sl.r_73, kernelRun0_A.sl.r_7, kernelRun0_A.sl.r_8, kernelRun0_A.sl.r_9, kernelRun0_A.sl.v0, kernelRun0_A.sl.v117, kernelRun0_A.sl.v141, kernelRun0_A.sl.v147, kernelRun0_A.sl.v165, kernelRun0_A.sl.v189, kernelRun0_A.sl.v1, kernelRun0_A.sl.v213, kernelRun0_A.sl.v21, kernelRun0_A.sl.v237, kernelRun0_A.sl.v261, kernelRun0_A.sl.v285, kernelRun0_A.sl.v299, kernelRun0_A.sl.v2, kernelRun0_A.sl.v300, kernelRun0_A.sl.v309, kernelRun0_A.sl.v333, kernelRun0_A.sl.v357, kernelRun0_A.sl.v35, kernelRun0_A.sl.v381, kernelRun0_A.sl.v405, kernelRun0_A.sl.v412, kernelRun0_A.sl.v413, kernelRun0_A.sl.v429, kernelRun0_A.sl.v453, kernelRun0_A.sl.v45, kernelRun0_A.sl.v477, kernelRun0_A.sl.v501, kernelRun0_A.sl.v525, kernelRun0_A.sl.v549, kernelRun0_A.sl.v573, kernelRun0_A.sl.v597, kernelRun0_A.sl.v621, kernelRun0_A.sl.v645, kernelRun0_A.sl.v669, kernelRun0_A.sl.v678, kernelRun0_A.sl.v693, kernelRun0_A.sl.v69, kernelRun0_A.sl.v717, kernelRun0_A.sl.v741, kernelRun0_A.sl.v755, kernelRun0_A.sl.v762, kernelRun0_A.sl.v765, kernelRun0_A.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨31, by norm_num⟩ : Fin 32) _ rfl]
    rw [win_idx x0 (k0_off64 (wordOf c tbM0_0 xt0 (k0_off63 i) (k0_off63_inb i)) (wordOf c tbM0_1 xt1 (k0_off63 i) (k0_off63_inb i))) (k0_off64_inb _ _ k0_hw32) idx]
  · rw [S30 idx, S29 idx, S28 idx, S27 idx, S26 idx, S25 idx, S24 idx, S23 idx, S22 idx, S21 idx, S20 idx, S19 idx, S18 idx, S17 idx, S16 idx, S15 idx, S14 idx, S13 idx, S12 idx, S11 idx, S10 idx, S9 idx, S8 idx, S7 idx, S6 idx, S5 idx, S4 idx, S3 idx, S2 idx, S1 idx, S0 idx, A1 idx]

end Cert.Landmark.Piece

end
-- ==== Proof.ChainB.lean ====
/-
  The accumulator after a grid step in the middle of a half.

  The step finds the accumulator as the step before left it and visits its 32 landmarks in order, each time
  adding the squared difference of the landmark's prediction slice and its window of the padded bell. Store by
  store the accumulator is the previous contents plus that landmark's term, so after the step it holds, at
  every image position, what it held before plus the 32 terms in order.
-/
import proofs.«129057_j82145544503653_2_alg».proof.Proof.PieceRead

set_option maxRecDepth 16384

noncomputable section

namespace Cert.Landmark.Piece

open Idealize.ShloMosaic Idealize.ShloMosaic.TcCoe Idealize.ShloMosaic.ValueIdx
open Idealize.SL.Sem
open Cert.KernelIdeal Cert.KernelIdeal.Gen

set_option maxHeartbeats 16000000 in
theorem chainB (c : Dev nD) (i : grid0.Coords) (arg4 : Memref sig .tc .vmem S480x512 .f32) (harg4 : arg4.IsWhole) (arg5 : Memref sig .tc .vmem S1x32x224x224 .f32) (harg5 : arg5.IsWhole) (arg6 : Memref sig .tc .vmem S1x224x224 .f32) (harg6 : arg6.IsWhole) (arg7 : Memref sig .tc .vmem S224x224 .f32) (harg7 : arg7.IsWhole) (hc0 : ¬cond0_0 i) (hc1 : ¬cond0_1 i) (x0 : Vec Ideal S480x512 .f32) (x1 : Vec Ideal S1x32x224x224 .f32) (xt0 : TbBuf0 (F := Ideal) c tbM0_0) (xt1 : TbBuf0 (F := Ideal) c tbM0_1) (xs0 : Vec Ideal S224x224 .f32) (k0_hw1 : k0_chk1 (tbM0_0.view.readAt (Elt Ideal) (Rect.unit (s := S1088) (k0_off1 i) S1.size (k0_off1_inb i)).toLoadRect xt0 (Shape.Idx.first (numel1_S1.symm ▸ Nat.one_pos))) (tbM0_1.view.readAt (Elt Ideal) (Rect.unit (s := S1088) (k0_off1 i) S1.size (k0_off1_inb i)).toLoadRect xt1 (Shape.Idx.first (numel1_S1.symm ▸ Nat.one_pos)))) (k0_hw2 : k0_chk2 (tbM0_0.view.readAt (Elt Ideal) (Rect.unit (s := S1088) (k0_off3 i) S1.size (k0_off3_inb i)).toLoadRect xt0 (Shape.Idx.first (numel1_S1.symm ▸ Nat.one_pos))) (tbM0_1.view.readAt (Elt Ideal) (Rect.unit (s := S1088) (k0_off3 i) S1.size (k0_off3_inb i)).toLoadRect xt1 (Shape.Idx.first (numel1_S1.symm ▸ Nat.one_pos)))) (k0_hw3 : k0_chk3 (tbM0_0.view.readAt (Elt Ideal) (Rect.unit (s := S1088) (k0_off5 i) S1.size (k0_off5_inb i)).toLoadRect xt0 (Shape.Idx.first (numel1_S1.symm ▸ Nat.one_pos))) (tbM0_1.view.readAt (Elt Ideal) (Rect.unit (s := S1088) (k0_off5 i) S1.size (k0_off5_inb i)).toLoadRect xt1 (Shape.Idx.first (numel1_S1.symm ▸ Nat.one_pos)))) (k0_hw4 : k0_chk4 (tbM0_0.view.readAt (Elt Ideal) (Rect.unit (s := S1088) (k0_off7 i) S1.size (k0_off7_inb i)).toLoadRect xt0 (Shape.Idx.first (numel1_S1.symm ▸ Nat.one_pos))) (tbM0_1.view.readAt (Elt Ideal) (Rect.unit (s := S1088) (k0_off7 i) S1.size (k0_off7_inb i)).toLoadRect xt1 (Shape.Idx.first (numel1_S1.symm ▸ Nat.one_pos)))) (k0_hw5 : k0_chk5 (tbM0_0.view.readAt (Elt Ideal) (Rect.unit (s := S1088) (k0_off9 i) S1.size (k0_off9_inb i)).toLoadRect xt0 (Shape.Idx.first (numel1_S1.symm ▸ Nat.one_pos))) (tbM0_1.view.readAt (Elt Ideal) (Rect.unit (s := S1088) (k0_off9 i) S1.size (k0_off9_inb i)).toLoadRect xt1 (Shape.Idx.first (numel1_S1.symm ▸ Nat.one_pos)))) (k0_hw6 : k0_chk6 (tbM0_0.view.readAt (Elt Ideal) (Rect.unit (s := S1088) (k0_off11 i) S1.size (k0_off11_inb i)).toLoadRect xt0 (Shape.Idx.first (numel1_S1.symm ▸ Nat.one_pos))) (tbM0_1.view.readAt (Elt Ideal) (Rect.unit (s := S1088) (k0_off11 i) S1.size (k0_off11_inb i)).toLoadRect xt1 (Shape.Idx.first (numel1_S1.symm ▸ Nat.one_pos)))) (k0_hw7 : k0_chk7 (tbM0_0.view.readAt (Elt Ideal) (Rect.unit (s := S1088) (k0_off13 i) S1.size (k0_off13_inb i)).toLoadRect xt0 (Shape.Idx.first (numel1_S1.symm ▸ Nat.one_pos))) (tbM0_1.view.readAt (Elt Ideal) (Rect.unit (s := S1088) (k0_off13 i) S1.size (k0_off13_inb i)).toLoadRect xt1 (Shape.Idx.first (numel1_S1.symm ▸ Nat.one_pos)))) (k0_hw8 : k0_chk8 (tbM0_0.view.readAt (Elt Ideal) (Rect.unit (s := S1088) (k0_off15 i) S1.size (k0_off15_inb i)).toLoadRect xt0 (Shape.Idx.first (numel1_S1.symm ▸ Nat.one_pos))) (tbM0_1.view.readAt (Elt Ideal) (Rect.unit (s := S1088) (k0_off15 i) S1.size (k0_off15_inb i)).toLoadRect xt1 (Shape.Idx.first (numel1_S1.symm ▸ Nat.one_pos)))) (k0_hw9 : k0_chk9 (tbM0_0.view.readAt (Elt Ideal) (Rect.unit (s := S1088) (k0_off17 i) S1.size (k0_off17_inb i)).toLoadRect xt0 (Shape.Idx.first (numel1_S1.symm ▸ Nat.one_pos))) (tbM0_1.view.readAt (Elt Ideal) (Rect.unit (s := S1088) (k0_off17 i) S1.size (k0_off17_inb i)).toLoadRect xt1 (Shape.Idx.first (numel1_S1.symm ▸ Nat.one_pos)))) (k0_hw10 : k0_chk10 (tbM0_0.view.readAt (Elt Ideal) (Rect.unit (s := S1088) (k0_off19 i) S1.size (k0_off19_inb i)).toLoadRect xt0 (Shape.Idx.first (numel1_S1.symm ▸ Nat.one_pos))) (tbM0_1.view.readAt (Elt Ideal) (Rect.unit (s := S1088) (k0_off19 i) S1.size (k0_off19_inb i)).toLoadRect xt1 (Shape.Idx.first (numel1_S1.symm ▸ Nat.one_pos)))) (k0_hw11 : k0_chk11 (tbM0_0.view.readAt (Elt Ideal) (Rect.unit (s := S1088) (k0_off21 i) S1.size (k0_off21_inb i)).toLoadRect xt0 (Shape.Idx.first (numel1_S1.symm ▸ Nat.one_pos))) (tbM0_1.view.readAt (Elt Ideal) (Rect.unit (s := S1088) (k0_off21 i) S1.size (k0_off21_inb i)).toLoadRect xt1 (Shape.Idx.first (numel1_S1.symm ▸ Nat.one_pos)))) (k0_hw12 : k0_chk12 (tbM0_0.view.readAt (Elt Ideal) (Rect.unit (s := S1088) (k0_off23 i) S1.size (k0_off23_inb i)).toLoadRect xt0 (Shape.Idx.first (numel1_S1.symm ▸ Nat.one_pos))) (tbM0_1.view.readAt (Elt Ideal) (Rect.unit (s := S1088) (k0_off23 i) S1.size (k0_off23_inb i)).toLoadRect xt1 (Shape.Idx.first (numel1_S1.symm ▸ Nat.one_pos)))) (k0_hw13 : k0_chk13 (tbM0_0.view.readAt (Elt Ideal) (Rect.unit (s := S1088) (k0_off25 i) S1.size (k0_off25_inb i)).toLoadRect xt0 (Shape.Idx.first (numel1_S1.symm ▸ Nat.one_pos))) (tbM0_1.view.readAt (Elt Ideal) (Rect.unit (s := S1088) (k0_off25 i) S1.size (k0_off25_inb i)).toLoadRect xt1 (Shape.Idx.first (numel1_S1.symm ▸ Nat.one_pos)))) (k0_hw14 : k0_chk14 (tbM0_0.view.readAt (Elt Ideal) (Rect.unit (s := S1088) (k0_off27 i) S1.size (k0_off27_inb i)).toLoadRect xt0 (Shape.Idx.first (numel1_S1.symm ▸ Nat.one_pos))) (tbM0_1.view.readAt (Elt Ideal) (Rect.unit (s := S1088) (k0_off27 i) S1.size (k0_off27_inb i)).toLoadRect xt1 (Shape.Idx.first (numel1_S1.symm ▸ Nat.one_pos)))) (k0_hw15 : k0_chk15 (tbM0_0.view.readAt (Elt Ideal) (Rect.unit (s := S1088) (k0_off29 i) S1.size (k0_off29_inb i)).toLoadRect xt0 (Shape.Idx.first (numel1_S1.symm ▸ Nat.one_pos))) (tbM0_1.view.readAt (Elt Ideal) (Rect.unit (s := S1088) (k0_off29 i) S1.size (k0_off29_inb i)).toLoadRect xt1 (Shape.Idx.first (numel1_S1.symm ▸ Nat.one_pos)))) (k0_hw16 : k0_chk16 (tbM0_0.view.readAt (Elt Ideal) (Rect.unit (s := S1088) (k0_off31 i) S1.size (k0_off31_inb i)).toLoadRect xt0 (Shape.Idx.first (numel1_S1.symm ▸ Nat.one_pos))) (tbM0_1.view.readAt (Elt Ideal) (Rect.unit (s := S1088) (k0_off31 i) S1.size (k0_off31_inb i)).toLoadRect xt1 (Shape.Idx.first (numel1_S1.symm ▸ Nat.one_pos)))) (k0_hw17 : k0_chk17 (tbM0_0.view.readAt (Elt Ideal) (Rect.unit (s := S1088) (k0_off33 i) S1.size (k0_off33_inb i)).toLoadRect xt0 (Shape.Idx.first (numel1_S1.symm ▸ Nat.one_pos))) (tbM0_1.view.readAt (Elt Ideal) (Rect.unit (s := S1088) (k0_off33 i) S1.size (k0_off33_inb i)).toLoadRect xt1 (Shape.Idx.first (numel1_S1.symm ▸ Nat.one_pos)))) (k0_hw18 : k0_chk18 (tbM0_0.view.readAt (Elt Ideal) (Rect.unit (s := S1088) (k0_off35 i) S1.size (k0_off35_inb i)).toLoadRect xt0 (Shape.Idx.first (numel1_S1.symm ▸ Nat.one_pos))) (tbM0_1.view.readAt (Elt Ideal) (Rect.unit (s := S1088) (k0_off35 i) S1.size (k0_off35_inb i)).toLoadRect xt1 (Shape.Idx.first (numel1_S1.symm ▸ Nat.one_pos)))) (k0_hw19 : k0_chk19 (tbM0_0.view.readAt (Elt Ideal) (Rect.unit (s := S1088) (k0_off37 i) S1.size (k0_off37_inb i)).toLoadRect xt0 (Shape.Idx.first (numel1_S1.symm ▸ Nat.one_pos))) (tbM0_1.view.readAt (Elt Ideal) (Rect.unit (s := S1088) (k0_off37 i) S1.size (k0_off37_inb i)).toLoadRect xt1 (Shape.Idx.first (numel1_S1.symm ▸ Nat.one_pos)))) (k0_hw20 : k0_chk20 (tbM0_0.view.readAt (Elt Ideal) (Rect.unit (s := S1088) (k0_off39 i) S1.size (k0_off39_inb i)).toLoadRect xt0 (Shape.Idx.first (numel1_S1.symm ▸ Nat.one_pos))) (tbM0_1.view.readAt (Elt Ideal) (Rect.unit (s := S1088) (k0_off39 i) S1.size (k0_off39_inb i)).toLoadRect xt1 (Shape.Idx.first (numel1_S1.symm ▸ Nat.one_pos)))) (k0_hw21 : k0_chk21 (tbM0_0.view.readAt (Elt Ideal) (Rect.unit (s := S1088) (k0_off41 i) S1.size (k0_off41_inb i)).toLoadRect xt0 (Shape.Idx.first (numel1_S1.symm ▸ Nat.one_pos))) (tbM0_1.view.readAt (Elt Ideal) (Rect.unit (s := S1088) (k0_off41 i) S1.size (k0_off41_inb i)).toLoadRect xt1 (Shape.Idx.first (numel1_S1.symm ▸ Nat.one_pos)))) (k0_hw22 : k0_chk22 (tbM0_0.view.readAt (Elt Ideal) (Rect.unit (s := S1088) (k0_off43 i) S1.size (k0_off43_inb i)).toLoadRect xt0 (Shape.Idx.first (numel1_S1.symm ▸ Nat.one_pos))) (tbM0_1.view.readAt (Elt Ideal) (Rect.unit (s := S1088) (k0_off43 i) S1.size (k0_off43_inb i)).toLoadRect xt1 (Shape.Idx.first (numel1_S1.symm ▸ Nat.one_pos)))) (k0_hw23 : k0_chk23 (tbM0_0.view.readAt (Elt Ideal) (Rect.unit (s := S1088) (k0_off45 i) S1.size (k0_off45_inb i)).toLoadRect xt0 (Shape.Idx.first (numel1_S1.symm ▸ Nat.one_pos))) (tbM0_1.view.readAt (Elt Ideal) (Rect.unit (s := S1088) (k0_off45 i) S1.size (k0_off45_inb i)).toLoadRect xt1 (Shape.Idx.first (numel1_S1.symm ▸ Nat.one_pos)))) (k0_hw24 : k0_chk24 (tbM0_0.view.readAt (Elt Ideal) (Rect.unit (s := S1088) (k0_off47 i) S1.size (k0_off47_inb i)).toLoadRect xt0 (Shape.Idx.first (numel1_S1.symm ▸ Nat.one_pos))) (tbM0_1.view.readAt (Elt Ideal) (Rect.unit (s := S1088) (k0_off47 i) S1.size (k0_off47_inb i)).toLoadRect xt1 (Shape.Idx.first (numel1_S1.symm ▸ Nat.one_pos)))) (k0_hw25 : k0_chk25 (tbM0_0.view.readAt (Elt Ideal) (Rect.unit (s := S1088) (k0_off49 i) S1.size (k0_off49_inb i)).toLoadRect xt0 (Shape.Idx.first (numel1_S1.symm ▸ Nat.one_pos))) (tbM0_1.view.readAt (Elt Ideal) (Rect.unit (s := S1088) (k0_off49 i) S1.size (k0_off49_inb i)).toLoadRect xt1 (Shape.Idx.first (numel1_S1.symm ▸ Nat.one_pos)))) (k0_hw26 : k0_chk26 (tbM0_0.view.readAt (Elt Ideal) (Rect.unit (s := S1088) (k0_off51 i) S1.size (k0_off51_inb i)).toLoadRect xt0 (Shape.Idx.first (numel1_S1.symm ▸ Nat.one_pos))) (tbM0_1.view.readAt (Elt Ideal) (Rect.unit (s := S1088) (k0_off51 i) S1.size (k0_off51_inb i)).toLoadRect xt1 (Shape.Idx.first (numel1_S1.symm ▸ Nat.one_pos)))) (k0_hw27 : k0_chk27 (tbM0_0.view.readAt (Elt Ideal) (Rect.unit (s := S1088) (k0_off53 i) S1.size (k0_off53_inb i)).toLoadRect xt0 (Shape.Idx.first (numel1_S1.symm ▸ Nat.one_pos))) (tbM0_1.view.readAt (Elt Ideal) (Rect.unit (s := S1088) (k0_off53 i) S1.size (k0_off53_inb i)).toLoadRect xt1 (Shape.Idx.first (numel1_S1.symm ▸ Nat.one_pos)))) (k0_hw28 : k0_chk28 (tbM0_0.view.readAt (Elt Ideal) (Rect.unit (s := S1088) (k0_off55 i) S1.size (k0_off55_inb i)).toLoadRect xt0 (Shape.Idx.first (numel1_S1.symm ▸ Nat.one_pos))) (tbM0_1.view.readAt (Elt Ideal) (Rect.unit (s := S1088) (k0_off55 i) S1.size (k0_off55_inb i)).toLoadRect xt1 (Shape.Idx.first (numel1_S1.symm ▸ Nat.one_pos)))) (k0_hw29 : k0_chk29 (tbM0_0.view.readAt (Elt Ideal) (Rect.unit (s := S1088) (k0_off57 i) S1.size (k0_off57_inb i)).toLoadRect xt0 (Shape.Idx.first (numel1_S1.symm ▸ Nat.one_pos))) (tbM0_1.view.readAt (Elt Ideal) (Rect.unit (s := S1088) (k0_off57 i) S1.size (k0_off57_inb i)).toLoadRect xt1 (Shape.Idx.first (numel1_S1.symm ▸ Nat.one_pos)))) (k0_hw30 : k0_chk30 (tbM0_0.view.readAt (Elt Ideal) (Rect.unit (s := S1088) (k0_off59 i) S1.size (k0_off59_inb i)).toLoadRect xt0 (Shape.Idx.first (numel1_S1.symm ▸ Nat.one_pos))) (tbM0_1.view.readAt (Elt Ideal) (Rect.unit (s := S1088) (k0_off59 i) S1.size (k0_off59_inb i)).toLoadRect xt1 (Shape.Idx.first (numel1_S1.symm ▸ Nat.one_pos)))) (k0_hw31 : k0_chk31 (tbM0_0.view.readAt (Elt Ideal) (Rect.unit (s := S1088) (k0_off61 i) S1.size (k0_off61_inb i)).toLoadRect xt0 (Shape.Idx.first (numel1_S1.symm ▸ Nat.one_pos))) (tbM0_1.view.readAt (Elt Ideal) (Rect.unit (s := S1088) (k0_off61 i) S1.size (k0_off61_inb i)).toLoadRect xt1 (Shape.Idx.first (numel1_S1.symm ▸ Nat.one_pos)))) (k0_hw32 : k0_chk32 (tbM0_0.view.readAt (Elt Ideal) (Rect.unit (s := S1088) (k0_off63 i) S1.size (k0_off63_inb i)).toLoadRect xt0 (Shape.Idx.first (numel1_S1.symm ▸ Nat.one_pos))) (tbM0_1.view.readAt (Elt Ideal) (Rect.unit (s := S1088) (k0_off63 i) S1.size (k0_off63_inb i)).toLoadRect xt1 (Shape.Idx.first (numel1_S1.symm ▸ Nat.one_pos)))) (idx : S224x224.Idx) :
    sout0_B_0 (F := Ideal) c i arg4 harg4 arg5 harg5 arg6 harg6 arg7 harg7 hc0 hc1 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 idx
      = ((((((((((((((((((((((((((((((((xs0 idx + sqd (predAt x1 (⟨0, by norm_num⟩ : Fin 32) idx) (winRead x0 (k0_off2 (wordOf c tbM0_0 xt0 (k0_off1 i) (k0_off1_inb i)) (wordOf c tbM0_1 xt1 (k0_off1 i) (k0_off1_inb i))) idx)) + sqd (predAt x1 (⟨1, by norm_num⟩ : Fin 32) idx) (winRead x0 (k0_off4 (wordOf c tbM0_0 xt0 (k0_off3 i) (k0_off3_inb i)) (wordOf c tbM0_1 xt1 (k0_off3 i) (k0_off3_inb i))) idx)) + sqd (predAt x1 (⟨2, by norm_num⟩ : Fin 32) idx) (winRead x0 (k0_off6 (wordOf c tbM0_0 xt0 (k0_off5 i) (k0_off5_inb i)) (wordOf c tbM0_1 xt1 (k0_off5 i) (k0_off5_inb i))) idx)) + sqd (predAt x1 (⟨3, by norm_num⟩ : Fin 32) idx) (winRead x0 (k0_off8 (wordOf c tbM0_0 xt0 (k0_off7 i) (k0_off7_inb i)) (wordOf c tbM0_1 xt1 (k0_off7 i) (k0_off7_inb i))) idx)) + sqd (predAt x1 (⟨4, by norm_num⟩ : Fin 32) idx) (winRead x0 (k0_off10 (wordOf c tbM0_0 xt0 (k0_off9 i) (k0_off9_inb i)) (wordOf c tbM0_1 xt1 (k0_off9 i) (k0_off9_inb i))) idx)) + sqd (predAt x1 (⟨5, by norm_num⟩ : Fin 32) idx) (winRead x0 (k0_off12 (wordOf c tbM0_0 xt0 (k0_off11 i) (k0_off11_inb i)) (wordOf c tbM0_1 xt1 (k0_off11 i) (k0_off11_inb i))) idx)) + sqd (predAt x1 (⟨6, by norm_num⟩ : Fin 32) idx) (winRead x0 (k0_off14 (wordOf c tbM0_0 xt0 (k0_off13 i) (k0_off13_inb i)) (wordOf c tbM0_1 xt1 (k0_off13 i) (k0_off13_inb i))) idx)) + sqd (predAt x1 (⟨7, by norm_num⟩ : Fin 32) idx) (winRead x0 (k0_off16 (wordOf c tbM0_0 xt0 (k0_off15 i) (k0_off15_inb i)) (wordOf c tbM0_1 xt1 (k0_off15 i) (k0_off15_inb i))) idx)) + sqd (predAt x1 (⟨8, by norm_num⟩ : Fin 32) idx) (winRead x0 (k0_off18 (wordOf c tbM0_0 xt0 (k0_off17 i) (k0_off17_inb i)) (wordOf c tbM0_1 xt1 (k0_off17 i) (k0_off17_inb i))) idx)) + sqd (predAt x1 (⟨9, by norm_num⟩ : Fin 32) idx) (winRead x0 (k0_off20 (wordOf c tbM0_0 xt0 (k0_off19 i) (k0_off19_inb i)) (wordOf c tbM0_1 xt1 (k0_off19 i) (k0_off19_inb i))) idx)) + sqd (predAt x1 (⟨10, by norm_num⟩ : Fin 32) idx) (winRead x0 (k0_off22 (wordOf c tbM0_0 xt0 (k0_off21 i) (k0_off21_inb i)) (wordOf c tbM0_1 xt1 (k0_off21 i) (k0_off21_inb i))) idx)) + sqd (predAt x1 (⟨11, by norm_num⟩ : Fin 32) idx) (winRead x0 (k0_off24 (wordOf c tbM0_0 xt0 (k0_off23 i) (k0_off23_inb i)) (wordOf c tbM0_1 xt1 (k0_off23 i) (k0_off23_inb i))) idx)) + sqd (predAt x1 (⟨12, by norm_num⟩ : Fin 32) idx) (winRead x0 (k0_off26 (wordOf c tbM0_0 xt0 (k0_off25 i) (k0_off25_inb i)) (wordOf c tbM0_1 xt1 (k0_off25 i) (k0_off25_inb i))) idx)) + sqd (predAt x1 (⟨13, by norm_num⟩ : Fin 32) idx) (winRead x0 (k0_off28 (wordOf c tbM0_0 xt0 (k0_off27 i) (k0_off27_inb i)) (wordOf c tbM0_1 xt1 (k0_off27 i) (k0_off27_inb i))) idx)) + sqd (predAt x1 (⟨14, by norm_num⟩ : Fin 32) idx) (winRead x0 (k0_off30 (wordOf c tbM0_0 xt0 (k0_off29 i) (k0_off29_inb i)) (wordOf c tbM0_1 xt1 (k0_off29 i) (k0_off29_inb i))) idx)) + sqd (predAt x1 (⟨15, by norm_num⟩ : Fin 32) idx) (winRead x0 (k0_off32 (wordOf c tbM0_0 xt0 (k0_off31 i) (k0_off31_inb i)) (wordOf c tbM0_1 xt1 (k0_off31 i) (k0_off31_inb i))) idx)) + sqd (predAt x1 (⟨16, by norm_num⟩ : Fin 32) idx) (winRead x0 (k0_off34 (wordOf c tbM0_0 xt0 (k0_off33 i) (k0_off33_inb i)) (wordOf c tbM0_1 xt1 (k0_off33 i) (k0_off33_inb i))) idx)) + sqd (predAt x1 (⟨17, by norm_num⟩ : Fin 32) idx) (winRead x0 (k0_off36 (wordOf c tbM0_0 xt0 (k0_off35 i) (k0_off35_inb i)) (wordOf c tbM0_1 xt1 (k0_off35 i) (k0_off35_inb i))) idx)) + sqd (predAt x1 (⟨18, by norm_num⟩ : Fin 32) idx) (winRead x0 (k0_off38 (wordOf c tbM0_0 xt0 (k0_off37 i) (k0_off37_inb i)) (wordOf c tbM0_1 xt1 (k0_off37 i) (k0_off37_inb i))) idx)) + sqd (predAt x1 (⟨19, by norm_num⟩ : Fin 32) idx) (winRead x0 (k0_off40 (wordOf c tbM0_0 xt0 (k0_off39 i) (k0_off39_inb i)) (wordOf c tbM0_1 xt1 (k0_off39 i) (k0_off39_inb i))) idx)) + sqd (predAt x1 (⟨20, by norm_num⟩ : Fin 32) idx) (winRead x0 (k0_off42 (wordOf c tbM0_0 xt0 (k0_off41 i) (k0_off41_inb i)) (wordOf c tbM0_1 xt1 (k0_off41 i) (k0_off41_inb i))) idx)) + sqd (predAt x1 (⟨21, by norm_num⟩ : Fin 32) idx) (winRead x0 (k0_off44 (wordOf c tbM0_0 xt0 (k0_off43 i) (k0_off43_inb i)) (wordOf c tbM0_1 xt1 (k0_off43 i) (k0_off43_inb i))) idx)) + sqd (predAt x1 (⟨22, by norm_num⟩ : Fin 32) idx) (winRead x0 (k0_off46 (wordOf c tbM0_0 xt0 (k0_off45 i) (k0_off45_inb i)) (wordOf c tbM0_1 xt1 (k0_off45 i) (k0_off45_inb i))) idx)) + sqd (predAt x1 (⟨23, by norm_num⟩ : Fin 32) idx) (winRead x0 (k0_off48 (wordOf c tbM0_0 xt0 (k0_off47 i) (k0_off47_inb i)) (wordOf c tbM0_1 xt1 (k0_off47 i) (k0_off47_inb i))) idx)) + sqd (predAt x1 (⟨24, by norm_num⟩ : Fin 32) idx) (winRead x0 (k0_off50 (wordOf c tbM0_0 xt0 (k0_off49 i) (k0_off49_inb i)) (wordOf c tbM0_1 xt1 (k0_off49 i) (k0_off49_inb i))) idx)) + sqd (predAt x1 (⟨25, by norm_num⟩ : Fin 32) idx) (winRead x0 (k0_off52 (wordOf c tbM0_0 xt0 (k0_off51 i) (k0_off51_inb i)) (wordOf c tbM0_1 xt1 (k0_off51 i) (k0_off51_inb i))) idx)) + sqd (predAt x1 (⟨26, by norm_num⟩ : Fin 32) idx) (winRead x0 (k0_off54 (wordOf c tbM0_0 xt0 (k0_off53 i) (k0_off53_inb i)) (wordOf c tbM0_1 xt1 (k0_off53 i) (k0_off53_inb i))) idx)) + sqd (predAt x1 (⟨27, by norm_num⟩ : Fin 32) idx) (winRead x0 (k0_off56 (wordOf c tbM0_0 xt0 (k0_off55 i) (k0_off55_inb i)) (wordOf c tbM0_1 xt1 (k0_off55 i) (k0_off55_inb i))) idx)) + sqd (predAt x1 (⟨28, by norm_num⟩ : Fin 32) idx) (winRead x0 (k0_off58 (wordOf c tbM0_0 xt0 (k0_off57 i) (k0_off57_inb i)) (wordOf c tbM0_1 xt1 (k0_off57 i) (k0_off57_inb i))) idx)) + sqd (predAt x1 (⟨29, by norm_num⟩ : Fin 32) idx) (winRead x0 (k0_off60 (wordOf c tbM0_0 xt0 (k0_off59 i) (k0_off59_inb i)) (wordOf c tbM0_1 xt1 (k0_off59 i) (k0_off59_inb i))) idx)) + sqd (predAt x1 (⟨30, by norm_num⟩ : Fin 32) idx) (winRead x0 (k0_off62 (wordOf c tbM0_0 xt0 (k0_off61 i) (k0_off61_inb i)) (wordOf c tbM0_1 xt1 (k0_off61 i) (k0_off61_inb i))) idx)) + sqd (predAt x1 (⟨31, by norm_num⟩ : Fin 32) idx) (winRead x0 (k0_off64 (wordOf c tbM0_0 xt0 (k0_off63 i) (k0_off63_inb i)) (wordOf c tbM0_1 xt1 (k0_off63 i) (k0_off63_inb i))) idx)) := by
  have S0 : ∀ idx : S224x224.Idx, View.canon (kernelRun0_B.sl.HS0_1 (F := Ideal) c i arg4 harg4 arg5 harg5 arg7 harg7 x0 x1 xt0 xt1 xs0 k0_hw1) idx
      = xs0 idx + sqd (predAt x1 (⟨0, by norm_num⟩ : Fin 32) idx) (winRead x0 (k0_off2 (wordOf c tbM0_0 xt0 (k0_off1 i) (k0_off1_inb i)) (wordOf c tbM0_1 xt1 (k0_off1 i) (k0_off1_inb i))) idx) := by
    intro idx
    unfold kernelRun0_B.sl.HS0_1
    rw [View.canon_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨0, by norm_num⟩ : Fin 32) _ rfl, whole_read xs0]
    rw [win_idx x0 (k0_off2 (wordOf c tbM0_0 xt0 (k0_off1 i) (k0_off1_inb i)) (wordOf c tbM0_1 xt1 (k0_off1 i) (k0_off1_inb i))) (k0_off2_inb _ _ k0_hw1) idx]
  have S1 : ∀ idx : S224x224.Idx, View.canon (kernelRun0_B.sl.HS0_2 (F := Ideal) c i arg4 harg4 arg5 harg5 arg7 harg7 x0 x1 xt0 xt1 xs0 k0_hw1 k0_hw2) idx
      = View.canon (kernelRun0_B.sl.HS0_1 (F := Ideal) c i arg4 harg4 arg5 harg5 arg7 harg7 x0 x1 xt0 xt1 xs0 k0_hw1) idx + sqd (predAt x1 (⟨1, by norm_num⟩ : Fin 32) idx) (winRead x0 (k0_off4 (wordOf c tbM0_0 xt0 (k0_off3 i) (k0_off3_inb i)) (wordOf c tbM0_1 xt1 (k0_off3 i) (k0_off3_inb i))) idx) := by
    intro idx
    unfold kernelRun0_B.sl.HS0_2
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨1, by norm_num⟩ : Fin 32) _ rfl, whole_read xs0]
    rw [win_idx x0 (k0_off4 (wordOf c tbM0_0 xt0 (k0_off3 i) (k0_off3_inb i)) (wordOf c tbM0_1 xt1 (k0_off3 i) (k0_off3_inb i))) (k0_off4_inb _ _ k0_hw2) idx]
  have S2 : ∀ idx : S224x224.Idx, View.canon (kernelRun0_B.sl.HS0_3 (F := Ideal) c i arg4 harg4 arg5 harg5 arg7 harg7 x0 x1 xt0 xt1 xs0 k0_hw1 k0_hw2 k0_hw3) idx
      = View.canon (kernelRun0_B.sl.HS0_2 (F := Ideal) c i arg4 harg4 arg5 harg5 arg7 harg7 x0 x1 xt0 xt1 xs0 k0_hw1 k0_hw2) idx + sqd (predAt x1 (⟨2, by norm_num⟩ : Fin 32) idx) (winRead x0 (k0_off6 (wordOf c tbM0_0 xt0 (k0_off5 i) (k0_off5_inb i)) (wordOf c tbM0_1 xt1 (k0_off5 i) (k0_off5_inb i))) idx) := by
    intro idx
    unfold kernelRun0_B.sl.HS0_3
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨2, by norm_num⟩ : Fin 32) _ rfl, whole_read xs0]
    rw [win_idx x0 (k0_off6 (wordOf c tbM0_0 xt0 (k0_off5 i) (k0_off5_inb i)) (wordOf c tbM0_1 xt1 (k0_off5 i) (k0_off5_inb i))) (k0_off6_inb _ _ k0_hw3) idx]
  have S3 : ∀ idx : S224x224.Idx, View.canon (kernelRun0_B.sl.HS0_4 (F := Ideal) c i arg4 harg4 arg5 harg5 arg7 harg7 x0 x1 xt0 xt1 xs0 k0_hw1 k0_hw2 k0_hw3 k0_hw4) idx
      = View.canon (kernelRun0_B.sl.HS0_3 (F := Ideal) c i arg4 harg4 arg5 harg5 arg7 harg7 x0 x1 xt0 xt1 xs0 k0_hw1 k0_hw2 k0_hw3) idx + sqd (predAt x1 (⟨3, by norm_num⟩ : Fin 32) idx) (winRead x0 (k0_off8 (wordOf c tbM0_0 xt0 (k0_off7 i) (k0_off7_inb i)) (wordOf c tbM0_1 xt1 (k0_off7 i) (k0_off7_inb i))) idx) := by
    intro idx
    unfold kernelRun0_B.sl.HS0_4
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨3, by norm_num⟩ : Fin 32) _ rfl, whole_read xs0]
    rw [win_idx x0 (k0_off8 (wordOf c tbM0_0 xt0 (k0_off7 i) (k0_off7_inb i)) (wordOf c tbM0_1 xt1 (k0_off7 i) (k0_off7_inb i))) (k0_off8_inb _ _ k0_hw4) idx]
  have S4 : ∀ idx : S224x224.Idx, View.canon (kernelRun0_B.sl.HS0_5 (F := Ideal) c i arg4 harg4 arg5 harg5 arg7 harg7 x0 x1 xt0 xt1 xs0 k0_hw1 k0_hw2 k0_hw3 k0_hw4 k0_hw5) idx
      = View.canon (kernelRun0_B.sl.HS0_4 (F := Ideal) c i arg4 harg4 arg5 harg5 arg7 harg7 x0 x1 xt0 xt1 xs0 k0_hw1 k0_hw2 k0_hw3 k0_hw4) idx + sqd (predAt x1 (⟨4, by norm_num⟩ : Fin 32) idx) (winRead x0 (k0_off10 (wordOf c tbM0_0 xt0 (k0_off9 i) (k0_off9_inb i)) (wordOf c tbM0_1 xt1 (k0_off9 i) (k0_off9_inb i))) idx) := by
    intro idx
    unfold kernelRun0_B.sl.HS0_5
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨4, by norm_num⟩ : Fin 32) _ rfl, whole_read xs0]
    rw [win_idx x0 (k0_off10 (wordOf c tbM0_0 xt0 (k0_off9 i) (k0_off9_inb i)) (wordOf c tbM0_1 xt1 (k0_off9 i) (k0_off9_inb i))) (k0_off10_inb _ _ k0_hw5) idx]
  have S5 : ∀ idx : S224x224.Idx, View.canon (kernelRun0_B.sl.HS0_6 (F := Ideal) c i arg4 harg4 arg5 harg5 arg7 harg7 x0 x1 xt0 xt1 xs0 k0_hw1 k0_hw2 k0_hw3 k0_hw4 k0_hw5 k0_hw6) idx
      = View.canon (kernelRun0_B.sl.HS0_5 (F := Ideal) c i arg4 harg4 arg5 harg5 arg7 harg7 x0 x1 xt0 xt1 xs0 k0_hw1 k0_hw2 k0_hw3 k0_hw4 k0_hw5) idx + sqd (predAt x1 (⟨5, by norm_num⟩ : Fin 32) idx) (winRead x0 (k0_off12 (wordOf c tbM0_0 xt0 (k0_off11 i) (k0_off11_inb i)) (wordOf c tbM0_1 xt1 (k0_off11 i) (k0_off11_inb i))) idx) := by
    intro idx
    unfold kernelRun0_B.sl.HS0_6
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨5, by norm_num⟩ : Fin 32) _ rfl, whole_read xs0]
    rw [win_idx x0 (k0_off12 (wordOf c tbM0_0 xt0 (k0_off11 i) (k0_off11_inb i)) (wordOf c tbM0_1 xt1 (k0_off11 i) (k0_off11_inb i))) (k0_off12_inb _ _ k0_hw6) idx]
  have S6 : ∀ idx : S224x224.Idx, View.canon (kernelRun0_B.sl.HS0_7 (F := Ideal) c i arg4 harg4 arg5 harg5 arg7 harg7 x0 x1 xt0 xt1 xs0 k0_hw1 k0_hw2 k0_hw3 k0_hw4 k0_hw5 k0_hw6 k0_hw7) idx
      = View.canon (kernelRun0_B.sl.HS0_6 (F := Ideal) c i arg4 harg4 arg5 harg5 arg7 harg7 x0 x1 xt0 xt1 xs0 k0_hw1 k0_hw2 k0_hw3 k0_hw4 k0_hw5 k0_hw6) idx + sqd (predAt x1 (⟨6, by norm_num⟩ : Fin 32) idx) (winRead x0 (k0_off14 (wordOf c tbM0_0 xt0 (k0_off13 i) (k0_off13_inb i)) (wordOf c tbM0_1 xt1 (k0_off13 i) (k0_off13_inb i))) idx) := by
    intro idx
    unfold kernelRun0_B.sl.HS0_7
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨6, by norm_num⟩ : Fin 32) _ rfl, whole_read xs0]
    rw [win_idx x0 (k0_off14 (wordOf c tbM0_0 xt0 (k0_off13 i) (k0_off13_inb i)) (wordOf c tbM0_1 xt1 (k0_off13 i) (k0_off13_inb i))) (k0_off14_inb _ _ k0_hw7) idx]
  have S7 : ∀ idx : S224x224.Idx, View.canon (kernelRun0_B.sl.HS0_8 (F := Ideal) c i arg4 harg4 arg5 harg5 arg7 harg7 x0 x1 xt0 xt1 xs0 k0_hw1 k0_hw2 k0_hw3 k0_hw4 k0_hw5 k0_hw6 k0_hw7 k0_hw8) idx
      = View.canon (kernelRun0_B.sl.HS0_7 (F := Ideal) c i arg4 harg4 arg5 harg5 arg7 harg7 x0 x1 xt0 xt1 xs0 k0_hw1 k0_hw2 k0_hw3 k0_hw4 k0_hw5 k0_hw6 k0_hw7) idx + sqd (predAt x1 (⟨7, by norm_num⟩ : Fin 32) idx) (winRead x0 (k0_off16 (wordOf c tbM0_0 xt0 (k0_off15 i) (k0_off15_inb i)) (wordOf c tbM0_1 xt1 (k0_off15 i) (k0_off15_inb i))) idx) := by
    intro idx
    unfold kernelRun0_B.sl.HS0_8
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨7, by norm_num⟩ : Fin 32) _ rfl, whole_read xs0]
    rw [win_idx x0 (k0_off16 (wordOf c tbM0_0 xt0 (k0_off15 i) (k0_off15_inb i)) (wordOf c tbM0_1 xt1 (k0_off15 i) (k0_off15_inb i))) (k0_off16_inb _ _ k0_hw8) idx]
  have S8 : ∀ idx : S224x224.Idx, View.canon (kernelRun0_B.sl.HS0_9 (F := Ideal) c i arg4 harg4 arg5 harg5 arg7 harg7 x0 x1 xt0 xt1 xs0 k0_hw1 k0_hw2 k0_hw3 k0_hw4 k0_hw5 k0_hw6 k0_hw7 k0_hw8 k0_hw9) idx
      = View.canon (kernelRun0_B.sl.HS0_8 (F := Ideal) c i arg4 harg4 arg5 harg5 arg7 harg7 x0 x1 xt0 xt1 xs0 k0_hw1 k0_hw2 k0_hw3 k0_hw4 k0_hw5 k0_hw6 k0_hw7 k0_hw8) idx + sqd (predAt x1 (⟨8, by norm_num⟩ : Fin 32) idx) (winRead x0 (k0_off18 (wordOf c tbM0_0 xt0 (k0_off17 i) (k0_off17_inb i)) (wordOf c tbM0_1 xt1 (k0_off17 i) (k0_off17_inb i))) idx) := by
    intro idx
    unfold kernelRun0_B.sl.HS0_9
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨8, by norm_num⟩ : Fin 32) _ rfl, whole_read xs0]
    rw [win_idx x0 (k0_off18 (wordOf c tbM0_0 xt0 (k0_off17 i) (k0_off17_inb i)) (wordOf c tbM0_1 xt1 (k0_off17 i) (k0_off17_inb i))) (k0_off18_inb _ _ k0_hw9) idx]
  have S9 : ∀ idx : S224x224.Idx, View.canon (kernelRun0_B.sl.HS0_10 (F := Ideal) c i arg4 harg4 arg5 harg5 arg7 harg7 x0 x1 xt0 xt1 xs0 k0_hw1 k0_hw2 k0_hw3 k0_hw4 k0_hw5 k0_hw6 k0_hw7 k0_hw8 k0_hw9 k0_hw10) idx
      = View.canon (kernelRun0_B.sl.HS0_9 (F := Ideal) c i arg4 harg4 arg5 harg5 arg7 harg7 x0 x1 xt0 xt1 xs0 k0_hw1 k0_hw2 k0_hw3 k0_hw4 k0_hw5 k0_hw6 k0_hw7 k0_hw8 k0_hw9) idx + sqd (predAt x1 (⟨9, by norm_num⟩ : Fin 32) idx) (winRead x0 (k0_off20 (wordOf c tbM0_0 xt0 (k0_off19 i) (k0_off19_inb i)) (wordOf c tbM0_1 xt1 (k0_off19 i) (k0_off19_inb i))) idx) := by
    intro idx
    unfold kernelRun0_B.sl.HS0_10
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨9, by norm_num⟩ : Fin 32) _ rfl, whole_read xs0]
    rw [win_idx x0 (k0_off20 (wordOf c tbM0_0 xt0 (k0_off19 i) (k0_off19_inb i)) (wordOf c tbM0_1 xt1 (k0_off19 i) (k0_off19_inb i))) (k0_off20_inb _ _ k0_hw10) idx]
  have S10 : ∀ idx : S224x224.Idx, View.canon (kernelRun0_B.sl.HS0_11 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11) idx
      = View.canon (kernelRun0_B.sl.HS0_10 (F := Ideal) c i arg4 harg4 arg5 harg5 arg7 harg7 x0 x1 xt0 xt1 xs0 k0_hw1 k0_hw2 k0_hw3 k0_hw4 k0_hw5 k0_hw6 k0_hw7 k0_hw8 k0_hw9 k0_hw10) idx + sqd (predAt x1 (⟨10, by norm_num⟩ : Fin 32) idx) (winRead x0 (k0_off22 (wordOf c tbM0_0 xt0 (k0_off21 i) (k0_off21_inb i)) (wordOf c tbM0_1 xt1 (k0_off21 i) (k0_off21_inb i))) idx) := by
    intro idx
    unfold kernelRun0_B.sl.HS0_11
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨10, by norm_num⟩ : Fin 32) _ rfl, whole_read xs0]
    rw [win_idx x0 (k0_off22 (wordOf c tbM0_0 xt0 (k0_off21 i) (k0_off21_inb i)) (wordOf c tbM0_1 xt1 (k0_off21 i) (k0_off21_inb i))) (k0_off22_inb _ _ k0_hw11) idx]
  have S11 : ∀ idx : S224x224.Idx, View.canon (kernelRun0_B.sl.HS0_12 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12) idx
      = View.canon (kernelRun0_B.sl.HS0_11 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11) idx + sqd (predAt x1 (⟨11, by norm_num⟩ : Fin 32) idx) (winRead x0 (k0_off24 (wordOf c tbM0_0 xt0 (k0_off23 i) (k0_off23_inb i)) (wordOf c tbM0_1 xt1 (k0_off23 i) (k0_off23_inb i))) idx) := by
    intro idx
    unfold kernelRun0_B.sl.HS0_12
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨11, by norm_num⟩ : Fin 32) _ rfl, whole_read xs0]
    rw [win_idx x0 (k0_off24 (wordOf c tbM0_0 xt0 (k0_off23 i) (k0_off23_inb i)) (wordOf c tbM0_1 xt1 (k0_off23 i) (k0_off23_inb i))) (k0_off24_inb _ _ k0_hw12) idx]
  have S12 : ∀ idx : S224x224.Idx, View.canon (kernelRun0_B.sl.HS0_13 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13) idx
      = View.canon (kernelRun0_B.sl.HS0_12 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12) idx + sqd (predAt x1 (⟨12, by norm_num⟩ : Fin 32) idx) (winRead x0 (k0_off26 (wordOf c tbM0_0 xt0 (k0_off25 i) (k0_off25_inb i)) (wordOf c tbM0_1 xt1 (k0_off25 i) (k0_off25_inb i))) idx) := by
    intro idx
    unfold kernelRun0_B.sl.HS0_13
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨12, by norm_num⟩ : Fin 32) _ rfl, whole_read xs0]
    rw [win_idx x0 (k0_off26 (wordOf c tbM0_0 xt0 (k0_off25 i) (k0_off25_inb i)) (wordOf c tbM0_1 xt1 (k0_off25 i) (k0_off25_inb i))) (k0_off26_inb _ _ k0_hw13) idx]
  have S13 : ∀ idx : S224x224.Idx, View.canon (kernelRun0_B.sl.HS0_14 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14) idx
      = View.canon (kernelRun0_B.sl.HS0_13 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13) idx + sqd (predAt x1 (⟨13, by norm_num⟩ : Fin 32) idx) (winRead x0 (k0_off28 (wordOf c tbM0_0 xt0 (k0_off27 i) (k0_off27_inb i)) (wordOf c tbM0_1 xt1 (k0_off27 i) (k0_off27_inb i))) idx) := by
    intro idx
    unfold kernelRun0_B.sl.HS0_14
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨13, by norm_num⟩ : Fin 32) _ rfl, whole_read xs0]
    rw [win_idx x0 (k0_off28 (wordOf c tbM0_0 xt0 (k0_off27 i) (k0_off27_inb i)) (wordOf c tbM0_1 xt1 (k0_off27 i) (k0_off27_inb i))) (k0_off28_inb _ _ k0_hw14) idx]
  have S14 : ∀ idx : S224x224.Idx, View.canon (kernelRun0_B.sl.HS0_15 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15) idx
      = View.canon (kernelRun0_B.sl.HS0_14 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14) idx + sqd (predAt x1 (⟨14, by norm_num⟩ : Fin 32) idx) (winRead x0 (k0_off30 (wordOf c tbM0_0 xt0 (k0_off29 i) (k0_off29_inb i)) (wordOf c tbM0_1 xt1 (k0_off29 i) (k0_off29_inb i))) idx) := by
    intro idx
    unfold kernelRun0_B.sl.HS0_15
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨14, by norm_num⟩ : Fin 32) _ rfl, whole_read xs0]
    rw [win_idx x0 (k0_off30 (wordOf c tbM0_0 xt0 (k0_off29 i) (k0_off29_inb i)) (wordOf c tbM0_1 xt1 (k0_off29 i) (k0_off29_inb i))) (k0_off30_inb _ _ k0_hw15) idx]
  have S15 : ∀ idx : S224x224.Idx, View.canon (kernelRun0_B.sl.HS0_16 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16) idx
      = View.canon (kernelRun0_B.sl.HS0_15 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15) idx + sqd (predAt x1 (⟨15, by norm_num⟩ : Fin 32) idx) (winRead x0 (k0_off32 (wordOf c tbM0_0 xt0 (k0_off31 i) (k0_off31_inb i)) (wordOf c tbM0_1 xt1 (k0_off31 i) (k0_off31_inb i))) idx) := by
    intro idx
    unfold kernelRun0_B.sl.HS0_16
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨15, by norm_num⟩ : Fin 32) _ rfl, whole_read xs0]
    rw [win_idx x0 (k0_off32 (wordOf c tbM0_0 xt0 (k0_off31 i) (k0_off31_inb i)) (wordOf c tbM0_1 xt1 (k0_off31 i) (k0_off31_inb i))) (k0_off32_inb _ _ k0_hw16) idx]
  have S16 : ∀ idx : S224x224.Idx, View.canon (kernelRun0_B.sl.HS0_17 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17) idx
      = View.canon (kernelRun0_B.sl.HS0_16 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16) idx + sqd (predAt x1 (⟨16, by norm_num⟩ : Fin 32) idx) (winRead x0 (k0_off34 (wordOf c tbM0_0 xt0 (k0_off33 i) (k0_off33_inb i)) (wordOf c tbM0_1 xt1 (k0_off33 i) (k0_off33_inb i))) idx) := by
    intro idx
    unfold kernelRun0_B.sl.HS0_17
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨16, by norm_num⟩ : Fin 32) _ rfl, whole_read xs0]
    rw [win_idx x0 (k0_off34 (wordOf c tbM0_0 xt0 (k0_off33 i) (k0_off33_inb i)) (wordOf c tbM0_1 xt1 (k0_off33 i) (k0_off33_inb i))) (k0_off34_inb _ _ k0_hw17) idx]
  have S17 : ∀ idx : S224x224.Idx, View.canon (kernelRun0_B.sl.HS0_18 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18) idx
      = View.canon (kernelRun0_B.sl.HS0_17 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17) idx + sqd (predAt x1 (⟨17, by norm_num⟩ : Fin 32) idx) (winRead x0 (k0_off36 (wordOf c tbM0_0 xt0 (k0_off35 i) (k0_off35_inb i)) (wordOf c tbM0_1 xt1 (k0_off35 i) (k0_off35_inb i))) idx) := by
    intro idx
    unfold kernelRun0_B.sl.HS0_18
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨17, by norm_num⟩ : Fin 32) _ rfl, whole_read xs0]
    rw [win_idx x0 (k0_off36 (wordOf c tbM0_0 xt0 (k0_off35 i) (k0_off35_inb i)) (wordOf c tbM0_1 xt1 (k0_off35 i) (k0_off35_inb i))) (k0_off36_inb _ _ k0_hw18) idx]
  have S18 : ∀ idx : S224x224.Idx, View.canon (kernelRun0_B.sl.HS0_19 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19) idx
      = View.canon (kernelRun0_B.sl.HS0_18 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18) idx + sqd (predAt x1 (⟨18, by norm_num⟩ : Fin 32) idx) (winRead x0 (k0_off38 (wordOf c tbM0_0 xt0 (k0_off37 i) (k0_off37_inb i)) (wordOf c tbM0_1 xt1 (k0_off37 i) (k0_off37_inb i))) idx) := by
    intro idx
    unfold kernelRun0_B.sl.HS0_19
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨18, by norm_num⟩ : Fin 32) _ rfl, whole_read xs0]
    rw [win_idx x0 (k0_off38 (wordOf c tbM0_0 xt0 (k0_off37 i) (k0_off37_inb i)) (wordOf c tbM0_1 xt1 (k0_off37 i) (k0_off37_inb i))) (k0_off38_inb _ _ k0_hw19) idx]
  have S19 : ∀ idx : S224x224.Idx, View.canon (kernelRun0_B.sl.HS0_20 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20) idx
      = View.canon (kernelRun0_B.sl.HS0_19 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19) idx + sqd (predAt x1 (⟨19, by norm_num⟩ : Fin 32) idx) (winRead x0 (k0_off40 (wordOf c tbM0_0 xt0 (k0_off39 i) (k0_off39_inb i)) (wordOf c tbM0_1 xt1 (k0_off39 i) (k0_off39_inb i))) idx) := by
    intro idx
    unfold kernelRun0_B.sl.HS0_20
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨19, by norm_num⟩ : Fin 32) _ rfl, whole_read xs0]
    rw [win_idx x0 (k0_off40 (wordOf c tbM0_0 xt0 (k0_off39 i) (k0_off39_inb i)) (wordOf c tbM0_1 xt1 (k0_off39 i) (k0_off39_inb i))) (k0_off40_inb _ _ k0_hw20) idx]
  have S20 : ∀ idx : S224x224.Idx, View.canon (kernelRun0_B.sl.HS0_21 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21) idx
      = View.canon (kernelRun0_B.sl.HS0_20 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20) idx + sqd (predAt x1 (⟨20, by norm_num⟩ : Fin 32) idx) (winRead x0 (k0_off42 (wordOf c tbM0_0 xt0 (k0_off41 i) (k0_off41_inb i)) (wordOf c tbM0_1 xt1 (k0_off41 i) (k0_off41_inb i))) idx) := by
    intro idx
    unfold kernelRun0_B.sl.HS0_21
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨20, by norm_num⟩ : Fin 32) _ rfl, whole_read xs0]
    rw [win_idx x0 (k0_off42 (wordOf c tbM0_0 xt0 (k0_off41 i) (k0_off41_inb i)) (wordOf c tbM0_1 xt1 (k0_off41 i) (k0_off41_inb i))) (k0_off42_inb _ _ k0_hw21) idx]
  have S21 : ∀ idx : S224x224.Idx, View.canon (kernelRun0_B.sl.HS0_22 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22) idx
      = View.canon (kernelRun0_B.sl.HS0_21 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21) idx + sqd (predAt x1 (⟨21, by norm_num⟩ : Fin 32) idx) (winRead x0 (k0_off44 (wordOf c tbM0_0 xt0 (k0_off43 i) (k0_off43_inb i)) (wordOf c tbM0_1 xt1 (k0_off43 i) (k0_off43_inb i))) idx) := by
    intro idx
    unfold kernelRun0_B.sl.HS0_22
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨21, by norm_num⟩ : Fin 32) _ rfl, whole_read xs0]
    rw [win_idx x0 (k0_off44 (wordOf c tbM0_0 xt0 (k0_off43 i) (k0_off43_inb i)) (wordOf c tbM0_1 xt1 (k0_off43 i) (k0_off43_inb i))) (k0_off44_inb _ _ k0_hw22) idx]
  have S22 : ∀ idx : S224x224.Idx, View.canon (kernelRun0_B.sl.HS0_23 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23) idx
      = View.canon (kernelRun0_B.sl.HS0_22 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22) idx + sqd (predAt x1 (⟨22, by norm_num⟩ : Fin 32) idx) (winRead x0 (k0_off46 (wordOf c tbM0_0 xt0 (k0_off45 i) (k0_off45_inb i)) (wordOf c tbM0_1 xt1 (k0_off45 i) (k0_off45_inb i))) idx) := by
    intro idx
    unfold kernelRun0_B.sl.HS0_23
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨22, by norm_num⟩ : Fin 32) _ rfl, whole_read xs0]
    rw [win_idx x0 (k0_off46 (wordOf c tbM0_0 xt0 (k0_off45 i) (k0_off45_inb i)) (wordOf c tbM0_1 xt1 (k0_off45 i) (k0_off45_inb i))) (k0_off46_inb _ _ k0_hw23) idx]
  have S23 : ∀ idx : S224x224.Idx, View.canon (kernelRun0_B.sl.HS0_24 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24) idx
      = View.canon (kernelRun0_B.sl.HS0_23 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23) idx + sqd (predAt x1 (⟨23, by norm_num⟩ : Fin 32) idx) (winRead x0 (k0_off48 (wordOf c tbM0_0 xt0 (k0_off47 i) (k0_off47_inb i)) (wordOf c tbM0_1 xt1 (k0_off47 i) (k0_off47_inb i))) idx) := by
    intro idx
    unfold kernelRun0_B.sl.HS0_24
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨23, by norm_num⟩ : Fin 32) _ rfl, whole_read xs0]
    rw [win_idx x0 (k0_off48 (wordOf c tbM0_0 xt0 (k0_off47 i) (k0_off47_inb i)) (wordOf c tbM0_1 xt1 (k0_off47 i) (k0_off47_inb i))) (k0_off48_inb _ _ k0_hw24) idx]
  have S24 : ∀ idx : S224x224.Idx, View.canon (kernelRun0_B.sl.HS0_25 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25) idx
      = View.canon (kernelRun0_B.sl.HS0_24 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24) idx + sqd (predAt x1 (⟨24, by norm_num⟩ : Fin 32) idx) (winRead x0 (k0_off50 (wordOf c tbM0_0 xt0 (k0_off49 i) (k0_off49_inb i)) (wordOf c tbM0_1 xt1 (k0_off49 i) (k0_off49_inb i))) idx) := by
    intro idx
    unfold kernelRun0_B.sl.HS0_25
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨24, by norm_num⟩ : Fin 32) _ rfl, whole_read xs0]
    rw [win_idx x0 (k0_off50 (wordOf c tbM0_0 xt0 (k0_off49 i) (k0_off49_inb i)) (wordOf c tbM0_1 xt1 (k0_off49 i) (k0_off49_inb i))) (k0_off50_inb _ _ k0_hw25) idx]
  have S25 : ∀ idx : S224x224.Idx, View.canon (kernelRun0_B.sl.HS0_26 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26) idx
      = View.canon (kernelRun0_B.sl.HS0_25 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25) idx + sqd (predAt x1 (⟨25, by norm_num⟩ : Fin 32) idx) (winRead x0 (k0_off52 (wordOf c tbM0_0 xt0 (k0_off51 i) (k0_off51_inb i)) (wordOf c tbM0_1 xt1 (k0_off51 i) (k0_off51_inb i))) idx) := by
    intro idx
    unfold kernelRun0_B.sl.HS0_26
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨25, by norm_num⟩ : Fin 32) _ rfl, whole_read xs0]
    rw [win_idx x0 (k0_off52 (wordOf c tbM0_0 xt0 (k0_off51 i) (k0_off51_inb i)) (wordOf c tbM0_1 xt1 (k0_off51 i) (k0_off51_inb i))) (k0_off52_inb _ _ k0_hw26) idx]
  have S26 : ∀ idx : S224x224.Idx, View.canon (kernelRun0_B.sl.HS0_27 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27) idx
      = View.canon (kernelRun0_B.sl.HS0_26 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26) idx + sqd (predAt x1 (⟨26, by norm_num⟩ : Fin 32) idx) (winRead x0 (k0_off54 (wordOf c tbM0_0 xt0 (k0_off53 i) (k0_off53_inb i)) (wordOf c tbM0_1 xt1 (k0_off53 i) (k0_off53_inb i))) idx) := by
    intro idx
    unfold kernelRun0_B.sl.HS0_27
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨26, by norm_num⟩ : Fin 32) _ rfl, whole_read xs0]
    rw [win_idx x0 (k0_off54 (wordOf c tbM0_0 xt0 (k0_off53 i) (k0_off53_inb i)) (wordOf c tbM0_1 xt1 (k0_off53 i) (k0_off53_inb i))) (k0_off54_inb _ _ k0_hw27) idx]
  have S27 : ∀ idx : S224x224.Idx, View.canon (kernelRun0_B.sl.HS0_28 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28) idx
      = View.canon (kernelRun0_B.sl.HS0_27 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27) idx + sqd (predAt x1 (⟨27, by norm_num⟩ : Fin 32) idx) (winRead x0 (k0_off56 (wordOf c tbM0_0 xt0 (k0_off55 i) (k0_off55_inb i)) (wordOf c tbM0_1 xt1 (k0_off55 i) (k0_off55_inb i))) idx) := by
    intro idx
    unfold kernelRun0_B.sl.HS0_28
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨27, by norm_num⟩ : Fin 32) _ rfl, whole_read xs0]
    rw [win_idx x0 (k0_off56 (wordOf c tbM0_0 xt0 (k0_off55 i) (k0_off55_inb i)) (wordOf c tbM0_1 xt1 (k0_off55 i) (k0_off55_inb i))) (k0_off56_inb _ _ k0_hw28) idx]
  have S28 : ∀ idx : S224x224.Idx, View.canon (kernelRun0_B.sl.HS0_29 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29) idx
      = View.canon (kernelRun0_B.sl.HS0_28 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28) idx + sqd (predAt x1 (⟨28, by norm_num⟩ : Fin 32) idx) (winRead x0 (k0_off58 (wordOf c tbM0_0 xt0 (k0_off57 i) (k0_off57_inb i)) (wordOf c tbM0_1 xt1 (k0_off57 i) (k0_off57_inb i))) idx) := by
    intro idx
    unfold kernelRun0_B.sl.HS0_29
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨28, by norm_num⟩ : Fin 32) _ rfl, whole_read xs0]
    rw [win_idx x0 (k0_off58 (wordOf c tbM0_0 xt0 (k0_off57 i) (k0_off57_inb i)) (wordOf c tbM0_1 xt1 (k0_off57 i) (k0_off57_inb i))) (k0_off58_inb _ _ k0_hw29) idx]
  have S29 : ∀ idx : S224x224.Idx, View.canon (kernelRun0_B.sl.HS0_30 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30) idx
      = View.canon (kernelRun0_B.sl.HS0_29 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29) idx + sqd (predAt x1 (⟨29, by norm_num⟩ : Fin 32) idx) (winRead x0 (k0_off60 (wordOf c tbM0_0 xt0 (k0_off59 i) (k0_off59_inb i)) (wordOf c tbM0_1 xt1 (k0_off59 i) (k0_off59_inb i))) idx) := by
    intro idx
    unfold kernelRun0_B.sl.HS0_30
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨29, by norm_num⟩ : Fin 32) _ rfl, whole_read xs0]
    rw [win_idx x0 (k0_off60 (wordOf c tbM0_0 xt0 (k0_off59 i) (k0_off59_inb i)) (wordOf c tbM0_1 xt1 (k0_off59 i) (k0_off59_inb i))) (k0_off60_inb _ _ k0_hw30) idx]
  have S30 : ∀ idx : S224x224.Idx, View.canon (kernelRun0_B.sl.HS0_31 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31) idx
      = View.canon (kernelRun0_B.sl.HS0_30 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30) idx + sqd (predAt x1 (⟨30, by norm_num⟩ : Fin 32) idx) (winRead x0 (k0_off62 (wordOf c tbM0_0 xt0 (k0_off61 i) (k0_off61_inb i)) (wordOf c tbM0_1 xt1 (k0_off61 i) (k0_off61_inb i))) idx) := by
    intro idx
    unfold kernelRun0_B.sl.HS0_31
    rw [View.canon_cons_unit_zero hz2]
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨30, by norm_num⟩ : Fin 32) _ rfl, whole_read xs0]
    rw [win_idx x0 (k0_off62 (wordOf c tbM0_0 xt0 (k0_off61 i) (k0_off61_inb i)) (wordOf c tbM0_1 xt1 (k0_off61 i) (k0_off61_inb i))) (k0_off62_inb _ _ k0_hw31) idx]
  unfold sout0_B_0
  rw [View.read_writes_junk_eq_canon]
  unfold kernelRun0_B
  dsimp only
  rw [View.canon_cons_unit_zero hz2]
  refine Eq.trans (b := View.canon (kernelRun0_B.sl.HS0_31 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31) idx + sqd (predAt x1 (⟨31, by norm_num⟩ : Fin 32) idx) (winRead x0 (k0_off64 (wordOf c tbM0_0 xt0 (k0_off63 i) (k0_off63_inb i)) (wordOf c tbM0_1 xt1 (k0_off63 i) (k0_off63_inb i))) idx)) ?_ ?_
  ·
    simp only [kernelRun0_B.sl.r, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_1, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_2, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_3, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_4, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_5, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_6, kernelRun0_B.sl.r_70, kernelRun0_B.sl.r_71, kernelRun0_B.sl.r_72, kernelRun0_B.sl.r_73, kernelRun0_B.sl.r_7, kernelRun0_B.sl.r_8, kernelRun0_B.sl.r_9, kernelRun0_B.sl.v0, kernelRun0_B.sl.v117, kernelRun0_B.sl.v141, kernelRun0_B.sl.v147, kernelRun0_B.sl.v165, kernelRun0_B.sl.v189, kernelRun0_B.sl.v1, kernelRun0_B.sl.v213, kernelRun0_B.sl.v237, kernelRun0_B.sl.v261, kernelRun0_B.sl.v285, kernelRun0_B.sl.v299, kernelRun0_B.sl.v2, kernelRun0_B.sl.v300, kernelRun0_B.sl.v309, kernelRun0_B.sl.v333, kernelRun0_B.sl.v357, kernelRun0_B.sl.v35, kernelRun0_B.sl.v381, kernelRun0_B.sl.v405, kernelRun0_B.sl.v412, kernelRun0_B.sl.v413, kernelRun0_B.sl.v429, kernelRun0_B.sl.v453, kernelRun0_B.sl.v45, kernelRun0_B.sl.v477, kernelRun0_B.sl.v501, kernelRun0_B.sl.v525, kernelRun0_B.sl.v549, kernelRun0_B.sl.v573, kernelRun0_B.sl.v597, kernelRun0_B.sl.v621, kernelRun0_B.sl.v645, kernelRun0_B.sl.v669, kernelRun0_B.sl.v678, kernelRun0_B.sl.v693, kernelRun0_B.sl.v69, kernelRun0_B.sl.v717, kernelRun0_B.sl.v741, kernelRun0_B.sl.v755, kernelRun0_B.sl.v762, kernelRun0_B.sl.v765, kernelRun0_B.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨31, by norm_num⟩ : Fin 32) _ rfl, whole_read xs0]
    rw [win_idx x0 (k0_off64 (wordOf c tbM0_0 xt0 (k0_off63 i) (k0_off63_inb i)) (wordOf c tbM0_1 xt1 (k0_off63 i) (k0_off63_inb i))) (k0_off64_inb _ _ k0_hw32) idx]
  · rw [S30 idx, S29 idx, S28 idx, S27 idx, S26 idx, S25 idx, S24 idx, S23 idx, S22 idx, S21 idx, S20 idx, S19 idx, S18 idx, S17 idx, S16 idx, S15 idx, S14 idx, S13 idx, S12 idx, S11 idx, S10 idx, S9 idx, S8 idx, S7 idx, S6 idx, S5 idx, S4 idx, S3 idx, S2 idx, S1 idx, S0 idx]

end Cert.Landmark.Piece

end
-- ==== Proof.ChainC.lean ====
/-
  The accumulator and the output after the grid step that closes a half.

  The step finds the accumulator as the step before left it, visits its 32 landmarks in order, each time adding
  the squared difference of the landmark's prediction slice and its window of the padded bell, and finally
  copies the accumulator to the output block. So the accumulator holds what it held before plus the 32 terms in
  order, and the output block at (0, r, c) is the accumulator at (r, c).
-/
import proofs.«129057_j82145544503653_2_alg».proof.Proof.PieceRead

set_option maxRecDepth 16384

noncomputable section

namespace Cert.Landmark.Piece

open Idealize.ShloMosaic Idealize.ShloMosaic.TcCoe Idealize.ShloMosaic.ValueIdx
open Idealize.SL.Sem
open Cert.KernelIdeal Cert.KernelIdeal.Gen

set_option maxHeartbeats 16000000 in
theorem chainC (c : Dev nD) (i : grid0.Coords) (arg4 : Memref sig .tc .vmem S480x512 .f32) (harg4 : arg4.IsWhole) (arg5 : Memref sig .tc .vmem S1x32x224x224 .f32) (harg5 : arg5.IsWhole) (arg6 : Memref sig .tc .vmem S1x224x224 .f32) (harg6 : arg6.IsWhole) (arg7 : Memref sig .tc .vmem S224x224 .f32) (harg7 : arg7.IsWhole) (hc0 : ¬cond0_0 i) (hc1 : cond0_1 i) (x0 : Vec Ideal S480x512 .f32) (x1 : Vec Ideal S1x32x224x224 .f32) (xt0 : TbBuf0 (F := Ideal) c tbM0_0) (xt1 : TbBuf0 (F := Ideal) c tbM0_1) (xs0 : Vec Ideal S224x224 .f32) (k0_hw1 : k0_chk1 (tbM0_0.view.readAt (Elt Ideal) (Rect.unit (s := S1088) (k0_off1 i) S1.size (k0_off1_inb i)).toLoadRect xt0 (Shape.Idx.first (numel1_S1.symm ▸ Nat.one_pos))) (tbM0_1.view.readAt (Elt Ideal) (Rect.unit (s := S1088) (k0_off1 i) S1.size (k0_off1_inb i)).toLoadRect xt1 (Shape.Idx.first (numel1_S1.symm ▸ Nat.one_pos)))) (k0_hw2 : k0_chk2 (tbM0_0.view.readAt (Elt Ideal) (Rect.unit (s := S1088) (k0_off3 i) S1.size (k0_off3_inb i)).toLoadRect xt0 (Shape.Idx.first (numel1_S1.symm ▸ Nat.one_pos))) (tbM0_1.view.readAt (Elt Ideal) (Rect.unit (s := S1088) (k0_off3 i) S1.size (k0_off3_inb i)).toLoadRect xt1 (Shape.Idx.first (numel1_S1.symm ▸ Nat.one_pos)))) (k0_hw3 : k0_chk3 (tbM0_0.view.readAt (Elt Ideal) (Rect.unit (s := S1088) (k0_off5 i) S1.size (k0_off5_inb i)).toLoadRect xt0 (Shape.Idx.first (numel1_S1.symm ▸ Nat.one_pos))) (tbM0_1.view.readAt (Elt Ideal) (Rect.unit (s := S1088) (k0_off5 i) S1.size (k0_off5_inb i)).toLoadRect xt1 (Shape.Idx.first (numel1_S1.symm ▸ Nat.one_pos)))) (k0_hw4 : k0_chk4 (tbM0_0.view.readAt (Elt Ideal) (Rect.unit (s := S1088) (k0_off7 i) S1.size (k0_off7_inb i)).toLoadRect xt0 (Shape.Idx.first (numel1_S1.symm ▸ Nat.one_pos))) (tbM0_1.view.readAt (Elt Ideal) (Rect.unit (s := S1088) (k0_off7 i) S1.size (k0_off7_inb i)).toLoadRect xt1 (Shape.Idx.first (numel1_S1.symm ▸ Nat.one_pos)))) (k0_hw5 : k0_chk5 (tbM0_0.view.readAt (Elt Ideal) (Rect.unit (s := S1088) (k0_off9 i) S1.size (k0_off9_inb i)).toLoadRect xt0 (Shape.Idx.first (numel1_S1.symm ▸ Nat.one_pos))) (tbM0_1.view.readAt (Elt Ideal) (Rect.unit (s := S1088) (k0_off9 i) S1.size (k0_off9_inb i)).toLoadRect xt1 (Shape.Idx.first (numel1_S1.symm ▸ Nat.one_pos)))) (k0_hw6 : k0_chk6 (tbM0_0.view.readAt (Elt Ideal) (Rect.unit (s := S1088) (k0_off11 i) S1.size (k0_off11_inb i)).toLoadRect xt0 (Shape.Idx.first (numel1_S1.symm ▸ Nat.one_pos))) (tbM0_1.view.readAt (Elt Ideal) (Rect.unit (s := S1088) (k0_off11 i) S1.size (k0_off11_inb i)).toLoadRect xt1 (Shape.Idx.first (numel1_S1.symm ▸ Nat.one_pos)))) (k0_hw7 : k0_chk7 (tbM0_0.view.readAt (Elt Ideal) (Rect.unit (s := S1088) (k0_off13 i) S1.size (k0_off13_inb i)).toLoadRect xt0 (Shape.Idx.first (numel1_S1.symm ▸ Nat.one_pos))) (tbM0_1.view.readAt (Elt Ideal) (Rect.unit (s := S1088) (k0_off13 i) S1.size (k0_off13_inb i)).toLoadRect xt1 (Shape.Idx.first (numel1_S1.symm ▸ Nat.one_pos)))) (k0_hw8 : k0_chk8 (tbM0_0.view.readAt (Elt Ideal) (Rect.unit (s := S1088) (k0_off15 i) S1.size (k0_off15_inb i)).toLoadRect xt0 (Shape.Idx.first (numel1_S1.symm ▸ Nat.one_pos))) (tbM0_1.view.readAt (Elt Ideal) (Rect.unit (s := S1088) (k0_off15 i) S1.size (k0_off15_inb i)).toLoadRect xt1 (Shape.Idx.first (numel1_S1.symm ▸ Nat.one_pos)))) (k0_hw9 : k0_chk9 (tbM0_0.view.readAt (Elt Ideal) (Rect.unit (s := S1088) (k0_off17 i) S1.size (k0_off17_inb i)).toLoadRect xt0 (Shape.Idx.first (numel1_S1.symm ▸ Nat.one_pos))) (tbM0_1.view.readAt (Elt Ideal) (Rect.unit (s := S1088) (k0_off17 i) S1.size (k0_off17_inb i)).toLoadRect xt1 (Shape.Idx.first (numel1_S1.symm ▸ Nat.one_pos)))) (k0_hw10 : k0_chk10 (tbM0_0.view.readAt (Elt Ideal) (Rect.unit (s := S1088) (k0_off19 i) S1.size (k0_off19_inb i)).toLoadRect xt0 (Shape.Idx.first (numel1_S1.symm ▸ Nat.one_pos))) (tbM0_1.view.readAt (Elt Ideal) (Rect.unit (s := S1088) (k0_off19 i) S1.size (k0_off19_inb i)).toLoadRect xt1 (Shape.Idx.first (numel1_S1.symm ▸ Nat.one_pos)))) (k0_hw11 : k0_chk11 (tbM0_0.view.readAt (Elt Ideal) (Rect.unit (s := S1088) (k0_off21 i) S1.size (k0_off21_inb i)).toLoadRect xt0 (Shape.Idx.first (numel1_S1.symm ▸ Nat.one_pos))) (tbM0_1.view.readAt (Elt Ideal) (Rect.unit (s := S1088) (k0_off21 i) S1.size (k0_off21_inb i)).toLoadRect xt1 (Shape.Idx.first (numel1_S1.symm ▸ Nat.one_pos)))) (k0_hw12 : k0_chk12 (tbM0_0.view.readAt (Elt Ideal) (Rect.unit (s := S1088) (k0_off23 i) S1.size (k0_off23_inb i)).toLoadRect xt0 (Shape.Idx.first (numel1_S1.symm ▸ Nat.one_pos))) (tbM0_1.view.readAt (Elt Ideal) (Rect.unit (s := S1088) (k0_off23 i) S1.size (k0_off23_inb i)).toLoadRect xt1 (Shape.Idx.first (numel1_S1.symm ▸ Nat.one_pos)))) (k0_hw13 : k0_chk13 (tbM0_0.view.readAt (Elt Ideal) (Rect.unit (s := S1088) (k0_off25 i) S1.size (k0_off25_inb i)).toLoadRect xt0 (Shape.Idx.first (numel1_S1.symm ▸ Nat.one_pos))) (tbM0_1.view.readAt (Elt Ideal) (Rect.unit (s := S1088) (k0_off25 i) S1.size (k0_off25_inb i)).toLoadRect xt1 (Shape.Idx.first (numel1_S1.symm ▸ Nat.one_pos)))) (k0_hw14 : k0_chk14 (tbM0_0.view.readAt (Elt Ideal) (Rect.unit (s := S1088) (k0_off27 i) S1.size (k0_off27_inb i)).toLoadRect xt0 (Shape.Idx.first (numel1_S1.symm ▸ Nat.one_pos))) (tbM0_1.view.readAt (Elt Ideal) (Rect.unit (s := S1088) (k0_off27 i) S1.size (k0_off27_inb i)).toLoadRect xt1 (Shape.Idx.first (numel1_S1.symm ▸ Nat.one_pos)))) (k0_hw15 : k0_chk15 (tbM0_0.view.readAt (Elt Ideal) (Rect.unit (s := S1088) (k0_off29 i) S1.size (k0_off29_inb i)).toLoadRect xt0 (Shape.Idx.first (numel1_S1.symm ▸ Nat.one_pos))) (tbM0_1.view.readAt (Elt Ideal) (Rect.unit (s := S1088) (k0_off29 i) S1.size (k0_off29_inb i)).toLoadRect xt1 (Shape.Idx.first (numel1_S1.symm ▸ Nat.one_pos)))) (k0_hw16 : k0_chk16 (tbM0_0.view.readAt (Elt Ideal) (Rect.unit (s := S1088) (k0_off31 i) S1.size (k0_off31_inb i)).toLoadRect xt0 (Shape.Idx.first (numel1_S1.symm ▸ Nat.one_pos))) (tbM0_1.view.readAt (Elt Ideal) (Rect.unit (s := S1088) (k0_off31 i) S1.size (k0_off31_inb i)).toLoadRect xt1 (Shape.Idx.first (numel1_S1.symm ▸ Nat.one_pos)))) (k0_hw17 : k0_chk17 (tbM0_0.view.readAt (Elt Ideal) (Rect.unit (s := S1088) (k0_off33 i) S1.size (k0_off33_inb i)).toLoadRect xt0 (Shape.Idx.first (numel1_S1.symm ▸ Nat.one_pos))) (tbM0_1.view.readAt (Elt Ideal) (Rect.unit (s := S1088) (k0_off33 i) S1.size (k0_off33_inb i)).toLoadRect xt1 (Shape.Idx.first (numel1_S1.symm ▸ Nat.one_pos)))) (k0_hw18 : k0_chk18 (tbM0_0.view.readAt (Elt Ideal) (Rect.unit (s := S1088) (k0_off35 i) S1.size (k0_off35_inb i)).toLoadRect xt0 (Shape.Idx.first (numel1_S1.symm ▸ Nat.one_pos))) (tbM0_1.view.readAt (Elt Ideal) (Rect.unit (s := S1088) (k0_off35 i) S1.size (k0_off35_inb i)).toLoadRect xt1 (Shape.Idx.first (numel1_S1.symm ▸ Nat.one_pos)))) (k0_hw19 : k0_chk19 (tbM0_0.view.readAt (Elt Ideal) (Rect.unit (s := S1088) (k0_off37 i) S1.size (k0_off37_inb i)).toLoadRect xt0 (Shape.Idx.first (numel1_S1.symm ▸ Nat.one_pos))) (tbM0_1.view.readAt (Elt Ideal) (Rect.unit (s := S1088) (k0_off37 i) S1.size (k0_off37_inb i)).toLoadRect xt1 (Shape.Idx.first (numel1_S1.symm ▸ Nat.one_pos)))) (k0_hw20 : k0_chk20 (tbM0_0.view.readAt (Elt Ideal) (Rect.unit (s := S1088) (k0_off39 i) S1.size (k0_off39_inb i)).toLoadRect xt0 (Shape.Idx.first (numel1_S1.symm ▸ Nat.one_pos))) (tbM0_1.view.readAt (Elt Ideal) (Rect.unit (s := S1088) (k0_off39 i) S1.size (k0_off39_inb i)).toLoadRect xt1 (Shape.Idx.first (numel1_S1.symm ▸ Nat.one_pos)))) (k0_hw21 : k0_chk21 (tbM0_0.view.readAt (Elt Ideal) (Rect.unit (s := S1088) (k0_off41 i) S1.size (k0_off41_inb i)).toLoadRect xt0 (Shape.Idx.first (numel1_S1.symm ▸ Nat.one_pos))) (tbM0_1.view.readAt (Elt Ideal) (Rect.unit (s := S1088) (k0_off41 i) S1.size (k0_off41_inb i)).toLoadRect xt1 (Shape.Idx.first (numel1_S1.symm ▸ Nat.one_pos)))) (k0_hw22 : k0_chk22 (tbM0_0.view.readAt (Elt Ideal) (Rect.unit (s := S1088) (k0_off43 i) S1.size (k0_off43_inb i)).toLoadRect xt0 (Shape.Idx.first (numel1_S1.symm ▸ Nat.one_pos))) (tbM0_1.view.readAt (Elt Ideal) (Rect.unit (s := S1088) (k0_off43 i) S1.size (k0_off43_inb i)).toLoadRect xt1 (Shape.Idx.first (numel1_S1.symm ▸ Nat.one_pos)))) (k0_hw23 : k0_chk23 (tbM0_0.view.readAt (Elt Ideal) (Rect.unit (s := S1088) (k0_off45 i) S1.size (k0_off45_inb i)).toLoadRect xt0 (Shape.Idx.first (numel1_S1.symm ▸ Nat.one_pos))) (tbM0_1.view.readAt (Elt Ideal) (Rect.unit (s := S1088) (k0_off45 i) S1.size (k0_off45_inb i)).toLoadRect xt1 (Shape.Idx.first (numel1_S1.symm ▸ Nat.one_pos)))) (k0_hw24 : k0_chk24 (tbM0_0.view.readAt (Elt Ideal) (Rect.unit (s := S1088) (k0_off47 i) S1.size (k0_off47_inb i)).toLoadRect xt0 (Shape.Idx.first (numel1_S1.symm ▸ Nat.one_pos))) (tbM0_1.view.readAt (Elt Ideal) (Rect.unit (s := S1088) (k0_off47 i) S1.size (k0_off47_inb i)).toLoadRect xt1 (Shape.Idx.first (numel1_S1.symm ▸ Nat.one_pos)))) (k0_hw25 : k0_chk25 (tbM0_0.view.readAt (Elt Ideal) (Rect.unit (s := S1088) (k0_off49 i) S1.size (k0_off49_inb i)).toLoadRect xt0 (Shape.Idx.first (numel1_S1.symm ▸ Nat.one_pos))) (tbM0_1.view.readAt (Elt Ideal) (Rect.unit (s := S1088) (k0_off49 i) S1.size (k0_off49_inb i)).toLoadRect xt1 (Shape.Idx.first (numel1_S1.symm ▸ Nat.one_pos)))) (k0_hw26 : k0_chk26 (tbM0_0.view.readAt (Elt Ideal) (Rect.unit (s := S1088) (k0_off51 i) S1.size (k0_off51_inb i)).toLoadRect xt0 (Shape.Idx.first (numel1_S1.symm ▸ Nat.one_pos))) (tbM0_1.view.readAt (Elt Ideal) (Rect.unit (s := S1088) (k0_off51 i) S1.size (k0_off51_inb i)).toLoadRect xt1 (Shape.Idx.first (numel1_S1.symm ▸ Nat.one_pos)))) (k0_hw27 : k0_chk27 (tbM0_0.view.readAt (Elt Ideal) (Rect.unit (s := S1088) (k0_off53 i) S1.size (k0_off53_inb i)).toLoadRect xt0 (Shape.Idx.first (numel1_S1.symm ▸ Nat.one_pos))) (tbM0_1.view.readAt (Elt Ideal) (Rect.unit (s := S1088) (k0_off53 i) S1.size (k0_off53_inb i)).toLoadRect xt1 (Shape.Idx.first (numel1_S1.symm ▸ Nat.one_pos)))) (k0_hw28 : k0_chk28 (tbM0_0.view.readAt (Elt Ideal) (Rect.unit (s := S1088) (k0_off55 i) S1.size (k0_off55_inb i)).toLoadRect xt0 (Shape.Idx.first (numel1_S1.symm ▸ Nat.one_pos))) (tbM0_1.view.readAt (Elt Ideal) (Rect.unit (s := S1088) (k0_off55 i) S1.size (k0_off55_inb i)).toLoadRect xt1 (Shape.Idx.first (numel1_S1.symm ▸ Nat.one_pos)))) (k0_hw29 : k0_chk29 (tbM0_0.view.readAt (Elt Ideal) (Rect.unit (s := S1088) (k0_off57 i) S1.size (k0_off57_inb i)).toLoadRect xt0 (Shape.Idx.first (numel1_S1.symm ▸ Nat.one_pos))) (tbM0_1.view.readAt (Elt Ideal) (Rect.unit (s := S1088) (k0_off57 i) S1.size (k0_off57_inb i)).toLoadRect xt1 (Shape.Idx.first (numel1_S1.symm ▸ Nat.one_pos)))) (k0_hw30 : k0_chk30 (tbM0_0.view.readAt (Elt Ideal) (Rect.unit (s := S1088) (k0_off59 i) S1.size (k0_off59_inb i)).toLoadRect xt0 (Shape.Idx.first (numel1_S1.symm ▸ Nat.one_pos))) (tbM0_1.view.readAt (Elt Ideal) (Rect.unit (s := S1088) (k0_off59 i) S1.size (k0_off59_inb i)).toLoadRect xt1 (Shape.Idx.first (numel1_S1.symm ▸ Nat.one_pos)))) (k0_hw31 : k0_chk31 (tbM0_0.view.readAt (Elt Ideal) (Rect.unit (s := S1088) (k0_off61 i) S1.size (k0_off61_inb i)).toLoadRect xt0 (Shape.Idx.first (numel1_S1.symm ▸ Nat.one_pos))) (tbM0_1.view.readAt (Elt Ideal) (Rect.unit (s := S1088) (k0_off61 i) S1.size (k0_off61_inb i)).toLoadRect xt1 (Shape.Idx.first (numel1_S1.symm ▸ Nat.one_pos)))) (k0_hw32 : k0_chk32 (tbM0_0.view.readAt (Elt Ideal) (Rect.unit (s := S1088) (k0_off63 i) S1.size (k0_off63_inb i)).toLoadRect xt0 (Shape.Idx.first (numel1_S1.symm ▸ Nat.one_pos))) (tbM0_1.view.readAt (Elt Ideal) (Rect.unit (s := S1088) (k0_off63 i) S1.size (k0_off63_inb i)).toLoadRect xt1 (Shape.Idx.first (numel1_S1.symm ▸ Nat.one_pos)))) (idx : S224x224.Idx) :
    sout0_C_0 (F := Ideal) c i arg4 harg4 arg5 harg5 arg6 harg6 arg7 harg7 hc0 hc1 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 idx
      = ((((((((((((((((((((((((((((((((xs0 idx + sqd (predAt x1 (⟨0, by norm_num⟩ : Fin 32) idx) (winRead x0 (k0_off2 (wordOf c tbM0_0 xt0 (k0_off1 i) (k0_off1_inb i)) (wordOf c tbM0_1 xt1 (k0_off1 i) (k0_off1_inb i))) idx)) + sqd (predAt x1 (⟨1, by norm_num⟩ : Fin 32) idx) (winRead x0 (k0_off4 (wordOf c tbM0_0 xt0 (k0_off3 i) (k0_off3_inb i)) (wordOf c tbM0_1 xt1 (k0_off3 i) (k0_off3_inb i))) idx)) + sqd (predAt x1 (⟨2, by norm_num⟩ : Fin 32) idx) (winRead x0 (k0_off6 (wordOf c tbM0_0 xt0 (k0_off5 i) (k0_off5_inb i)) (wordOf c tbM0_1 xt1 (k0_off5 i) (k0_off5_inb i))) idx)) + sqd (predAt x1 (⟨3, by norm_num⟩ : Fin 32) idx) (winRead x0 (k0_off8 (wordOf c tbM0_0 xt0 (k0_off7 i) (k0_off7_inb i)) (wordOf c tbM0_1 xt1 (k0_off7 i) (k0_off7_inb i))) idx)) + sqd (predAt x1 (⟨4, by norm_num⟩ : Fin 32) idx) (winRead x0 (k0_off10 (wordOf c tbM0_0 xt0 (k0_off9 i) (k0_off9_inb i)) (wordOf c tbM0_1 xt1 (k0_off9 i) (k0_off9_inb i))) idx)) + sqd (predAt x1 (⟨5, by norm_num⟩ : Fin 32) idx) (winRead x0 (k0_off12 (wordOf c tbM0_0 xt0 (k0_off11 i) (k0_off11_inb i)) (wordOf c tbM0_1 xt1 (k0_off11 i) (k0_off11_inb i))) idx)) + sqd (predAt x1 (⟨6, by norm_num⟩ : Fin 32) idx) (winRead x0 (k0_off14 (wordOf c tbM0_0 xt0 (k0_off13 i) (k0_off13_inb i)) (wordOf c tbM0_1 xt1 (k0_off13 i) (k0_off13_inb i))) idx)) + sqd (predAt x1 (⟨7, by norm_num⟩ : Fin 32) idx) (winRead x0 (k0_off16 (wordOf c tbM0_0 xt0 (k0_off15 i) (k0_off15_inb i)) (wordOf c tbM0_1 xt1 (k0_off15 i) (k0_off15_inb i))) idx)) + sqd (predAt x1 (⟨8, by norm_num⟩ : Fin 32) idx) (winRead x0 (k0_off18 (wordOf c tbM0_0 xt0 (k0_off17 i) (k0_off17_inb i)) (wordOf c tbM0_1 xt1 (k0_off17 i) (k0_off17_inb i))) idx)) + sqd (predAt x1 (⟨9, by norm_num⟩ : Fin 32) idx) (winRead x0 (k0_off20 (wordOf c tbM0_0 xt0 (k0_off19 i) (k0_off19_inb i)) (wordOf c tbM0_1 xt1 (k0_off19 i) (k0_off19_inb i))) idx)) + sqd (predAt x1 (⟨10, by norm_num⟩ : Fin 32) idx) (winRead x0 (k0_off22 (wordOf c tbM0_0 xt0 (k0_off21 i) (k0_off21_inb i)) (wordOf c tbM0_1 xt1 (k0_off21 i) (k0_off21_inb i))) idx)) + sqd (predAt x1 (⟨11, by norm_num⟩ : Fin 32) idx) (winRead x0 (k0_off24 (wordOf c tbM0_0 xt0 (k0_off23 i) (k0_off23_inb i)) (wordOf c tbM0_1 xt1 (k0_off23 i) (k0_off23_inb i))) idx)) + sqd (predAt x1 (⟨12, by norm_num⟩ : Fin 32) idx) (winRead x0 (k0_off26 (wordOf c tbM0_0 xt0 (k0_off25 i) (k0_off25_inb i)) (wordOf c tbM0_1 xt1 (k0_off25 i) (k0_off25_inb i))) idx)) + sqd (predAt x1 (⟨13, by norm_num⟩ : Fin 32) idx) (winRead x0 (k0_off28 (wordOf c tbM0_0 xt0 (k0_off27 i) (k0_off27_inb i)) (wordOf c tbM0_1 xt1 (k0_off27 i) (k0_off27_inb i))) idx)) + sqd (predAt x1 (⟨14, by norm_num⟩ : Fin 32) idx) (winRead x0 (k0_off30 (wordOf c tbM0_0 xt0 (k0_off29 i) (k0_off29_inb i)) (wordOf c tbM0_1 xt1 (k0_off29 i) (k0_off29_inb i))) idx)) + sqd (predAt x1 (⟨15, by norm_num⟩ : Fin 32) idx) (winRead x0 (k0_off32 (wordOf c tbM0_0 xt0 (k0_off31 i) (k0_off31_inb i)) (wordOf c tbM0_1 xt1 (k0_off31 i) (k0_off31_inb i))) idx)) + sqd (predAt x1 (⟨16, by norm_num⟩ : Fin 32) idx) (winRead x0 (k0_off34 (wordOf c tbM0_0 xt0 (k0_off33 i) (k0_off33_inb i)) (wordOf c tbM0_1 xt1 (k0_off33 i) (k0_off33_inb i))) idx)) + sqd (predAt x1 (⟨17, by norm_num⟩ : Fin 32) idx) (winRead x0 (k0_off36 (wordOf c tbM0_0 xt0 (k0_off35 i) (k0_off35_inb i)) (wordOf c tbM0_1 xt1 (k0_off35 i) (k0_off35_inb i))) idx)) + sqd (predAt x1 (⟨18, by norm_num⟩ : Fin 32) idx) (winRead x0 (k0_off38 (wordOf c tbM0_0 xt0 (k0_off37 i) (k0_off37_inb i)) (wordOf c tbM0_1 xt1 (k0_off37 i) (k0_off37_inb i))) idx)) + sqd (predAt x1 (⟨19, by norm_num⟩ : Fin 32) idx) (winRead x0 (k0_off40 (wordOf c tbM0_0 xt0 (k0_off39 i) (k0_off39_inb i)) (wordOf c tbM0_1 xt1 (k0_off39 i) (k0_off39_inb i))) idx)) + sqd (predAt x1 (⟨20, by norm_num⟩ : Fin 32) idx) (winRead x0 (k0_off42 (wordOf c tbM0_0 xt0 (k0_off41 i) (k0_off41_inb i)) (wordOf c tbM0_1 xt1 (k0_off41 i) (k0_off41_inb i))) idx)) + sqd (predAt x1 (⟨21, by norm_num⟩ : Fin 32) idx) (winRead x0 (k0_off44 (wordOf c tbM0_0 xt0 (k0_off43 i) (k0_off43_inb i)) (wordOf c tbM0_1 xt1 (k0_off43 i) (k0_off43_inb i))) idx)) + sqd (predAt x1 (⟨22, by norm_num⟩ : Fin 32) idx) (winRead x0 (k0_off46 (wordOf c tbM0_0 xt0 (k0_off45 i) (k0_off45_inb i)) (wordOf c tbM0_1 xt1 (k0_off45 i) (k0_off45_inb i))) idx)) + sqd (predAt x1 (⟨23, by norm_num⟩ : Fin 32) idx) (winRead x0 (k0_off48 (wordOf c tbM0_0 xt0 (k0_off47 i) (k0_off47_inb i)) (wordOf c tbM0_1 xt1 (k0_off47 i) (k0_off47_inb i))) idx)) + sqd (predAt x1 (⟨24, by norm_num⟩ : Fin 32) idx) (winRead x0 (k0_off50 (wordOf c tbM0_0 xt0 (k0_off49 i) (k0_off49_inb i)) (wordOf c tbM0_1 xt1 (k0_off49 i) (k0_off49_inb i))) idx)) + sqd (predAt x1 (⟨25, by norm_num⟩ : Fin 32) idx) (winRead x0 (k0_off52 (wordOf c tbM0_0 xt0 (k0_off51 i) (k0_off51_inb i)) (wordOf c tbM0_1 xt1 (k0_off51 i) (k0_off51_inb i))) idx)) + sqd (predAt x1 (⟨26, by norm_num⟩ : Fin 32) idx) (winRead x0 (k0_off54 (wordOf c tbM0_0 xt0 (k0_off53 i) (k0_off53_inb i)) (wordOf c tbM0_1 xt1 (k0_off53 i) (k0_off53_inb i))) idx)) + sqd (predAt x1 (⟨27, by norm_num⟩ : Fin 32) idx) (winRead x0 (k0_off56 (wordOf c tbM0_0 xt0 (k0_off55 i) (k0_off55_inb i)) (wordOf c tbM0_1 xt1 (k0_off55 i) (k0_off55_inb i))) idx)) + sqd (predAt x1 (⟨28, by norm_num⟩ : Fin 32) idx) (winRead x0 (k0_off58 (wordOf c tbM0_0 xt0 (k0_off57 i) (k0_off57_inb i)) (wordOf c tbM0_1 xt1 (k0_off57 i) (k0_off57_inb i))) idx)) + sqd (predAt x1 (⟨29, by norm_num⟩ : Fin 32) idx) (winRead x0 (k0_off60 (wordOf c tbM0_0 xt0 (k0_off59 i) (k0_off59_inb i)) (wordOf c tbM0_1 xt1 (k0_off59 i) (k0_off59_inb i))) idx)) + sqd (predAt x1 (⟨30, by norm_num⟩ : Fin 32) idx) (winRead x0 (k0_off62 (wordOf c tbM0_0 xt0 (k0_off61 i) (k0_off61_inb i)) (wordOf c tbM0_1 xt1 (k0_off61 i) (k0_off61_inb i))) idx)) + sqd (predAt x1 (⟨31, by norm_num⟩ : Fin 32) idx) (winRead x0 (k0_off64 (wordOf c tbM0_0 xt0 (k0_off63 i) (k0_off63_inb i)) (wordOf c tbM0_1 xt1 (k0_off63 i) (k0_off63_inb i))) idx)) := by
  have S0 : ∀ idx : S224x224.Idx, View.canon (kernelRun0_C.sl.HS0_1 (F := Ideal) c i arg4 harg4 arg5 harg5 arg7 harg7 x0 x1 xt0 xt1 xs0 k0_hw1) idx
      = xs0 idx + sqd (predAt x1 (⟨0, by norm_num⟩ : Fin 32) idx) (winRead x0 (k0_off2 (wordOf c tbM0_0 xt0 (k0_off1 i) (k0_off1_inb i)) (wordOf c tbM0_1 xt1 (k0_off1 i) (k0_off1_inb i))) idx) := by
    intro idx
    unfold kernelRun0_C.sl.HS0_1
    rw [View.canon_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨0, by norm_num⟩ : Fin 32) _ rfl, whole_read xs0]
    rw [win_idx x0 (k0_off2 (wordOf c tbM0_0 xt0 (k0_off1 i) (k0_off1_inb i)) (wordOf c tbM0_1 xt1 (k0_off1 i) (k0_off1_inb i))) (k0_off2_inb _ _ k0_hw1) idx]
  have S1 : ∀ idx : S224x224.Idx, View.canon (kernelRun0_C.sl.HS0_2 (F := Ideal) c i arg4 harg4 arg5 harg5 arg7 harg7 x0 x1 xt0 xt1 xs0 k0_hw1 k0_hw2) idx
      = View.canon (kernelRun0_C.sl.HS0_1 (F := Ideal) c i arg4 harg4 arg5 harg5 arg7 harg7 x0 x1 xt0 xt1 xs0 k0_hw1) idx + sqd (predAt x1 (⟨1, by norm_num⟩ : Fin 32) idx) (winRead x0 (k0_off4 (wordOf c tbM0_0 xt0 (k0_off3 i) (k0_off3_inb i)) (wordOf c tbM0_1 xt1 (k0_off3 i) (k0_off3_inb i))) idx) := by
    intro idx
    unfold kernelRun0_C.sl.HS0_2
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨1, by norm_num⟩ : Fin 32) _ rfl, whole_read xs0]
    rw [win_idx x0 (k0_off4 (wordOf c tbM0_0 xt0 (k0_off3 i) (k0_off3_inb i)) (wordOf c tbM0_1 xt1 (k0_off3 i) (k0_off3_inb i))) (k0_off4_inb _ _ k0_hw2) idx]
  have S2 : ∀ idx : S224x224.Idx, View.canon (kernelRun0_C.sl.HS0_3 (F := Ideal) c i arg4 harg4 arg5 harg5 arg7 harg7 x0 x1 xt0 xt1 xs0 k0_hw1 k0_hw2 k0_hw3) idx
      = View.canon (kernelRun0_C.sl.HS0_2 (F := Ideal) c i arg4 harg4 arg5 harg5 arg7 harg7 x0 x1 xt0 xt1 xs0 k0_hw1 k0_hw2) idx + sqd (predAt x1 (⟨2, by norm_num⟩ : Fin 32) idx) (winRead x0 (k0_off6 (wordOf c tbM0_0 xt0 (k0_off5 i) (k0_off5_inb i)) (wordOf c tbM0_1 xt1 (k0_off5 i) (k0_off5_inb i))) idx) := by
    intro idx
    unfold kernelRun0_C.sl.HS0_3
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨2, by norm_num⟩ : Fin 32) _ rfl, whole_read xs0]
    rw [win_idx x0 (k0_off6 (wordOf c tbM0_0 xt0 (k0_off5 i) (k0_off5_inb i)) (wordOf c tbM0_1 xt1 (k0_off5 i) (k0_off5_inb i))) (k0_off6_inb _ _ k0_hw3) idx]
  have S3 : ∀ idx : S224x224.Idx, View.canon (kernelRun0_C.sl.HS0_4 (F := Ideal) c i arg4 harg4 arg5 harg5 arg7 harg7 x0 x1 xt0 xt1 xs0 k0_hw1 k0_hw2 k0_hw3 k0_hw4) idx
      = View.canon (kernelRun0_C.sl.HS0_3 (F := Ideal) c i arg4 harg4 arg5 harg5 arg7 harg7 x0 x1 xt0 xt1 xs0 k0_hw1 k0_hw2 k0_hw3) idx + sqd (predAt x1 (⟨3, by norm_num⟩ : Fin 32) idx) (winRead x0 (k0_off8 (wordOf c tbM0_0 xt0 (k0_off7 i) (k0_off7_inb i)) (wordOf c tbM0_1 xt1 (k0_off7 i) (k0_off7_inb i))) idx) := by
    intro idx
    unfold kernelRun0_C.sl.HS0_4
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨3, by norm_num⟩ : Fin 32) _ rfl, whole_read xs0]
    rw [win_idx x0 (k0_off8 (wordOf c tbM0_0 xt0 (k0_off7 i) (k0_off7_inb i)) (wordOf c tbM0_1 xt1 (k0_off7 i) (k0_off7_inb i))) (k0_off8_inb _ _ k0_hw4) idx]
  have S4 : ∀ idx : S224x224.Idx, View.canon (kernelRun0_C.sl.HS0_5 (F := Ideal) c i arg4 harg4 arg5 harg5 arg7 harg7 x0 x1 xt0 xt1 xs0 k0_hw1 k0_hw2 k0_hw3 k0_hw4 k0_hw5) idx
      = View.canon (kernelRun0_C.sl.HS0_4 (F := Ideal) c i arg4 harg4 arg5 harg5 arg7 harg7 x0 x1 xt0 xt1 xs0 k0_hw1 k0_hw2 k0_hw3 k0_hw4) idx + sqd (predAt x1 (⟨4, by norm_num⟩ : Fin 32) idx) (winRead x0 (k0_off10 (wordOf c tbM0_0 xt0 (k0_off9 i) (k0_off9_inb i)) (wordOf c tbM0_1 xt1 (k0_off9 i) (k0_off9_inb i))) idx) := by
    intro idx
    unfold kernelRun0_C.sl.HS0_5
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨4, by norm_num⟩ : Fin 32) _ rfl, whole_read xs0]
    rw [win_idx x0 (k0_off10 (wordOf c tbM0_0 xt0 (k0_off9 i) (k0_off9_inb i)) (wordOf c tbM0_1 xt1 (k0_off9 i) (k0_off9_inb i))) (k0_off10_inb _ _ k0_hw5) idx]
  have S5 : ∀ idx : S224x224.Idx, View.canon (kernelRun0_C.sl.HS0_6 (F := Ideal) c i arg4 harg4 arg5 harg5 arg7 harg7 x0 x1 xt0 xt1 xs0 k0_hw1 k0_hw2 k0_hw3 k0_hw4 k0_hw5 k0_hw6) idx
      = View.canon (kernelRun0_C.sl.HS0_5 (F := Ideal) c i arg4 harg4 arg5 harg5 arg7 harg7 x0 x1 xt0 xt1 xs0 k0_hw1 k0_hw2 k0_hw3 k0_hw4 k0_hw5) idx + sqd (predAt x1 (⟨5, by norm_num⟩ : Fin 32) idx) (winRead x0 (k0_off12 (wordOf c tbM0_0 xt0 (k0_off11 i) (k0_off11_inb i)) (wordOf c tbM0_1 xt1 (k0_off11 i) (k0_off11_inb i))) idx) := by
    intro idx
    unfold kernelRun0_C.sl.HS0_6
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨5, by norm_num⟩ : Fin 32) _ rfl, whole_read xs0]
    rw [win_idx x0 (k0_off12 (wordOf c tbM0_0 xt0 (k0_off11 i) (k0_off11_inb i)) (wordOf c tbM0_1 xt1 (k0_off11 i) (k0_off11_inb i))) (k0_off12_inb _ _ k0_hw6) idx]
  have S6 : ∀ idx : S224x224.Idx, View.canon (kernelRun0_C.sl.HS0_7 (F := Ideal) c i arg4 harg4 arg5 harg5 arg7 harg7 x0 x1 xt0 xt1 xs0 k0_hw1 k0_hw2 k0_hw3 k0_hw4 k0_hw5 k0_hw6 k0_hw7) idx
      = View.canon (kernelRun0_C.sl.HS0_6 (F := Ideal) c i arg4 harg4 arg5 harg5 arg7 harg7 x0 x1 xt0 xt1 xs0 k0_hw1 k0_hw2 k0_hw3 k0_hw4 k0_hw5 k0_hw6) idx + sqd (predAt x1 (⟨6, by norm_num⟩ : Fin 32) idx) (winRead x0 (k0_off14 (wordOf c tbM0_0 xt0 (k0_off13 i) (k0_off13_inb i)) (wordOf c tbM0_1 xt1 (k0_off13 i) (k0_off13_inb i))) idx) := by
    intro idx
    unfold kernelRun0_C.sl.HS0_7
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨6, by norm_num⟩ : Fin 32) _ rfl, whole_read xs0]
    rw [win_idx x0 (k0_off14 (wordOf c tbM0_0 xt0 (k0_off13 i) (k0_off13_inb i)) (wordOf c tbM0_1 xt1 (k0_off13 i) (k0_off13_inb i))) (k0_off14_inb _ _ k0_hw7) idx]
  have S7 : ∀ idx : S224x224.Idx, View.canon (kernelRun0_C.sl.HS0_8 (F := Ideal) c i arg4 harg4 arg5 harg5 arg7 harg7 x0 x1 xt0 xt1 xs0 k0_hw1 k0_hw2 k0_hw3 k0_hw4 k0_hw5 k0_hw6 k0_hw7 k0_hw8) idx
      = View.canon (kernelRun0_C.sl.HS0_7 (F := Ideal) c i arg4 harg4 arg5 harg5 arg7 harg7 x0 x1 xt0 xt1 xs0 k0_hw1 k0_hw2 k0_hw3 k0_hw4 k0_hw5 k0_hw6 k0_hw7) idx + sqd (predAt x1 (⟨7, by norm_num⟩ : Fin 32) idx) (winRead x0 (k0_off16 (wordOf c tbM0_0 xt0 (k0_off15 i) (k0_off15_inb i)) (wordOf c tbM0_1 xt1 (k0_off15 i) (k0_off15_inb i))) idx) := by
    intro idx
    unfold kernelRun0_C.sl.HS0_8
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨7, by norm_num⟩ : Fin 32) _ rfl, whole_read xs0]
    rw [win_idx x0 (k0_off16 (wordOf c tbM0_0 xt0 (k0_off15 i) (k0_off15_inb i)) (wordOf c tbM0_1 xt1 (k0_off15 i) (k0_off15_inb i))) (k0_off16_inb _ _ k0_hw8) idx]
  have S8 : ∀ idx : S224x224.Idx, View.canon (kernelRun0_C.sl.HS0_9 (F := Ideal) c i arg4 harg4 arg5 harg5 arg7 harg7 x0 x1 xt0 xt1 xs0 k0_hw1 k0_hw2 k0_hw3 k0_hw4 k0_hw5 k0_hw6 k0_hw7 k0_hw8 k0_hw9) idx
      = View.canon (kernelRun0_C.sl.HS0_8 (F := Ideal) c i arg4 harg4 arg5 harg5 arg7 harg7 x0 x1 xt0 xt1 xs0 k0_hw1 k0_hw2 k0_hw3 k0_hw4 k0_hw5 k0_hw6 k0_hw7 k0_hw8) idx + sqd (predAt x1 (⟨8, by norm_num⟩ : Fin 32) idx) (winRead x0 (k0_off18 (wordOf c tbM0_0 xt0 (k0_off17 i) (k0_off17_inb i)) (wordOf c tbM0_1 xt1 (k0_off17 i) (k0_off17_inb i))) idx) := by
    intro idx
    unfold kernelRun0_C.sl.HS0_9
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨8, by norm_num⟩ : Fin 32) _ rfl, whole_read xs0]
    rw [win_idx x0 (k0_off18 (wordOf c tbM0_0 xt0 (k0_off17 i) (k0_off17_inb i)) (wordOf c tbM0_1 xt1 (k0_off17 i) (k0_off17_inb i))) (k0_off18_inb _ _ k0_hw9) idx]
  have S9 : ∀ idx : S224x224.Idx, View.canon (kernelRun0_C.sl.HS0_10 (F := Ideal) c i arg4 harg4 arg5 harg5 arg7 harg7 x0 x1 xt0 xt1 xs0 k0_hw1 k0_hw2 k0_hw3 k0_hw4 k0_hw5 k0_hw6 k0_hw7 k0_hw8 k0_hw9 k0_hw10) idx
      = View.canon (kernelRun0_C.sl.HS0_9 (F := Ideal) c i arg4 harg4 arg5 harg5 arg7 harg7 x0 x1 xt0 xt1 xs0 k0_hw1 k0_hw2 k0_hw3 k0_hw4 k0_hw5 k0_hw6 k0_hw7 k0_hw8 k0_hw9) idx + sqd (predAt x1 (⟨9, by norm_num⟩ : Fin 32) idx) (winRead x0 (k0_off20 (wordOf c tbM0_0 xt0 (k0_off19 i) (k0_off19_inb i)) (wordOf c tbM0_1 xt1 (k0_off19 i) (k0_off19_inb i))) idx) := by
    intro idx
    unfold kernelRun0_C.sl.HS0_10
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨9, by norm_num⟩ : Fin 32) _ rfl, whole_read xs0]
    rw [win_idx x0 (k0_off20 (wordOf c tbM0_0 xt0 (k0_off19 i) (k0_off19_inb i)) (wordOf c tbM0_1 xt1 (k0_off19 i) (k0_off19_inb i))) (k0_off20_inb _ _ k0_hw10) idx]
  have S10 : ∀ idx : S224x224.Idx, View.canon (kernelRun0_C.sl.HS0_11 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11) idx
      = View.canon (kernelRun0_C.sl.HS0_10 (F := Ideal) c i arg4 harg4 arg5 harg5 arg7 harg7 x0 x1 xt0 xt1 xs0 k0_hw1 k0_hw2 k0_hw3 k0_hw4 k0_hw5 k0_hw6 k0_hw7 k0_hw8 k0_hw9 k0_hw10) idx + sqd (predAt x1 (⟨10, by norm_num⟩ : Fin 32) idx) (winRead x0 (k0_off22 (wordOf c tbM0_0 xt0 (k0_off21 i) (k0_off21_inb i)) (wordOf c tbM0_1 xt1 (k0_off21 i) (k0_off21_inb i))) idx) := by
    intro idx
    unfold kernelRun0_C.sl.HS0_11
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨10, by norm_num⟩ : Fin 32) _ rfl, whole_read xs0]
    rw [win_idx x0 (k0_off22 (wordOf c tbM0_0 xt0 (k0_off21 i) (k0_off21_inb i)) (wordOf c tbM0_1 xt1 (k0_off21 i) (k0_off21_inb i))) (k0_off22_inb _ _ k0_hw11) idx]
  have S11 : ∀ idx : S224x224.Idx, View.canon (kernelRun0_C.sl.HS0_12 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12) idx
      = View.canon (kernelRun0_C.sl.HS0_11 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11) idx + sqd (predAt x1 (⟨11, by norm_num⟩ : Fin 32) idx) (winRead x0 (k0_off24 (wordOf c tbM0_0 xt0 (k0_off23 i) (k0_off23_inb i)) (wordOf c tbM0_1 xt1 (k0_off23 i) (k0_off23_inb i))) idx) := by
    intro idx
    unfold kernelRun0_C.sl.HS0_12
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨11, by norm_num⟩ : Fin 32) _ rfl, whole_read xs0]
    rw [win_idx x0 (k0_off24 (wordOf c tbM0_0 xt0 (k0_off23 i) (k0_off23_inb i)) (wordOf c tbM0_1 xt1 (k0_off23 i) (k0_off23_inb i))) (k0_off24_inb _ _ k0_hw12) idx]
  have S12 : ∀ idx : S224x224.Idx, View.canon (kernelRun0_C.sl.HS0_13 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13) idx
      = View.canon (kernelRun0_C.sl.HS0_12 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12) idx + sqd (predAt x1 (⟨12, by norm_num⟩ : Fin 32) idx) (winRead x0 (k0_off26 (wordOf c tbM0_0 xt0 (k0_off25 i) (k0_off25_inb i)) (wordOf c tbM0_1 xt1 (k0_off25 i) (k0_off25_inb i))) idx) := by
    intro idx
    unfold kernelRun0_C.sl.HS0_13
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨12, by norm_num⟩ : Fin 32) _ rfl, whole_read xs0]
    rw [win_idx x0 (k0_off26 (wordOf c tbM0_0 xt0 (k0_off25 i) (k0_off25_inb i)) (wordOf c tbM0_1 xt1 (k0_off25 i) (k0_off25_inb i))) (k0_off26_inb _ _ k0_hw13) idx]
  have S13 : ∀ idx : S224x224.Idx, View.canon (kernelRun0_C.sl.HS0_14 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14) idx
      = View.canon (kernelRun0_C.sl.HS0_13 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13) idx + sqd (predAt x1 (⟨13, by norm_num⟩ : Fin 32) idx) (winRead x0 (k0_off28 (wordOf c tbM0_0 xt0 (k0_off27 i) (k0_off27_inb i)) (wordOf c tbM0_1 xt1 (k0_off27 i) (k0_off27_inb i))) idx) := by
    intro idx
    unfold kernelRun0_C.sl.HS0_14
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨13, by norm_num⟩ : Fin 32) _ rfl, whole_read xs0]
    rw [win_idx x0 (k0_off28 (wordOf c tbM0_0 xt0 (k0_off27 i) (k0_off27_inb i)) (wordOf c tbM0_1 xt1 (k0_off27 i) (k0_off27_inb i))) (k0_off28_inb _ _ k0_hw14) idx]
  have S14 : ∀ idx : S224x224.Idx, View.canon (kernelRun0_C.sl.HS0_15 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15) idx
      = View.canon (kernelRun0_C.sl.HS0_14 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14) idx + sqd (predAt x1 (⟨14, by norm_num⟩ : Fin 32) idx) (winRead x0 (k0_off30 (wordOf c tbM0_0 xt0 (k0_off29 i) (k0_off29_inb i)) (wordOf c tbM0_1 xt1 (k0_off29 i) (k0_off29_inb i))) idx) := by
    intro idx
    unfold kernelRun0_C.sl.HS0_15
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨14, by norm_num⟩ : Fin 32) _ rfl, whole_read xs0]
    rw [win_idx x0 (k0_off30 (wordOf c tbM0_0 xt0 (k0_off29 i) (k0_off29_inb i)) (wordOf c tbM0_1 xt1 (k0_off29 i) (k0_off29_inb i))) (k0_off30_inb _ _ k0_hw15) idx]
  have S15 : ∀ idx : S224x224.Idx, View.canon (kernelRun0_C.sl.HS0_16 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16) idx
      = View.canon (kernelRun0_C.sl.HS0_15 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15) idx + sqd (predAt x1 (⟨15, by norm_num⟩ : Fin 32) idx) (winRead x0 (k0_off32 (wordOf c tbM0_0 xt0 (k0_off31 i) (k0_off31_inb i)) (wordOf c tbM0_1 xt1 (k0_off31 i) (k0_off31_inb i))) idx) := by
    intro idx
    unfold kernelRun0_C.sl.HS0_16
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨15, by norm_num⟩ : Fin 32) _ rfl, whole_read xs0]
    rw [win_idx x0 (k0_off32 (wordOf c tbM0_0 xt0 (k0_off31 i) (k0_off31_inb i)) (wordOf c tbM0_1 xt1 (k0_off31 i) (k0_off31_inb i))) (k0_off32_inb _ _ k0_hw16) idx]
  have S16 : ∀ idx : S224x224.Idx, View.canon (kernelRun0_C.sl.HS0_17 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17) idx
      = View.canon (kernelRun0_C.sl.HS0_16 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16) idx + sqd (predAt x1 (⟨16, by norm_num⟩ : Fin 32) idx) (winRead x0 (k0_off34 (wordOf c tbM0_0 xt0 (k0_off33 i) (k0_off33_inb i)) (wordOf c tbM0_1 xt1 (k0_off33 i) (k0_off33_inb i))) idx) := by
    intro idx
    unfold kernelRun0_C.sl.HS0_17
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨16, by norm_num⟩ : Fin 32) _ rfl, whole_read xs0]
    rw [win_idx x0 (k0_off34 (wordOf c tbM0_0 xt0 (k0_off33 i) (k0_off33_inb i)) (wordOf c tbM0_1 xt1 (k0_off33 i) (k0_off33_inb i))) (k0_off34_inb _ _ k0_hw17) idx]
  have S17 : ∀ idx : S224x224.Idx, View.canon (kernelRun0_C.sl.HS0_18 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18) idx
      = View.canon (kernelRun0_C.sl.HS0_17 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17) idx + sqd (predAt x1 (⟨17, by norm_num⟩ : Fin 32) idx) (winRead x0 (k0_off36 (wordOf c tbM0_0 xt0 (k0_off35 i) (k0_off35_inb i)) (wordOf c tbM0_1 xt1 (k0_off35 i) (k0_off35_inb i))) idx) := by
    intro idx
    unfold kernelRun0_C.sl.HS0_18
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨17, by norm_num⟩ : Fin 32) _ rfl, whole_read xs0]
    rw [win_idx x0 (k0_off36 (wordOf c tbM0_0 xt0 (k0_off35 i) (k0_off35_inb i)) (wordOf c tbM0_1 xt1 (k0_off35 i) (k0_off35_inb i))) (k0_off36_inb _ _ k0_hw18) idx]
  have S18 : ∀ idx : S224x224.Idx, View.canon (kernelRun0_C.sl.HS0_19 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19) idx
      = View.canon (kernelRun0_C.sl.HS0_18 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18) idx + sqd (predAt x1 (⟨18, by norm_num⟩ : Fin 32) idx) (winRead x0 (k0_off38 (wordOf c tbM0_0 xt0 (k0_off37 i) (k0_off37_inb i)) (wordOf c tbM0_1 xt1 (k0_off37 i) (k0_off37_inb i))) idx) := by
    intro idx
    unfold kernelRun0_C.sl.HS0_19
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨18, by norm_num⟩ : Fin 32) _ rfl, whole_read xs0]
    rw [win_idx x0 (k0_off38 (wordOf c tbM0_0 xt0 (k0_off37 i) (k0_off37_inb i)) (wordOf c tbM0_1 xt1 (k0_off37 i) (k0_off37_inb i))) (k0_off38_inb _ _ k0_hw19) idx]
  have S19 : ∀ idx : S224x224.Idx, View.canon (kernelRun0_C.sl.HS0_20 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20) idx
      = View.canon (kernelRun0_C.sl.HS0_19 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19) idx + sqd (predAt x1 (⟨19, by norm_num⟩ : Fin 32) idx) (winRead x0 (k0_off40 (wordOf c tbM0_0 xt0 (k0_off39 i) (k0_off39_inb i)) (wordOf c tbM0_1 xt1 (k0_off39 i) (k0_off39_inb i))) idx) := by
    intro idx
    unfold kernelRun0_C.sl.HS0_20
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨19, by norm_num⟩ : Fin 32) _ rfl, whole_read xs0]
    rw [win_idx x0 (k0_off40 (wordOf c tbM0_0 xt0 (k0_off39 i) (k0_off39_inb i)) (wordOf c tbM0_1 xt1 (k0_off39 i) (k0_off39_inb i))) (k0_off40_inb _ _ k0_hw20) idx]
  have S20 : ∀ idx : S224x224.Idx, View.canon (kernelRun0_C.sl.HS0_21 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21) idx
      = View.canon (kernelRun0_C.sl.HS0_20 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20) idx + sqd (predAt x1 (⟨20, by norm_num⟩ : Fin 32) idx) (winRead x0 (k0_off42 (wordOf c tbM0_0 xt0 (k0_off41 i) (k0_off41_inb i)) (wordOf c tbM0_1 xt1 (k0_off41 i) (k0_off41_inb i))) idx) := by
    intro idx
    unfold kernelRun0_C.sl.HS0_21
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨20, by norm_num⟩ : Fin 32) _ rfl, whole_read xs0]
    rw [win_idx x0 (k0_off42 (wordOf c tbM0_0 xt0 (k0_off41 i) (k0_off41_inb i)) (wordOf c tbM0_1 xt1 (k0_off41 i) (k0_off41_inb i))) (k0_off42_inb _ _ k0_hw21) idx]
  have S21 : ∀ idx : S224x224.Idx, View.canon (kernelRun0_C.sl.HS0_22 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22) idx
      = View.canon (kernelRun0_C.sl.HS0_21 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21) idx + sqd (predAt x1 (⟨21, by norm_num⟩ : Fin 32) idx) (winRead x0 (k0_off44 (wordOf c tbM0_0 xt0 (k0_off43 i) (k0_off43_inb i)) (wordOf c tbM0_1 xt1 (k0_off43 i) (k0_off43_inb i))) idx) := by
    intro idx
    unfold kernelRun0_C.sl.HS0_22
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨21, by norm_num⟩ : Fin 32) _ rfl, whole_read xs0]
    rw [win_idx x0 (k0_off44 (wordOf c tbM0_0 xt0 (k0_off43 i) (k0_off43_inb i)) (wordOf c tbM0_1 xt1 (k0_off43 i) (k0_off43_inb i))) (k0_off44_inb _ _ k0_hw22) idx]
  have S22 : ∀ idx : S224x224.Idx, View.canon (kernelRun0_C.sl.HS0_23 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23) idx
      = View.canon (kernelRun0_C.sl.HS0_22 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22) idx + sqd (predAt x1 (⟨22, by norm_num⟩ : Fin 32) idx) (winRead x0 (k0_off46 (wordOf c tbM0_0 xt0 (k0_off45 i) (k0_off45_inb i)) (wordOf c tbM0_1 xt1 (k0_off45 i) (k0_off45_inb i))) idx) := by
    intro idx
    unfold kernelRun0_C.sl.HS0_23
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨22, by norm_num⟩ : Fin 32) _ rfl, whole_read xs0]
    rw [win_idx x0 (k0_off46 (wordOf c tbM0_0 xt0 (k0_off45 i) (k0_off45_inb i)) (wordOf c tbM0_1 xt1 (k0_off45 i) (k0_off45_inb i))) (k0_off46_inb _ _ k0_hw23) idx]
  have S23 : ∀ idx : S224x224.Idx, View.canon (kernelRun0_C.sl.HS0_24 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24) idx
      = View.canon (kernelRun0_C.sl.HS0_23 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23) idx + sqd (predAt x1 (⟨23, by norm_num⟩ : Fin 32) idx) (winRead x0 (k0_off48 (wordOf c tbM0_0 xt0 (k0_off47 i) (k0_off47_inb i)) (wordOf c tbM0_1 xt1 (k0_off47 i) (k0_off47_inb i))) idx) := by
    intro idx
    unfold kernelRun0_C.sl.HS0_24
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨23, by norm_num⟩ : Fin 32) _ rfl, whole_read xs0]
    rw [win_idx x0 (k0_off48 (wordOf c tbM0_0 xt0 (k0_off47 i) (k0_off47_inb i)) (wordOf c tbM0_1 xt1 (k0_off47 i) (k0_off47_inb i))) (k0_off48_inb _ _ k0_hw24) idx]
  have S24 : ∀ idx : S224x224.Idx, View.canon (kernelRun0_C.sl.HS0_25 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25) idx
      = View.canon (kernelRun0_C.sl.HS0_24 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24) idx + sqd (predAt x1 (⟨24, by norm_num⟩ : Fin 32) idx) (winRead x0 (k0_off50 (wordOf c tbM0_0 xt0 (k0_off49 i) (k0_off49_inb i)) (wordOf c tbM0_1 xt1 (k0_off49 i) (k0_off49_inb i))) idx) := by
    intro idx
    unfold kernelRun0_C.sl.HS0_25
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨24, by norm_num⟩ : Fin 32) _ rfl, whole_read xs0]
    rw [win_idx x0 (k0_off50 (wordOf c tbM0_0 xt0 (k0_off49 i) (k0_off49_inb i)) (wordOf c tbM0_1 xt1 (k0_off49 i) (k0_off49_inb i))) (k0_off50_inb _ _ k0_hw25) idx]
  have S25 : ∀ idx : S224x224.Idx, View.canon (kernelRun0_C.sl.HS0_26 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26) idx
      = View.canon (kernelRun0_C.sl.HS0_25 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25) idx + sqd (predAt x1 (⟨25, by norm_num⟩ : Fin 32) idx) (winRead x0 (k0_off52 (wordOf c tbM0_0 xt0 (k0_off51 i) (k0_off51_inb i)) (wordOf c tbM0_1 xt1 (k0_off51 i) (k0_off51_inb i))) idx) := by
    intro idx
    unfold kernelRun0_C.sl.HS0_26
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨25, by norm_num⟩ : Fin 32) _ rfl, whole_read xs0]
    rw [win_idx x0 (k0_off52 (wordOf c tbM0_0 xt0 (k0_off51 i) (k0_off51_inb i)) (wordOf c tbM0_1 xt1 (k0_off51 i) (k0_off51_inb i))) (k0_off52_inb _ _ k0_hw26) idx]
  have S26 : ∀ idx : S224x224.Idx, View.canon (kernelRun0_C.sl.HS0_27 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27) idx
      = View.canon (kernelRun0_C.sl.HS0_26 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26) idx + sqd (predAt x1 (⟨26, by norm_num⟩ : Fin 32) idx) (winRead x0 (k0_off54 (wordOf c tbM0_0 xt0 (k0_off53 i) (k0_off53_inb i)) (wordOf c tbM0_1 xt1 (k0_off53 i) (k0_off53_inb i))) idx) := by
    intro idx
    unfold kernelRun0_C.sl.HS0_27
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨26, by norm_num⟩ : Fin 32) _ rfl, whole_read xs0]
    rw [win_idx x0 (k0_off54 (wordOf c tbM0_0 xt0 (k0_off53 i) (k0_off53_inb i)) (wordOf c tbM0_1 xt1 (k0_off53 i) (k0_off53_inb i))) (k0_off54_inb _ _ k0_hw27) idx]
  have S27 : ∀ idx : S224x224.Idx, View.canon (kernelRun0_C.sl.HS0_28 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28) idx
      = View.canon (kernelRun0_C.sl.HS0_27 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27) idx + sqd (predAt x1 (⟨27, by norm_num⟩ : Fin 32) idx) (winRead x0 (k0_off56 (wordOf c tbM0_0 xt0 (k0_off55 i) (k0_off55_inb i)) (wordOf c tbM0_1 xt1 (k0_off55 i) (k0_off55_inb i))) idx) := by
    intro idx
    unfold kernelRun0_C.sl.HS0_28
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨27, by norm_num⟩ : Fin 32) _ rfl, whole_read xs0]
    rw [win_idx x0 (k0_off56 (wordOf c tbM0_0 xt0 (k0_off55 i) (k0_off55_inb i)) (wordOf c tbM0_1 xt1 (k0_off55 i) (k0_off55_inb i))) (k0_off56_inb _ _ k0_hw28) idx]
  have S28 : ∀ idx : S224x224.Idx, View.canon (kernelRun0_C.sl.HS0_29 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29) idx
      = View.canon (kernelRun0_C.sl.HS0_28 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28) idx + sqd (predAt x1 (⟨28, by norm_num⟩ : Fin 32) idx) (winRead x0 (k0_off58 (wordOf c tbM0_0 xt0 (k0_off57 i) (k0_off57_inb i)) (wordOf c tbM0_1 xt1 (k0_off57 i) (k0_off57_inb i))) idx) := by
    intro idx
    unfold kernelRun0_C.sl.HS0_29
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨28, by norm_num⟩ : Fin 32) _ rfl, whole_read xs0]
    rw [win_idx x0 (k0_off58 (wordOf c tbM0_0 xt0 (k0_off57 i) (k0_off57_inb i)) (wordOf c tbM0_1 xt1 (k0_off57 i) (k0_off57_inb i))) (k0_off58_inb _ _ k0_hw29) idx]
  have S29 : ∀ idx : S224x224.Idx, View.canon (kernelRun0_C.sl.HS0_30 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30) idx
      = View.canon (kernelRun0_C.sl.HS0_29 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29) idx + sqd (predAt x1 (⟨29, by norm_num⟩ : Fin 32) idx) (winRead x0 (k0_off60 (wordOf c tbM0_0 xt0 (k0_off59 i) (k0_off59_inb i)) (wordOf c tbM0_1 xt1 (k0_off59 i) (k0_off59_inb i))) idx) := by
    intro idx
    unfold kernelRun0_C.sl.HS0_30
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨29, by norm_num⟩ : Fin 32) _ rfl, whole_read xs0]
    rw [win_idx x0 (k0_off60 (wordOf c tbM0_0 xt0 (k0_off59 i) (k0_off59_inb i)) (wordOf c tbM0_1 xt1 (k0_off59 i) (k0_off59_inb i))) (k0_off60_inb _ _ k0_hw30) idx]
  have S30 : ∀ idx : S224x224.Idx, View.canon (kernelRun0_C.sl.HS0_31 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31) idx
      = View.canon (kernelRun0_C.sl.HS0_30 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30) idx + sqd (predAt x1 (⟨30, by norm_num⟩ : Fin 32) idx) (winRead x0 (k0_off62 (wordOf c tbM0_0 xt0 (k0_off61 i) (k0_off61_inb i)) (wordOf c tbM0_1 xt1 (k0_off61 i) (k0_off61_inb i))) idx) := by
    intro idx
    unfold kernelRun0_C.sl.HS0_31
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨30, by norm_num⟩ : Fin 32) _ rfl, whole_read xs0]
    rw [win_idx x0 (k0_off62 (wordOf c tbM0_0 xt0 (k0_off61 i) (k0_off61_inb i)) (wordOf c tbM0_1 xt1 (k0_off61 i) (k0_off61_inb i))) (k0_off62_inb _ _ k0_hw31) idx]
  have S31 : ∀ idx : S224x224.Idx, View.canon (kernelRun0_C.sl.HS0_32 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32) idx
      = View.canon (kernelRun0_C.sl.HS0_31 (F := Ideal) c i arg4 harg4 arg5 harg5 arg7 harg7 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31) idx + sqd (predAt x1 (⟨31, by norm_num⟩ : Fin 32) idx) (winRead x0 (k0_off64 (wordOf c tbM0_0 xt0 (k0_off63 i) (k0_off63_inb i)) (wordOf c tbM0_1 xt1 (k0_off63 i) (k0_off63_inb i))) idx) := by
    intro idx
    unfold kernelRun0_C.sl.HS0_32
    rw [View.canon_cons_unit_zero hz2]
    simp only [kernelRun0_C.sl.r, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_1, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_2, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_3, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_4, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_5, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_6, kernelRun0_C.sl.r_70, kernelRun0_C.sl.r_71, kernelRun0_C.sl.r_72, kernelRun0_C.sl.r_73, kernelRun0_C.sl.r_7, kernelRun0_C.sl.r_8, kernelRun0_C.sl.r_9, kernelRun0_C.sl.v0, kernelRun0_C.sl.v117, kernelRun0_C.sl.v141, kernelRun0_C.sl.v147, kernelRun0_C.sl.v165, kernelRun0_C.sl.v189, kernelRun0_C.sl.v1, kernelRun0_C.sl.v213, kernelRun0_C.sl.v237, kernelRun0_C.sl.v261, kernelRun0_C.sl.v285, kernelRun0_C.sl.v299, kernelRun0_C.sl.v2, kernelRun0_C.sl.v300, kernelRun0_C.sl.v309, kernelRun0_C.sl.v333, kernelRun0_C.sl.v357, kernelRun0_C.sl.v35, kernelRun0_C.sl.v381, kernelRun0_C.sl.v405, kernelRun0_C.sl.v412, kernelRun0_C.sl.v413, kernelRun0_C.sl.v429, kernelRun0_C.sl.v453, kernelRun0_C.sl.v45, kernelRun0_C.sl.v477, kernelRun0_C.sl.v501, kernelRun0_C.sl.v525, kernelRun0_C.sl.v549, kernelRun0_C.sl.v573, kernelRun0_C.sl.v597, kernelRun0_C.sl.v621, kernelRun0_C.sl.v645, kernelRun0_C.sl.v669, kernelRun0_C.sl.v678, kernelRun0_C.sl.v693, kernelRun0_C.sl.v69, kernelRun0_C.sl.v717, kernelRun0_C.sl.v741, kernelRun0_C.sl.v755, kernelRun0_C.sl.v762, kernelRun0_C.sl.v765, kernelRun0_C.sl.v774, kernelRun0_C.sl.v93, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, readCov_whole (S := S224x224) _ _ hz2, readAt_whole, shapeCast_self, slice_cast, mulf_apply, addf_apply, subf_apply, sqd, pred_idx x1 (⟨31, by norm_num⟩ : Fin 32) _ rfl, whole_read xs0]
    rw [win_idx x0 (k0_off64 (wordOf c tbM0_0 xt0 (k0_off63 i) (k0_off63_inb i)) (wordOf c tbM0_1 xt1 (k0_off63 i) (k0_off63_inb i))) (k0_off64_inb _ _ k0_hw32) idx]
  unfold sout0_C_0
  rw [View.read_writes_junk_eq_canon]
  unfold kernelRun0_C
  dsimp only
  rw [S31 idx, S30 idx, S29 idx, S28 idx, S27 idx, S26 idx, S25 idx, S24 idx, S23 idx, S22 idx, S21 idx, S20 idx, S19 idx, S18 idx, S17 idx, S16 idx, S15 idx, S14 idx, S13 idx, S12 idx, S11 idx, S10 idx, S9 idx, S8 idx, S7 idx, S6 idx, S5 idx, S4 idx, S3 idx, S2 idx, S1 idx, S0 idx]

set_option maxHeartbeats 4000000 in
/-- The step that closes a half also writes the accumulator out: the output block at (0, r, c) is the accumulator
    at (r, c). -/
theorem outC (c : Dev nD) (i : grid0.Coords) (arg4 : Memref sig .tc .vmem S480x512 .f32) (harg4 : arg4.IsWhole) (arg5 : Memref sig .tc .vmem S1x32x224x224 .f32) (harg5 : arg5.IsWhole) (arg6 : Memref sig .tc .vmem S1x224x224 .f32) (harg6 : arg6.IsWhole) (arg7 : Memref sig .tc .vmem S224x224 .f32) (harg7 : arg7.IsWhole) (hc0 : ¬cond0_0 i) (hc1 : cond0_1 i) (x0 : Vec Ideal S480x512 .f32) (x1 : Vec Ideal S1x32x224x224 .f32) (xt0 : TbBuf0 (F := Ideal) c tbM0_0) (xt1 : TbBuf0 (F := Ideal) c tbM0_1) (xs0 : Vec Ideal S224x224 .f32) (k0_hw1 : k0_chk1 (tbM0_0.view.readAt (Elt Ideal) (Rect.unit (s := S1088) (k0_off1 i) S1.size (k0_off1_inb i)).toLoadRect xt0 (Shape.Idx.first (numel1_S1.symm ▸ Nat.one_pos))) (tbM0_1.view.readAt (Elt Ideal) (Rect.unit (s := S1088) (k0_off1 i) S1.size (k0_off1_inb i)).toLoadRect xt1 (Shape.Idx.first (numel1_S1.symm ▸ Nat.one_pos)))) (k0_hw2 : k0_chk2 (tbM0_0.view.readAt (Elt Ideal) (Rect.unit (s := S1088) (k0_off3 i) S1.size (k0_off3_inb i)).toLoadRect xt0 (Shape.Idx.first (numel1_S1.symm ▸ Nat.one_pos))) (tbM0_1.view.readAt (Elt Ideal) (Rect.unit (s := S1088) (k0_off3 i) S1.size (k0_off3_inb i)).toLoadRect xt1 (Shape.Idx.first (numel1_S1.symm ▸ Nat.one_pos)))) (k0_hw3 : k0_chk3 (tbM0_0.view.readAt (Elt Ideal) (Rect.unit (s := S1088) (k0_off5 i) S1.size (k0_off5_inb i)).toLoadRect xt0 (Shape.Idx.first (numel1_S1.symm ▸ Nat.one_pos))) (tbM0_1.view.readAt (Elt Ideal) (Rect.unit (s := S1088) (k0_off5 i) S1.size (k0_off5_inb i)).toLoadRect xt1 (Shape.Idx.first (numel1_S1.symm ▸ Nat.one_pos)))) (k0_hw4 : k0_chk4 (tbM0_0.view.readAt (Elt Ideal) (Rect.unit (s := S1088) (k0_off7 i) S1.size (k0_off7_inb i)).toLoadRect xt0 (Shape.Idx.first (numel1_S1.symm ▸ Nat.one_pos))) (tbM0_1.view.readAt (Elt Ideal) (Rect.unit (s := S1088) (k0_off7 i) S1.size (k0_off7_inb i)).toLoadRect xt1 (Shape.Idx.first (numel1_S1.symm ▸ Nat.one_pos)))) (k0_hw5 : k0_chk5 (tbM0_0.view.readAt (Elt Ideal) (Rect.unit (s := S1088) (k0_off9 i) S1.size (k0_off9_inb i)).toLoadRect xt0 (Shape.Idx.first (numel1_S1.symm ▸ Nat.one_pos))) (tbM0_1.view.readAt (Elt Ideal) (Rect.unit (s := S1088) (k0_off9 i) S1.size (k0_off9_inb i)).toLoadRect xt1 (Shape.Idx.first (numel1_S1.symm ▸ Nat.one_pos)))) (k0_hw6 : k0_chk6 (tbM0_0.view.readAt (Elt Ideal) (Rect.unit (s := S1088) (k0_off11 i) S1.size (k0_off11_inb i)).toLoadRect xt0 (Shape.Idx.first (numel1_S1.symm ▸ Nat.one_pos))) (tbM0_1.view.readAt (Elt Ideal) (Rect.unit (s := S1088) (k0_off11 i) S1.size (k0_off11_inb i)).toLoadRect xt1 (Shape.Idx.first (numel1_S1.symm ▸ Nat.one_pos)))) (k0_hw7 : k0_chk7 (tbM0_0.view.readAt (Elt Ideal) (Rect.unit (s := S1088) (k0_off13 i) S1.size (k0_off13_inb i)).toLoadRect xt0 (Shape.Idx.first (numel1_S1.symm ▸ Nat.one_pos))) (tbM0_1.view.readAt (Elt Ideal) (Rect.unit (s := S1088) (k0_off13 i) S1.size (k0_off13_inb i)).toLoadRect xt1 (Shape.Idx.first (numel1_S1.symm ▸ Nat.one_pos)))) (k0_hw8 : k0_chk8 (tbM0_0.view.readAt (Elt Ideal) (Rect.unit (s := S1088) (k0_off15 i) S1.size (k0_off15_inb i)).toLoadRect xt0 (Shape.Idx.first (numel1_S1.symm ▸ Nat.one_pos))) (tbM0_1.view.readAt (Elt Ideal) (Rect.unit (s := S1088) (k0_off15 i) S1.size (k0_off15_inb i)).toLoadRect xt1 (Shape.Idx.first (numel1_S1.symm ▸ Nat.one_pos)))) (k0_hw9 : k0_chk9 (tbM0_0.view.readAt (Elt Ideal) (Rect.unit (s := S1088) (k0_off17 i) S1.size (k0_off17_inb i)).toLoadRect xt0 (Shape.Idx.first (numel1_S1.symm ▸ Nat.one_pos))) (tbM0_1.view.readAt (Elt Ideal) (Rect.unit (s := S1088) (k0_off17 i) S1.size (k0_off17_inb i)).toLoadRect xt1 (Shape.Idx.first (numel1_S1.symm ▸ Nat.one_pos)))) (k0_hw10 : k0_chk10 (tbM0_0.view.readAt (Elt Ideal) (Rect.unit (s := S1088) (k0_off19 i) S1.size (k0_off19_inb i)).toLoadRect xt0 (Shape.Idx.first (numel1_S1.symm ▸ Nat.one_pos))) (tbM0_1.view.readAt (Elt Ideal) (Rect.unit (s := S1088) (k0_off19 i) S1.size (k0_off19_inb i)).toLoadRect xt1 (Shape.Idx.first (numel1_S1.symm ▸ Nat.one_pos)))) (k0_hw11 : k0_chk11 (tbM0_0.view.readAt (Elt Ideal) (Rect.unit (s := S1088) (k0_off21 i) S1.size (k0_off21_inb i)).toLoadRect xt0 (Shape.Idx.first (numel1_S1.symm ▸ Nat.one_pos))) (tbM0_1.view.readAt (Elt Ideal) (Rect.unit (s := S1088) (k0_off21 i) S1.size (k0_off21_inb i)).toLoadRect xt1 (Shape.Idx.first (numel1_S1.symm ▸ Nat.one_pos)))) (k0_hw12 : k0_chk12 (tbM0_0.view.readAt (Elt Ideal) (Rect.unit (s := S1088) (k0_off23 i) S1.size (k0_off23_inb i)).toLoadRect xt0 (Shape.Idx.first (numel1_S1.symm ▸ Nat.one_pos))) (tbM0_1.view.readAt (Elt Ideal) (Rect.unit (s := S1088) (k0_off23 i) S1.size (k0_off23_inb i)).toLoadRect xt1 (Shape.Idx.first (numel1_S1.symm ▸ Nat.one_pos)))) (k0_hw13 : k0_chk13 (tbM0_0.view.readAt (Elt Ideal) (Rect.unit (s := S1088) (k0_off25 i) S1.size (k0_off25_inb i)).toLoadRect xt0 (Shape.Idx.first (numel1_S1.symm ▸ Nat.one_pos))) (tbM0_1.view.readAt (Elt Ideal) (Rect.unit (s := S1088) (k0_off25 i) S1.size (k0_off25_inb i)).toLoadRect xt1 (Shape.Idx.first (numel1_S1.symm ▸ Nat.one_pos)))) (k0_hw14 : k0_chk14 (tbM0_0.view.readAt (Elt Ideal) (Rect.unit (s := S1088) (k0_off27 i) S1.size (k0_off27_inb i)).toLoadRect xt0 (Shape.Idx.first (numel1_S1.symm ▸ Nat.one_pos))) (tbM0_1.view.readAt (Elt Ideal) (Rect.unit (s := S1088) (k0_off27 i) S1.size (k0_off27_inb i)).toLoadRect xt1 (Shape.Idx.first (numel1_S1.symm ▸ Nat.one_pos)))) (k0_hw15 : k0_chk15 (tbM0_0.view.readAt (Elt Ideal) (Rect.unit (s := S1088) (k0_off29 i) S1.size (k0_off29_inb i)).toLoadRect xt0 (Shape.Idx.first (numel1_S1.symm ▸ Nat.one_pos))) (tbM0_1.view.readAt (Elt Ideal) (Rect.unit (s := S1088) (k0_off29 i) S1.size (k0_off29_inb i)).toLoadRect xt1 (Shape.Idx.first (numel1_S1.symm ▸ Nat.one_pos)))) (k0_hw16 : k0_chk16 (tbM0_0.view.readAt (Elt Ideal) (Rect.unit (s := S1088) (k0_off31 i) S1.size (k0_off31_inb i)).toLoadRect xt0 (Shape.Idx.first (numel1_S1.symm ▸ Nat.one_pos))) (tbM0_1.view.readAt (Elt Ideal) (Rect.unit (s := S1088) (k0_off31 i) S1.size (k0_off31_inb i)).toLoadRect xt1 (Shape.Idx.first (numel1_S1.symm ▸ Nat.one_pos)))) (k0_hw17 : k0_chk17 (tbM0_0.view.readAt (Elt Ideal) (Rect.unit (s := S1088) (k0_off33 i) S1.size (k0_off33_inb i)).toLoadRect xt0 (Shape.Idx.first (numel1_S1.symm ▸ Nat.one_pos))) (tbM0_1.view.readAt (Elt Ideal) (Rect.unit (s := S1088) (k0_off33 i) S1.size (k0_off33_inb i)).toLoadRect xt1 (Shape.Idx.first (numel1_S1.symm ▸ Nat.one_pos)))) (k0_hw18 : k0_chk18 (tbM0_0.view.readAt (Elt Ideal) (Rect.unit (s := S1088) (k0_off35 i) S1.size (k0_off35_inb i)).toLoadRect xt0 (Shape.Idx.first (numel1_S1.symm ▸ Nat.one_pos))) (tbM0_1.view.readAt (Elt Ideal) (Rect.unit (s := S1088) (k0_off35 i) S1.size (k0_off35_inb i)).toLoadRect xt1 (Shape.Idx.first (numel1_S1.symm ▸ Nat.one_pos)))) (k0_hw19 : k0_chk19 (tbM0_0.view.readAt (Elt Ideal) (Rect.unit (s := S1088) (k0_off37 i) S1.size (k0_off37_inb i)).toLoadRect xt0 (Shape.Idx.first (numel1_S1.symm ▸ Nat.one_pos))) (tbM0_1.view.readAt (Elt Ideal) (Rect.unit (s := S1088) (k0_off37 i) S1.size (k0_off37_inb i)).toLoadRect xt1 (Shape.Idx.first (numel1_S1.symm ▸ Nat.one_pos)))) (k0_hw20 : k0_chk20 (tbM0_0.view.readAt (Elt Ideal) (Rect.unit (s := S1088) (k0_off39 i) S1.size (k0_off39_inb i)).toLoadRect xt0 (Shape.Idx.first (numel1_S1.symm ▸ Nat.one_pos))) (tbM0_1.view.readAt (Elt Ideal) (Rect.unit (s := S1088) (k0_off39 i) S1.size (k0_off39_inb i)).toLoadRect xt1 (Shape.Idx.first (numel1_S1.symm ▸ Nat.one_pos)))) (k0_hw21 : k0_chk21 (tbM0_0.view.readAt (Elt Ideal) (Rect.unit (s := S1088) (k0_off41 i) S1.size (k0_off41_inb i)).toLoadRect xt0 (Shape.Idx.first (numel1_S1.symm ▸ Nat.one_pos))) (tbM0_1.view.readAt (Elt Ideal) (Rect.unit (s := S1088) (k0_off41 i) S1.size (k0_off41_inb i)).toLoadRect xt1 (Shape.Idx.first (numel1_S1.symm ▸ Nat.one_pos)))) (k0_hw22 : k0_chk22 (tbM0_0.view.readAt (Elt Ideal) (Rect.unit (s := S1088) (k0_off43 i) S1.size (k0_off43_inb i)).toLoadRect xt0 (Shape.Idx.first (numel1_S1.symm ▸ Nat.one_pos))) (tbM0_1.view.readAt (Elt Ideal) (Rect.unit (s := S1088) (k0_off43 i) S1.size (k0_off43_inb i)).toLoadRect xt1 (Shape.Idx.first (numel1_S1.symm ▸ Nat.one_pos)))) (k0_hw23 : k0_chk23 (tbM0_0.view.readAt (Elt Ideal) (Rect.unit (s := S1088) (k0_off45 i) S1.size (k0_off45_inb i)).toLoadRect xt0 (Shape.Idx.first (numel1_S1.symm ▸ Nat.one_pos))) (tbM0_1.view.readAt (Elt Ideal) (Rect.unit (s := S1088) (k0_off45 i) S1.size (k0_off45_inb i)).toLoadRect xt1 (Shape.Idx.first (numel1_S1.symm ▸ Nat.one_pos)))) (k0_hw24 : k0_chk24 (tbM0_0.view.readAt (Elt Ideal) (Rect.unit (s := S1088) (k0_off47 i) S1.size (k0_off47_inb i)).toLoadRect xt0 (Shape.Idx.first (numel1_S1.symm ▸ Nat.one_pos))) (tbM0_1.view.readAt (Elt Ideal) (Rect.unit (s := S1088) (k0_off47 i) S1.size (k0_off47_inb i)).toLoadRect xt1 (Shape.Idx.first (numel1_S1.symm ▸ Nat.one_pos)))) (k0_hw25 : k0_chk25 (tbM0_0.view.readAt (Elt Ideal) (Rect.unit (s := S1088) (k0_off49 i) S1.size (k0_off49_inb i)).toLoadRect xt0 (Shape.Idx.first (numel1_S1.symm ▸ Nat.one_pos))) (tbM0_1.view.readAt (Elt Ideal) (Rect.unit (s := S1088) (k0_off49 i) S1.size (k0_off49_inb i)).toLoadRect xt1 (Shape.Idx.first (numel1_S1.symm ▸ Nat.one_pos)))) (k0_hw26 : k0_chk26 (tbM0_0.view.readAt (Elt Ideal) (Rect.unit (s := S1088) (k0_off51 i) S1.size (k0_off51_inb i)).toLoadRect xt0 (Shape.Idx.first (numel1_S1.symm ▸ Nat.one_pos))) (tbM0_1.view.readAt (Elt Ideal) (Rect.unit (s := S1088) (k0_off51 i) S1.size (k0_off51_inb i)).toLoadRect xt1 (Shape.Idx.first (numel1_S1.symm ▸ Nat.one_pos)))) (k0_hw27 : k0_chk27 (tbM0_0.view.readAt (Elt Ideal) (Rect.unit (s := S1088) (k0_off53 i) S1.size (k0_off53_inb i)).toLoadRect xt0 (Shape.Idx.first (numel1_S1.symm ▸ Nat.one_pos))) (tbM0_1.view.readAt (Elt Ideal) (Rect.unit (s := S1088) (k0_off53 i) S1.size (k0_off53_inb i)).toLoadRect xt1 (Shape.Idx.first (numel1_S1.symm ▸ Nat.one_pos)))) (k0_hw28 : k0_chk28 (tbM0_0.view.readAt (Elt Ideal) (Rect.unit (s := S1088) (k0_off55 i) S1.size (k0_off55_inb i)).toLoadRect xt0 (Shape.Idx.first (numel1_S1.symm ▸ Nat.one_pos))) (tbM0_1.view.readAt (Elt Ideal) (Rect.unit (s := S1088) (k0_off55 i) S1.size (k0_off55_inb i)).toLoadRect xt1 (Shape.Idx.first (numel1_S1.symm ▸ Nat.one_pos)))) (k0_hw29 : k0_chk29 (tbM0_0.view.readAt (Elt Ideal) (Rect.unit (s := S1088) (k0_off57 i) S1.size (k0_off57_inb i)).toLoadRect xt0 (Shape.Idx.first (numel1_S1.symm ▸ Nat.one_pos))) (tbM0_1.view.readAt (Elt Ideal) (Rect.unit (s := S1088) (k0_off57 i) S1.size (k0_off57_inb i)).toLoadRect xt1 (Shape.Idx.first (numel1_S1.symm ▸ Nat.one_pos)))) (k0_hw30 : k0_chk30 (tbM0_0.view.readAt (Elt Ideal) (Rect.unit (s := S1088) (k0_off59 i) S1.size (k0_off59_inb i)).toLoadRect xt0 (Shape.Idx.first (numel1_S1.symm ▸ Nat.one_pos))) (tbM0_1.view.readAt (Elt Ideal) (Rect.unit (s := S1088) (k0_off59 i) S1.size (k0_off59_inb i)).toLoadRect xt1 (Shape.Idx.first (numel1_S1.symm ▸ Nat.one_pos)))) (k0_hw31 : k0_chk31 (tbM0_0.view.readAt (Elt Ideal) (Rect.unit (s := S1088) (k0_off61 i) S1.size (k0_off61_inb i)).toLoadRect xt0 (Shape.Idx.first (numel1_S1.symm ▸ Nat.one_pos))) (tbM0_1.view.readAt (Elt Ideal) (Rect.unit (s := S1088) (k0_off61 i) S1.size (k0_off61_inb i)).toLoadRect xt1 (Shape.Idx.first (numel1_S1.symm ▸ Nat.one_pos)))) (k0_hw32 : k0_chk32 (tbM0_0.view.readAt (Elt Ideal) (Rect.unit (s := S1088) (k0_off63 i) S1.size (k0_off63_inb i)).toLoadRect xt0 (Shape.Idx.first (numel1_S1.symm ▸ Nat.one_pos))) (tbM0_1.view.readAt (Elt Ideal) (Rect.unit (s := S1088) (k0_off63 i) S1.size (k0_off63_inb i)).toLoadRect xt1 (Shape.Idx.first (numel1_S1.symm ▸ Nat.one_pos)))) (y : S1x224x224.Idx) :
    out0_C_2 (F := Ideal) c i arg4 harg4 arg5 harg5 arg6 harg6 arg7 harg7 hc0 hc1 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 y = sout0_C_0 (F := Ideal) c i arg4 harg4 arg5 harg5 arg6 harg6 arg7 harg7 hc0 hc1 x0 x1 xt0 xt1 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 (ix2 (y 1) (y 2)) := by
  unfold out0_C_2 sout0_C_0
  rw [View.read_writes_junk_eq_canon, View.read_writes_junk_eq_canon]
  unfold kernelRun0_C
  dsimp only
  rw [View.canon_unit_zero hz3]
  unfold kernelRun0_C.sl.v774 k0_pay2
  rw [readCov_whole (S := S224x224) _ _ hz2, image_cast]

end Cert.Landmark.Piece

end
-- ==== Proof.Padded.lean ====
/-
  The zero-padded bell, and why a window of it is a landmark's target heat map.

  The bell is a 128 x 128 patch. Embed it in a 480 x 512 array of zeros with its corner at (192, 192): entry
  (R, C) of the embedding is the bell at (R - 192, C - 192) when that position lies in the patch and 0
  otherwise. For a landmark at (y, x) with 0 <= y, x <= 223 the 224 x 224 window of the embedding whose
  corner is (256 - x, 256 - y) is the landmark's target: row 256 - x + r lies 192 + (r - x + 64) rows down,
  so it meets bell row r - x + 64, and likewise for the columns. The padding is zero exactly where the
  shifted position leaves the patch.
-/
import proofs.«129057_j82145544503653_2_alg».proof.Proof.Spec
import Idealize.ShloMosaic.Lib.KernelVsHost

noncomputable section

namespace Cert.Landmark.Glue

open Idealize.ShloMosaic Idealize.ShloMosaic.ValueIdx Cert.Landmark

/-- The shape of the zero-padded bell. -/
abbrev SPad : Shape := ⟨2, ![480, 512]⟩

/-- The zero-padded bell: entry (R, C) is the bell at the integer position (R - 192, C - 192). -/
def padded (bell : SBell.Idx → EReal) : SPad.Idx → EReal :=
  fun i => bellAt bell (((i 0).val : ℤ) - 192) (((i 1).val : ℤ) - 192)

theorem padded_ix2 (bell : SBell.Idx → EReal) (R : Fin 480) (C : Fin 512) :
    padded bell (ix2 R C) = bellAt bell ((R.val : ℤ) - 192) ((C.val : ℤ) - 192) := rfl

/-- The window of the padded bell with corner (256 - x, 256 - y) is the target of the landmark (y, x). -/
theorem window_eq_target (bell : SBell.Idx → EReal) (y x : ℤ) (_hy : 0 ≤ y ∧ y ≤ 223) (_hx : 0 ≤ x ∧ x ≤ 223)
    (r c : Fin 224) (R : Fin 480) (C : Fin 512)
    (hR : (R.val : ℤ) = 256 - x + r.val) (hC : (C.val : ℤ) = 256 - y + c.val) :
    padded bell (ix2 R C) = target bell y x r c := by
  rw [padded_ix2]
  unfold target
  have e1 : (R.val : ℤ) - 192 = (r.val : ℤ) - x + 64 := by omega
  have e2 : (C.val : ℤ) - 192 = (c.val : ℤ) - y + 64 := by omega
  rw [e1, e2]

/-- The window's corner as the machine computes it: for a word whose signed value lies in [0, 223], the
    32-bit difference 256 - v, read as a natural number, is the integer 256 - v (no wrap-around). -/
theorem corner_toNat (v : BitVec 32) (h0 : 0 ≤ v.toInt) (h1 : v.toInt ≤ 223) :
    ((Scalar.indexCast (Scalar.subi (256#32 : BitVec 32) v)).toNat : ℤ) = 256 - v.toInt := by
  unfold Scalar.indexCast Scalar.subi IntOp.subi
  have hv : v.toInt = (v.toNat : ℤ) := by
    rw [BitVec.toInt_eq_toNat_cond] at h0 h1 ⊢
    have := v.isLt
    split_ifs at h0 h1 ⊢ <;> omega
  have hlt : v.toNat ≤ 223 := by omega
  rw [hv, BitVec.toNat_sub]
  simp only [BitVec.toNat_ofNat]
  omega

/-- The same corner, as a bound: it leaves room for a 224-wide window inside 480 rows and 512 columns. -/
theorem corner_le (v : BitVec 32) (h0 : 0 ≤ v.toInt) (h1 : v.toInt ≤ 223) :
    33 ≤ (Scalar.indexCast (Scalar.subi (256#32 : BitVec 32) v)).toNat
      ∧ (Scalar.indexCast (Scalar.subi (256#32 : BitVec 32) v)).toNat ≤ 256 := by
  have := corner_toNat v h0 h1
  omega

/-- The same window with its corner as the machine computes it from the landmark's two coordinate words: row
    (256 - x) + r, column (256 - y) + c of the padded bell is the target of the landmark (y, x) at (r, c). -/
theorem window_at_words (bell : SBell.Idx → EReal) (vx vy : BitVec 32)
    (hx0 : 0 ≤ vx.toInt) (hx1 : vx.toInt ≤ 223) (hy0 : 0 ≤ vy.toInt) (hy1 : vy.toInt ≤ 223)
    (r c : Fin 224) (R : Fin 480) (C : Fin 512)
    (hR : R.val = (Scalar.indexCast (Scalar.subi (256#32 : BitVec 32) vx)).toNat + r.val)
    (hC : C.val = (Scalar.indexCast (Scalar.subi (256#32 : BitVec 32) vy)).toNat + c.val) :
    padded bell (ix2 R C) = target bell vy.toInt vx.toInt r c := by
  have ex := corner_toNat vx hx0 hx1
  have ey := corner_toNat vy hy0 hy1
  exact window_eq_target bell vy.toInt vx.toInt ⟨hy0, hy1⟩ ⟨hx0, hx1⟩ r c R C (by omega) (by omega)

/-- Padding the bell with 192 zeros before and 160 (rows) / 192 (columns) zeros after is the padded bell,
    whenever the padding value is zero. -/
theorem pad_eq_padded (bell : SBell.Idx → EReal) {u : Shape} (z : u.Idx → EReal)
    (h : SBell.Pads ![192, 192] ![160, 192] ![0, 0] SPad) (hu : 0 < u.numel)
    (hz : z (Shape.Idx.first hu) = 0) :
    pad SPad ![192, 192] ![160, 192] ![0, 0] bell z h hu = padded bell := by
  funext j
  obtain ⟨R, C, rfl⟩ : ∃ (R : Fin 480) (C : Fin 512), j = ix2 R C := ⟨j 0, j 1, eq_ix2 j⟩
  rw [padded_ix2]
  unfold bellAt
  by_cases hin : 0 ≤ (R.val : ℤ) - 192 ∧ (R.val : ℤ) - 192 < 128 ∧ 0 ≤ (C.val : ℤ) - 192 ∧ (C.val : ℤ) - 192 < 128
  · rw [dif_pos hin]
    refine pad_apply_of_inside _ _ _ bell z h hu _ _ (fun a => ?_)
    fin_cases a
    · show R.val = 192 + ((R.val : ℤ) - 192).toNat * (0 + 1)
      omega
    · show C.val = 192 + ((C.val : ℤ) - 192).toNat * (0 + 1)
      omega
  · rw [dif_neg hin]
    by_cases hr : 0 ≤ (R.val : ℤ) - 192 ∧ (R.val : ℤ) - 192 < 128
    · have hc : ¬(0 ≤ (C.val : ℤ) - 192 ∧ (C.val : ℤ) - 192 < 128) := fun hc => hin ⟨hr.1, hr.2, hc.1, hc.2⟩
      rw [pad_apply_of_not_inside _ _ _ bell z h hu _ (1 : Fin 2) (by
        show ¬(192 ≤ C.val ∧ (C.val - 192) % (0 + 1) = 0 ∧ (C.val - 192) / (0 + 1) < 128)
        omega)]
      exact hz
    · rw [pad_apply_of_not_inside _ _ _ bell z h hu _ (0 : Fin 2) (by
        show ¬(192 ≤ R.val ∧ (R.val - 192) % (0 + 1) = 0 ∧ (R.val - 192) / (0 + 1) < 128)
        omega)]
      exact hz

/-- The zero word converted to a float is the real number zero. -/
theorem zero_word_float (i : (⟨0, ![]⟩ : Shape).Idx) :
    (sitofp (F := Ideal) .f32 (constantI (⟨0, ![]⟩ : Shape) 32 (0#32 : BitVec 32)) : FVec Ideal (⟨0, ![]⟩ : Shape) .f32) i = (0 : EReal) := by
  show (((0#32 : BitVec 32).toInt : ℝ) : EReal) = 0
  simp

/-- Padding the bell with the zero word's float is the padded bell. -/
theorem pad_zero_word_eq_padded (bell : SBell.Idx → EReal)
    (h : SBell.Pads ![192, 192] ![160, 192] ![0, 0] SPad) (hu : 0 < (⟨0, ![]⟩ : Shape).numel) :
    pad SPad ![192, 192] ![160, 192] ![0, 0] bell
      (sitofp (F := Ideal) .f32 (constantI (⟨0, ![]⟩ : Shape) 32 (0#32 : BitVec 32)) : FVec Ideal (⟨0, ![]⟩ : Shape) .f32) h hu
      = padded bell :=
  pad_eq_padded bell _ h hu (zero_word_float _)

/-- The shape of the predictions with the 16 * 68 landmarks regrouped as 2 halves of 544. -/
abbrev SHalves : Shape := ⟨4, ![2, 544, 224, 224]⟩

/-- Regrouping the landmarks keeps their row-major order: landmark j of half h is landmark number 544 h + j,
    that is image (544 h + j) / 68, landmark (544 h + j) % 68 of that image. -/
theorem regroup_apply (x : SPred.Idx → EReal) (hc : SPred.ShapeCasts SHalves) (h : Fin 2) (j : Fin 544) (r c : Fin 224) :
    shapeCast SHalves x hc (ix4 h j r c)
      = x (ix4 (⟨(544 * h.val + j.val) / 68, by omega⟩ : Fin 16) (⟨(544 * h.val + j.val) % 68, Nat.mod_lt _ (by decide)⟩ : Fin 68) r c) := by
  refine shapeCast_apply x hc _ _ ?_
  rw [Shape.rowMajor_val_four, Shape.rowMajor_val_four]
  show ((((544 * h.val + j.val) / 68) * 68 + (544 * h.val + j.val) % 68) * 224 + r.val) * 224 + c.val
    = ((h.val * 544 + j.val) * 224 + r.val) * 224 + c.val
  have := Nat.div_add_mod (544 * h.val + j.val) 68
  omega

end Cert.Landmark.Glue

end
-- ==== Proof.Found.lean ====
/-
  What the kernel's region finds in the two arrays the host prepared for it.

  Before the region starts, the host pads the 128 x 128 bell with zeros to 480 x 512 (192 before on both
  axes; 160 rows and 192 columns after), the padding value being the integer 0 converted to a float, and
  regroups the 16 x 68 landmarks of the predictions as 2 halves of 544 in row-major order. So the first
  array is the zero-padded bell, and entry (h, j, r, k) of the second is the prediction of landmark number
  544 h + j, that is of landmark (544 h + j) % 68 of image (544 h + j) / 68, at position (r, k).
-/
import proofs.«129057_j82145544503653_2_alg».proof.Proof.Gen.KernelIdeal.Frame
import proofs.«129057_j82145544503653_2_alg».proof.Proof.Padded

noncomputable section

namespace Cert.Landmark.Glue

open Idealize.ShloMosaic Idealize.ShloMosaic.TcCoe Idealize.ShloMosaic.Tactic Idealize.ShloMosaic.ValueIdx
open Cert.Landmark Cert.KernelIdeal Cert.KernelIdeal.Facts₀ Cert.KernelIdeal.Facts

variable (m : (ℓ : Loc nD τ sig) → Buf (Elt Ideal) ℓ)

/-- The region finds, as its first window's array, the padded bell. -/
theorem V_pad (c : Dev nD) :
    (Gen.V m c main_v8 : S480x512.Idx → EReal) = padded (m ((c : Thread nD τ).loc main_arg2)) := by
  have e : (Gen.V m c main_v8 : S480x512.Idx → EReal)
      = pad S480x512 ![192, 192] ![160, 192] ![0, 0] (m ((c : Thread nD τ).loc main_arg2) : S128x128.Idx → EReal)
          (sitofp (F := Ideal) .f32 (constantI S_ 32 (0#32 : BitVec 32)) : FVec Ideal S_ .f32)
          pads_S128x128_S480x512_1921600_1921920 h_S_ := by
    dsimp only [Gen.V, Gen.V0]
    simp only [Gen.hostOps0, Gen.hostOps0_1, Gen.hostOps0_2, List.flatten_cons, List.flatten_nil, List.append_nil,
      List.cons_append, List.nil_append]
    after_results
    rfl
  rw [e]
  exact pad_zero_word_eq_padded _ _ _

/-- The region finds, as its second window's array, the predictions with the landmarks regrouped in two halves. -/
theorem V_pred (c : Dev nD) (h : Fin 2) (j : Fin 544) (r k : Fin 224) :
    (Gen.V m c main_v7 : S2x544x224x224.Idx → EReal) (ix4 h j r k)
      = (m ((c : Thread nD τ).loc main_arg0) : S16x68x224x224.Idx → EReal)
          (ix4 (⟨(544 * h.val + j.val) / 68, by omega⟩ : Fin 16)
            (⟨(544 * h.val + j.val) % 68, Nat.mod_lt _ (by decide)⟩ : Fin 68) r k) := by
  have e : (Gen.V m c main_v7 : S2x544x224x224.Idx → EReal)
      = shapeCast S2x544x224x224 (m ((c : Thread nD τ).loc main_arg0) : S16x68x224x224.Idx → EReal)
          shapeCasts_S16x68x224x224_S2x544x224x224 := by
    dsimp only [Gen.V, Gen.V0]
    simp only [Gen.hostOps0, Gen.hostOps0_1, Gen.hostOps0_2, List.flatten_cons, List.flatten_nil, List.append_nil,
      List.cons_append, List.nil_append]
    after_results
    rfl
  rw [e]
  exact regroup_apply _ _ h j r k

end Cert.Landmark.Glue

end
-- ==== Proof.Blocks.lean ====
/-
  The blocks the two input windows hand the kernel at each point of its 2 x 17 grid.

  The first window's block is the whole padded bell at every point (its block index is always (0, 0)). The
  second window's block at point t = 17 h + g is 32 consecutive landmarks of half h, starting at landmark
  32 g: a block's coordinate on an axis is the block index times the block's size there plus the coordinate
  inside the block. With the regrouping of the landmarks into halves undone, landmark k of that block is
  landmark number 544 h + 32 g + k of the predictions.
-/
import proofs.«129057_j82145544503653_2_alg».proof.Proof.Found

noncomputable section

namespace Cert.Landmark.Glue

open Idealize.ShloMosaic Idealize.ShloMosaic.TcCoe Idealize.ShloMosaic.Tactic Idealize.ShloMosaic.ValueIdx
open Cert.Landmark Cert.KernelIdeal Cert.KernelIdeal.Facts₀ Cert.KernelIdeal.Facts

variable (m : (ℓ : Loc nD τ sig) → Buf (Elt Ideal) ℓ)

/-- The block indices over the 2 x 17 grid: the first window always takes block (0, 0); at point t the second
    takes block (t / 17, t % 17, 0, 0). -/
theorem idx_facts : ∀ t : Fin grid0.N,
    cc0_transform_0 (grid0.coords t) (0 : Fin 2) = 0 ∧ cc0_transform_0 (grid0.coords t) (1 : Fin 2) = 0
    ∧ cc0_transform_1 (grid0.coords t) (0 : Fin 4) = t.val / 17 ∧ cc0_transform_1 (grid0.coords t) (1 : Fin 4) = t.val % 17
    ∧ cc0_transform_1 (grid0.coords t) (2 : Fin 4) = 0 ∧ cc0_transform_1 (grid0.coords t) (3 : Fin 4) = 0 :=
  (by decide +kernel : ∀ t : Fin grid0.N, _)

/-- The first window's block is the whole array at every point. -/
theorem iblk0_eq (hO : Gen.Ok m) (c : Dev nD) (t : Fin (Gen.cfgM m hO).N) :
    (Gen.iblk m hO c 0 t : S480x512.Idx → EReal) = (Gen.V m c main_v8 : S480x512.Idx → EReal) := by
  refine funext fun (j : S480x512.Idx) => ?_
  show (Gen.V m c main_v8 : S480x512.Idx → EReal) ((((Gen.cfgM m hO).win 0).blk t).view.emb j) = Gen.V m c main_v8 j
  refine congrArg _ (funext fun a => Fin.ext ?_)
  obtain ⟨e0, e1, -⟩ := idx_facts t
  match a with
  | ⟨0, _⟩ => show cc0_transform_0 (grid0.coords t) (0 : Fin 2) * 480 + 1 * (j (0 : Fin 2)).val = (j (0 : Fin 2)).val; omega
  | ⟨1, _⟩ => show cc0_transform_0 (grid0.coords t) (1 : Fin 2) * 512 + 1 * (j (1 : Fin 2)).val = (j (1 : Fin 2)).val; omega

/-- The second window's block at point t holds 32 landmarks: its landmark k is landmark 32 (t % 17) + k of
    half t / 17. -/
theorem iblk1_apply (hO : Gen.Ok m) (c : Dev nD) (t : Fin (Gen.cfgM m hO).N) (k : Fin 32) (r q : Fin 224) :
    (Gen.iblk m hO c 1 t : S1x32x224x224.Idx → EReal) (ix4 (0 : Fin 1) k r q)
      = (Gen.V m c main_v7 : S2x544x224x224.Idx → EReal)
          (ix4 (⟨t.val / 17, by have ht : t.val < 34 := t.isLt; omega⟩ : Fin 2)
            (⟨32 * (t.val % 17) + k.val, by have hk := k.isLt; omega⟩ : Fin 544) r q) := by
  show (Gen.V m c main_v7 : S2x544x224x224.Idx → EReal)
      ((((Gen.cfgM m hO).win 1).blk t).view.emb (ix4 (0 : Fin 1) k r q)) = _
  refine congrArg _ (funext fun a => Fin.ext ?_)
  obtain ⟨-, -, e0, e1, e2, e3⟩ := idx_facts t
  match a with
  | ⟨0, _⟩ => show cc0_transform_1 (grid0.coords t) (0 : Fin 4) * 1 + 1 * 0 = t.val / 17; omega
  | ⟨1, _⟩ => show cc0_transform_1 (grid0.coords t) (1 : Fin 4) * 32 + 1 * k.val = 32 * (t.val % 17) + k.val; omega
  | ⟨2, _⟩ => show cc0_transform_1 (grid0.coords t) (2 : Fin 4) * 224 + 1 * r.val = r.val; omega
  | ⟨3, _⟩ => show cc0_transform_1 (grid0.coords t) (3 : Fin 4) * 224 + 1 * q.val = q.val; omega

/-- The first window's block at every point is the padded bell. -/
theorem iblk0_eq_padded (hO : Gen.Ok m) (c : Dev nD) (t : Fin (Gen.cfgM m hO).N) :
    (Gen.iblk m hO c 0 t : S480x512.Idx → EReal) = padded (m ((c : Thread nD τ).loc main_arg2)) :=
  (iblk0_eq m hO c t).trans (V_pad m c)

/-- Landmark k of the second window's block at point t is landmark number 544 (t / 17) + 32 (t % 17) + k of
    the predictions. -/
theorem iblk1_eq_pred (hO : Gen.Ok m) (c : Dev nD) (t : Fin (Gen.cfgM m hO).N) (k : Fin 32) (r q : Fin 224) :
    (Gen.iblk m hO c 1 t : S1x32x224x224.Idx → EReal) (ix4 (0 : Fin 1) k r q)
      = (m ((c : Thread nD τ).loc main_arg0) : S16x68x224x224.Idx → EReal)
          (ix4 (⟨(544 * (t.val / 17) + (32 * (t.val % 17) + k.val)) / 68,
                  by have ht : t.val < 34 := t.isLt; have hk := k.isLt; omega⟩ : Fin 16)
            (⟨(544 * (t.val / 17) + (32 * (t.val % 17) + k.val)) % 68, Nat.mod_lt _ (by decide)⟩ : Fin 68) r q) := by
  rw [iblk1_apply m hO c t k r q]
  exact V_pred m c _ _ r q

/-- The window of the padded bell at the offsets computed from two words: whichever word the row offset is
    computed from plays the part of x, and the word of the column offset the part of y, in the target. -/
theorem window_at_offsets (bell : SBell.Idx → EReal) (vx vy : BitVec 32)
    (hx0 : 0 ≤ vx.toInt) (hx1 : vx.toInt ≤ 223) (hy0 : 0 ≤ vy.toInt) (hy1 : vy.toInt ≤ 223)
    (r c : Fin 224) (R : Fin 480) (C : Fin 512)
    (hR : R.val = k0_off2 vx vy (0 : Fin 2) + r.val) (hC : C.val = k0_off2 vx vy (1 : Fin 2) + c.val) :
    padded bell (ix2 R C) = target bell vy.toInt vx.toInt r c :=
  window_at_words bell vx vy hx0 hx1 hy0 hy1 r c R C hR hC

/-- Under the range of the words the window fits in the padded bell: the side condition of the load. -/
theorem offsets_fit (vx vy : BitVec 32)
    (hx0 : 0 ≤ vx.toInt) (hx1 : vx.toInt ≤ 223) (hy0 : 0 ≤ vy.toInt) (hy1 : vy.toInt ≤ 223) :
    ∀ a, k0_off2 vx vy a + S224x224.size a ≤ S480x512.size a := by
  have bx := corner_le vx hx0 hx1
  have by' := corner_le vy hy0 hy1
  intro a
  match a with
  | ⟨0, _⟩ => show (Scalar.indexCast (Scalar.subi (256#32 : BitVec 32) vx)).toNat + 224 ≤ 480; omega
  | ⟨1, _⟩ => show (Scalar.indexCast (Scalar.subi (256#32 : BitVec 32) vy)).toNat + 224 ≤ 512; omega

/-- So the load's side condition holds of words in range. -/
theorem chk_of_range (vx vy : BitVec 32)
    (hx0 : 0 ≤ vx.toInt) (hx1 : vx.toInt ≤ 223) (hy0 : 0 ≤ vy.toInt) (hy1 : vy.toInt ≤ 223) :
    k0_chk1 vx vy ∧ k0_chk2 vx vy ∧ k0_chk10 vx vy :=
  ⟨offsets_fit vx vy hx0 hx1 hy0 hy1, offsets_fit vx vy hx0 hx1 hy0 hy1, offsets_fit vx vy hx0 hx1 hy0 hy1⟩

end Cert.Landmark.Glue
end
-- ==== Proof.Term.lean ====
/-
  One landmark's term of the accumulator.

  At grid point t = 17 h + g the program works through landmarks 544 h + 32 g + j, j = 0 .. 31. For each it takes the
  landmark's 224 x 224 slice of the staged prediction block and the 224 x 224 window of the staged padded bell
  whose corner is computed from the landmark's two coordinate words, and squares their difference. The
  prediction slice is the landmark's predictions; the window is the landmark's target heat map (the coordinate
  words lie in [0, 223], so the corner is (256 - x, 256 - y) and the window stays inside the padded bell). So the
  squared difference is the landmark's squared error.
-/
import proofs.«129057_j82145544503653_2_alg».proof.Proof.Blocks
import proofs.«129057_j82145544503653_2_alg».proof.Proof.PieceDefs
import proofs.«129057_j82145544503653_2_alg».proof.Proof.KernelSpec

noncomputable section

namespace Cert.Landmark.Glue

open Idealize.ShloMosaic Idealize.ShloMosaic.TcCoe Idealize.ShloMosaic.Tactic Idealize.ShloMosaic.ValueIdx
open Cert.Landmark Cert.KernelIdeal Cert.KernelIdeal.Facts₀ Cert.KernelIdeal.Facts

variable (m : (ℓ : Loc nD τ sig) → Buf (Elt Ideal) ℓ)

/-- A squared difference of a prediction and a target is a landmark's squared error, once the prediction is the
    landmark's and the target value is the landmark's target. -/
theorem sqd_eq_sqErr (pred : SPred.Idx → EReal) (bell : SBell.Idx → EReal) (yx : SLm.Idx → BitVec 32)
    (b : Fin 16) (l : Fin 68) (r c : Fin 224) (P W : EReal) (hP : P = pred (ix4 b l r c))
    (hW : W = target bell (yx (ix3 b l (0 : Fin 2))).toInt (yx (ix3 b l (1 : Fin 2))).toInt r c) :
    Piece.sqd P W = sqErr pred bell yx b l r c := by
  subst hP hW
  rfl

/-- Two indices of the predictions with equal coordinates are equal. -/
theorem ix4_congr {b b' : Fin 16} {l l' : Fin 68} (r q : Fin 224) (hb : b.val = b'.val) (hl : l.val = l'.val) :
    (ix4 b l r q : SPred.Idx) = ix4 b' l' r q := by
  obtain rfl := Fin.ext hb
  obtain rfl := Fin.ext hl
  rfl

/-- Reading the padded bell at the offsets computed from a landmark's two coordinate words (both in range), at an
    image position, gives the landmark's target there. -/
theorem winRead_padded (bell : SBell.Idx → EReal) (x0 : S480x512.Idx → EReal) (hx0 : x0 = padded bell)
    (wx wy : BitVec 32) (hx : 0 ≤ wx.toInt ∧ wx.toInt ≤ 223) (hy : 0 ≤ wy.toInt ∧ wy.toInt ≤ 223)
    (idx : S224x224.Idx) :
    Piece.winRead x0 (k0_off2 wx wy) idx = target bell wy.toInt wx.toInt (idx 0) (idx 1) := by
  subst hx0
  have h0 : (idx 0).val < 224 := (idx 0).isLt
  have h1 : (idx 1).val < 224 := (idx 1).isLt
  have fit := offsets_fit wx wy hx.1 hx.2 hy.1 hy.2
  have f0 : k0_off2 wx wy (0 : Fin 2) + 224 ≤ 480 := fit 0
  have f1 : k0_off2 wx wy (1 : Fin 2) + 224 ≤ 512 := fit 1
  unfold Piece.winRead
  rw [dif_pos ⟨by omega, by omega⟩]
  exact window_at_offsets bell wx wy hx.1 hx.2 hy.1 hy.2 (idx 0) (idx 1) _ _ rfl rfl

/-- ONE LANDMARK'S TERM. At grid point t, for landmark j of the point's 32, the squared difference of the
    landmark's slice of the prediction block and the window of the padded bell at the offsets computed from the
    landmark's two coordinate words is the squared error of landmark number 544 (t / 17) + 32 (t % 17) + j. -/
theorem term_eq (hO : Gen.Ok m) (c : Dev nD) (t : Fin (Gen.cfgM m hO).N) (j : Fin 32) (idx : S224x224.Idx)
    (f : BitVec 32 → BitVec 32 → Fin 2 → ℕ) (hf : f = k0_off2)
    (yx : SLm.Idx → BitVec 32) (wx wy : BitVec 32)
    (hwx : wx = yx (ix3 (⟨(544 * (t.val / 17) + 32 * (t.val % 17) + j.val) / 68,
        by have ht : t.val < 34 := t.isLt; have hj := j.isLt; omega⟩ : Fin 16)
      (⟨(544 * (t.val / 17) + 32 * (t.val % 17) + j.val) % 68, Nat.mod_lt _ (by decide)⟩ : Fin 68) (1 : Fin 2)))
    (hwy : wy = yx (ix3 (⟨(544 * (t.val / 17) + 32 * (t.val % 17) + j.val) / 68,
        by have ht : t.val < 34 := t.isLt; have hj := j.isLt; omega⟩ : Fin 16)
      (⟨(544 * (t.val / 17) + 32 * (t.val % 17) + j.val) % 68, Nat.mod_lt _ (by decide)⟩ : Fin 68) (0 : Fin 2)))
    (hrange : ∀ i, 0 ≤ (yx i).toInt ∧ (yx i).toInt ≤ 223) :
    Piece.sqd (Piece.predAt (Gen.iblk m hO c 1 t) j idx) (Piece.winRead (Gen.iblk m hO c 0 t) (f wx wy) idx)
      = sqAt (m ((c : Thread nD τ).loc main_arg0)) (m ((c : Thread nD τ).loc main_arg2)) yx
          (544 * (t.val / 17) + 32 * (t.val % 17) + j.val) (idx 0) (idx 1) := by
  have ht : t.val < 34 := t.isLt
  have hj : j.val < 32 := j.isLt
  have hn : 544 * (t.val / 17) + 32 * (t.val % 17) + j.val < 1088 := by omega
  have h0 : (idx 0).val < 224 := (idx 0).isLt
  have h1 : (idx 1).val < 224 := (idx 1).isLt
  unfold sqAt
  rw [dif_pos hn]
  refine sqd_eq_sqErr _ _ yx _ _ (idx 0) (idx 1) _ _ ?_ ?_
  · unfold Piece.predAt
    refine (iblk1_eq_pred m hO c t j (idx 0) (idx 1)).trans (congrArg _ (ix4_congr _ _ ?_ ?_))
    · show (544 * (t.val / 17) + (32 * (t.val % 17) + j.val)) / 68 = (544 * (t.val / 17) + 32 * (t.val % 17) + j.val) / 68
      omega
    · show (544 * (t.val / 17) + (32 * (t.val % 17) + j.val)) % 68 = (544 * (t.val / 17) + 32 * (t.val % 17) + j.val) % 68
      omega
  · subst hf
    have hx := hrange (ix3 (⟨(544 * (t.val / 17) + 32 * (t.val % 17) + j.val) / 68, by omega⟩ : Fin 16)
      (⟨(544 * (t.val / 17) + 32 * (t.val % 17) + j.val) % 68, Nat.mod_lt _ (by decide)⟩ : Fin 68) (1 : Fin 2))
    have hy := hrange (ix3 (⟨(544 * (t.val / 17) + 32 * (t.val % 17) + j.val) / 68, by omega⟩ : Fin 16)
      (⟨(544 * (t.val / 17) + 32 * (t.val % 17) + j.val) % 68, Nat.mod_lt _ (by decide)⟩ : Fin 68) (0 : Fin 2))
    rw [← hwx] at hx
    rw [← hwy] at hy
    rw [← hwx, ← hwy]
    exact winRead_padded _ _ (iblk0_eq_padded m hO c t) wx wy hx hy idx

end Cert.Landmark.Glue
end
-- ==== Proof.PointWords.lean ====
/-
  The coordinate words each landmark of a grid point loads.

  Grid point t of the 2 x 17 grid is half t / 17, step t % 17; its landmark j (0 ≤ j < 32) has number
  n = 544 (t / 17) + 32 (t % 17) + j, and the body loads word n of table 0 (the landmark's x) and word n of
  table 1 (its y).  Both are coordinate words of landmark (n / 68, n % 68), hence in [0, 223] under the
  precondition.
-/
import proofs.«129057_j82145544503653_2_alg».proof.Proof.HypsIdeal
import proofs.«129057_j82145544503653_2_alg».proof.Proof.PieceDefs

set_option maxRecDepth 16384

noncomputable section

namespace Cert.Landmark.HypsIdeal

open Cert.KernelIdeal Cert.KernelIdeal.Gen Cert.Landmark.Piece
open Idealize.ShloMosaic Idealize.ShloMosaic.TcCoe Idealize.SL.Sem Idealize.ShloMosaic.ValueIdx

variable (m : (ℓ : Loc nD τ sig) → Buf (Elt Ideal) ℓ)

/-! ## Grid points and landmark numbers -/

/-- Grid point t of the 2 x 17 grid is (t / 17, t % 17). -/
theorem coords_t : ∀ t : Fin grid0.N,
    ((grid0.coords t) 0).val = t.val / 17 ∧ ((grid0.coords t) 1).val = t.val % 17 :=
  (by decide +kernel : ∀ t : Fin grid0.N, _)

/-- The number of landmark j of grid point t: 544 (t / 17) + 32 (t % 17) + j. -/
def lmNum (t : Fin grid0.N) (j : Fin 32) : Fin 1088 :=
  ⟨544 * (t.val / 17) + 32 * (t.val % 17) + j.val, by
    have ht : t.val < 34 := t.isLt
    have hj := j.isLt
    omega⟩

theorem lmNum_val (t : Fin grid0.N) (j : Fin 32) :
    (lmNum t j).val = 544 * (t.val / 17) + 32 * (t.val % 17) + j.val := rfl

/-! ## The words at an offset that is a landmark's number -/

/-- The word of table 0 at the number of landmark j of point t is that landmark's x coordinate. -/
theorem word_x (c : Dev nD) (t : Fin grid0.N) (j : Fin 32) (off : Fin 1 → ℕ) (inb : ∀ a, off a + S1.size a ≤ S1088.size a)
    (hoff : off = ![544 * (t.val / 17) + 32 * (t.val % 17) + j.val]) :
    wordOf c tbM0_0 (tbl m 0) off inb = coords (lms m) (lmIdx (lmNum t j) 1) := by
  subst hoff
  refine (word0 (tbl m 0) _ inb _).trans ?_
  have e : wordAt ![544 * (t.val / 17) + 32 * (t.val % 17) + j.val] inb = lmNum t j := Fin.ext rfl
  rw [e]
  exact tbl0_apply m (lmNum t j)

/-- The word of table 1 there is its y coordinate. -/
theorem word_y (c : Dev nD) (t : Fin grid0.N) (j : Fin 32) (off : Fin 1 → ℕ) (inb : ∀ a, off a + S1.size a ≤ S1088.size a)
    (hoff : off = ![544 * (t.val / 17) + 32 * (t.val % 17) + j.val]) :
    wordOf c tbM0_1 (tbl m 1) off inb = coords (lms m) (lmIdx (lmNum t j) 0) := by
  subst hoff
  refine (word1 (tbl m 1) _ inb _).trans ?_
  have e : wordAt ![544 * (t.val / 17) + 32 * (t.val % 17) + j.val] inb = lmNum t j := Fin.ext rfl
  rw [e]
  exact tbl1_apply m (lmNum t j)

/-- Under the precondition every coordinate word is in [0, 223]. -/
theorem lm_range (h : Cert.Pre_KernelIdeal m) (i : S16x68x2.Idx) :
    0 ≤ (coords (lms m) i).toInt ∧ (coords (lms m) i).toInt ≤ 223 :=
  coords_range (F := Ideal) _ (lms m) _ (h 0) i

/-! ## The 32 offsets of a grid point -/

theorem off_at_0 (t : Fin grid0.N) :
    k0_off1 (grid0.coords t) = ![544 * (t.val / 17) + 32 * (t.val % 17) + ((0 : Fin 32)).val] := by
  rw [k0_off1_eq, (coords_t t).1, (coords_t t).2]
  rfl

theorem off_at_1 (t : Fin grid0.N) :
    k0_off3 (grid0.coords t) = ![544 * (t.val / 17) + 32 * (t.val % 17) + ((1 : Fin 32)).val] := by
  rw [k0_off3_eq, (coords_t t).1, (coords_t t).2]
  rfl

theorem off_at_2 (t : Fin grid0.N) :
    k0_off5 (grid0.coords t) = ![544 * (t.val / 17) + 32 * (t.val % 17) + ((2 : Fin 32)).val] := by
  rw [k0_off5_eq, (coords_t t).1, (coords_t t).2]
  rfl

theorem off_at_3 (t : Fin grid0.N) :
    k0_off7 (grid0.coords t) = ![544 * (t.val / 17) + 32 * (t.val % 17) + ((3 : Fin 32)).val] := by
  rw [k0_off7_eq, (coords_t t).1, (coords_t t).2]
  rfl

theorem off_at_4 (t : Fin grid0.N) :
    k0_off9 (grid0.coords t) = ![544 * (t.val / 17) + 32 * (t.val % 17) + ((4 : Fin 32)).val] := by
  rw [k0_off9_eq, (coords_t t).1, (coords_t t).2]
  rfl

theorem off_at_5 (t : Fin grid0.N) :
    k0_off11 (grid0.coords t) = ![544 * (t.val / 17) + 32 * (t.val % 17) + ((5 : Fin 32)).val] := by
  rw [k0_off11_eq, (coords_t t).1, (coords_t t).2]
  rfl

theorem off_at_6 (t : Fin grid0.N) :
    k0_off13 (grid0.coords t) = ![544 * (t.val / 17) + 32 * (t.val % 17) + ((6 : Fin 32)).val] := by
  rw [k0_off13_eq, (coords_t t).1, (coords_t t).2]
  rfl

theorem off_at_7 (t : Fin grid0.N) :
    k0_off15 (grid0.coords t) = ![544 * (t.val / 17) + 32 * (t.val % 17) + ((7 : Fin 32)).val] := by
  rw [k0_off15_eq, (coords_t t).1, (coords_t t).2]
  rfl

theorem off_at_8 (t : Fin grid0.N) :
    k0_off17 (grid0.coords t) = ![544 * (t.val / 17) + 32 * (t.val % 17) + ((8 : Fin 32)).val] := by
  rw [k0_off17_eq, (coords_t t).1, (coords_t t).2]
  rfl

theorem off_at_9 (t : Fin grid0.N) :
    k0_off19 (grid0.coords t) = ![544 * (t.val / 17) + 32 * (t.val % 17) + ((9 : Fin 32)).val] := by
  rw [k0_off19_eq, (coords_t t).1, (coords_t t).2]
  rfl

theorem off_at_10 (t : Fin grid0.N) :
    k0_off21 (grid0.coords t) = ![544 * (t.val / 17) + 32 * (t.val % 17) + ((10 : Fin 32)).val] := by
  rw [k0_off21_eq, (coords_t t).1, (coords_t t).2]
  rfl

theorem off_at_11 (t : Fin grid0.N) :
    k0_off23 (grid0.coords t) = ![544 * (t.val / 17) + 32 * (t.val % 17) + ((11 : Fin 32)).val] := by
  rw [k0_off23_eq, (coords_t t).1, (coords_t t).2]
  rfl

theorem off_at_12 (t : Fin grid0.N) :
    k0_off25 (grid0.coords t) = ![544 * (t.val / 17) + 32 * (t.val % 17) + ((12 : Fin 32)).val] := by
  rw [k0_off25_eq, (coords_t t).1, (coords_t t).2]
  rfl

theorem off_at_13 (t : Fin grid0.N) :
    k0_off27 (grid0.coords t) = ![544 * (t.val / 17) + 32 * (t.val % 17) + ((13 : Fin 32)).val] := by
  rw [k0_off27_eq, (coords_t t).1, (coords_t t).2]
  rfl

theorem off_at_14 (t : Fin grid0.N) :
    k0_off29 (grid0.coords t) = ![544 * (t.val / 17) + 32 * (t.val % 17) + ((14 : Fin 32)).val] := by
  rw [k0_off29_eq, (coords_t t).1, (coords_t t).2]
  rfl

theorem off_at_15 (t : Fin grid0.N) :
    k0_off31 (grid0.coords t) = ![544 * (t.val / 17) + 32 * (t.val % 17) + ((15 : Fin 32)).val] := by
  rw [k0_off31_eq, (coords_t t).1, (coords_t t).2]
  rfl

theorem off_at_16 (t : Fin grid0.N) :
    k0_off33 (grid0.coords t) = ![544 * (t.val / 17) + 32 * (t.val % 17) + ((16 : Fin 32)).val] := by
  rw [k0_off33_eq, (coords_t t).1, (coords_t t).2]
  rfl

theorem off_at_17 (t : Fin grid0.N) :
    k0_off35 (grid0.coords t) = ![544 * (t.val / 17) + 32 * (t.val % 17) + ((17 : Fin 32)).val] := by
  rw [k0_off35_eq, (coords_t t).1, (coords_t t).2]
  rfl

theorem off_at_18 (t : Fin grid0.N) :
    k0_off37 (grid0.coords t) = ![544 * (t.val / 17) + 32 * (t.val % 17) + ((18 : Fin 32)).val] := by
  rw [k0_off37_eq, (coords_t t).1, (coords_t t).2]
  rfl

theorem off_at_19 (t : Fin grid0.N) :
    k0_off39 (grid0.coords t) = ![544 * (t.val / 17) + 32 * (t.val % 17) + ((19 : Fin 32)).val] := by
  rw [k0_off39_eq, (coords_t t).1, (coords_t t).2]
  rfl

theorem off_at_20 (t : Fin grid0.N) :
    k0_off41 (grid0.coords t) = ![544 * (t.val / 17) + 32 * (t.val % 17) + ((20 : Fin 32)).val] := by
  rw [k0_off41_eq, (coords_t t).1, (coords_t t).2]
  rfl

theorem off_at_21 (t : Fin grid0.N) :
    k0_off43 (grid0.coords t) = ![544 * (t.val / 17) + 32 * (t.val % 17) + ((21 : Fin 32)).val] := by
  rw [k0_off43_eq, (coords_t t).1, (coords_t t).2]
  rfl

theorem off_at_22 (t : Fin grid0.N) :
    k0_off45 (grid0.coords t) = ![544 * (t.val / 17) + 32 * (t.val % 17) + ((22 : Fin 32)).val] := by
  rw [k0_off45_eq, (coords_t t).1, (coords_t t).2]
  rfl

theorem off_at_23 (t : Fin grid0.N) :
    k0_off47 (grid0.coords t) = ![544 * (t.val / 17) + 32 * (t.val % 17) + ((23 : Fin 32)).val] := by
  rw [k0_off47_eq, (coords_t t).1, (coords_t t).2]
  rfl

theorem off_at_24 (t : Fin grid0.N) :
    k0_off49 (grid0.coords t) = ![544 * (t.val / 17) + 32 * (t.val % 17) + ((24 : Fin 32)).val] := by
  rw [k0_off49_eq, (coords_t t).1, (coords_t t).2]
  rfl

theorem off_at_25 (t : Fin grid0.N) :
    k0_off51 (grid0.coords t) = ![544 * (t.val / 17) + 32 * (t.val % 17) + ((25 : Fin 32)).val] := by
  rw [k0_off51_eq, (coords_t t).1, (coords_t t).2]
  rfl

theorem off_at_26 (t : Fin grid0.N) :
    k0_off53 (grid0.coords t) = ![544 * (t.val / 17) + 32 * (t.val % 17) + ((26 : Fin 32)).val] := by
  rw [k0_off53_eq, (coords_t t).1, (coords_t t).2]
  rfl

theorem off_at_27 (t : Fin grid0.N) :
    k0_off55 (grid0.coords t) = ![544 * (t.val / 17) + 32 * (t.val % 17) + ((27 : Fin 32)).val] := by
  rw [k0_off55_eq, (coords_t t).1, (coords_t t).2]
  rfl

theorem off_at_28 (t : Fin grid0.N) :
    k0_off57 (grid0.coords t) = ![544 * (t.val / 17) + 32 * (t.val % 17) + ((28 : Fin 32)).val] := by
  rw [k0_off57_eq, (coords_t t).1, (coords_t t).2]
  rfl

theorem off_at_29 (t : Fin grid0.N) :
    k0_off59 (grid0.coords t) = ![544 * (t.val / 17) + 32 * (t.val % 17) + ((29 : Fin 32)).val] := by
  rw [k0_off59_eq, (coords_t t).1, (coords_t t).2]
  rfl

theorem off_at_30 (t : Fin grid0.N) :
    k0_off61 (grid0.coords t) = ![544 * (t.val / 17) + 32 * (t.val % 17) + ((30 : Fin 32)).val] := by
  rw [k0_off61_eq, (coords_t t).1, (coords_t t).2]
  rfl

theorem off_at_31 (t : Fin grid0.N) :
    k0_off63 (grid0.coords t) = ![544 * (t.val / 17) + 32 * (t.val % 17) + ((31 : Fin 32)).val] := by
  rw [k0_off63_eq, (coords_t t).1, (coords_t t).2]
  rfl

/-! ## The words each of the 32 landmarks of a grid point loads -/

theorem word_x_at_0 (c : Dev nD) (t : Fin grid0.N) :
    wordOf c tbM0_0 (tbl m 0) (k0_off1 (grid0.coords t)) (k0_off1_inb (grid0.coords t))
      = coords (lms m) (lmIdx (lmNum t 0) 1) := word_x m c t 0 _ _ (off_at_0 t)
theorem word_y_at_0 (c : Dev nD) (t : Fin grid0.N) :
    wordOf c tbM0_1 (tbl m 1) (k0_off1 (grid0.coords t)) (k0_off1_inb (grid0.coords t))
      = coords (lms m) (lmIdx (lmNum t 0) 0) := word_y m c t 0 _ _ (off_at_0 t)

theorem word_x_at_1 (c : Dev nD) (t : Fin grid0.N) :
    wordOf c tbM0_0 (tbl m 0) (k0_off3 (grid0.coords t)) (k0_off3_inb (grid0.coords t))
      = coords (lms m) (lmIdx (lmNum t 1) 1) := word_x m c t 1 _ _ (off_at_1 t)
theorem word_y_at_1 (c : Dev nD) (t : Fin grid0.N) :
    wordOf c tbM0_1 (tbl m 1) (k0_off3 (grid0.coords t)) (k0_off3_inb (grid0.coords t))
      = coords (lms m) (lmIdx (lmNum t 1) 0) := word_y m c t 1 _ _ (off_at_1 t)

theorem word_x_at_2 (c : Dev nD) (t : Fin grid0.N) :
    wordOf c tbM0_0 (tbl m 0) (k0_off5 (grid0.coords t)) (k0_off5_inb (grid0.coords t))
      = coords (lms m) (lmIdx (lmNum t 2) 1) := word_x m c t 2 _ _ (off_at_2 t)
theorem word_y_at_2 (c : Dev nD) (t : Fin grid0.N) :
    wordOf c tbM0_1 (tbl m 1) (k0_off5 (grid0.coords t)) (k0_off5_inb (grid0.coords t))
      = coords (lms m) (lmIdx (lmNum t 2) 0) := word_y m c t 2 _ _ (off_at_2 t)

theorem word_x_at_3 (c : Dev nD) (t : Fin grid0.N) :
    wordOf c tbM0_0 (tbl m 0) (k0_off7 (grid0.coords t)) (k0_off7_inb (grid0.coords t))
      = coords (lms m) (lmIdx (lmNum t 3) 1) := word_x m c t 3 _ _ (off_at_3 t)
theorem word_y_at_3 (c : Dev nD) (t : Fin grid0.N) :
    wordOf c tbM0_1 (tbl m 1) (k0_off7 (grid0.coords t)) (k0_off7_inb (grid0.coords t))
      = coords (lms m) (lmIdx (lmNum t 3) 0) := word_y m c t 3 _ _ (off_at_3 t)

theorem word_x_at_4 (c : Dev nD) (t : Fin grid0.N) :
    wordOf c tbM0_0 (tbl m 0) (k0_off9 (grid0.coords t)) (k0_off9_inb (grid0.coords t))
      = coords (lms m) (lmIdx (lmNum t 4) 1) := word_x m c t 4 _ _ (off_at_4 t)
theorem word_y_at_4 (c : Dev nD) (t : Fin grid0.N) :
    wordOf c tbM0_1 (tbl m 1) (k0_off9 (grid0.coords t)) (k0_off9_inb (grid0.coords t))
      = coords (lms m) (lmIdx (lmNum t 4) 0) := word_y m c t 4 _ _ (off_at_4 t)

theorem word_x_at_5 (c : Dev nD) (t : Fin grid0.N) :
    wordOf c tbM0_0 (tbl m 0) (k0_off11 (grid0.coords t)) (k0_off11_inb (grid0.coords t))
      = coords (lms m) (lmIdx (lmNum t 5) 1) := word_x m c t 5 _ _ (off_at_5 t)
theorem word_y_at_5 (c : Dev nD) (t : Fin grid0.N) :
    wordOf c tbM0_1 (tbl m 1) (k0_off11 (grid0.coords t)) (k0_off11_inb (grid0.coords t))
      = coords (lms m) (lmIdx (lmNum t 5) 0) := word_y m c t 5 _ _ (off_at_5 t)

theorem word_x_at_6 (c : Dev nD) (t : Fin grid0.N) :
    wordOf c tbM0_0 (tbl m 0) (k0_off13 (grid0.coords t)) (k0_off13_inb (grid0.coords t))
      = coords (lms m) (lmIdx (lmNum t 6) 1) := word_x m c t 6 _ _ (off_at_6 t)
theorem word_y_at_6 (c : Dev nD) (t : Fin grid0.N) :
    wordOf c tbM0_1 (tbl m 1) (k0_off13 (grid0.coords t)) (k0_off13_inb (grid0.coords t))
      = coords (lms m) (lmIdx (lmNum t 6) 0) := word_y m c t 6 _ _ (off_at_6 t)

theorem word_x_at_7 (c : Dev nD) (t : Fin grid0.N) :
    wordOf c tbM0_0 (tbl m 0) (k0_off15 (grid0.coords t)) (k0_off15_inb (grid0.coords t))
      = coords (lms m) (lmIdx (lmNum t 7) 1) := word_x m c t 7 _ _ (off_at_7 t)
theorem word_y_at_7 (c : Dev nD) (t : Fin grid0.N) :
    wordOf c tbM0_1 (tbl m 1) (k0_off15 (grid0.coords t)) (k0_off15_inb (grid0.coords t))
      = coords (lms m) (lmIdx (lmNum t 7) 0) := word_y m c t 7 _ _ (off_at_7 t)

theorem word_x_at_8 (c : Dev nD) (t : Fin grid0.N) :
    wordOf c tbM0_0 (tbl m 0) (k0_off17 (grid0.coords t)) (k0_off17_inb (grid0.coords t))
      = coords (lms m) (lmIdx (lmNum t 8) 1) := word_x m c t 8 _ _ (off_at_8 t)
theorem word_y_at_8 (c : Dev nD) (t : Fin grid0.N) :
    wordOf c tbM0_1 (tbl m 1) (k0_off17 (grid0.coords t)) (k0_off17_inb (grid0.coords t))
      = coords (lms m) (lmIdx (lmNum t 8) 0) := word_y m c t 8 _ _ (off_at_8 t)

theorem word_x_at_9 (c : Dev nD) (t : Fin grid0.N) :
    wordOf c tbM0_0 (tbl m 0) (k0_off19 (grid0.coords t)) (k0_off19_inb (grid0.coords t))
      = coords (lms m) (lmIdx (lmNum t 9) 1) := word_x m c t 9 _ _ (off_at_9 t)
theorem word_y_at_9 (c : Dev nD) (t : Fin grid0.N) :
    wordOf c tbM0_1 (tbl m 1) (k0_off19 (grid0.coords t)) (k0_off19_inb (grid0.coords t))
      = coords (lms m) (lmIdx (lmNum t 9) 0) := word_y m c t 9 _ _ (off_at_9 t)

theorem word_x_at_10 (c : Dev nD) (t : Fin grid0.N) :
    wordOf c tbM0_0 (tbl m 0) (k0_off21 (grid0.coords t)) (k0_off21_inb (grid0.coords t))
      = coords (lms m) (lmIdx (lmNum t 10) 1) := word_x m c t 10 _ _ (off_at_10 t)
theorem word_y_at_10 (c : Dev nD) (t : Fin grid0.N) :
    wordOf c tbM0_1 (tbl m 1) (k0_off21 (grid0.coords t)) (k0_off21_inb (grid0.coords t))
      = coords (lms m) (lmIdx (lmNum t 10) 0) := word_y m c t 10 _ _ (off_at_10 t)

theorem word_x_at_11 (c : Dev nD) (t : Fin grid0.N) :
    wordOf c tbM0_0 (tbl m 0) (k0_off23 (grid0.coords t)) (k0_off23_inb (grid0.coords t))
      = coords (lms m) (lmIdx (lmNum t 11) 1) := word_x m c t 11 _ _ (off_at_11 t)
theorem word_y_at_11 (c : Dev nD) (t : Fin grid0.N) :
    wordOf c tbM0_1 (tbl m 1) (k0_off23 (grid0.coords t)) (k0_off23_inb (grid0.coords t))
      = coords (lms m) (lmIdx (lmNum t 11) 0) := word_y m c t 11 _ _ (off_at_11 t)

theorem word_x_at_12 (c : Dev nD) (t : Fin grid0.N) :
    wordOf c tbM0_0 (tbl m 0) (k0_off25 (grid0.coords t)) (k0_off25_inb (grid0.coords t))
      = coords (lms m) (lmIdx (lmNum t 12) 1) := word_x m c t 12 _ _ (off_at_12 t)
theorem word_y_at_12 (c : Dev nD) (t : Fin grid0.N) :
    wordOf c tbM0_1 (tbl m 1) (k0_off25 (grid0.coords t)) (k0_off25_inb (grid0.coords t))
      = coords (lms m) (lmIdx (lmNum t 12) 0) := word_y m c t 12 _ _ (off_at_12 t)

theorem word_x_at_13 (c : Dev nD) (t : Fin grid0.N) :
    wordOf c tbM0_0 (tbl m 0) (k0_off27 (grid0.coords t)) (k0_off27_inb (grid0.coords t))
      = coords (lms m) (lmIdx (lmNum t 13) 1) := word_x m c t 13 _ _ (off_at_13 t)
theorem word_y_at_13 (c : Dev nD) (t : Fin grid0.N) :
    wordOf c tbM0_1 (tbl m 1) (k0_off27 (grid0.coords t)) (k0_off27_inb (grid0.coords t))
      = coords (lms m) (lmIdx (lmNum t 13) 0) := word_y m c t 13 _ _ (off_at_13 t)

theorem word_x_at_14 (c : Dev nD) (t : Fin grid0.N) :
    wordOf c tbM0_0 (tbl m 0) (k0_off29 (grid0.coords t)) (k0_off29_inb (grid0.coords t))
      = coords (lms m) (lmIdx (lmNum t 14) 1) := word_x m c t 14 _ _ (off_at_14 t)
theorem word_y_at_14 (c : Dev nD) (t : Fin grid0.N) :
    wordOf c tbM0_1 (tbl m 1) (k0_off29 (grid0.coords t)) (k0_off29_inb (grid0.coords t))
      = coords (lms m) (lmIdx (lmNum t 14) 0) := word_y m c t 14 _ _ (off_at_14 t)

theorem word_x_at_15 (c : Dev nD) (t : Fin grid0.N) :
    wordOf c tbM0_0 (tbl m 0) (k0_off31 (grid0.coords t)) (k0_off31_inb (grid0.coords t))
      = coords (lms m) (lmIdx (lmNum t 15) 1) := word_x m c t 15 _ _ (off_at_15 t)
theorem word_y_at_15 (c : Dev nD) (t : Fin grid0.N) :
    wordOf c tbM0_1 (tbl m 1) (k0_off31 (grid0.coords t)) (k0_off31_inb (grid0.coords t))
      = coords (lms m) (lmIdx (lmNum t 15) 0) := word_y m c t 15 _ _ (off_at_15 t)

theorem word_x_at_16 (c : Dev nD) (t : Fin grid0.N) :
    wordOf c tbM0_0 (tbl m 0) (k0_off33 (grid0.coords t)) (k0_off33_inb (grid0.coords t))
      = coords (lms m) (lmIdx (lmNum t 16) 1) := word_x m c t 16 _ _ (off_at_16 t)
theorem word_y_at_16 (c : Dev nD) (t : Fin grid0.N) :
    wordOf c tbM0_1 (tbl m 1) (k0_off33 (grid0.coords t)) (k0_off33_inb (grid0.coords t))
      = coords (lms m) (lmIdx (lmNum t 16) 0) := word_y m c t 16 _ _ (off_at_16 t)

theorem word_x_at_17 (c : Dev nD) (t : Fin grid0.N) :
    wordOf c tbM0_0 (tbl m 0) (k0_off35 (grid0.coords t)) (k0_off35_inb (grid0.coords t))
      = coords (lms m) (lmIdx (lmNum t 17) 1) := word_x m c t 17 _ _ (off_at_17 t)
theorem word_y_at_17 (c : Dev nD) (t : Fin grid0.N) :
    wordOf c tbM0_1 (tbl m 1) (k0_off35 (grid0.coords t)) (k0_off35_inb (grid0.coords t))
      = coords (lms m) (lmIdx (lmNum t 17) 0) := word_y m c t 17 _ _ (off_at_17 t)

theorem word_x_at_18 (c : Dev nD) (t : Fin grid0.N) :
    wordOf c tbM0_0 (tbl m 0) (k0_off37 (grid0.coords t)) (k0_off37_inb (grid0.coords t))
      = coords (lms m) (lmIdx (lmNum t 18) 1) := word_x m c t 18 _ _ (off_at_18 t)
theorem word_y_at_18 (c : Dev nD) (t : Fin grid0.N) :
    wordOf c tbM0_1 (tbl m 1) (k0_off37 (grid0.coords t)) (k0_off37_inb (grid0.coords t))
      = coords (lms m) (lmIdx (lmNum t 18) 0) := word_y m c t 18 _ _ (off_at_18 t)

theorem word_x_at_19 (c : Dev nD) (t : Fin grid0.N) :
    wordOf c tbM0_0 (tbl m 0) (k0_off39 (grid0.coords t)) (k0_off39_inb (grid0.coords t))
      = coords (lms m) (lmIdx (lmNum t 19) 1) := word_x m c t 19 _ _ (off_at_19 t)
theorem word_y_at_19 (c : Dev nD) (t : Fin grid0.N) :
    wordOf c tbM0_1 (tbl m 1) (k0_off39 (grid0.coords t)) (k0_off39_inb (grid0.coords t))
      = coords (lms m) (lmIdx (lmNum t 19) 0) := word_y m c t 19 _ _ (off_at_19 t)

theorem word_x_at_20 (c : Dev nD) (t : Fin grid0.N) :
    wordOf c tbM0_0 (tbl m 0) (k0_off41 (grid0.coords t)) (k0_off41_inb (grid0.coords t))
      = coords (lms m) (lmIdx (lmNum t 20) 1) := word_x m c t 20 _ _ (off_at_20 t)
theorem word_y_at_20 (c : Dev nD) (t : Fin grid0.N) :
    wordOf c tbM0_1 (tbl m 1) (k0_off41 (grid0.coords t)) (k0_off41_inb (grid0.coords t))
      = coords (lms m) (lmIdx (lmNum t 20) 0) := word_y m c t 20 _ _ (off_at_20 t)

theorem word_x_at_21 (c : Dev nD) (t : Fin grid0.N) :
    wordOf c tbM0_0 (tbl m 0) (k0_off43 (grid0.coords t)) (k0_off43_inb (grid0.coords t))
      = coords (lms m) (lmIdx (lmNum t 21) 1) := word_x m c t 21 _ _ (off_at_21 t)
theorem word_y_at_21 (c : Dev nD) (t : Fin grid0.N) :
    wordOf c tbM0_1 (tbl m 1) (k0_off43 (grid0.coords t)) (k0_off43_inb (grid0.coords t))
      = coords (lms m) (lmIdx (lmNum t 21) 0) := word_y m c t 21 _ _ (off_at_21 t)

theorem word_x_at_22 (c : Dev nD) (t : Fin grid0.N) :
    wordOf c tbM0_0 (tbl m 0) (k0_off45 (grid0.coords t)) (k0_off45_inb (grid0.coords t))
      = coords (lms m) (lmIdx (lmNum t 22) 1) := word_x m c t 22 _ _ (off_at_22 t)
theorem word_y_at_22 (c : Dev nD) (t : Fin grid0.N) :
    wordOf c tbM0_1 (tbl m 1) (k0_off45 (grid0.coords t)) (k0_off45_inb (grid0.coords t))
      = coords (lms m) (lmIdx (lmNum t 22) 0) := word_y m c t 22 _ _ (off_at_22 t)

theorem word_x_at_23 (c : Dev nD) (t : Fin grid0.N) :
    wordOf c tbM0_0 (tbl m 0) (k0_off47 (grid0.coords t)) (k0_off47_inb (grid0.coords t))
      = coords (lms m) (lmIdx (lmNum t 23) 1) := word_x m c t 23 _ _ (off_at_23 t)
theorem word_y_at_23 (c : Dev nD) (t : Fin grid0.N) :
    wordOf c tbM0_1 (tbl m 1) (k0_off47 (grid0.coords t)) (k0_off47_inb (grid0.coords t))
      = coords (lms m) (lmIdx (lmNum t 23) 0) := word_y m c t 23 _ _ (off_at_23 t)

theorem word_x_at_24 (c : Dev nD) (t : Fin grid0.N) :
    wordOf c tbM0_0 (tbl m 0) (k0_off49 (grid0.coords t)) (k0_off49_inb (grid0.coords t))
      = coords (lms m) (lmIdx (lmNum t 24) 1) := word_x m c t 24 _ _ (off_at_24 t)
theorem word_y_at_24 (c : Dev nD) (t : Fin grid0.N) :
    wordOf c tbM0_1 (tbl m 1) (k0_off49 (grid0.coords t)) (k0_off49_inb (grid0.coords t))
      = coords (lms m) (lmIdx (lmNum t 24) 0) := word_y m c t 24 _ _ (off_at_24 t)

theorem word_x_at_25 (c : Dev nD) (t : Fin grid0.N) :
    wordOf c tbM0_0 (tbl m 0) (k0_off51 (grid0.coords t)) (k0_off51_inb (grid0.coords t))
      = coords (lms m) (lmIdx (lmNum t 25) 1) := word_x m c t 25 _ _ (off_at_25 t)
theorem word_y_at_25 (c : Dev nD) (t : Fin grid0.N) :
    wordOf c tbM0_1 (tbl m 1) (k0_off51 (grid0.coords t)) (k0_off51_inb (grid0.coords t))
      = coords (lms m) (lmIdx (lmNum t 25) 0) := word_y m c t 25 _ _ (off_at_25 t)

theorem word_x_at_26 (c : Dev nD) (t : Fin grid0.N) :
    wordOf c tbM0_0 (tbl m 0) (k0_off53 (grid0.coords t)) (k0_off53_inb (grid0.coords t))
      = coords (lms m) (lmIdx (lmNum t 26) 1) := word_x m c t 26 _ _ (off_at_26 t)
theorem word_y_at_26 (c : Dev nD) (t : Fin grid0.N) :
    wordOf c tbM0_1 (tbl m 1) (k0_off53 (grid0.coords t)) (k0_off53_inb (grid0.coords t))
      = coords (lms m) (lmIdx (lmNum t 26) 0) := word_y m c t 26 _ _ (off_at_26 t)

theorem word_x_at_27 (c : Dev nD) (t : Fin grid0.N) :
    wordOf c tbM0_0 (tbl m 0) (k0_off55 (grid0.coords t)) (k0_off55_inb (grid0.coords t))
      = coords (lms m) (lmIdx (lmNum t 27) 1) := word_x m c t 27 _ _ (off_at_27 t)
theorem word_y_at_27 (c : Dev nD) (t : Fin grid0.N) :
    wordOf c tbM0_1 (tbl m 1) (k0_off55 (grid0.coords t)) (k0_off55_inb (grid0.coords t))
      = coords (lms m) (lmIdx (lmNum t 27) 0) := word_y m c t 27 _ _ (off_at_27 t)

theorem word_x_at_28 (c : Dev nD) (t : Fin grid0.N) :
    wordOf c tbM0_0 (tbl m 0) (k0_off57 (grid0.coords t)) (k0_off57_inb (grid0.coords t))
      = coords (lms m) (lmIdx (lmNum t 28) 1) := word_x m c t 28 _ _ (off_at_28 t)
theorem word_y_at_28 (c : Dev nD) (t : Fin grid0.N) :
    wordOf c tbM0_1 (tbl m 1) (k0_off57 (grid0.coords t)) (k0_off57_inb (grid0.coords t))
      = coords (lms m) (lmIdx (lmNum t 28) 0) := word_y m c t 28 _ _ (off_at_28 t)

theorem word_x_at_29 (c : Dev nD) (t : Fin grid0.N) :
    wordOf c tbM0_0 (tbl m 0) (k0_off59 (grid0.coords t)) (k0_off59_inb (grid0.coords t))
      = coords (lms m) (lmIdx (lmNum t 29) 1) := word_x m c t 29 _ _ (off_at_29 t)
theorem word_y_at_29 (c : Dev nD) (t : Fin grid0.N) :
    wordOf c tbM0_1 (tbl m 1) (k0_off59 (grid0.coords t)) (k0_off59_inb (grid0.coords t))
      = coords (lms m) (lmIdx (lmNum t 29) 0) := word_y m c t 29 _ _ (off_at_29 t)

theorem word_x_at_30 (c : Dev nD) (t : Fin grid0.N) :
    wordOf c tbM0_0 (tbl m 0) (k0_off61 (grid0.coords t)) (k0_off61_inb (grid0.coords t))
      = coords (lms m) (lmIdx (lmNum t 30) 1) := word_x m c t 30 _ _ (off_at_30 t)
theorem word_y_at_30 (c : Dev nD) (t : Fin grid0.N) :
    wordOf c tbM0_1 (tbl m 1) (k0_off61 (grid0.coords t)) (k0_off61_inb (grid0.coords t))
      = coords (lms m) (lmIdx (lmNum t 30) 0) := word_y m c t 30 _ _ (off_at_30 t)

theorem word_x_at_31 (c : Dev nD) (t : Fin grid0.N) :
    wordOf c tbM0_0 (tbl m 0) (k0_off63 (grid0.coords t)) (k0_off63_inb (grid0.coords t))
      = coords (lms m) (lmIdx (lmNum t 31) 1) := word_x m c t 31 _ _ (off_at_31 t)
theorem word_y_at_31 (c : Dev nD) (t : Fin grid0.N) :
    wordOf c tbM0_1 (tbl m 1) (k0_off63 (grid0.coords t)) (k0_off63_inb (grid0.coords t))
      = coords (lms m) (lmIdx (lmNum t 31) 0) := word_y m c t 31 _ _ (off_at_31 t)

end Cert.Landmark.HypsIdeal

end
-- ==== Proof.Invariant.lean ====
/-
  The induction over the grid points.

  The body carries an accumulator (a 224 x 224 scratch array) from one grid point to the next.  At the first
  step of a half it is started from that step's sum of 32 squared errors; at every other step the step's sum
  is added; at the last step of a half it is copied into the output block.  By induction over the grid points
  the accumulator is the restart-every-17 recursion on the step sums, so at the last step of half h it holds
  the sum over the half's 17 steps, which is the half's 544 landmarks.
-/
import proofs.«129057_j82145544503653_2_alg».proof.Proof.Gen.KernelIdeal.Frame
import proofs.«129057_j82145544503653_2_alg».proof.Proof.KernelSpec
import proofs.«129057_j82145544503653_2_alg».proof.Proof.KernelSums

set_option maxRecDepth 16384

noncomputable section

namespace Cert.Landmark.Glue

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The accumulator the grid steps build from their terms: restarted at the first step of each half, otherwise
    the previous step's value plus this step's term. -/
def accOf (f : ℕ → EReal) : ℕ → EReal
  | 0 => 0 + f 0
  | n + 1 => if (n + 1) % 17 = 0 then 0 + f (n + 1) else accOf f n + f (n + 1)

/-- The carried accumulator after grid point n, at image position (r, q), is that recursion on the step terms. -/
theorem acc_agrees (hO : Ok m) (hH : Hyps m hO) (c : Dev nD)
    (pred : SPred.Idx → EReal) (bell : SBell.Idx → EReal) (yx : SLm.Idx → BitVec 32)
    (hA : ∀ (t : Fin (cfgM m hO).N), t.val % 17 = 0 → ∀ idx : S224x224.Idx,
      (outsAt0 m hO hH c t.val t.isLt).2 idx = 0 + stepTerm pred bell yx (t.val / 17) (t.val % 17) (idx 0) (idx 1))
    (hBC : ∀ (t : Fin (cfgM m hO).N), ¬ t.val % 17 = 0 → ∀ idx : S224x224.Idx,
      (outsAt0 m hO hH c t.val t.isLt).2 idx
        = (outsAt0 m hO hH c (t.val - 1) (Nat.lt_of_le_of_lt (Nat.sub_le _ _) t.isLt)).2 idx
          + stepTerm pred bell yx (t.val / 17) (t.val % 17) (idx 0) (idx 1))
    (r q : Fin 224) :
    ∀ (n : ℕ) (h : n < (cfgM m hO).N),
      (outsAt0 m hO hH c n h).2 (ix2 r q) = accOf (fun t => stepTerm pred bell yx (t / 17) (t % 17) r q) n := by
  intro n
  induction n with
  | zero =>
    intro h
    exact hA ⟨0, h⟩ rfl (ix2 r q)
  | succ n ih =>
    intro h
    show _ = if (n + 1) % 17 = 0 then 0 + stepTerm pred bell yx ((n + 1) / 17) ((n + 1) % 17) r q
      else accOf (fun t => stepTerm pred bell yx (t / 17) (t % 17) r q) n + stepTerm pred bell yx ((n + 1) / 17) ((n + 1) % 17) r q
    by_cases h0 : (n + 1) % 17 = 0
    · rw [if_pos h0]
      exact hA ⟨n + 1, h⟩ h0 (ix2 r q)
    · rw [if_neg h0, ← ih (Nat.lt_of_succ_lt h)]
      exact hBC ⟨n + 1, h⟩ h0 (ix2 r q)

/-- If the first step of a half starts the accumulator from its own term, every other step adds its term, and
    the last step of a half copies the accumulator into the output block, then the block written back at the
    last step of half h holds that half's partial sums. -/
theorem inv_of_cases (hO : Ok m) (hH : Hyps m hO) (c : Dev nD)
    (pred : SPred.Idx → EReal) (bell : SBell.Idx → EReal) (yx : SLm.Idx → BitVec 32)
    (hA : ∀ (t : Fin (cfgM m hO).N), t.val % 17 = 0 → ∀ idx : S224x224.Idx,
      (outsAt0 m hO hH c t.val t.isLt).2 idx = 0 + stepTerm pred bell yx (t.val / 17) (t.val % 17) (idx 0) (idx 1))
    (hBC : ∀ (t : Fin (cfgM m hO).N), ¬ t.val % 17 = 0 → ∀ idx : S224x224.Idx,
      (outsAt0 m hO hH c t.val t.isLt).2 idx
        = (outsAt0 m hO hH c (t.val - 1) (Nat.lt_of_le_of_lt (Nat.sub_le _ _) t.isLt)).2 idx
          + stepTerm pred bell yx (t.val / 17) (t.val % 17) (idx 0) (idx 1))
    (hOut : ∀ (t : Fin (cfgM m hO).N), t.val % 17 = 16 → ∀ y : S1x224x224.Idx,
      (outsAt0 m hO hH c t.val t.isLt).1 y = (outsAt0 m hO hH c t.val t.isLt).2 (ix2 (y 1) (y 2))) :
    ∀ t : Fin (cfgM m hO).N, t.val % 17 = 16 → ∀ y : S1x224x224.Idx,
      (outsAt0 m hO hH c t.val t.isLt).1 y = partialAt pred bell yx (t.val / 17) (y 1) (y 2) := by
  intro t ht y
  have e : t.val = 17 * (t.val / 17) + 16 := by omega
  refine (hOut t ht y).trans ?_
  refine (acc_agrees m hO hH c pred bell yx hA hBC (y 1) (y 2) t.val t.isLt).trans ?_
  refine (congrArg (accOf (fun t => stepTerm pred bell yx (t / 17) (t % 17) (y 1) (y 2))) e).trans ?_
  exact acc_partial pred bell yx (y 1) (y 2) (accOf (fun t => stepTerm pred bell yx (t / 17) (t % 17) (y 1) (y 2)))
    rfl (fun n => rfl) (t.val / 17)

end Cert.Landmark.Glue
end
-- ==== Proof.Final.lean ====
/-
  From the output blocks to the output array.

  The output array [2, 224, 224] is written back one [1, 224, 224] block at a time, block (h, 0, 0) at grid
  points of half h = t / 17, and only at the last step of each half (t % 17 = 16).  If what the body leaves in
  the block at those two points is the half's partial sums, then — every index (h, r, c) lying in the block of
  point 17 h + 16 — the array ends as the function (h, r, c) ↦ partial sum of half h at (r, c).
-/
import proofs.«129057_j82145544503653_2_alg».proof.Proof.Gen.KernelIdeal.Frame
import proofs.«129057_j82145544503653_2_alg».proof.Proof.KernelSpec
import Idealize.ShloMosaic.Lib.Pipeline.Value

set_option maxRecDepth 16384

noncomputable section

namespace Cert.Landmark.Glue

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ)

/-- The output window's block index at grid point t is (t / 17, 0, 0). -/
theorem out_index : ∀ t : Fin grid0.N,
    cc0_transform_2 (grid0.coords t) (0 : Fin 3) = t.val / 17
    ∧ cc0_transform_2 (grid0.coords t) (1 : Fin 3) = 0
    ∧ cc0_transform_2 (grid0.coords t) (2 : Fin 3) = 0 :=
  (by decide +kernel : ∀ t : Fin grid0.N, _)

theorem flushed_eq (hO : Ok m) (hH : Hyps m hO) (c : Dev nD)
    (pred : SPred.Idx → EReal) (bell : SBell.Idx → EReal) (yx : SLm.Idx → BitVec 32)
    (hinv : ∀ t : Fin (cfgM m hO).N, t.val % 17 = 16 → ∀ y : S1x224x224.Idx,
      (outsAt0 m hO hH c t.val t.isLt).1 y = partialAt pred bell yx (t.val / 17) (y 1) (y 2))
    (t : Fin (cfgM m hO).N) (hf : ((cfgM m hO).win 2).flush t = true) :
    (dats m hO hH 0 c).flushed 2 t = (((cfgM m hO).win 2).blk t).view.read (Elt Ideal) (outArr pred bell yx) := by
  have ht : t.val % 17 = 16 := (flush0_2 (adm m hO) t).1 hf
  show ((cfgM m hO).win 2).cut (grid0.coords t) ((dats m hO hH 0 c).after 2 t) = _
  rw [after0_2]
  funext y
  refine (hinv t ht y).trans ?_
  obtain ⟨e0, e1, e2⟩ := out_index t
  have h0 : ((((cfgM m hO).win 2).blk t).view.emb y (0 : Fin 3)).val = t.val / 17 := by
    show cc0_transform_2 (grid0.coords t) (0 : Fin 3) * 1 + 1 * (y (0 : Fin 3)).val = t.val / 17
    have hy : (y (0 : Fin 3)).val < 1 := (y (0 : Fin 3)).isLt
    omega
  have h1 : (((cfgM m hO).win 2).blk t).view.emb y (1 : Fin 3) = y (1 : Fin 3) := Fin.ext (by
    show cc0_transform_2 (grid0.coords t) (1 : Fin 3) * 224 + 1 * (y (1 : Fin 3)).val = (y (1 : Fin 3)).val
    omega)
  have h2 : (((cfgM m hO).win 2).blk t).view.emb y (2 : Fin 3) = y (2 : Fin 3) := Fin.ext (by
    show cc0_transform_2 (grid0.coords t) (2 : Fin 3) * 224 + 1 * (y (2 : Fin 3)).val = (y (2 : Fin 3)).val
    omega)
  show partialAt pred bell yx (t.val / 17) (y (1 : Fin 3)) (y (2 : Fin 3))
    = partialAt pred bell yx ((((cfgM m hO).win 2).blk t).view.emb y (0 : Fin 3)).val
        ((((cfgM m hO).win 2).blk t).view.emb y (1 : Fin 3)) ((((cfgM m hO).win 2).blk t).view.emb y (2 : Fin 3))
  rw [h0, h1, h2]

/-- An index of the output array lies in grid point t's block iff each coordinate lies in the block's range. -/
theorem mem_blk (hO : Ok m) (t : Fin (cfgM m hO).N) (i : S2x224x224.Idx) :
    i ∈ (((cfgM m hO).win 2).blk t).view.set ↔
      ∀ a : Fin 3, cc0_transform_2 (grid0.coords t) a * S1x224x224.size a ≤ (i a).val
        ∧ (i a).val < cc0_transform_2 (grid0.coords t) a * S1x224x224.size a + S1x224x224.size a := by
  have key : (((cfgM m hO).win 2).blk t).view.set = (((cfgM m hO).win 2).rect t).set :=
    View.set_slice_whole main_v9 (((cfgM m hO).win 2).rect t)
  have h1 : i ∈ (((cfgM m hO).win 2).blk t).view.set ↔ i ∈ (((cfgM m hO).win 2).rect t).set :=
    Iff.of_eq (congrArg (fun s => i ∈ s) key)
  exact h1.trans Rect.mem_set_unit

/-- Every index (h, r, c) of the output array lies in the block written back at the last step of half h,
    grid point 17 h + 16. -/
theorem cover (hO : Ok m) (i : S2x224x224.Idx) :
    ∃ t : Fin (cfgM m hO).N, ((cfgM m hO).win 2).flush t = true ∧ i ∈ (((cfgM m hO).win 2).blk t).view.set := by
  have hi0 : (i (0 : Fin 3)).val < 2 := (i (0 : Fin 3)).isLt
  have hi1 : (i (1 : Fin 3)).val < 224 := (i (1 : Fin 3)).isLt
  have hi2 : (i (2 : Fin 3)).val < 224 := (i (2 : Fin 3)).isLt
  have hlt : 17 * (i (0 : Fin 3)).val + 16 < grid0.N := by show _ < 34; omega
  refine ⟨⟨17 * (i (0 : Fin 3)).val + 16, hlt⟩, (flush0_2 (adm m hO) _).2 (by show (17 * (i (0 : Fin 3)).val + 16) % 17 = 16; omega), ?_⟩
  rw [mem_blk]
  obtain ⟨e0, e1, e2⟩ := out_index ⟨17 * (i (0 : Fin 3)).val + 16, hlt⟩
  have e0' : cc0_transform_2 (grid0.coords ⟨17 * (i (0 : Fin 3)).val + 16, hlt⟩) (0 : Fin 3) = (17 * (i (0 : Fin 3)).val + 16) / 17 := e0
  intro a
  match a with
  | ⟨0, _⟩ =>
    show cc0_transform_2 (grid0.coords ⟨17 * (i (0 : Fin 3)).val + 16, hlt⟩) (0 : Fin 3) * 1 ≤ (i (0 : Fin 3)).val
      ∧ (i (0 : Fin 3)).val < cc0_transform_2 (grid0.coords ⟨17 * (i (0 : Fin 3)).val + 16, hlt⟩) (0 : Fin 3) * 1 + 1
    omega
  | ⟨1, _⟩ =>
    show cc0_transform_2 (grid0.coords ⟨17 * (i (0 : Fin 3)).val + 16, hlt⟩) (1 : Fin 3) * 224 ≤ (i (1 : Fin 3)).val
      ∧ (i (1 : Fin 3)).val < cc0_transform_2 (grid0.coords ⟨17 * (i (0 : Fin 3)).val + 16, hlt⟩) (1 : Fin 3) * 224 + 224
    omega
  | ⟨2, _⟩ =>
    show cc0_transform_2 (grid0.coords ⟨17 * (i (0 : Fin 3)).val + 16, hlt⟩) (2 : Fin 3) * 224 ≤ (i (2 : Fin 3)).val
      ∧ (i (2 : Fin 3)).val < cc0_transform_2 (grid0.coords ⟨17 * (i (0 : Fin 3)).val + 16, hlt⟩) (2 : Fin 3) * 224 + 224
    omega

/-- If at the last step of each half the body leaves that half's partial sums in the output block, the output
    array ends as the two halves' partial sums. -/
theorem final_of_inv (hO : Ok m) (hH : Hyps m hO) (c : Dev nD)
    (pred : SPred.Idx → EReal) (bell : SBell.Idx → EReal) (yx : SLm.Idx → BitVec 32)
    (hinv : ∀ t : Fin (cfgM m hO).N, t.val % 17 = 16 → ∀ y : S1x224x224.Idx,
      (outsAt0 m hO hH c t.val t.isLt).1 y = partialAt pred bell yx (t.val / 17) (y 1) (y 2)) :
    ((dats m hO hH 0 c).arrAt 2 (cfgM m hO).N : S2x224x224.Idx → EReal) = outArr pred bell yx :=
  (dats m hO hH 0 c).arrAt_eq_of_cover 2 (outArr pred bell yx)
    (fun t hf => flushed_eq m hO hH c pred bell yx hinv t hf) (cover m hO)

end Cert.Landmark.Glue
end
-- ==== Proof.Cases.lean ====
/-
  The three cases of a grid point, and the output array.

  At a grid point the body either starts the accumulator from the point's 32 squared errors (first step of a
  half), or adds them to what the step before left (every other step), and at the last step of a half it also
  copies the accumulator to the output block. Each of the 32 terms is one landmark's squared error: the
  landmark's slice of the prediction block against the window of the padded bell at the corner computed from
  the landmark's two coordinate words. Thirty-two terms added one after the other onto a starting value are
  the starting value plus their sum, which is the step's term. With the induction over the grid points and
  the cover of the output array by the blocks written back, the output array ends as the two halves of
  partial sums.
-/
import proofs.«129057_j82145544503653_2_alg».proof.Proof.ChainA
import proofs.«129057_j82145544503653_2_alg».proof.Proof.ChainB
import proofs.«129057_j82145544503653_2_alg».proof.Proof.ChainC
import proofs.«129057_j82145544503653_2_alg».proof.Proof.Term
import proofs.«129057_j82145544503653_2_alg».proof.Proof.PointWords
import proofs.«129057_j82145544503653_2_alg».proof.Proof.Invariant
import proofs.«129057_j82145544503653_2_alg».proof.Proof.Final
import proofs.«129057_j82145544503653_2_alg».proof.Proof.KernelSpec

set_option maxRecDepth 16384

noncomputable section

namespace Cert.Landmark.Glue

open Cert.KernelIdeal Cert.KernelIdeal.Gen Cert.Landmark.Piece Cert.Landmark.HypsIdeal
open Idealize.ShloMosaic Idealize.ShloMosaic.TcCoe Idealize.SL.Sem Idealize.ShloMosaic.ValueIdx

variable (m : (ℓ : Loc nD τ sig) → Buf (Elt Ideal) ℓ)

/-- Thirty-two terms added one after the other onto a starting value are the starting value plus their sum. -/
theorem nest32_of (a : EReal) (f : ℕ → EReal) (E0 E1 E2 E3 E4 E5 E6 E7 E8 E9 E10 E11 E12 E13 E14 E15 E16 E17 E18 E19 E20 E21 E22 E23 E24 E25 E26 E27 E28 E29 E30 E31 : EReal)
    (h0 : E0 = f 0) (h1 : E1 = f 1) (h2 : E2 = f 2) (h3 : E3 = f 3) (h4 : E4 = f 4) (h5 : E5 = f 5) (h6 : E6 = f 6) (h7 : E7 = f 7) (h8 : E8 = f 8) (h9 : E9 = f 9) (h10 : E10 = f 10) (h11 : E11 = f 11) (h12 : E12 = f 12) (h13 : E13 = f 13) (h14 : E14 = f 14) (h15 : E15 = f 15) (h16 : E16 = f 16) (h17 : E17 = f 17) (h18 : E18 = f 18) (h19 : E19 = f 19) (h20 : E20 = f 20) (h21 : E21 = f 21) (h22 : E22 = f 22) (h23 : E23 = f 23) (h24 : E24 = f 24) (h25 : E25 = f 25) (h26 : E26 = f 26) (h27 : E27 = f 27) (h28 : E28 = f 28) (h29 : E29 = f 29) (h30 : E30 = f 30) (h31 : E31 = f 31) :
    ((((((((((((((((((((((((((((((((a + E0) + E1) + E2) + E3) + E4) + E5) + E6) + E7) + E8) + E9) + E10) + E11) + E12) + E13) + E14) + E15) + E16) + E17) + E18) + E19) + E20) + E21) + E22) + E23) + E24) + E25) + E26) + E27) + E28) + E29) + E30) + E31) = a + ∑ k ∈ Finset.range 32, f k := by
  subst h0 h1 h2 h3 h4 h5 h6 h7 h8 h9 h10 h11 h12 h13 h14 h15 h16 h17 h18 h19 h20 h21 h22 h23 h24 h25 h26 h27 h28 h29 h30 h31
  simp only [Finset.sum_range_succ, Finset.sum_range_zero, zero_add, add_assoc]

set_option maxHeartbeats 1600000 in
/-- At the first step of a half the accumulator is started from the step's 32 squared errors. -/
theorem hA_core (hO : Ok m) (hH : Hyps m hO) (c : Dev nD)
    (hr : ∀ i, 0 ≤ (coords (lms m) i).toInt ∧ (coords (lms m) i).toInt ≤ 223) :
    ∀ (t : Fin (cfgM m hO).N), t.val % 17 = 0 → ∀ idx : S224x224.Idx,
      (outsAt0 m hO hH c t.val t.isLt).2 idx
        = 0 + stepTerm (m ((c : Thread nD τ).loc main_arg0)) (m ((c : Thread nD τ).loc main_arg2)) (coords (lms m)) (t.val / 17) (t.val % 17) (idx 0) (idx 1) := by
  intro t h0 idx
  have h1 : ¬ t.val % 17 = 16 := by omega
  refine (congrFun (congrArg Prod.snd (outsAt0_A m hO hH c t h0 h1)) idx).trans ?_
  refine (Piece.chainA c (grid0.coords t) (ms0_0 m hO t) (hs0_0 m hO t) (ms0_1 m hO t) (hs0_1 m hO t) (ms0_2 m hO t) (hs0_2 m hO t) scM0_0 (Memref.isWhole_whole _) ((hcond0_0 t).mpr h0) (fun h => h1 ((hcond0_1 t).mp h)) (iblk m hO c 0 t) (iblk m hO c 1 t) (tbl m 0) (tbl m 1) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t) idx).trans ?_
  exact nest32_of 0 (fun k => sqAt (m ((c : Thread nD τ).loc main_arg0)) (m ((c : Thread nD τ).loc main_arg2)) (coords (lms m)) (544 * (t.val / 17) + 32 * (t.val % 17) + k) (idx 0) (idx 1)) _ _ _ _ _ _ _ _ _ _ _ _ _ _ _ _ _ _ _ _ _ _ _ _ _ _ _ _ _ _ _ _
      (term_eq m hO c t (⟨0, by norm_num⟩ : Fin 32) idx k0_off2 rfl (coords (lms m)) (wordOf c tbM0_0 (tbl m 0) (k0_off1 (grid0.coords t)) (k0_off1_inb (grid0.coords t))) (wordOf c tbM0_1 (tbl m 1) (k0_off1 (grid0.coords t)) (k0_off1_inb (grid0.coords t))) (word_x_at_0 m c t) (word_y_at_0 m c t) hr)
      (term_eq m hO c t (⟨1, by norm_num⟩ : Fin 32) idx k0_off4 rfl (coords (lms m)) (wordOf c tbM0_0 (tbl m 0) (k0_off3 (grid0.coords t)) (k0_off3_inb (grid0.coords t))) (wordOf c tbM0_1 (tbl m 1) (k0_off3 (grid0.coords t)) (k0_off3_inb (grid0.coords t))) (word_x_at_1 m c t) (word_y_at_1 m c t) hr)
      (term_eq m hO c t (⟨2, by norm_num⟩ : Fin 32) idx k0_off6 rfl (coords (lms m)) (wordOf c tbM0_0 (tbl m 0) (k0_off5 (grid0.coords t)) (k0_off5_inb (grid0.coords t))) (wordOf c tbM0_1 (tbl m 1) (k0_off5 (grid0.coords t)) (k0_off5_inb (grid0.coords t))) (word_x_at_2 m c t) (word_y_at_2 m c t) hr)
      (term_eq m hO c t (⟨3, by norm_num⟩ : Fin 32) idx k0_off8 rfl (coords (lms m)) (wordOf c tbM0_0 (tbl m 0) (k0_off7 (grid0.coords t)) (k0_off7_inb (grid0.coords t))) (wordOf c tbM0_1 (tbl m 1) (k0_off7 (grid0.coords t)) (k0_off7_inb (grid0.coords t))) (word_x_at_3 m c t) (word_y_at_3 m c t) hr)
      (term_eq m hO c t (⟨4, by norm_num⟩ : Fin 32) idx k0_off10 rfl (coords (lms m)) (wordOf c tbM0_0 (tbl m 0) (k0_off9 (grid0.coords t)) (k0_off9_inb (grid0.coords t))) (wordOf c tbM0_1 (tbl m 1) (k0_off9 (grid0.coords t)) (k0_off9_inb (grid0.coords t))) (word_x_at_4 m c t) (word_y_at_4 m c t) hr)
      (term_eq m hO c t (⟨5, by norm_num⟩ : Fin 32) idx k0_off12 rfl (coords (lms m)) (wordOf c tbM0_0 (tbl m 0) (k0_off11 (grid0.coords t)) (k0_off11_inb (grid0.coords t))) (wordOf c tbM0_1 (tbl m 1) (k0_off11 (grid0.coords t)) (k0_off11_inb (grid0.coords t))) (word_x_at_5 m c t) (word_y_at_5 m c t) hr)
      (term_eq m hO c t (⟨6, by norm_num⟩ : Fin 32) idx k0_off14 rfl (coords (lms m)) (wordOf c tbM0_0 (tbl m 0) (k0_off13 (grid0.coords t)) (k0_off13_inb (grid0.coords t))) (wordOf c tbM0_1 (tbl m 1) (k0_off13 (grid0.coords t)) (k0_off13_inb (grid0.coords t))) (word_x_at_6 m c t) (word_y_at_6 m c t) hr)
      (term_eq m hO c t (⟨7, by norm_num⟩ : Fin 32) idx k0_off16 rfl (coords (lms m)) (wordOf c tbM0_0 (tbl m 0) (k0_off15 (grid0.coords t)) (k0_off15_inb (grid0.coords t))) (wordOf c tbM0_1 (tbl m 1) (k0_off15 (grid0.coords t)) (k0_off15_inb (grid0.coords t))) (word_x_at_7 m c t) (word_y_at_7 m c t) hr)
      (term_eq m hO c t (⟨8, by norm_num⟩ : Fin 32) idx k0_off18 rfl (coords (lms m)) (wordOf c tbM0_0 (tbl m 0) (k0_off17 (grid0.coords t)) (k0_off17_inb (grid0.coords t))) (wordOf c tbM0_1 (tbl m 1) (k0_off17 (grid0.coords t)) (k0_off17_inb (grid0.coords t))) (word_x_at_8 m c t) (word_y_at_8 m c t) hr)
      (term_eq m hO c t (⟨9, by norm_num⟩ : Fin 32) idx k0_off20 rfl (coords (lms m)) (wordOf c tbM0_0 (tbl m 0) (k0_off19 (grid0.coords t)) (k0_off19_inb (grid0.coords t))) (wordOf c tbM0_1 (tbl m 1) (k0_off19 (grid0.coords t)) (k0_off19_inb (grid0.coords t))) (word_x_at_9 m c t) (word_y_at_9 m c t) hr)
      (term_eq m hO c t (⟨10, by norm_num⟩ : Fin 32) idx k0_off22 rfl (coords (lms m)) (wordOf c tbM0_0 (tbl m 0) (k0_off21 (grid0.coords t)) (k0_off21_inb (grid0.coords t))) (wordOf c tbM0_1 (tbl m 1) (k0_off21 (grid0.coords t)) (k0_off21_inb (grid0.coords t))) (word_x_at_10 m c t) (word_y_at_10 m c t) hr)
      (term_eq m hO c t (⟨11, by norm_num⟩ : Fin 32) idx k0_off24 rfl (coords (lms m)) (wordOf c tbM0_0 (tbl m 0) (k0_off23 (grid0.coords t)) (k0_off23_inb (grid0.coords t))) (wordOf c tbM0_1 (tbl m 1) (k0_off23 (grid0.coords t)) (k0_off23_inb (grid0.coords t))) (word_x_at_11 m c t) (word_y_at_11 m c t) hr)
      (term_eq m hO c t (⟨12, by norm_num⟩ : Fin 32) idx k0_off26 rfl (coords (lms m)) (wordOf c tbM0_0 (tbl m 0) (k0_off25 (grid0.coords t)) (k0_off25_inb (grid0.coords t))) (wordOf c tbM0_1 (tbl m 1) (k0_off25 (grid0.coords t)) (k0_off25_inb (grid0.coords t))) (word_x_at_12 m c t) (word_y_at_12 m c t) hr)
      (term_eq m hO c t (⟨13, by norm_num⟩ : Fin 32) idx k0_off28 rfl (coords (lms m)) (wordOf c tbM0_0 (tbl m 0) (k0_off27 (grid0.coords t)) (k0_off27_inb (grid0.coords t))) (wordOf c tbM0_1 (tbl m 1) (k0_off27 (grid0.coords t)) (k0_off27_inb (grid0.coords t))) (word_x_at_13 m c t) (word_y_at_13 m c t) hr)
      (term_eq m hO c t (⟨14, by norm_num⟩ : Fin 32) idx k0_off30 rfl (coords (lms m)) (wordOf c tbM0_0 (tbl m 0) (k0_off29 (grid0.coords t)) (k0_off29_inb (grid0.coords t))) (wordOf c tbM0_1 (tbl m 1) (k0_off29 (grid0.coords t)) (k0_off29_inb (grid0.coords t))) (word_x_at_14 m c t) (word_y_at_14 m c t) hr)
      (term_eq m hO c t (⟨15, by norm_num⟩ : Fin 32) idx k0_off32 rfl (coords (lms m)) (wordOf c tbM0_0 (tbl m 0) (k0_off31 (grid0.coords t)) (k0_off31_inb (grid0.coords t))) (wordOf c tbM0_1 (tbl m 1) (k0_off31 (grid0.coords t)) (k0_off31_inb (grid0.coords t))) (word_x_at_15 m c t) (word_y_at_15 m c t) hr)
      (term_eq m hO c t (⟨16, by norm_num⟩ : Fin 32) idx k0_off34 rfl (coords (lms m)) (wordOf c tbM0_0 (tbl m 0) (k0_off33 (grid0.coords t)) (k0_off33_inb (grid0.coords t))) (wordOf c tbM0_1 (tbl m 1) (k0_off33 (grid0.coords t)) (k0_off33_inb (grid0.coords t))) (word_x_at_16 m c t) (word_y_at_16 m c t) hr)
      (term_eq m hO c t (⟨17, by norm_num⟩ : Fin 32) idx k0_off36 rfl (coords (lms m)) (wordOf c tbM0_0 (tbl m 0) (k0_off35 (grid0.coords t)) (k0_off35_inb (grid0.coords t))) (wordOf c tbM0_1 (tbl m 1) (k0_off35 (grid0.coords t)) (k0_off35_inb (grid0.coords t))) (word_x_at_17 m c t) (word_y_at_17 m c t) hr)
      (term_eq m hO c t (⟨18, by norm_num⟩ : Fin 32) idx k0_off38 rfl (coords (lms m)) (wordOf c tbM0_0 (tbl m 0) (k0_off37 (grid0.coords t)) (k0_off37_inb (grid0.coords t))) (wordOf c tbM0_1 (tbl m 1) (k0_off37 (grid0.coords t)) (k0_off37_inb (grid0.coords t))) (word_x_at_18 m c t) (word_y_at_18 m c t) hr)
      (term_eq m hO c t (⟨19, by norm_num⟩ : Fin 32) idx k0_off40 rfl (coords (lms m)) (wordOf c tbM0_0 (tbl m 0) (k0_off39 (grid0.coords t)) (k0_off39_inb (grid0.coords t))) (wordOf c tbM0_1 (tbl m 1) (k0_off39 (grid0.coords t)) (k0_off39_inb (grid0.coords t))) (word_x_at_19 m c t) (word_y_at_19 m c t) hr)
      (term_eq m hO c t (⟨20, by norm_num⟩ : Fin 32) idx k0_off42 rfl (coords (lms m)) (wordOf c tbM0_0 (tbl m 0) (k0_off41 (grid0.coords t)) (k0_off41_inb (grid0.coords t))) (wordOf c tbM0_1 (tbl m 1) (k0_off41 (grid0.coords t)) (k0_off41_inb (grid0.coords t))) (word_x_at_20 m c t) (word_y_at_20 m c t) hr)
      (term_eq m hO c t (⟨21, by norm_num⟩ : Fin 32) idx k0_off44 rfl (coords (lms m)) (wordOf c tbM0_0 (tbl m 0) (k0_off43 (grid0.coords t)) (k0_off43_inb (grid0.coords t))) (wordOf c tbM0_1 (tbl m 1) (k0_off43 (grid0.coords t)) (k0_off43_inb (grid0.coords t))) (word_x_at_21 m c t) (word_y_at_21 m c t) hr)
      (term_eq m hO c t (⟨22, by norm_num⟩ : Fin 32) idx k0_off46 rfl (coords (lms m)) (wordOf c tbM0_0 (tbl m 0) (k0_off45 (grid0.coords t)) (k0_off45_inb (grid0.coords t))) (wordOf c tbM0_1 (tbl m 1) (k0_off45 (grid0.coords t)) (k0_off45_inb (grid0.coords t))) (word_x_at_22 m c t) (word_y_at_22 m c t) hr)
      (term_eq m hO c t (⟨23, by norm_num⟩ : Fin 32) idx k0_off48 rfl (coords (lms m)) (wordOf c tbM0_0 (tbl m 0) (k0_off47 (grid0.coords t)) (k0_off47_inb (grid0.coords t))) (wordOf c tbM0_1 (tbl m 1) (k0_off47 (grid0.coords t)) (k0_off47_inb (grid0.coords t))) (word_x_at_23 m c t) (word_y_at_23 m c t) hr)
      (term_eq m hO c t (⟨24, by norm_num⟩ : Fin 32) idx k0_off50 rfl (coords (lms m)) (wordOf c tbM0_0 (tbl m 0) (k0_off49 (grid0.coords t)) (k0_off49_inb (grid0.coords t))) (wordOf c tbM0_1 (tbl m 1) (k0_off49 (grid0.coords t)) (k0_off49_inb (grid0.coords t))) (word_x_at_24 m c t) (word_y_at_24 m c t) hr)
      (term_eq m hO c t (⟨25, by norm_num⟩ : Fin 32) idx k0_off52 rfl (coords (lms m)) (wordOf c tbM0_0 (tbl m 0) (k0_off51 (grid0.coords t)) (k0_off51_inb (grid0.coords t))) (wordOf c tbM0_1 (tbl m 1) (k0_off51 (grid0.coords t)) (k0_off51_inb (grid0.coords t))) (word_x_at_25 m c t) (word_y_at_25 m c t) hr)
      (term_eq m hO c t (⟨26, by norm_num⟩ : Fin 32) idx k0_off54 rfl (coords (lms m)) (wordOf c tbM0_0 (tbl m 0) (k0_off53 (grid0.coords t)) (k0_off53_inb (grid0.coords t))) (wordOf c tbM0_1 (tbl m 1) (k0_off53 (grid0.coords t)) (k0_off53_inb (grid0.coords t))) (word_x_at_26 m c t) (word_y_at_26 m c t) hr)
      (term_eq m hO c t (⟨27, by norm_num⟩ : Fin 32) idx k0_off56 rfl (coords (lms m)) (wordOf c tbM0_0 (tbl m 0) (k0_off55 (grid0.coords t)) (k0_off55_inb (grid0.coords t))) (wordOf c tbM0_1 (tbl m 1) (k0_off55 (grid0.coords t)) (k0_off55_inb (grid0.coords t))) (word_x_at_27 m c t) (word_y_at_27 m c t) hr)
      (term_eq m hO c t (⟨28, by norm_num⟩ : Fin 32) idx k0_off58 rfl (coords (lms m)) (wordOf c tbM0_0 (tbl m 0) (k0_off57 (grid0.coords t)) (k0_off57_inb (grid0.coords t))) (wordOf c tbM0_1 (tbl m 1) (k0_off57 (grid0.coords t)) (k0_off57_inb (grid0.coords t))) (word_x_at_28 m c t) (word_y_at_28 m c t) hr)
      (term_eq m hO c t (⟨29, by norm_num⟩ : Fin 32) idx k0_off60 rfl (coords (lms m)) (wordOf c tbM0_0 (tbl m 0) (k0_off59 (grid0.coords t)) (k0_off59_inb (grid0.coords t))) (wordOf c tbM0_1 (tbl m 1) (k0_off59 (grid0.coords t)) (k0_off59_inb (grid0.coords t))) (word_x_at_29 m c t) (word_y_at_29 m c t) hr)
      (term_eq m hO c t (⟨30, by norm_num⟩ : Fin 32) idx k0_off62 rfl (coords (lms m)) (wordOf c tbM0_0 (tbl m 0) (k0_off61 (grid0.coords t)) (k0_off61_inb (grid0.coords t))) (wordOf c tbM0_1 (tbl m 1) (k0_off61 (grid0.coords t)) (k0_off61_inb (grid0.coords t))) (word_x_at_30 m c t) (word_y_at_30 m c t) hr)
      (term_eq m hO c t (⟨31, by norm_num⟩ : Fin 32) idx k0_off64 rfl (coords (lms m)) (wordOf c tbM0_0 (tbl m 0) (k0_off63 (grid0.coords t)) (k0_off63_inb (grid0.coords t))) (wordOf c tbM0_1 (tbl m 1) (k0_off63 (grid0.coords t)) (k0_off63_inb (grid0.coords t))) (word_x_at_31 m c t) (word_y_at_31 m c t) hr)

set_option maxHeartbeats 3200000 in
/-- At every other step the step's 32 squared errors are added to what the step before left. -/
theorem hBC_core (hO : Ok m) (hH : Hyps m hO) (c : Dev nD)
    (hr : ∀ i, 0 ≤ (coords (lms m) i).toInt ∧ (coords (lms m) i).toInt ≤ 223) :
    ∀ (t : Fin (cfgM m hO).N), ¬ t.val % 17 = 0 → ∀ idx : S224x224.Idx,
      (outsAt0 m hO hH c t.val t.isLt).2 idx
        = (outsAt0 m hO hH c (t.val - 1) (Nat.lt_of_le_of_lt (Nat.sub_le _ _) t.isLt)).2 idx
          + stepTerm (m ((c : Thread nD τ).loc main_arg0)) (m ((c : Thread nD τ).loc main_arg2)) (coords (lms m)) (t.val / 17) (t.val % 17) (idx 0) (idx 1) := by
  intro t h0 idx
  by_cases h1 : t.val % 17 = 16
  · refine (congrFun (congrArg Prod.snd (outsAt0_C m hO hH c t h0 h1)) idx).trans ?_
    refine (Piece.chainC c (grid0.coords t) (ms0_0 m hO t) (hs0_0 m hO t) (ms0_1 m hO t) (hs0_1 m hO t) (ms0_2 m hO t) (hs0_2 m hO t) scM0_0 (Memref.isWhole_whole _) (fun h => h0 ((hcond0_0 t).mp h)) ((hcond0_1 t).mpr h1) (iblk m hO c 0 t) (iblk m hO c 1 t) (tbl m 0) (tbl m 1) (outsAt0 m hO hH c (t.val - 1) (Nat.lt_of_le_of_lt (Nat.sub_le _ _) t.isLt)).2 (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t) idx).trans ?_
    exact nest32_of ((outsAt0 m hO hH c (t.val - 1) (Nat.lt_of_le_of_lt (Nat.sub_le _ _) t.isLt)).2 idx) (fun k => sqAt (m ((c : Thread nD τ).loc main_arg0)) (m ((c : Thread nD τ).loc main_arg2)) (coords (lms m)) (544 * (t.val / 17) + 32 * (t.val % 17) + k) (idx 0) (idx 1)) _ _ _ _ _ _ _ _ _ _ _ _ _ _ _ _ _ _ _ _ _ _ _ _ _ _ _ _ _ _ _ _
      (term_eq m hO c t (⟨0, by norm_num⟩ : Fin 32) idx k0_off2 rfl (coords (lms m)) (wordOf c tbM0_0 (tbl m 0) (k0_off1 (grid0.coords t)) (k0_off1_inb (grid0.coords t))) (wordOf c tbM0_1 (tbl m 1) (k0_off1 (grid0.coords t)) (k0_off1_inb (grid0.coords t))) (word_x_at_0 m c t) (word_y_at_0 m c t) hr)
      (term_eq m hO c t (⟨1, by norm_num⟩ : Fin 32) idx k0_off4 rfl (coords (lms m)) (wordOf c tbM0_0 (tbl m 0) (k0_off3 (grid0.coords t)) (k0_off3_inb (grid0.coords t))) (wordOf c tbM0_1 (tbl m 1) (k0_off3 (grid0.coords t)) (k0_off3_inb (grid0.coords t))) (word_x_at_1 m c t) (word_y_at_1 m c t) hr)
      (term_eq m hO c t (⟨2, by norm_num⟩ : Fin 32) idx k0_off6 rfl (coords (lms m)) (wordOf c tbM0_0 (tbl m 0) (k0_off5 (grid0.coords t)) (k0_off5_inb (grid0.coords t))) (wordOf c tbM0_1 (tbl m 1) (k0_off5 (grid0.coords t)) (k0_off5_inb (grid0.coords t))) (word_x_at_2 m c t) (word_y_at_2 m c t) hr)
      (term_eq m hO c t (⟨3, by norm_num⟩ : Fin 32) idx k0_off8 rfl (coords (lms m)) (wordOf c tbM0_0 (tbl m 0) (k0_off7 (grid0.coords t)) (k0_off7_inb (grid0.coords t))) (wordOf c tbM0_1 (tbl m 1) (k0_off7 (grid0.coords t)) (k0_off7_inb (grid0.coords t))) (word_x_at_3 m c t) (word_y_at_3 m c t) hr)
      (term_eq m hO c t (⟨4, by norm_num⟩ : Fin 32) idx k0_off10 rfl (coords (lms m)) (wordOf c tbM0_0 (tbl m 0) (k0_off9 (grid0.coords t)) (k0_off9_inb (grid0.coords t))) (wordOf c tbM0_1 (tbl m 1) (k0_off9 (grid0.coords t)) (k0_off9_inb (grid0.coords t))) (word_x_at_4 m c t) (word_y_at_4 m c t) hr)
      (term_eq m hO c t (⟨5, by norm_num⟩ : Fin 32) idx k0_off12 rfl (coords (lms m)) (wordOf c tbM0_0 (tbl m 0) (k0_off11 (grid0.coords t)) (k0_off11_inb (grid0.coords t))) (wordOf c tbM0_1 (tbl m 1) (k0_off11 (grid0.coords t)) (k0_off11_inb (grid0.coords t))) (word_x_at_5 m c t) (word_y_at_5 m c t) hr)
      (term_eq m hO c t (⟨6, by norm_num⟩ : Fin 32) idx k0_off14 rfl (coords (lms m)) (wordOf c tbM0_0 (tbl m 0) (k0_off13 (grid0.coords t)) (k0_off13_inb (grid0.coords t))) (wordOf c tbM0_1 (tbl m 1) (k0_off13 (grid0.coords t)) (k0_off13_inb (grid0.coords t))) (word_x_at_6 m c t) (word_y_at_6 m c t) hr)
      (term_eq m hO c t (⟨7, by norm_num⟩ : Fin 32) idx k0_off16 rfl (coords (lms m)) (wordOf c tbM0_0 (tbl m 0) (k0_off15 (grid0.coords t)) (k0_off15_inb (grid0.coords t))) (wordOf c tbM0_1 (tbl m 1) (k0_off15 (grid0.coords t)) (k0_off15_inb (grid0.coords t))) (word_x_at_7 m c t) (word_y_at_7 m c t) hr)
      (term_eq m hO c t (⟨8, by norm_num⟩ : Fin 32) idx k0_off18 rfl (coords (lms m)) (wordOf c tbM0_0 (tbl m 0) (k0_off17 (grid0.coords t)) (k0_off17_inb (grid0.coords t))) (wordOf c tbM0_1 (tbl m 1) (k0_off17 (grid0.coords t)) (k0_off17_inb (grid0.coords t))) (word_x_at_8 m c t) (word_y_at_8 m c t) hr)
      (term_eq m hO c t (⟨9, by norm_num⟩ : Fin 32) idx k0_off20 rfl (coords (lms m)) (wordOf c tbM0_0 (tbl m 0) (k0_off19 (grid0.coords t)) (k0_off19_inb (grid0.coords t))) (wordOf c tbM0_1 (tbl m 1) (k0_off19 (grid0.coords t)) (k0_off19_inb (grid0.coords t))) (word_x_at_9 m c t) (word_y_at_9 m c t) hr)
      (term_eq m hO c t (⟨10, by norm_num⟩ : Fin 32) idx k0_off22 rfl (coords (lms m)) (wordOf c tbM0_0 (tbl m 0) (k0_off21 (grid0.coords t)) (k0_off21_inb (grid0.coords t))) (wordOf c tbM0_1 (tbl m 1) (k0_off21 (grid0.coords t)) (k0_off21_inb (grid0.coords t))) (word_x_at_10 m c t) (word_y_at_10 m c t) hr)
      (term_eq m hO c t (⟨11, by norm_num⟩ : Fin 32) idx k0_off24 rfl (coords (lms m)) (wordOf c tbM0_0 (tbl m 0) (k0_off23 (grid0.coords t)) (k0_off23_inb (grid0.coords t))) (wordOf c tbM0_1 (tbl m 1) (k0_off23 (grid0.coords t)) (k0_off23_inb (grid0.coords t))) (word_x_at_11 m c t) (word_y_at_11 m c t) hr)
      (term_eq m hO c t (⟨12, by norm_num⟩ : Fin 32) idx k0_off26 rfl (coords (lms m)) (wordOf c tbM0_0 (tbl m 0) (k0_off25 (grid0.coords t)) (k0_off25_inb (grid0.coords t))) (wordOf c tbM0_1 (tbl m 1) (k0_off25 (grid0.coords t)) (k0_off25_inb (grid0.coords t))) (word_x_at_12 m c t) (word_y_at_12 m c t) hr)
      (term_eq m hO c t (⟨13, by norm_num⟩ : Fin 32) idx k0_off28 rfl (coords (lms m)) (wordOf c tbM0_0 (tbl m 0) (k0_off27 (grid0.coords t)) (k0_off27_inb (grid0.coords t))) (wordOf c tbM0_1 (tbl m 1) (k0_off27 (grid0.coords t)) (k0_off27_inb (grid0.coords t))) (word_x_at_13 m c t) (word_y_at_13 m c t) hr)
      (term_eq m hO c t (⟨14, by norm_num⟩ : Fin 32) idx k0_off30 rfl (coords (lms m)) (wordOf c tbM0_0 (tbl m 0) (k0_off29 (grid0.coords t)) (k0_off29_inb (grid0.coords t))) (wordOf c tbM0_1 (tbl m 1) (k0_off29 (grid0.coords t)) (k0_off29_inb (grid0.coords t))) (word_x_at_14 m c t) (word_y_at_14 m c t) hr)
      (term_eq m hO c t (⟨15, by norm_num⟩ : Fin 32) idx k0_off32 rfl (coords (lms m)) (wordOf c tbM0_0 (tbl m 0) (k0_off31 (grid0.coords t)) (k0_off31_inb (grid0.coords t))) (wordOf c tbM0_1 (tbl m 1) (k0_off31 (grid0.coords t)) (k0_off31_inb (grid0.coords t))) (word_x_at_15 m c t) (word_y_at_15 m c t) hr)
      (term_eq m hO c t (⟨16, by norm_num⟩ : Fin 32) idx k0_off34 rfl (coords (lms m)) (wordOf c tbM0_0 (tbl m 0) (k0_off33 (grid0.coords t)) (k0_off33_inb (grid0.coords t))) (wordOf c tbM0_1 (tbl m 1) (k0_off33 (grid0.coords t)) (k0_off33_inb (grid0.coords t))) (word_x_at_16 m c t) (word_y_at_16 m c t) hr)
      (term_eq m hO c t (⟨17, by norm_num⟩ : Fin 32) idx k0_off36 rfl (coords (lms m)) (wordOf c tbM0_0 (tbl m 0) (k0_off35 (grid0.coords t)) (k0_off35_inb (grid0.coords t))) (wordOf c tbM0_1 (tbl m 1) (k0_off35 (grid0.coords t)) (k0_off35_inb (grid0.coords t))) (word_x_at_17 m c t) (word_y_at_17 m c t) hr)
      (term_eq m hO c t (⟨18, by norm_num⟩ : Fin 32) idx k0_off38 rfl (coords (lms m)) (wordOf c tbM0_0 (tbl m 0) (k0_off37 (grid0.coords t)) (k0_off37_inb (grid0.coords t))) (wordOf c tbM0_1 (tbl m 1) (k0_off37 (grid0.coords t)) (k0_off37_inb (grid0.coords t))) (word_x_at_18 m c t) (word_y_at_18 m c t) hr)
      (term_eq m hO c t (⟨19, by norm_num⟩ : Fin 32) idx k0_off40 rfl (coords (lms m)) (wordOf c tbM0_0 (tbl m 0) (k0_off39 (grid0.coords t)) (k0_off39_inb (grid0.coords t))) (wordOf c tbM0_1 (tbl m 1) (k0_off39 (grid0.coords t)) (k0_off39_inb (grid0.coords t))) (word_x_at_19 m c t) (word_y_at_19 m c t) hr)
      (term_eq m hO c t (⟨20, by norm_num⟩ : Fin 32) idx k0_off42 rfl (coords (lms m)) (wordOf c tbM0_0 (tbl m 0) (k0_off41 (grid0.coords t)) (k0_off41_inb (grid0.coords t))) (wordOf c tbM0_1 (tbl m 1) (k0_off41 (grid0.coords t)) (k0_off41_inb (grid0.coords t))) (word_x_at_20 m c t) (word_y_at_20 m c t) hr)
      (term_eq m hO c t (⟨21, by norm_num⟩ : Fin 32) idx k0_off44 rfl (coords (lms m)) (wordOf c tbM0_0 (tbl m 0) (k0_off43 (grid0.coords t)) (k0_off43_inb (grid0.coords t))) (wordOf c tbM0_1 (tbl m 1) (k0_off43 (grid0.coords t)) (k0_off43_inb (grid0.coords t))) (word_x_at_21 m c t) (word_y_at_21 m c t) hr)
      (term_eq m hO c t (⟨22, by norm_num⟩ : Fin 32) idx k0_off46 rfl (coords (lms m)) (wordOf c tbM0_0 (tbl m 0) (k0_off45 (grid0.coords t)) (k0_off45_inb (grid0.coords t))) (wordOf c tbM0_1 (tbl m 1) (k0_off45 (grid0.coords t)) (k0_off45_inb (grid0.coords t))) (word_x_at_22 m c t) (word_y_at_22 m c t) hr)
      (term_eq m hO c t (⟨23, by norm_num⟩ : Fin 32) idx k0_off48 rfl (coords (lms m)) (wordOf c tbM0_0 (tbl m 0) (k0_off47 (grid0.coords t)) (k0_off47_inb (grid0.coords t))) (wordOf c tbM0_1 (tbl m 1) (k0_off47 (grid0.coords t)) (k0_off47_inb (grid0.coords t))) (word_x_at_23 m c t) (word_y_at_23 m c t) hr)
      (term_eq m hO c t (⟨24, by norm_num⟩ : Fin 32) idx k0_off50 rfl (coords (lms m)) (wordOf c tbM0_0 (tbl m 0) (k0_off49 (grid0.coords t)) (k0_off49_inb (grid0.coords t))) (wordOf c tbM0_1 (tbl m 1) (k0_off49 (grid0.coords t)) (k0_off49_inb (grid0.coords t))) (word_x_at_24 m c t) (word_y_at_24 m c t) hr)
      (term_eq m hO c t (⟨25, by norm_num⟩ : Fin 32) idx k0_off52 rfl (coords (lms m)) (wordOf c tbM0_0 (tbl m 0) (k0_off51 (grid0.coords t)) (k0_off51_inb (grid0.coords t))) (wordOf c tbM0_1 (tbl m 1) (k0_off51 (grid0.coords t)) (k0_off51_inb (grid0.coords t))) (word_x_at_25 m c t) (word_y_at_25 m c t) hr)
      (term_eq m hO c t (⟨26, by norm_num⟩ : Fin 32) idx k0_off54 rfl (coords (lms m)) (wordOf c tbM0_0 (tbl m 0) (k0_off53 (grid0.coords t)) (k0_off53_inb (grid0.coords t))) (wordOf c tbM0_1 (tbl m 1) (k0_off53 (grid0.coords t)) (k0_off53_inb (grid0.coords t))) (word_x_at_26 m c t) (word_y_at_26 m c t) hr)
      (term_eq m hO c t (⟨27, by norm_num⟩ : Fin 32) idx k0_off56 rfl (coords (lms m)) (wordOf c tbM0_0 (tbl m 0) (k0_off55 (grid0.coords t)) (k0_off55_inb (grid0.coords t))) (wordOf c tbM0_1 (tbl m 1) (k0_off55 (grid0.coords t)) (k0_off55_inb (grid0.coords t))) (word_x_at_27 m c t) (word_y_at_27 m c t) hr)
      (term_eq m hO c t (⟨28, by norm_num⟩ : Fin 32) idx k0_off58 rfl (coords (lms m)) (wordOf c tbM0_0 (tbl m 0) (k0_off57 (grid0.coords t)) (k0_off57_inb (grid0.coords t))) (wordOf c tbM0_1 (tbl m 1) (k0_off57 (grid0.coords t)) (k0_off57_inb (grid0.coords t))) (word_x_at_28 m c t) (word_y_at_28 m c t) hr)
      (term_eq m hO c t (⟨29, by norm_num⟩ : Fin 32) idx k0_off60 rfl (coords (lms m)) (wordOf c tbM0_0 (tbl m 0) (k0_off59 (grid0.coords t)) (k0_off59_inb (grid0.coords t))) (wordOf c tbM0_1 (tbl m 1) (k0_off59 (grid0.coords t)) (k0_off59_inb (grid0.coords t))) (word_x_at_29 m c t) (word_y_at_29 m c t) hr)
      (term_eq m hO c t (⟨30, by norm_num⟩ : Fin 32) idx k0_off62 rfl (coords (lms m)) (wordOf c tbM0_0 (tbl m 0) (k0_off61 (grid0.coords t)) (k0_off61_inb (grid0.coords t))) (wordOf c tbM0_1 (tbl m 1) (k0_off61 (grid0.coords t)) (k0_off61_inb (grid0.coords t))) (word_x_at_30 m c t) (word_y_at_30 m c t) hr)
      (term_eq m hO c t (⟨31, by norm_num⟩ : Fin 32) idx k0_off64 rfl (coords (lms m)) (wordOf c tbM0_0 (tbl m 0) (k0_off63 (grid0.coords t)) (k0_off63_inb (grid0.coords t))) (wordOf c tbM0_1 (tbl m 1) (k0_off63 (grid0.coords t)) (k0_off63_inb (grid0.coords t))) (word_x_at_31 m c t) (word_y_at_31 m c t) hr)
  · refine (congrFun (congrArg Prod.snd (outsAt0_B m hO hH c t h0 h1)) idx).trans ?_
    refine (Piece.chainB c (grid0.coords t) (ms0_0 m hO t) (hs0_0 m hO t) (ms0_1 m hO t) (hs0_1 m hO t) (ms0_2 m hO t) (hs0_2 m hO t) scM0_0 (Memref.isWhole_whole _) (fun h => h0 ((hcond0_0 t).mp h)) (fun h => h1 ((hcond0_1 t).mp h)) (iblk m hO c 0 t) (iblk m hO c 1 t) (tbl m 0) (tbl m 1) (outsAt0 m hO hH c (t.val - 1) (Nat.lt_of_le_of_lt (Nat.sub_le _ _) t.isLt)).2 (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t) idx).trans ?_
    exact nest32_of ((outsAt0 m hO hH c (t.val - 1) (Nat.lt_of_le_of_lt (Nat.sub_le _ _) t.isLt)).2 idx) (fun k => sqAt (m ((c : Thread nD τ).loc main_arg0)) (m ((c : Thread nD τ).loc main_arg2)) (coords (lms m)) (544 * (t.val / 17) + 32 * (t.val % 17) + k) (idx 0) (idx 1)) _ _ _ _ _ _ _ _ _ _ _ _ _ _ _ _ _ _ _ _ _ _ _ _ _ _ _ _ _ _ _ _
      (term_eq m hO c t (⟨0, by norm_num⟩ : Fin 32) idx k0_off2 rfl (coords (lms m)) (wordOf c tbM0_0 (tbl m 0) (k0_off1 (grid0.coords t)) (k0_off1_inb (grid0.coords t))) (wordOf c tbM0_1 (tbl m 1) (k0_off1 (grid0.coords t)) (k0_off1_inb (grid0.coords t))) (word_x_at_0 m c t) (word_y_at_0 m c t) hr)
      (term_eq m hO c t (⟨1, by norm_num⟩ : Fin 32) idx k0_off4 rfl (coords (lms m)) (wordOf c tbM0_0 (tbl m 0) (k0_off3 (grid0.coords t)) (k0_off3_inb (grid0.coords t))) (wordOf c tbM0_1 (tbl m 1) (k0_off3 (grid0.coords t)) (k0_off3_inb (grid0.coords t))) (word_x_at_1 m c t) (word_y_at_1 m c t) hr)
      (term_eq m hO c t (⟨2, by norm_num⟩ : Fin 32) idx k0_off6 rfl (coords (lms m)) (wordOf c tbM0_0 (tbl m 0) (k0_off5 (grid0.coords t)) (k0_off5_inb (grid0.coords t))) (wordOf c tbM0_1 (tbl m 1) (k0_off5 (grid0.coords t)) (k0_off5_inb (grid0.coords t))) (word_x_at_2 m c t) (word_y_at_2 m c t) hr)
      (term_eq m hO c t (⟨3, by norm_num⟩ : Fin 32) idx k0_off8 rfl (coords (lms m)) (wordOf c tbM0_0 (tbl m 0) (k0_off7 (grid0.coords t)) (k0_off7_inb (grid0.coords t))) (wordOf c tbM0_1 (tbl m 1) (k0_off7 (grid0.coords t)) (k0_off7_inb (grid0.coords t))) (word_x_at_3 m c t) (word_y_at_3 m c t) hr)
      (term_eq m hO c t (⟨4, by norm_num⟩ : Fin 32) idx k0_off10 rfl (coords (lms m)) (wordOf c tbM0_0 (tbl m 0) (k0_off9 (grid0.coords t)) (k0_off9_inb (grid0.coords t))) (wordOf c tbM0_1 (tbl m 1) (k0_off9 (grid0.coords t)) (k0_off9_inb (grid0.coords t))) (word_x_at_4 m c t) (word_y_at_4 m c t) hr)
      (term_eq m hO c t (⟨5, by norm_num⟩ : Fin 32) idx k0_off12 rfl (coords (lms m)) (wordOf c tbM0_0 (tbl m 0) (k0_off11 (grid0.coords t)) (k0_off11_inb (grid0.coords t))) (wordOf c tbM0_1 (tbl m 1) (k0_off11 (grid0.coords t)) (k0_off11_inb (grid0.coords t))) (word_x_at_5 m c t) (word_y_at_5 m c t) hr)
      (term_eq m hO c t (⟨6, by norm_num⟩ : Fin 32) idx k0_off14 rfl (coords (lms m)) (wordOf c tbM0_0 (tbl m 0) (k0_off13 (grid0.coords t)) (k0_off13_inb (grid0.coords t))) (wordOf c tbM0_1 (tbl m 1) (k0_off13 (grid0.coords t)) (k0_off13_inb (grid0.coords t))) (word_x_at_6 m c t) (word_y_at_6 m c t) hr)
      (term_eq m hO c t (⟨7, by norm_num⟩ : Fin 32) idx k0_off16 rfl (coords (lms m)) (wordOf c tbM0_0 (tbl m 0) (k0_off15 (grid0.coords t)) (k0_off15_inb (grid0.coords t))) (wordOf c tbM0_1 (tbl m 1) (k0_off15 (grid0.coords t)) (k0_off15_inb (grid0.coords t))) (word_x_at_7 m c t) (word_y_at_7 m c t) hr)
      (term_eq m hO c t (⟨8, by norm_num⟩ : Fin 32) idx k0_off18 rfl (coords (lms m)) (wordOf c tbM0_0 (tbl m 0) (k0_off17 (grid0.coords t)) (k0_off17_inb (grid0.coords t))) (wordOf c tbM0_1 (tbl m 1) (k0_off17 (grid0.coords t)) (k0_off17_inb (grid0.coords t))) (word_x_at_8 m c t) (word_y_at_8 m c t) hr)
      (term_eq m hO c t (⟨9, by norm_num⟩ : Fin 32) idx k0_off20 rfl (coords (lms m)) (wordOf c tbM0_0 (tbl m 0) (k0_off19 (grid0.coords t)) (k0_off19_inb (grid0.coords t))) (wordOf c tbM0_1 (tbl m 1) (k0_off19 (grid0.coords t)) (k0_off19_inb (grid0.coords t))) (word_x_at_9 m c t) (word_y_at_9 m c t) hr)
      (term_eq m hO c t (⟨10, by norm_num⟩ : Fin 32) idx k0_off22 rfl (coords (lms m)) (wordOf c tbM0_0 (tbl m 0) (k0_off21 (grid0.coords t)) (k0_off21_inb (grid0.coords t))) (wordOf c tbM0_1 (tbl m 1) (k0_off21 (grid0.coords t)) (k0_off21_inb (grid0.coords t))) (word_x_at_10 m c t) (word_y_at_10 m c t) hr)
      (term_eq m hO c t (⟨11, by norm_num⟩ : Fin 32) idx k0_off24 rfl (coords (lms m)) (wordOf c tbM0_0 (tbl m 0) (k0_off23 (grid0.coords t)) (k0_off23_inb (grid0.coords t))) (wordOf c tbM0_1 (tbl m 1) (k0_off23 (grid0.coords t)) (k0_off23_inb (grid0.coords t))) (word_x_at_11 m c t) (word_y_at_11 m c t) hr)
      (term_eq m hO c t (⟨12, by norm_num⟩ : Fin 32) idx k0_off26 rfl (coords (lms m)) (wordOf c tbM0_0 (tbl m 0) (k0_off25 (grid0.coords t)) (k0_off25_inb (grid0.coords t))) (wordOf c tbM0_1 (tbl m 1) (k0_off25 (grid0.coords t)) (k0_off25_inb (grid0.coords t))) (word_x_at_12 m c t) (word_y_at_12 m c t) hr)
      (term_eq m hO c t (⟨13, by norm_num⟩ : Fin 32) idx k0_off28 rfl (coords (lms m)) (wordOf c tbM0_0 (tbl m 0) (k0_off27 (grid0.coords t)) (k0_off27_inb (grid0.coords t))) (wordOf c tbM0_1 (tbl m 1) (k0_off27 (grid0.coords t)) (k0_off27_inb (grid0.coords t))) (word_x_at_13 m c t) (word_y_at_13 m c t) hr)
      (term_eq m hO c t (⟨14, by norm_num⟩ : Fin 32) idx k0_off30 rfl (coords (lms m)) (wordOf c tbM0_0 (tbl m 0) (k0_off29 (grid0.coords t)) (k0_off29_inb (grid0.coords t))) (wordOf c tbM0_1 (tbl m 1) (k0_off29 (grid0.coords t)) (k0_off29_inb (grid0.coords t))) (word_x_at_14 m c t) (word_y_at_14 m c t) hr)
      (term_eq m hO c t (⟨15, by norm_num⟩ : Fin 32) idx k0_off32 rfl (coords (lms m)) (wordOf c tbM0_0 (tbl m 0) (k0_off31 (grid0.coords t)) (k0_off31_inb (grid0.coords t))) (wordOf c tbM0_1 (tbl m 1) (k0_off31 (grid0.coords t)) (k0_off31_inb (grid0.coords t))) (word_x_at_15 m c t) (word_y_at_15 m c t) hr)
      (term_eq m hO c t (⟨16, by norm_num⟩ : Fin 32) idx k0_off34 rfl (coords (lms m)) (wordOf c tbM0_0 (tbl m 0) (k0_off33 (grid0.coords t)) (k0_off33_inb (grid0.coords t))) (wordOf c tbM0_1 (tbl m 1) (k0_off33 (grid0.coords t)) (k0_off33_inb (grid0.coords t))) (word_x_at_16 m c t) (word_y_at_16 m c t) hr)
      (term_eq m hO c t (⟨17, by norm_num⟩ : Fin 32) idx k0_off36 rfl (coords (lms m)) (wordOf c tbM0_0 (tbl m 0) (k0_off35 (grid0.coords t)) (k0_off35_inb (grid0.coords t))) (wordOf c tbM0_1 (tbl m 1) (k0_off35 (grid0.coords t)) (k0_off35_inb (grid0.coords t))) (word_x_at_17 m c t) (word_y_at_17 m c t) hr)
      (term_eq m hO c t (⟨18, by norm_num⟩ : Fin 32) idx k0_off38 rfl (coords (lms m)) (wordOf c tbM0_0 (tbl m 0) (k0_off37 (grid0.coords t)) (k0_off37_inb (grid0.coords t))) (wordOf c tbM0_1 (tbl m 1) (k0_off37 (grid0.coords t)) (k0_off37_inb (grid0.coords t))) (word_x_at_18 m c t) (word_y_at_18 m c t) hr)
      (term_eq m hO c t (⟨19, by norm_num⟩ : Fin 32) idx k0_off40 rfl (coords (lms m)) (wordOf c tbM0_0 (tbl m 0) (k0_off39 (grid0.coords t)) (k0_off39_inb (grid0.coords t))) (wordOf c tbM0_1 (tbl m 1) (k0_off39 (grid0.coords t)) (k0_off39_inb (grid0.coords t))) (word_x_at_19 m c t) (word_y_at_19 m c t) hr)
      (term_eq m hO c t (⟨20, by norm_num⟩ : Fin 32) idx k0_off42 rfl (coords (lms m)) (wordOf c tbM0_0 (tbl m 0) (k0_off41 (grid0.coords t)) (k0_off41_inb (grid0.coords t))) (wordOf c tbM0_1 (tbl m 1) (k0_off41 (grid0.coords t)) (k0_off41_inb (grid0.coords t))) (word_x_at_20 m c t) (word_y_at_20 m c t) hr)
      (term_eq m hO c t (⟨21, by norm_num⟩ : Fin 32) idx k0_off44 rfl (coords (lms m)) (wordOf c tbM0_0 (tbl m 0) (k0_off43 (grid0.coords t)) (k0_off43_inb (grid0.coords t))) (wordOf c tbM0_1 (tbl m 1) (k0_off43 (grid0.coords t)) (k0_off43_inb (grid0.coords t))) (word_x_at_21 m c t) (word_y_at_21 m c t) hr)
      (term_eq m hO c t (⟨22, by norm_num⟩ : Fin 32) idx k0_off46 rfl (coords (lms m)) (wordOf c tbM0_0 (tbl m 0) (k0_off45 (grid0.coords t)) (k0_off45_inb (grid0.coords t))) (wordOf c tbM0_1 (tbl m 1) (k0_off45 (grid0.coords t)) (k0_off45_inb (grid0.coords t))) (word_x_at_22 m c t) (word_y_at_22 m c t) hr)
      (term_eq m hO c t (⟨23, by norm_num⟩ : Fin 32) idx k0_off48 rfl (coords (lms m)) (wordOf c tbM0_0 (tbl m 0) (k0_off47 (grid0.coords t)) (k0_off47_inb (grid0.coords t))) (wordOf c tbM0_1 (tbl m 1) (k0_off47 (grid0.coords t)) (k0_off47_inb (grid0.coords t))) (word_x_at_23 m c t) (word_y_at_23 m c t) hr)
      (term_eq m hO c t (⟨24, by norm_num⟩ : Fin 32) idx k0_off50 rfl (coords (lms m)) (wordOf c tbM0_0 (tbl m 0) (k0_off49 (grid0.coords t)) (k0_off49_inb (grid0.coords t))) (wordOf c tbM0_1 (tbl m 1) (k0_off49 (grid0.coords t)) (k0_off49_inb (grid0.coords t))) (word_x_at_24 m c t) (word_y_at_24 m c t) hr)
      (term_eq m hO c t (⟨25, by norm_num⟩ : Fin 32) idx k0_off52 rfl (coords (lms m)) (wordOf c tbM0_0 (tbl m 0) (k0_off51 (grid0.coords t)) (k0_off51_inb (grid0.coords t))) (wordOf c tbM0_1 (tbl m 1) (k0_off51 (grid0.coords t)) (k0_off51_inb (grid0.coords t))) (word_x_at_25 m c t) (word_y_at_25 m c t) hr)
      (term_eq m hO c t (⟨26, by norm_num⟩ : Fin 32) idx k0_off54 rfl (coords (lms m)) (wordOf c tbM0_0 (tbl m 0) (k0_off53 (grid0.coords t)) (k0_off53_inb (grid0.coords t))) (wordOf c tbM0_1 (tbl m 1) (k0_off53 (grid0.coords t)) (k0_off53_inb (grid0.coords t))) (word_x_at_26 m c t) (word_y_at_26 m c t) hr)
      (term_eq m hO c t (⟨27, by norm_num⟩ : Fin 32) idx k0_off56 rfl (coords (lms m)) (wordOf c tbM0_0 (tbl m 0) (k0_off55 (grid0.coords t)) (k0_off55_inb (grid0.coords t))) (wordOf c tbM0_1 (tbl m 1) (k0_off55 (grid0.coords t)) (k0_off55_inb (grid0.coords t))) (word_x_at_27 m c t) (word_y_at_27 m c t) hr)
      (term_eq m hO c t (⟨28, by norm_num⟩ : Fin 32) idx k0_off58 rfl (coords (lms m)) (wordOf c tbM0_0 (tbl m 0) (k0_off57 (grid0.coords t)) (k0_off57_inb (grid0.coords t))) (wordOf c tbM0_1 (tbl m 1) (k0_off57 (grid0.coords t)) (k0_off57_inb (grid0.coords t))) (word_x_at_28 m c t) (word_y_at_28 m c t) hr)
      (term_eq m hO c t (⟨29, by norm_num⟩ : Fin 32) idx k0_off60 rfl (coords (lms m)) (wordOf c tbM0_0 (tbl m 0) (k0_off59 (grid0.coords t)) (k0_off59_inb (grid0.coords t))) (wordOf c tbM0_1 (tbl m 1) (k0_off59 (grid0.coords t)) (k0_off59_inb (grid0.coords t))) (word_x_at_29 m c t) (word_y_at_29 m c t) hr)
      (term_eq m hO c t (⟨30, by norm_num⟩ : Fin 32) idx k0_off62 rfl (coords (lms m)) (wordOf c tbM0_0 (tbl m 0) (k0_off61 (grid0.coords t)) (k0_off61_inb (grid0.coords t))) (wordOf c tbM0_1 (tbl m 1) (k0_off61 (grid0.coords t)) (k0_off61_inb (grid0.coords t))) (word_x_at_30 m c t) (word_y_at_30 m c t) hr)
      (term_eq m hO c t (⟨31, by norm_num⟩ : Fin 32) idx k0_off64 rfl (coords (lms m)) (wordOf c tbM0_0 (tbl m 0) (k0_off63 (grid0.coords t)) (k0_off63_inb (grid0.coords t))) (wordOf c tbM0_1 (tbl m 1) (k0_off63 (grid0.coords t)) (k0_off63_inb (grid0.coords t))) (word_x_at_31 m c t) (word_y_at_31 m c t) hr)

set_option maxHeartbeats 1600000 in
/-- At the last step of a half the output block is a copy of the accumulator. -/
theorem hOut_core (hO : Ok m) (hH : Hyps m hO) (c : Dev nD) :
    ∀ (t : Fin (cfgM m hO).N), t.val % 17 = 16 → ∀ y : S1x224x224.Idx,
      (outsAt0 m hO hH c t.val t.isLt).1 y = (outsAt0 m hO hH c t.val t.isLt).2 (ix2 (y 1) (y 2)) := by
  intro t h1 y
  have h0 : ¬ t.val % 17 = 0 := by omega
  refine (congrFun (congrArg Prod.fst (outsAt0_C m hO hH c t h0 h1)) y).trans ?_
  refine (Piece.outC c (grid0.coords t) (ms0_0 m hO t) (hs0_0 m hO t) (ms0_1 m hO t) (hs0_1 m hO t) (ms0_2 m hO t) (hs0_2 m hO t) scM0_0 (Memref.isWhole_whole _) (fun h => h0 ((hcond0_0 t).mp h)) ((hcond0_1 t).mpr h1) (iblk m hO c 0 t) (iblk m hO c 1 t) (tbl m 0) (tbl m 1) (outsAt0 m hO hH c (t.val - 1) (Nat.lt_of_le_of_lt (Nat.sub_le _ _) t.isLt)).2 (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t) y).trans ?_
  exact (congrFun (congrArg Prod.snd (outsAt0_C m hO hH c t h0 h1)) (ix2 (y 1) (y 2))).symm

theorem hA_holds (hpre : Cert.Pre_KernelIdeal m) (c : Dev nD) :
    ∀ (t : Fin (cfgM m (ok_of_pre m hpre)).N), t.val % 17 = 0 → ∀ idx : S224x224.Idx,
      (outsAt0 m (ok_of_pre m hpre) (hyps_of_pre m hpre) c t.val t.isLt).2 idx
        = 0 + stepTerm (m ((c : Thread nD τ).loc main_arg0)) (m ((c : Thread nD τ).loc main_arg2)) (coords (lms m)) (t.val / 17) (t.val % 17) (idx 0) (idx 1) :=
  hA_core m (ok_of_pre m hpre) (hyps_of_pre m hpre) c (lm_range m hpre)

theorem hBC_holds (hpre : Cert.Pre_KernelIdeal m) (c : Dev nD) :
    ∀ (t : Fin (cfgM m (ok_of_pre m hpre)).N), ¬ t.val % 17 = 0 → ∀ idx : S224x224.Idx,
      (outsAt0 m (ok_of_pre m hpre) (hyps_of_pre m hpre) c t.val t.isLt).2 idx
        = (outsAt0 m (ok_of_pre m hpre) (hyps_of_pre m hpre) c (t.val - 1) (Nat.lt_of_le_of_lt (Nat.sub_le _ _) t.isLt)).2 idx
          + stepTerm (m ((c : Thread nD τ).loc main_arg0)) (m ((c : Thread nD τ).loc main_arg2)) (coords (lms m)) (t.val / 17) (t.val % 17) (idx 0) (idx 1) :=
  hBC_core m (ok_of_pre m hpre) (hyps_of_pre m hpre) c (lm_range m hpre)

theorem hOut_holds (hpre : Cert.Pre_KernelIdeal m) (c : Dev nD) :
    ∀ (t : Fin (cfgM m (ok_of_pre m hpre)).N), t.val % 17 = 16 → ∀ y : S1x224x224.Idx,
      (outsAt0 m (ok_of_pre m hpre) (hyps_of_pre m hpre) c t.val t.isLt).1 y = (outsAt0 m (ok_of_pre m hpre) (hyps_of_pre m hpre) c t.val t.isLt).2 (ix2 (y 1) (y 2)) :=
  hOut_core m (ok_of_pre m hpre) (hyps_of_pre m hpre) c

/-- Under the precondition the region's output array ends as the two halves of partial sums of squared errors. -/
theorem final (hpre : Cert.Pre_KernelIdeal m) (c : Dev nD) :
    ((dats m (ok_of_pre m hpre) (hyps_of_pre m hpre) 0 c).arrAt 2 (cfgM m (ok_of_pre m hpre)).N : S2x224x224.Idx → EReal)
      = outArr (m ((c.tc : Thread nD τ).loc main_arg0)) (m ((c.tc : Thread nD τ).loc main_arg2))
          (coords (F := Ideal) (m ((c.tc : Thread nD τ).loc main_arg1))) := by
  have hc : c = (0 : Dev nD) := Subsingleton.elim _ _
  subst hc
  exact final_of_inv m (ok_of_pre m hpre) (hyps_of_pre m hpre) 0 _ _ _
    (inv_of_cases m (ok_of_pre m hpre) (hyps_of_pre m hpre) 0 _ _ _ (hA_holds m hpre 0) (hBC_holds m hpre 0) (hOut_holds m hpre 0))

end Cert.Landmark.Glue
end
-- ==== Proof.lean ====
/-
  The landmark-heatmap loss: the kernel against its reference.

  For each of the 16 * 68 landmarks, with integer pixel coordinates (y, x) obtained by rounding, the target heat
  map over the 224 x 224 image is the 128 x 128 bell centred on the landmark: bell[r - x + 64, c - y + 64] where
  both indices lie in [0, 128), and 0 elsewhere. The loss is the mean over all landmarks and image positions of
  (pred - target)^2.

  The reference forms the target by clipping the two bell indices, gathering, and multiplying by the 0/1 mask
  of the in-range positions. The kernel instead pads the bell with zeros into a 480 x 512 array and reads, per
  landmark, the 224 x 224 window whose corner is (256 - x, 256 - y): row 256 - x + r of the padded array is bell row
  r - x + 64, and the zero padding is exactly where the mask is 0, so the window IS the target. It accumulates
  the squared differences landmark by landmark into a 224 x 224 array, one array per half of the landmarks
  (two halves of 544, each worked through in 17 steps of 32), and the host adds up both arrays and divides by
  the number of terms. Addition on the extended reals is associative and commutative, so the order of
  accumulation and the split into halves, steps and positions do not matter: both programs compute the same
  sum of 16 * 68 * 224 * 224 squared errors, divided by the same constant.

  The window of a landmark lies inside the padded array only when its coordinates are pixel coordinates of the
  image, 0 <= x, y <= 223: that is the precondition's second part, and it is what the two kernel frames need
  (Proof/HypsIdeal.lean, Proof/HypsBits.lean). The modules: Proof/Spec.lean and Proof/KernelSpec.lean state the
  loss and what the kernel's output array holds; Proof/RefValue.lean shows the reference computes the loss;
  Proof/ChainA.lean, ChainB.lean, ChainC.lean read one grid step's accumulation off the kernel's run,
  Proof/Cases.lean, Invariant.lean and Final.lean carry it over the grid to the output array, Proof/Tail.lean reads
  the host's final sum and quotient, and Proof/Assemble.lean puts the five claims together.
-/
import proofs.«129057_j82145544503653_2_alg».proof.Defs
import proofs.«129057_j82145544503653_2_alg».proof.Proof.Assemble
import proofs.«129057_j82145544503653_2_alg».proof.Proof.Cases

noncomputable section

namespace Cert.Proof

theorem claim : Cert.Claim := Cert.Proof.Parts.claim_of_final Cert.Landmark.Glue.final

end Cert.Proof

end
